-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x16384 : Shape := ⟨2, ![16384, 16384]⟩
abbrev S512x512 : Shape := ⟨2, ![512, 512]⟩
abbrev S512 : Shape := ⟨1, ![512]⟩
abbrev S2x512x512 : Shape := ⟨3, ![2, 512, 512]⟩
abbrev S2x512 : Shape := ⟨2, ![2, 512]⟩
abbrev S512x128 : Shape := ⟨2, ![512, 128]⟩
abbrev S128 : Shape := ⟨1, ![128]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S2x512x512 : S_.BroadcastsInDim S2x512x512 (![] : Fin 0 → Fin S2x512x512.rank)
  reducesTo_S2x512x512_S_d0_1_2 : S2x512x512.ReducesTo [0, 1, 2] S_
  bcast_S_S2x512 : S_.BroadcastsInDim S2x512 (![] : Fin 0 → Fin S2x512.rank)
  reducesTo_S2x512_S_d0_1 : S2x512.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S2x512x512 .f32) (main_arg5 : FVec F S2x512 .f32) (main_arg6 : FVec F S512x128 .f32) (main_arg7 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S2x512x512 .f32 := Host.absf main_arg4
  let main_cst_6 : FVec F S_ .f32 := constant S_ .f32 0x7F800000#32
  let main_v20 : FVec F S2x512x512 .f32 := broadcastInDim S2x512x512 ![] bcast_S_S2x512x512 main_cst_6
  let main_v21 : IVec S2x512x512 1 := cmpf .olt main_v19 main_v20
  let main_c_7 : IVec S_ 1 := constantI S_ 1 1#1
  let main_v22 : IVec S_ 1 := (fun x v => Host.reduce IntOp.andi x v reducesTo_S2x512x512_S_d0_1_2 h_S_) main_v21 main_c_7
  let main_v23 : IVec S_ 1 := andi main_v18 main_v22
  let main_v24 : FVec F S2x512 .f32 := Host.absf main_arg5
  let main_cst_8 : FVec F S_ .f32 := constant S_ .f32 0x7F800000#32
  let main_v25 : FVec F S2x512 .f32 := broadcastInDim S2x512 ![] bcast_S_S2x512 main_cst_8
  let main_v26 : IVec S2x512 1 := cmpf .olt main_v24 main_v25
  let main_c_9 : IVec S_ 1 := constantI S_ 1 1#1
  let main_v27 : IVec S_ 1 := (fun x v => Host.reduce IntOp.andi x v reducesTo_S2x512_S_d0_1 h_S_) main_v26 main_c_9
  let main_v28 : IVec S_ 1 := andi main_v23 main_v27
  let main_v29 : FVec F S512x128 .f32 := Host.absf main_arg6
  let main_cst_10 : FVec F S_ .f32 := constant S_ .f32 0x7F800000#32
  let main_v30 : FVec F S512x128 .f32 := broadcastInDim S512x128 ![] bcast_S_S512x128 main_cst_10
  let main_v31 : IVec S512x128 1 := cmpf .olt main_v29 main_v30
  let main_c_11 : IVec S_ 1 := constantI S_ 1 1#1
  let main_v32 : IVec S_ 1 := (fun x v => Host.reduce IntOp.andi x v reducesTo_S512x128_S_d0_1 h_S_) main_v31 main_c_11
  let main_v33 : IVec S_ 1 := andi main_v28 main_v32
  fn_part2 (F := F) main_arg7 main_v33

def fn {F : FTy → Type} [FloatOps F] (main_arg0 : FVec F S16384x512 .f32) (main_arg1 : FVec F S16384x16384 .f32) (main_arg2 : FVec F S512x512 .f32) (main_arg3 : FVec F S512 .f32) (main_arg4 : FVec F S2x512x512 .f32) (main_arg5 : FVec F S2x512 .f32) (main_arg6 : FVec F S512x128 .f32) (main_arg7 : FVec F S128 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S16384x512 : Shape := ⟨2, ![16384, 512]⟩
abbrev S16384x16384 : Shape := ⟨2, ![16384, 16384]⟩
abbrev S512x512 : Shape := ⟨2, ![512, 512]⟩
abbrev S512 : Shape := ⟨1, ![512]⟩
abbrev S2x512x512 : Shape := ⟨3, ![2, 512, 512]⟩
abbrev S2x512 : Shape := ⟨2, ![2, 512]⟩
abbrev S512x128 : Shape := ⟨2, ![512, 128]⟩
abbrev S128 : Shape := ⟨1, ![128]⟩
abbrev S_ : Shape := ⟨0, ![]⟩
abbrev S1x512 : Shape := ⟨2, ![1, 512]⟩
abbrev S2048x512 : Shape := ⟨2, ![2048, 512]⟩
abbrev S2048x1024 : Shape := ⟨2, ![2048, 1024]⟩
abbrev S1024x512 : Shape := ⟨2, ![1024, 512]⟩
abbrev S1x512x512 : Shape := ⟨3, ![1, 512, 512]⟩
abbrev S1x128 : Shape := ⟨2, ![1, 128]⟩
abbrev S16384x128 : Shape := ⟨2, ![16384, 128]⟩
abbrev S2048x128 : Shape := ⟨2, ![2048, 128]⟩

abbrev nBuf : Space → Nat
  | .hbm => 36
  | .vmem => 48
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x512, .f32⟩
  | .hbm, ⟨3, _⟩ => ⟨S512, .f32⟩
  | .hbm, ⟨4, _⟩ => ⟨S2x512x512, .f32⟩
  | .hbm, ⟨5, _⟩ => ⟨S2x512, .f32⟩
  | .hbm, ⟨6, _⟩ => ⟨S512x128, .f32⟩
  | .hbm, ⟨7, _⟩ => ⟨S128, .f32⟩
  | .hbm, ⟨8, _⟩ => ⟨S_, .f32⟩
  | .hbm, ⟨9, _⟩ => ⟨S512, .f32⟩
  | .hbm, ⟨10, _⟩ => ⟨S1x512, .f32⟩
  | .hbm, ⟨11, _⟩ => ⟨S16384x512, .bf16⟩
  | .hbm, ⟨12, _⟩ => ⟨S1x512, .f32⟩
  | .hbm, ⟨13, _⟩ => ⟨S16384x512, .f32⟩
  | .hbm, ⟨14, _⟩ => ⟨S1x512x512, .f32⟩
  | .hbm, ⟨15, _⟩ => ⟨S512x512, .f32⟩
  | .hbm, ⟨16, _⟩ => ⟨S1x512, .f32⟩
  | .hbm, ⟨17, _⟩ => ⟨S512, .f32⟩
  | .hbm, ⟨18, _⟩ => ⟨S_, .f32⟩
  | .hbm, ⟨19, _⟩ => ⟨S512, .f32⟩
  | .hbm, ⟨20, _⟩ => ⟨S1x512, .f32⟩
  | .hbm, ⟨21, _⟩ => ⟨S16384x512, .bf16⟩
  | .hbm, ⟨22, _⟩ => ⟨S1x512, .f32⟩
  | .hbm, ⟨23, _⟩ => ⟨S16384x512, .f32⟩
  | .hbm, ⟨24, _⟩ => ⟨S1x512x512, .f32⟩
  | .hbm, ⟨25, _⟩ => ⟨S512x512, .f32⟩
  | .hbm, ⟨26, _⟩ => ⟨S1x512, .f32⟩
  | .hbm, ⟨27, _⟩ => ⟨S512, .f32⟩
  | .hbm, ⟨28, _⟩ => ⟨S_, .f32⟩
  | .hbm, ⟨29, _⟩ => ⟨S512, .f32⟩
  | .hbm, ⟨30, _⟩ => ⟨S1x512, .f32⟩
  | .hbm, ⟨31, _⟩ => ⟨S16384x512, .bf16⟩
  | .hbm, ⟨32, _⟩ => ⟨S1x512, .f32⟩
  | .hbm, ⟨33, _⟩ => ⟨S16384x512, .f32⟩
  | .hbm, ⟨34, _⟩ => ⟨S1x128, .f32⟩
  | .hbm, ⟨35, _⟩ => ⟨S16384x128, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S1x512, .f32⟩
  | .local _ .vmem, ⟨4, _⟩ => ⟨S2048x512, .bf16⟩
  | .local _ .vmem, ⟨5, _⟩ => ⟨S2048x512, .bf16⟩
  | .local _ .vmem, ⟨6, _⟩ => ⟨S2048x1024, .f32⟩
  | .local _ .vmem, ⟨7, _⟩ => ⟨S2048x1024, .f32⟩
  | .local _ .vmem, ⟨8, _⟩ => ⟨S1024x512, .bf16⟩
  | .local _ .vmem, ⟨9, _⟩ => ⟨S1024x512, .bf16⟩
  | .local _ .vmem, ⟨10, _⟩ => ⟨S1x512, .f32⟩
  | .local _ .vmem, ⟨11, _⟩ => ⟨S2048x512, .f32⟩
  | .local _ .vmem, ⟨12, _⟩ => ⟨S2048x512, .f32⟩
  | .local _ .vmem, ⟨13, _⟩ => ⟨S2048x512, .f32⟩
  | .local _ .vmem, ⟨14, _⟩ => ⟨S2048x512, .f32⟩
  | .local _ .vmem, ⟨15, _⟩ => ⟨S2048x512, .f32⟩
  | .local _ .vmem, ⟨16, _⟩ => ⟨S512x512, .f32⟩
  | .local _ .vmem, ⟨17, _⟩ => ⟨S1x512, .f32⟩
  | .local _ .vmem, ⟨18, _⟩ => ⟨S2048x512, .bf16⟩
  | .local _ .vmem, ⟨19, _⟩ => ⟨S2048x512, .bf16⟩
  | .local _ .vmem, ⟨20, _⟩ => ⟨S2048x1024, .f32⟩
  | .local _ .vmem, ⟨21, _⟩ => ⟨S2048x1024, .f32⟩
  | .local _ .vmem, ⟨22, _⟩ => ⟨S1024x512, .bf16⟩
  | .local _ .vmem, ⟨23, _⟩ => ⟨S1024x512, .bf16⟩
  | .local _ .vmem, ⟨24, _⟩ => ⟨S1x512, .f32⟩
  | .local _ .vmem, ⟨25, _⟩ => ⟨S2048x512, .f32⟩
  | .local _ .vmem, ⟨26, _⟩ => ⟨S2048x512, .f32⟩
  | .local _ .vmem, ⟨27, _⟩ => ⟨S2048x512, .f32⟩
  | .local _ .vmem, ⟨28, _⟩ => ⟨S2048x512, .f32⟩
  | .local _ .vmem, ⟨29, _⟩ => ⟨S2048x512, .f32⟩
  | .local _ .vmem, ⟨30, _⟩ => ⟨S512x512, .f32⟩
  | .local _ .vmem, ⟨31, _⟩ => ⟨S1x512, .f32⟩
  | .local _ .vmem, ⟨32, _⟩ => ⟨S2048x512, .bf16⟩
  | .local _ .vmem, ⟨33, _⟩ => ⟨S2048x512, .bf16⟩
  | .local _ .vmem, ⟨34, _⟩ => ⟨S2048x1024, .f32⟩
  | .local _ .vmem, ⟨35, _⟩ => ⟨S2048x1024, .f32⟩
  | .local _ .vmem, ⟨36, _⟩ => ⟨S1024x512, .bf16⟩
  | .local _ .vmem, ⟨37, _⟩ => ⟨S1024x512, .bf16⟩
  | .local _ .vmem, ⟨38, _⟩ => ⟨S1x512, .f32⟩
  | .local _ .vmem, ⟨39, _⟩ => ⟨S2048x512, .f32⟩
  | .local _ .vmem, ⟨40, _⟩ => ⟨S2048x512, .f32⟩
  | .local _ .vmem, ⟨41, _⟩ => ⟨S2048x512, .f32⟩
  | .local _ .vmem, ⟨42, _⟩ => ⟨S2048x512, .f32⟩
  | .local _ .vmem, ⟨43, _⟩ => ⟨S2048x512, .f32⟩
  | .local _ .vmem, ⟨44, _⟩ => ⟨S512x128, .f32⟩
  | .local _ .vmem, ⟨45, _⟩ => ⟨S1x128, .f32⟩
  | .local _ .vmem, ⟨46, _⟩ => ⟨S2048x128, .f32⟩
  | .local _ .vmem, ⟨47, _⟩ => ⟨S2048x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc3_scratch0 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg3_1 : Ref sig .tc := ⟨.vmem, 40, rfl⟩
abbrev cc5_scratch0 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem3_0 : DmaSem sig := 37
abbrev cc5_sem3_1 : DmaSem sig := 38
abbrev cc6_sem0_0 : DmaSem sig := 39
abbrev cc6_sem0_1 : DmaSem sig := 40
abbrev cc6_sem1_0 : DmaSem sig := 41
abbrev cc6_sem2_0 : DmaSem sig := 42
abbrev cc6_sem3_0 : DmaSem sig := 43
abbrev cc6_sem3_1 : DmaSem sig := 44

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![8, 16], ![false, false]⟩

def k3_cond2 (i : grid3.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S2048x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2048x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨2, ![8, 16], ![false, false]⟩

def k5_cond2 (i : grid5.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S2048x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1024x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S2048x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2048x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S512x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2048x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  bcast_S_S512 : S_.BroadcastsInDim S512 (![] : Fin 0 → Fin S512.rank)
  shapeCasts_S512_S1x512 : S512.ShapeCasts S1x512
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  packedbf16_S2048x512_S2048x512_0_0 : (Rect.unit (s := S2048x512) ![0, 0] S2048x512.size inb_S2048x512_S2048x512_0_0).PackedRows (EltTy.packing .bf16)
  shapeCasts_S2048x512_S2048x512 : S2048x512.ShapeCasts S2048x512
  inb_S2048x1024_S2048x1024_0_0 : ∀ a, (![0, 0] : Fin 2 → Nat) a + S2048x1024.size a ≤ S2048x1024.size a
  h_S2048x1024 : 0 < S2048x1024.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  slices_S2x512x512_S1x512x512_0_0_0 : S2x512x512.Slices ![0, 0, 0] S1x512x512
  shapeCasts_S1x512x512_S512x512 : S1x512x512.ShapeCasts S512x512
  slices_S2x512_S1x512_0_0 : S2x512.Slices ![0, 0] S1x512
  shapeCasts_S1x512_S512 : S1x512.ShapeCasts S512
  shapeCasts_S512x512_S512x512 : S512x512.ShapeCasts S512x512
  slices_S2x512x512_S1x512x512_1_0_0 : S2x512x512.Slices ![1, 0, 0] S1x512x512
  slices_S2x512_S1x512_1_0 : S2x512.Slices ![1, 0] S1x512
  shapeCasts_S128_S1x128 : S128.ShapeCasts S1x128
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  dot_S2048x512_S512x512_S2048x512_1_0_0_1_n_n_wf : DotDims.WF S2048x512 S512x512 S2048x512 [1] [0] [0] [1] [] []
  dot_S2048x1024_S1024x512_S2048x512_1_0_0_1_n_n_wf : DotDims.WF S2048x1024 S1024x512 S2048x512 [1] [0] [0] [1] [] []
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S16384x512.size a
  hwx0_3 : ∀ i : grid0.Coords, EltTy.bits .bf16 = 32 ∨ (Rect.block (s := S16384x512) S2048x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S16384x16384.size a
  hwx1_0 : ∀ i : grid1.Coords, EltTy.bits .f32 = 32 ∨ (Rect.block (s := S16384x16384) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S16384x512.size a
  hwx1_1 : ∀ i : grid1.Coords, EltTy.bits .bf16 = 32 ∨ (Rect.block (s := S16384x512) S1024x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x512.size a ≤ S16384x512.size a
  hwx1_3 : ∀ i : grid1.Coords, EltTy.bits .f32 = 32 ∨ (Rect.block (s := S16384x512) S2048x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S16384x512.size a
  hwx2_0 : ∀ i : grid2.Coords, EltTy.bits .f32 = 32 ∨ (Rect.block (s := S16384x512) S2048x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x512.size a ≤ S16384x512.size a
  hwx2_3 : ∀ i : grid2.Coords, EltTy.bits .bf16 = 32 ∨ (Rect.block (s := S16384x512) S2048x512.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x1024.size a ≤ S16384x16384.size a
  hwx3_0 : ∀ i : grid3.Coords, EltTy.bits .f32 = 32 ∨ (Rect.block (s := S16384x16384) S2048x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x512.size a ≤ S16384x512.size a
  hwx3_1 : ∀ i : grid3.Coords, EltTy.bits .bf16 = 32 ∨ (Rect.block (s := S16384x512) S1024x512.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x512.size a ≤ S16384x512.size a
  hwx3_3 : ∀ i : grid3.Coords, EltTy.bits .f32 = 32 ∨ (Rect.block (s := S16384x512) S2048x512.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x512.size a ≤ S16384x512.size a
  hwx4_0 : ∀ i : grid4.Coords, EltTy.bits .f32 = 32 ∨ (Rect.block (s := S16384x512) S2048x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S512x512.size a
  hwx4_1 : ∀ i : grid4.Coords, EltTy.bits .f32 = 32 ∨ (Rect.block (s := S512x512) S512x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x512.size a ≤ S16384x512.size a
  hwx4_3 : ∀ i : grid4.Coords, EltTy.bits .bf16 = 32 ∨ (Rect.block (s := S16384x512) S2048x512.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x1024.size a ≤ S16384x16384.size a
  hwx5_0 : ∀ i : grid5.Coords, EltTy.bits .f32 = 32 ∨ (Rect.block (s := S16384x16384) S2048x1024.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x512.size a ≤ S16384x512.size a
  hwx5_1 : ∀ i : grid5.Coords, EltTy.bits .bf16 = 32 ∨ (Rect.block (s := S16384x512) S1024x512.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x512.size a ≤ S1x512.size a
  hwx5_2 : ∀ i : grid5.Coords, EltTy.bits .f32 = 32 ∨ (Rect.block (s := S1x512) S1x512.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2048x512.size a ≤ S16384x512.size a
  hwx5_3 : ∀ i : grid5.Coords, EltTy.bits .f32 = 32 ∨ (Rect.block (s := S16384x512) S2048x512.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x512.size a ≤ S16384x512.size a
  hwx6_0 : ∀ i : grid6.Coords, EltTy.bits .f32 = 32 ∨ (Rect.block (s := S16384x512) S2048x512.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x128.size a ≤ S512x128.size a
  hwx6_1 : ∀ i : grid6.Coords, EltTy.bits .f32 = 32 ∨ (Rect.block (s := S512x128) S512x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2048x128.size a ≤ S16384x128.size a
  hwx6_3 : ∀ i : grid6.Coords, EltTy.bits .f32 = 32 ∨ (Rect.block (s := S16384x128) S2048x128.size (cc6_transform_3 i) (hinb6_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S2048x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v4) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S2048x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg1) S2048x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S1024x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v13) S2048x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v13) S2048x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v15) S512x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v19) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v20) S2048x512.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_arg1) S2048x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v20) S1024x512.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v21) S1x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v22) S2048x512.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v22) S2048x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S512x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v23) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v24) S2048x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S16384x512 : Shape := ⟨2, ![16384, 512]⟩
abbrev S16384x16384 : Shape := ⟨2, ![16384, 16384]⟩
abbrev S512x512 : Shape := ⟨2, ![512, 512]⟩
abbrev S512 : Shape := ⟨1, ![512]⟩
abbrev S2x512x512 : Shape := ⟨3, ![2, 512, 512]⟩
abbrev S2x512 : Shape := ⟨2, ![2, 512]⟩
abbrev S512x128 : Shape := ⟨2, ![512, 128]⟩
abbrev S128 : Shape := ⟨1, ![128]⟩
abbrev S1x512 : Shape := ⟨2, ![1, 512]⟩
abbrev S_ : Shape := ⟨0, ![]⟩
abbrev S1x512x512 : Shape := ⟨3, ![1, 512, 512]⟩
abbrev S16384x128 : Shape := ⟨2, ![16384, 128]⟩
abbrev S1x128 : Shape := ⟨2, ![1, 128]⟩

abbrev nBuf : Space → Nat
  | .hbm => 44
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x512, .f32⟩
  | .hbm, ⟨3, _⟩ => ⟨S512, .f32⟩
  | .hbm, ⟨4, _⟩ => ⟨S2x512x512, .f32⟩
  | .hbm, ⟨5, _⟩ => ⟨S2x512, .f32⟩
  | .hbm, ⟨6, _⟩ => ⟨S512x128, .f32⟩
  | .hbm, ⟨7, _⟩ => ⟨S128, .f32⟩
  | .hbm, ⟨8, _⟩ => ⟨S16384x512, .f32⟩
  | .hbm, ⟨9, _⟩ => ⟨S16384x512, .f32⟩
  | .hbm, ⟨10, _⟩ => ⟨S1x512, .f32⟩
  | .hbm, ⟨11, _⟩ => ⟨S16384x512, .f32⟩
  | .hbm, ⟨12, _⟩ => ⟨S16384x512, .f32⟩
  | .hbm, ⟨13, _⟩ => ⟨S_, .f32⟩
  | .hbm, ⟨14, _⟩ => ⟨S16384x512, .f32⟩
  | .hbm, ⟨15, _⟩ => ⟨S16384x512, .f32⟩
  | .hbm, ⟨16, _⟩ => ⟨S1x512x512, .f32⟩
  | .hbm, ⟨17, _⟩ => ⟨S512x512, .f32⟩
  | .hbm, ⟨18, _⟩ => ⟨S1x512, .f32⟩
  | .hbm, ⟨19, _⟩ => ⟨S512, .f32⟩
  | .hbm, ⟨20, _⟩ => ⟨S16384x512, .f32⟩
  | .hbm, ⟨21, _⟩ => ⟨S16384x512, .f32⟩
  | .hbm, ⟨22, _⟩ => ⟨S1x512, .f32⟩
  | .hbm, ⟨23, _⟩ => ⟨S16384x512, .f32⟩
  | .hbm, ⟨24, _⟩ => ⟨S16384x512, .f32⟩
  | .hbm, ⟨25, _⟩ => ⟨S_, .f32⟩
  | .hbm, ⟨26, _⟩ => ⟨S16384x512, .f32⟩
  | .hbm, ⟨27, _⟩ => ⟨S16384x512, .f32⟩
  | .hbm, ⟨28, _⟩ => ⟨S1x512x512, .f32⟩
  | .hbm, ⟨29, _⟩ => ⟨S512x512, .f32⟩
  | .hbm, ⟨30, _⟩ => ⟨S1x512, .f32⟩
  | .hbm, ⟨31, _⟩ => ⟨S512, .f32⟩
  | .hbm, ⟨32, _⟩ => ⟨S16384x512, .f32⟩
  | .hbm, ⟨33, _⟩ => ⟨S16384x512, .f32⟩
  | .hbm, ⟨34, _⟩ => ⟨S1x512, .f32⟩
  | .hbm, ⟨35, _⟩ => ⟨S16384x512, .f32⟩
  | .hbm, ⟨36, _⟩ => ⟨S16384x512, .f32⟩
  | .hbm, ⟨37, _⟩ => ⟨S_, .f32⟩
  | .hbm, ⟨38, _⟩ => ⟨S16384x512, .f32⟩
  | .hbm, ⟨39, _⟩ => ⟨S16384x512, .f32⟩
  | .hbm, ⟨40, _⟩ => ⟨S16384x128, .f32⟩
  | .hbm, ⟨41, _⟩ => ⟨S1x128, .f32⟩
  | .hbm, ⟨42, _⟩ => ⟨S16384x128, .f32⟩
  | .hbm, ⟨43, _⟩ => ⟨S16384x128, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call1_cst : Ref sig .tc := ⟨.hbm, 25, rfl⟩
abbrev main_call1_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call2_cst : Ref sig .tc := ⟨.hbm, 37, rfl⟩
abbrev main_call2_v0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  slices_S2x512x512_S1x512x512_0_0_0 : S2x512x512.Slices ![0, 0, 0] S1x512x512
  shapeCasts_S1x512x512_S512x512 : S1x512x512.ShapeCasts S512x512
  slices_S2x512_S1x512_0_0 : S2x512.Slices ![0, 0] S1x512
  shapeCasts_S1x512_S512 : S1x512.ShapeCasts S512
  slices_S2x512x512_S1x512x512_1_0_0 : S2x512x512.Slices ![1, 0, 0] S1x512x512
  slices_S2x512_S1x512_1_0 : S2x512.Slices ![1, 0] S1x512
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  dot_S16384x512_S512x512_S16384x512_1_0_0_1_n_n_wf : DotDims.WF S16384x512 S512x512 S16384x512 [1] [0] [0] [1] [] []
  dot_S16384x16384_S16384x512_S16384x512_1_0_0_1_n_n_wf : DotDims.WF S16384x16384 S16384x512 S16384x512 [1] [0] [0] [1] [] []
  dot_S16384x512_S512x128_S16384x128_1_0_0_1_n_n_wf : DotDims.WF S16384x512 S512x128 S16384x128 [1] [0] [0] [1] [] []

variable [Facts₀]

def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16384x16384_S16384x512_S16384x512_1_0_0_1_n_n : DotDims S16384x16384 S16384x512 S16384x512 where
  lhsContracting := [1]
  rhsContracting := [0]
  lhsNonContracting := [0]
  rhsNonContracting := [1]
  lhsBatch := []
  rhsBatch := []
  wf := dot_S16384x16384_S16384x512_S16384x512_1_0_0_1_n_n_wf
def dot_S16384x512_S512x128_S16384x128_1_0_0_1_n_n : DotDims S16384x512 S512x128 S16384x128 where
  lhsContracting := [1]
  rhsContracting := [0]
  lhsNonContracting := [0]
  rhsNonContracting := [1]
  lhsBatch := []
  rhsBatch := []
  wf := dot_S16384x512_S512x128_S16384x128_1_0_0_1_n_n_wf

class Facts : Prop extends Facts₀ where

variable [Facts]
-- ==== Proof.Bits.Dense0.lean ====
/-
  Region 0 of the program: one dense layer, `out = x · W + b` on 2048-row blocks. The grid has 8 points; at point `t`
  the body reads the `t`-th 2048×512 block of the activations, the whole weight matrix and the whole bias row (both
  fetched once and never moved), and stores ONE value covering the whole output block. So after the body the output's
  staging buffer holds a single piece: the body's arithmetic (the skeleton's payload) of the three input blocks; the
  inputs' buffers are as they were. This module states that at any contents `V` of the core's buffers at the region's
  entry: the blocks, what the body leaves, the body's triple, the pipeline's proof data and the body obligation at every point.
-/
import proofs.«134615_j996432413323_2_alg».proof.Proof.Gen.Kernel.Launch
import proofs.«134615_j996432413323_2_alg».proof.Proof.Gen.Kernel.Skeleton
import proofs.«134615_j996432413323_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether fetched there or not: where it is
    not fetched its block index has not moved since the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rx0 : Rect S2048x512 := Rect.unit (s := S2048x512) ![0, 0] S2048x512.size inb_S2048x512_S2048x512_0_0
abbrev rw0 : Rect S512x512 := Rect.unit (s := S512x512) ![0, 0] S512x512.size inb_S512x512_S512x512_0_0
abbrev rb0 : Rect S1x512 := Rect.unit (s := S1x512) ![0, 0] S1x512.size inb_S1x512_S1x512_0_0
abbrev ro0 : Rect S2048x512 := Rect.unit (s := S2048x512) ![0, 0] S2048x512.size inb_S2048x512_S2048x512_0_0

/-- The output's staging buffer after the body, from the input blocks: its one store as a piece. -/
def out0_3 (x0 : Vec F S2048x512 .f32) (x1 : Vec F S512x512 .f32) (x2 : Vec F S1x512 .f32) : Vec F S2048x512 .bf16 :=
  View.canon [⟨ro0, k0_pay1 (View.ld x0 rx0) (View.ld x1 rw0) (View.ld x2 rb0)⟩]

/-- The one store covers the buffer. -/
theorem cover0_3 (p0 : Vec F S2048x512 .bf16) (y : S2048x512.Idx) :
    ∃ pc ∈ ([⟨ro0, p0⟩] : List (View.Piece (Elt F) S2048x512 .bf16)), y ∈ pc.1.set :=
  View.cover_of_tiled [⟨ro0, p0⟩] S2048x512.size (by rfl) y

set_option maxHeartbeats 4000000 in
/-- The body on whole staging memrefs, the inputs' at contents `x0 x1 x2` and the output's at anything, runs to the
    continuation with the inputs' as they were and the output's at `out0_3` of them. -/
theorem sound_kernel0 (c : Dev nD) (E : Set ℕ) (i : grid0.Coords) (arg1 : Memref sig .tc .vmem S2048x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S2048x512 .bf16) (harg4 : arg4.IsWhole)
    (x0 : Vec F S2048x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_kernel i arg1 harg1 arg2 harg2 arg3 harg3 arg4 harg4) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each
    input's buffer at its block and the output's at `out0_3` of the input blocks; the invariant the untouched scoped rest
    and generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.Bits.Gc1.lean ====
/-
  Region 1 of the program: one graph-convolution layer, `out = max(adj · s + b, 0)`, accumulated over 16 column blocks of
  `adj`. The grid has 8 × 16 points (row block `i`, column block `k`, `k` innermost); the body keeps a 2048×512 accumulator
  in a scratch buffer of its own, which the pipeline does not stage: at `k = 0` it stores zeros into it, at every `k` it
  adds the product of the point's 2048×1024 block of `adj` with the point's 1024×512 block of `s`, and at `k = 15` it stores
  `max(acc + b, 0)` into the output block, which is written back only there. So a point is in one of three cases — first
  (`k = 0`), middle, last (`k = 15`) — and what the scratch holds after a point depends on what the point before left.
  This module states, at any contents `V` of the core's buffers at the region's entry: the two branch conditions in closed
  form over the grid; where the output window is idle; the body's triple in each case, with the pieces each store leaves
  found by running the body; what output and scratch hold after each point, by recursion on the point; the region's
  invariant carrying the scratch from point to point; the pipeline's proof data; the body obligation; and that the
  invariant is entered from, and gives back, the untouched scoped rest.
-/
import proofs.«134615_j996432413323_2_alg».proof.Proof.Gen.Kernel.Launch
import proofs.«134615_j996432413323_2_alg».proof.Proof.Gen.Kernel.Skeleton
import proofs.«134615_j996432413323_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, and where the output window is idle -/

/-- The first branch's condition (`k = 0`), from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- The second branch's condition (`k = 15`). -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where `k ≠ 15` the output window is idle and not written back; where `k = 15` it is live. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1_3 : View sig .tc .vmem S2048x512 .f32 := (Memref.whole cc1_stg3_0 : Memref sig .tc .vmem S2048x512 .f32).view
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x512 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S2048x512 .f32 := Memref.whole cc1_scratch0
abbrev VS1_0 : View sig .tc .vmem S2048x512 .f32 := scM1_0.view

/-- Every other scoped buffer of the program (the other calls' staging buffers and scratch), unopened. -/
abbrev RB1 (c : Dev nD) : sProp 𝕄 :=
  Pipeline.scopedRestBut (Ix := Unit) (Name := ℕ) (U := UR sig nD τ) (Lvl := ℕ) (Val := Elt F) spec1 c [cc1_scratch0]

/-- The untouched scoped rest and generator register, with the accumulator split out as a memref at some contents. -/
theorem PhiA1_eq (c : Dev nD) :
    (Pipeline.ΦA spec1 c : sProp 𝕄)
      = iprop(iprop(iprop((∃ d, owns (c : Thread nD τ) scM1_0 fullShare d)) ∗ RB1 c) ∗ (∃ r, prngReg c r)) := by
  unfold Pipeline.ΦA; rw [scopedRest1_split]; simp only [scM1_0, owns_whole]; try rfl

/-! ## The body in each case: the pieces its stores leave, found by running it -/

set_option maxHeartbeats 4000000 in
/-- FIRST case (`k = 0`): the output's buffer is handed back untouched; the accumulator, at anything, ends with the
    pieces of the zero store and of the accumulation written. -/
noncomputable def kernelRun1_A (c : Dev nD) (i : grid1.Coords) (arg2 : Memref sig .tc .vmem S2048x1024 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S2048x512 .f32) (harg5 : arg5.IsWhole) (arg6 : Memref sig .tc .vmem S2048x512 .f32) (harg6 : arg6.IsWhole) (hc0 : cond1_0 i) (hc1 : ¬cond1_1 i)
    (x0 : Vec F S2048x1024 .f32) (x1 : Vec F S1024x512 .bf16) (x2 : Vec F S1x512 .f32) :
    Σ' (L3 : List (View.Piece (Elt F) S2048x512 .f32)), { LS0 : List (View.Piece (Elt F) S2048x512 .f32) //
      ∀ (xi3 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gc_reduce_kernel i arg2 harg2 arg3 harg3 arg4 harg4 arg5 harg5 arg6 harg6) K } := by
  refine ⟨[], ?_, fun xi3 E K => ?run⟩
  case run =>
    simp only [cc1__gc_reduce_kernel_eq_skeleton]; unfold cc1__gc_reduce_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- MIDDLE case: the output's buffer is handed back untouched; the accumulator, at what the point before left, ends
    with the accumulation's piece written. -/
noncomputable def kernelRun1_B (c : Dev nD) (i : grid1.Coords) (arg2 : Memref sig .tc .vmem S2048x1024 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S2048x512 .f32) (harg5 : arg5.IsWhole) (arg6 : Memref sig .tc .vmem S2048x512 .f32) (harg6 : arg6.IsWhole) (hc0 : ¬cond1_0 i) (hc1 : ¬cond1_1 i)
    (x0 : Vec F S2048x1024 .f32) (x1 : Vec F S1024x512 .bf16) (x2 : Vec F S1x512 .f32) (xs0 : Vec F S2048x512 .f32) :
    Σ' (L3 : List (View.Piece (Elt F) S2048x512 .f32)), { LS0 : List (View.Piece (Elt F) S2048x512 .f32) //
      ∀ (xi3 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gc_reduce_kernel i arg2 harg2 arg3 harg3 arg4 harg4 arg5 harg5 arg6 harg6) K } := by
  refine ⟨[], ?_, fun xi3 E K => ?run⟩
  case run =>
    simp only [cc1__gc_reduce_kernel_eq_skeleton]; unfold cc1__gc_reduce_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- LAST case (`k = 15`): the accumulator as in the middle case; the output's buffer, at anything, ends with the piece
    of the final store written. -/
noncomputable def kernelRun1_C (c : Dev nD) (i : grid1.Coords) (arg2 : Memref sig .tc .vmem S2048x1024 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S2048x512 .f32) (harg5 : arg5.IsWhole) (arg6 : Memref sig .tc .vmem S2048x512 .f32) (harg6 : arg6.IsWhole) (hc0 : ¬cond1_0 i) (hc1 : cond1_1 i)
    (x0 : Vec F S2048x1024 .f32) (x1 : Vec F S1024x512 .bf16) (x2 : Vec F S1x512 .f32) (xs0 : Vec F S2048x512 .f32) :
    Σ' (L3 : List (View.Piece (Elt F) S2048x512 .f32)), { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gc_reduce_kernel i arg2 harg2 arg3 harg3 arg4 harg4 arg5 harg5 arg6 harg6) K } := by
  refine ⟨?_, ?_, fun E K => ?run⟩
  case run =>
    simp only [cc1__gc_reduce_kernel_eq_skeleton]; unfold cc1__gc_reduce_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-! ## At the region's entry contents `V` -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The three cases' runs at point `t`: on the point's staging memrefs and the accumulator, at the point's input blocks. -/
def runA1 (c : Dev nD) (t : Fin cfg1.N) (hc0 : cond1_0 (grid1.coords t)) (hc1 : ¬cond1_1 (grid1.coords t)) :=
  kernelRun1_A (F := F) c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t)
def runB1 (c : Dev nD) (t : Fin cfg1.N) (hc0 : ¬cond1_0 (grid1.coords t)) (hc1 : ¬cond1_1 (grid1.coords t)) (xs0 : Vec F S2048x512 .f32) :=
  kernelRun1_B (F := F) c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) xs0
def runC1 (c : Dev nD) (t : Fin cfg1.N) (hc0 : ¬cond1_0 (grid1.coords t)) (hc1 : cond1_1 (grid1.coords t)) (xs0 : Vec F S2048x512 .f32) :=
  kernelRun1_C (F := F) c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) xs0

/-- Each case's accumulator pieces cover the accumulator. -/
theorem scover1_A (c : Dev nD) (t : Fin cfg1.N) (hc0 : cond1_0 (grid1.coords t)) (hc1 : ¬cond1_1 (grid1.coords t)) (y : S2048x512.Idx) : ∃ pc ∈ (runA1 V c t hc0 hc1).2.1, y ∈ pc.1.set :=
  View.cover_of_tiledL (runA1 V c t hc0 hc1).2.1 S2048x512.size (by unfold runA1; sl_kernel_rfl) y
theorem scover1_B (c : Dev nD) (t : Fin cfg1.N) (hc0 : ¬cond1_0 (grid1.coords t)) (hc1 : ¬cond1_1 (grid1.coords t)) (xs0 : Vec F S2048x512 .f32) (y : S2048x512.Idx) : ∃ pc ∈ (runB1 V c t hc0 hc1 xs0).2.1, y ∈ pc.1.set :=
  View.cover_of_tiledL (runB1 V c t hc0 hc1 xs0).2.1 S2048x512.size (by unfold runB1; sl_kernel_rfl) y
theorem scover1_C (c : Dev nD) (t : Fin cfg1.N) (hc0 : ¬cond1_0 (grid1.coords t)) (hc1 : cond1_1 (grid1.coords t)) (xs0 : Vec F S2048x512 .f32) (y : S2048x512.Idx) : ∃ pc ∈ (runC1 V c t hc0 hc1 xs0).2.1, y ∈ pc.1.set :=
  View.cover_of_tiledL (runC1 V c t hc0 hc1 xs0).2.1 S2048x512.size (by unfold runC1; sl_kernel_rfl) y
/-- The last case's output piece covers the output block. -/
theorem cover1_C (c : Dev nD) (t : Fin cfg1.N) (hc0 : ¬cond1_0 (grid1.coords t)) (hc1 : cond1_1 (grid1.coords t)) (xs0 : Vec F S2048x512 .f32) (y : S2048x512.Idx) : ∃ pc ∈ (runC1 V c t hc0 hc1 xs0).1, y ∈ pc.1.set :=
  View.cover_of_tiledL (runC1 V c t hc0 hc1 xs0).1 S2048x512.size (by unfold runC1; sl_kernel_rfl) y

/-- What each case leaves in the accumulator: its pieces read back. -/
def soutA1 (c : Dev nD) (t : Fin cfg1.N) (hc0 : cond1_0 (grid1.coords t)) (hc1 : ¬cond1_1 (grid1.coords t)) : Vec F S2048x512 .f32 :=
  VS1_0.read (Elt F) (VS1_0.writes (Elt F) VS1_0.junk (runA1 V c t hc0 hc1).2.1)
def soutB1 (c : Dev nD) (t : Fin cfg1.N) (hc0 : ¬cond1_0 (grid1.coords t)) (hc1 : ¬cond1_1 (grid1.coords t)) (xs0 : Vec F S2048x512 .f32) : Vec F S2048x512 .f32 :=
  VS1_0.read (Elt F) (VS1_0.writes (Elt F) VS1_0.junk (runB1 V c t hc0 hc1 xs0).2.1)
def soutC1 (c : Dev nD) (t : Fin cfg1.N) (hc0 : ¬cond1_0 (grid1.coords t)) (hc1 : cond1_1 (grid1.coords t)) (xs0 : Vec F S2048x512 .f32) : Vec F S2048x512 .f32 :=
  VS1_0.read (Elt F) (VS1_0.writes (Elt F) VS1_0.junk (runC1 V c t hc0 hc1 xs0).2.1)
/-- What the last case leaves in the output's buffer: its piece read back. (In the other cases the window is idle and
    nothing consults its buffer: a placeholder.) -/
def outC1 (c : Dev nD) (t : Fin cfg1.N) (hc0 : ¬cond1_0 (grid1.coords t)) (hc1 : cond1_1 (grid1.coords t)) (xs0 : Vec F S2048x512 .f32) : Vec F S2048x512 .f32 :=
  VO1_3.read (Elt F) (VO1_3.writes (Elt F) VO1_3.junk (runC1 V c t hc0 hc1 xs0).1)
def outIdle1 : Vec F S2048x512 .f32 := VO1_3.read (Elt F) VO1_3.junk

/-! ## What output and accumulator hold after each point -/

/-- THE ACCUMULATION: the pair (output buffer, accumulator) after the body at position `n`: the case the position is in,
    run over what the position before left in the accumulator. -/
def outsAt1 (c : Dev nD) : (n : ℕ) → n < cfg1.N → Vec F S2048x512 .f32 × Vec F S2048x512 .f32
  | 0, hn => (outIdle1, soutA1 V c ⟨0, hn⟩ ((hcond1_0 ⟨0, hn⟩).mpr (Nat.zero_mod _)) (fun h => (fun h => by (try dsimp only at h); omega) ((hcond1_1 ⟨0, hn⟩).mp h)))
  | n + 1, hn =>
    if h0 : (n + 1) % 16 = 0 then
      if h1 : (n + 1) % 16 = 15 then False.elim (by omega)
      else (outIdle1, soutA1 V c ⟨n + 1, hn⟩ ((hcond1_0 ⟨n + 1, hn⟩).mpr h0) (fun h => h1 ((hcond1_1 ⟨n + 1, hn⟩).mp h)))
    else
      if h1 : (n + 1) % 16 = 15 then
        (outC1 V c ⟨n + 1, hn⟩ (fun h => h0 ((hcond1_0 ⟨n + 1, hn⟩).mp h)) ((hcond1_1 ⟨n + 1, hn⟩).mpr h1) (outsAt1 c n (Nat.lt_of_succ_lt hn)).2,
         soutC1 V c ⟨n + 1, hn⟩ (fun h => h0 ((hcond1_0 ⟨n + 1, hn⟩).mp h)) ((hcond1_1 ⟨n + 1, hn⟩).mpr h1) (outsAt1 c n (Nat.lt_of_succ_lt hn)).2)
      else
        (outIdle1, soutB1 V c ⟨n + 1, hn⟩ (fun h => h0 ((hcond1_0 ⟨n + 1, hn⟩).mp h)) (fun h => h1 ((hcond1_1 ⟨n + 1, hn⟩).mp h)) (outsAt1 c n (Nat.lt_of_succ_lt hn)).2)

theorem outsAt1_A (c : Dev nD) (t : Fin cfg1.N) (h0 : t.val % 16 = 0) (h1 : ¬t.val % 16 = 15) :
    outsAt1 V c t.val t.isLt = (outIdle1, soutA1 V c t ((hcond1_0 t).mpr h0) (fun h => h1 ((hcond1_1 t).mp h))) := by
  obtain ⟨n, hn⟩ := t
  cases n with
  | zero => exact rfl
  | succ n => exact (dif_pos h0).trans ((dif_neg h1).trans rfl)
theorem outsAt1_B (c : Dev nD) (t : Fin cfg1.N) (h0 : ¬t.val % 16 = 0) (h1 : ¬t.val % 16 = 15) :
    outsAt1 V c t.val t.isLt = (outIdle1, soutB1 V c t (fun h => h0 ((hcond1_0 t).mp h)) (fun h => h1 ((hcond1_1 t).mp h)) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)
theorem outsAt1_C (c : Dev nD) (t : Fin cfg1.N) (h0 : ¬t.val % 16 = 0) (h1 : t.val % 16 = 15) :
    outsAt1 V c t.val t.isLt = (outC1 V c t (fun h => h0 ((hcond1_0 t).mp h)) ((hcond1_1 t).mpr h1) (outsAt1 V c (t.val - 1) (Nat.lt_of_le_of_lt (Nat.sub_le _ _) t.isLt)).2,
      soutC1 V c t (fun h => h0 ((hcond1_0 t).mp h)) ((hcond1_1 t).mpr h1) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the accumulator carried from point to point -/

/-- Before the first point the untouched scoped rest and generator register; after point `n` the same with the accumulator
    at what that point left in it. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2)) ∗ RB1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare ((outsAt1 V c n hn).2)) ∗ RB1 c) ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2)) ∗ RB1 c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' memrefs hold their blocks; the closed forms say which case the point is in; the
    invariant hands the body the accumulator at what the point before left (at anything before the first point) and takes
    it back at this point's contents; an idle output's buffer is handed back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 16 = 0
  · by_cases h1 : t.val % 16 = 15
    · exfalso; omega
    · have hc0 : cond1_0 (grid1.coords t) := (hcond1_0 t).mpr h0
      have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t hc1) (noFlush1_3 t hc1)]
      rw [outsAt1_A V c t h0 h1]
      unfold soutA1 runA1; (try dsimp only)
      by_cases hz : t.val = 0
      · rw [PhiS1_castSucc V c t, PhiS1_zero V c _ _ hz, PhiA1_eq]
        iintro ⟨⟨⟨HS0, Hrb⟩, Hg⟩, Ho, ⟨%d0, H0⟩, ⟨%d1, H1⟩, ⟨%d2, H2⟩, ⟨%d3, H3⟩⟩
        iapply ((kernelRun1_A c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrb Hg]
        · isplitl [HS0 Hrb]
          · isplitl [HS0]
            · unfold owns; iexists _; isplitr
              swap; · iexact HS0
              ipureintro; exact View.read_writes_of_cover _ _ _ _ _ (scover1_A V c t hc0 hc1)
            iexact Hrb
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hrb⟩, Hg⟩, Ho, ⟨%d0, H0⟩, ⟨%d1, H1⟩, ⟨%d2, H2⟩, ⟨%d3, H3⟩⟩
        iapply ((kernelRun1_A c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrb Hg]
        · isplitl [HS0 Hrb]
          · isplitl [HS0]
            · unfold owns; iexists _; isplitr
              swap; · iexact HS0
              ipureintro; exact View.read_writes_of_cover _ _ _ _ _ (scover1_A V c t hc0 hc1)
            iexact Hrb
          iexact Hg
        isplitl [Ho]; · iexact Ho
        isplitl [H0]; · iexact H0
        isplitl [H1]; · iexact H1
        isplitl [H2]; · iexact H2
        iexists _; iexact H3
  · have hc0 : ¬cond1_0 (grid1.coords t) := fun h => h0 ((hcond1_0 t).mp h)
    have hz : t.val ≠ 0 := fun hz => h0 (by rw [hz])
    by_cases h1 : t.val % 16 = 15
    · have hc1 : cond1_1 (grid1.coords t) := (hcond1_1 t).mpr h1
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t hc1], after1_3]
      rw [outsAt1_C V c t h0 h1]
      unfold outC1 soutC1 runC1; (try dsimp only)
      rw [PhiS1_castSucc V c t, PhiS1_pos V c _ _ hz]
      iintro ⟨⟨⟨HS0, Hrb⟩, Hg⟩, Ho, ⟨%d0, H0⟩, ⟨%d1, H1⟩, ⟨%d2, H2⟩, ⟨%d3, H3⟩⟩
      iapply ((kernelRun1_C c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover1_C V c t hc0 hc1 _)
          iexact Hrb
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C V c t hc0 hc1 _)
    · have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t hc1) (noFlush1_3 t hc1)]
      rw [outsAt1_B V c t h0 h1]
      unfold soutB1 runB1; (try dsimp only)
      rw [PhiS1_castSucc V c t, PhiS1_pos V c _ _ hz]
      iintro ⟨⟨⟨HS0, Hrb⟩, Hg⟩, Ho, ⟨%d0, H0⟩, ⟨%d1, H1⟩, ⟨%d2, H2⟩, ⟨%d3, H3⟩⟩
      iapply ((kernelRun1_B c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover1_B V c t hc0 hc1 _)
          iexact Hrb
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest back: the accumulator's named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl,
    PhiS1_pos V c _ _ ht, PhiA1_eq]
  iintro ⟨⟨HS0, Hrb⟩, Hg⟩
  isplitl [HS0 Hrb]
  · isplitl [HS0]
    · iexists _; iexact HS0
    iexact Hrb
  iexact Hg

end Cert.Kernel.Frame

end
-- ==== Proof.Bits.Dense2.lean ====
/-
  Region 2 of the program: one dense layer, `out = x · W + b` on 2048-row blocks. The grid has 8 points; at point `t`
  the body reads the `t`-th 2048×512 block of the activations, the whole weight matrix and the whole bias row (both
  fetched once and never moved), and stores ONE value covering the whole output block. So after the body the output's
  staging buffer holds a single piece: the body's arithmetic (the skeleton's payload) of the three input blocks; the
  inputs' buffers are as they were. This module states that at any contents `V` of the core's buffers at the region's
  entry: the blocks, what the body leaves, the body's triple, the pipeline's proof data and the body obligation at every point.
-/
import proofs.«134615_j996432413323_2_alg».proof.Proof.Gen.Kernel.Launch
import proofs.«134615_j996432413323_2_alg».proof.Proof.Gen.Kernel.Skeleton
import proofs.«134615_j996432413323_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether fetched there or not: where it is
    not fetched its block index has not moved since the fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rx2 : Rect S2048x512 := Rect.unit (s := S2048x512) ![0, 0] S2048x512.size inb_S2048x512_S2048x512_0_0
abbrev rw2 : Rect S512x512 := Rect.unit (s := S512x512) ![0, 0] S512x512.size inb_S512x512_S512x512_0_0
abbrev rb2 : Rect S1x512 := Rect.unit (s := S1x512) ![0, 0] S1x512.size inb_S1x512_S1x512_0_0
abbrev ro2 : Rect S2048x512 := Rect.unit (s := S2048x512) ![0, 0] S2048x512.size inb_S2048x512_S2048x512_0_0

/-- The output's staging buffer after the body, from the input blocks: its one store as a piece. -/
def out2_3 (x0 : Vec F S2048x512 .f32) (x1 : Vec F S512x512 .f32) (x2 : Vec F S1x512 .f32) : Vec F S2048x512 .bf16 :=
  View.canon [⟨ro2, k2_pay1 (View.ld x0 rx2) (View.ld x1 rw2) (View.ld x2 rb2)⟩]

/-- The one store covers the buffer. -/
theorem cover2_3 (p0 : Vec F S2048x512 .bf16) (y : S2048x512.Idx) :
    ∃ pc ∈ ([⟨ro2, p0⟩] : List (View.Piece (Elt F) S2048x512 .bf16)), y ∈ pc.1.set :=
  View.cover_of_tiled [⟨ro2, p0⟩] S2048x512.size (by rfl) y

set_option maxHeartbeats 4000000 in
/-- The body on whole staging memrefs, the inputs' at contents `x0 x1 x2` and the output's at anything, runs to the
    continuation with the inputs' as they were and the output's at `out2_3` of them. -/
theorem sound_kernel2 (c : Dev nD) (E : Set ℕ) (i : grid2.Coords) (arg1 : Memref sig .tc .vmem S2048x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S2048x512 .bf16) (harg4 : arg4.IsWhole)
    (x0 : Vec F S2048x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__dense_kernel i arg1 harg1 arg2 harg2 arg3 harg3 arg4 harg4) K := by
  simp only [cc2__dense_kernel_eq_skeleton]; unfold cc2__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at point `t` each
    input's buffer at its block and the output's at `out2_3` of the input blocks; the invariant the untouched scoped rest
    and generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.Bits.Gc3.lean ====
/-
  Region 3 of the program: one graph-convolution layer, `out = max(adj · s + b, 0)`, accumulated over 16 column blocks of
  `adj`. The grid has 8 × 16 points (row block `i`, column block `k`, `k` innermost); the body keeps a 2048×512 accumulator
  in a scratch buffer of its own, which the pipeline does not stage: at `k = 0` it stores zeros into it, at every `k` it
  adds the product of the point's 2048×1024 block of `adj` with the point's 1024×512 block of `s`, and at `k = 15` it stores
  `max(acc + b, 0)` into the output block, which is written back only there. So a point is in one of three cases — first
  (`k = 0`), middle, last (`k = 15`) — and what the scratch holds after a point depends on what the point before left.
  This module states, at any contents `V` of the core's buffers at the region's entry: the two branch conditions in closed
  form over the grid; where the output window is idle; the body's triple in each case, with the pieces each store leaves
  found by running the body; what output and scratch hold after each point, by recursion on the point; the region's
  invariant carrying the scratch from point to point; the pipeline's proof data; the body obligation; and that the
  invariant is entered from, and gives back, the untouched scoped rest.
-/
import proofs.«134615_j996432413323_2_alg».proof.Proof.Gen.Kernel.Launch
import proofs.«134615_j996432413323_2_alg».proof.Proof.Gen.Kernel.Skeleton
import proofs.«134615_j996432413323_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, and where the output window is idle -/

/-- The first branch's condition (`k = 0`), from the grid coordinates. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 16 = 0 :=
  (by decide +kernel : ∀ t : Fin grid3.N, cond3_0 (grid3.coords t) ↔ t.val % 16 = 0)
/-- The second branch's condition (`k = 15`). -/
abbrev cond3_1 (i : grid3.Coords) : Prop := k3_cond2 i = 1#1
theorem hcond3_1 : ∀ t : Fin cfg3.N, cond3_1 (grid3.coords t) ↔ t.val % 16 = 15 :=
  (by decide +kernel : ∀ t : Fin grid3.N, cond3_1 (grid3.coords t) ↔ t.val % 16 = 15)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Where `k ≠ 15` the output window is idle and not written back; where `k = 15` it is live. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel

/-! ## The memrefs the body is called with -/

abbrev VO3_3 : View sig .tc .vmem S2048x512 .f32 := (Memref.whole cc3_stg3_0 : Memref sig .tc .vmem S2048x512 .f32).view
abbrev ms3_0 (t : Fin cfg3.N) : Memref sig .tc .vmem S2048x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x512 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x512 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x512 .f32 := win3_3.stage (cfg3.slots t 3)
abbrev hs3_3 (t : Fin cfg3.N) : (ms3_3 t).IsWhole := hstage3_3 ((cfg3.slots t 3).cast nbuf3_3)
/-- The accumulator: a whole scoped buffer of the kernel's own. -/
abbrev scM3_0 : Memref sig .tc .vmem S2048x512 .f32 := Memref.whole cc3_scratch0
abbrev VS3_0 : View sig .tc .vmem S2048x512 .f32 := scM3_0.view

/-- Every other scoped buffer of the program (the other calls' staging buffers and scratch), unopened. -/
abbrev RB3 (c : Dev nD) : sProp 𝕄 :=
  Pipeline.scopedRestBut (Ix := Unit) (Name := ℕ) (U := UR sig nD τ) (Lvl := ℕ) (Val := Elt F) spec3 c [cc3_scratch0]

/-- The untouched scoped rest and generator register, with the accumulator split out as a memref at some contents. -/
theorem PhiA3_eq (c : Dev nD) :
    (Pipeline.ΦA spec3 c : sProp 𝕄)
      = iprop(iprop(iprop((∃ d, owns (c : Thread nD τ) scM3_0 fullShare d)) ∗ RB3 c) ∗ (∃ r, prngReg c r)) := by
  unfold Pipeline.ΦA; rw [scopedRest3_split]; simp only [scM3_0, owns_whole]; try rfl

/-! ## The body in each case: the pieces its stores leave, found by running it -/

set_option maxHeartbeats 4000000 in
/-- FIRST case (`k = 0`): the output's buffer is handed back untouched; the accumulator, at anything, ends with the
    pieces of the zero store and of the accumulation written. -/
noncomputable def kernelRun3_A (c : Dev nD) (i : grid3.Coords) (arg2 : Memref sig .tc .vmem S2048x1024 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S2048x512 .f32) (harg5 : arg5.IsWhole) (arg6 : Memref sig .tc .vmem S2048x512 .f32) (harg6 : arg6.IsWhole) (hc0 : cond3_0 i) (hc1 : ¬cond3_1 i)
    (x0 : Vec F S2048x1024 .f32) (x1 : Vec F S1024x512 .bf16) (x2 : Vec F S1x512 .f32) :
    Σ' (L3 : List (View.Piece (Elt F) S2048x512 .f32)), { LS0 : List (View.Piece (Elt F) S2048x512 .f32) //
      ∀ (xi3 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__gc_reduce_kernel i arg2 harg2 arg3 harg3 arg4 harg4 arg5 harg5 arg6 harg6) K } := by
  refine ⟨[], ?_, fun xi3 E K => ?run⟩
  case run =>
    simp only [cc3__gc_reduce_kernel_eq_skeleton]; unfold cc3__gc_reduce_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- MIDDLE case: the output's buffer is handed back untouched; the accumulator, at what the point before left, ends
    with the accumulation's piece written. -/
noncomputable def kernelRun3_B (c : Dev nD) (i : grid3.Coords) (arg2 : Memref sig .tc .vmem S2048x1024 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S2048x512 .f32) (harg5 : arg5.IsWhole) (arg6 : Memref sig .tc .vmem S2048x512 .f32) (harg6 : arg6.IsWhole) (hc0 : ¬cond3_0 i) (hc1 : ¬cond3_1 i)
    (x0 : Vec F S2048x1024 .f32) (x1 : Vec F S1024x512 .bf16) (x2 : Vec F S1x512 .f32) (xs0 : Vec F S2048x512 .f32) :
    Σ' (L3 : List (View.Piece (Elt F) S2048x512 .f32)), { LS0 : List (View.Piece (Elt F) S2048x512 .f32) //
      ∀ (xi3 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__gc_reduce_kernel i arg2 harg2 arg3 harg3 arg4 harg4 arg5 harg5 arg6 harg6) K } := by
  refine ⟨[], ?_, fun xi3 E K => ?run⟩
  case run =>
    simp only [cc3__gc_reduce_kernel_eq_skeleton]; unfold cc3__gc_reduce_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- LAST case (`k = 15`): the accumulator as in the middle case; the output's buffer, at anything, ends with the piece
    of the final store written. -/
noncomputable def kernelRun3_C (c : Dev nD) (i : grid3.Coords) (arg2 : Memref sig .tc .vmem S2048x1024 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S2048x512 .f32) (harg5 : arg5.IsWhole) (arg6 : Memref sig .tc .vmem S2048x512 .f32) (harg6 : arg6.IsWhole) (hc0 : ¬cond3_0 i) (hc1 : cond3_1 i)
    (x0 : Vec F S2048x1024 .f32) (x1 : Vec F S1024x512 .bf16) (x2 : Vec F S1x512 .f32) (xs0 : Vec F S2048x512 .f32) :
    Σ' (L3 : List (View.Piece (Elt F) S2048x512 .f32)), { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__gc_reduce_kernel i arg2 harg2 arg3 harg3 arg4 harg4 arg5 harg5 arg6 harg6) K } := by
  refine ⟨?_, ?_, fun E K => ?run⟩
  case run =>
    simp only [cc3__gc_reduce_kernel_eq_skeleton]; unfold cc3__gc_reduce_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-! ## At the region's entry contents `V` -/

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The three cases' runs at point `t`: on the point's staging memrefs and the accumulator, at the point's input blocks. -/
def runA3 (c : Dev nD) (t : Fin cfg3.N) (hc0 : cond3_0 (grid3.coords t)) (hc1 : ¬cond3_1 (grid3.coords t)) :=
  kernelRun3_A (F := F) c (grid3.coords t) (ms3_0 t) (hs3_0 t) (ms3_1 t) (hs3_1 t) (ms3_2 t) (hs3_2 t) (ms3_3 t) (hs3_3 t) scM3_0 (Memref.isWhole_whole _) hc0 hc1 (iblk3 V c 0 t) (iblk3 V c 1 t) (iblk3 V c 2 t)
def runB3 (c : Dev nD) (t : Fin cfg3.N) (hc0 : ¬cond3_0 (grid3.coords t)) (hc1 : ¬cond3_1 (grid3.coords t)) (xs0 : Vec F S2048x512 .f32) :=
  kernelRun3_B (F := F) c (grid3.coords t) (ms3_0 t) (hs3_0 t) (ms3_1 t) (hs3_1 t) (ms3_2 t) (hs3_2 t) (ms3_3 t) (hs3_3 t) scM3_0 (Memref.isWhole_whole _) hc0 hc1 (iblk3 V c 0 t) (iblk3 V c 1 t) (iblk3 V c 2 t) xs0
def runC3 (c : Dev nD) (t : Fin cfg3.N) (hc0 : ¬cond3_0 (grid3.coords t)) (hc1 : cond3_1 (grid3.coords t)) (xs0 : Vec F S2048x512 .f32) :=
  kernelRun3_C (F := F) c (grid3.coords t) (ms3_0 t) (hs3_0 t) (ms3_1 t) (hs3_1 t) (ms3_2 t) (hs3_2 t) (ms3_3 t) (hs3_3 t) scM3_0 (Memref.isWhole_whole _) hc0 hc1 (iblk3 V c 0 t) (iblk3 V c 1 t) (iblk3 V c 2 t) xs0

/-- Each case's accumulator pieces cover the accumulator. -/
theorem scover3_A (c : Dev nD) (t : Fin cfg3.N) (hc0 : cond3_0 (grid3.coords t)) (hc1 : ¬cond3_1 (grid3.coords t)) (y : S2048x512.Idx) : ∃ pc ∈ (runA3 V c t hc0 hc1).2.1, y ∈ pc.1.set :=
  View.cover_of_tiledL (runA3 V c t hc0 hc1).2.1 S2048x512.size (by unfold runA3; sl_kernel_rfl) y
theorem scover3_B (c : Dev nD) (t : Fin cfg3.N) (hc0 : ¬cond3_0 (grid3.coords t)) (hc1 : ¬cond3_1 (grid3.coords t)) (xs0 : Vec F S2048x512 .f32) (y : S2048x512.Idx) : ∃ pc ∈ (runB3 V c t hc0 hc1 xs0).2.1, y ∈ pc.1.set :=
  View.cover_of_tiledL (runB3 V c t hc0 hc1 xs0).2.1 S2048x512.size (by unfold runB3; sl_kernel_rfl) y
theorem scover3_C (c : Dev nD) (t : Fin cfg3.N) (hc0 : ¬cond3_0 (grid3.coords t)) (hc1 : cond3_1 (grid3.coords t)) (xs0 : Vec F S2048x512 .f32) (y : S2048x512.Idx) : ∃ pc ∈ (runC3 V c t hc0 hc1 xs0).2.1, y ∈ pc.1.set :=
  View.cover_of_tiledL (runC3 V c t hc0 hc1 xs0).2.1 S2048x512.size (by unfold runC3; sl_kernel_rfl) y
/-- The last case's output piece covers the output block. -/
theorem cover3_C (c : Dev nD) (t : Fin cfg3.N) (hc0 : ¬cond3_0 (grid3.coords t)) (hc1 : cond3_1 (grid3.coords t)) (xs0 : Vec F S2048x512 .f32) (y : S2048x512.Idx) : ∃ pc ∈ (runC3 V c t hc0 hc1 xs0).1, y ∈ pc.1.set :=
  View.cover_of_tiledL (runC3 V c t hc0 hc1 xs0).1 S2048x512.size (by unfold runC3; sl_kernel_rfl) y

/-- What each case leaves in the accumulator: its pieces read back. -/
def soutA3 (c : Dev nD) (t : Fin cfg3.N) (hc0 : cond3_0 (grid3.coords t)) (hc1 : ¬cond3_1 (grid3.coords t)) : Vec F S2048x512 .f32 :=
  VS3_0.read (Elt F) (VS3_0.writes (Elt F) VS3_0.junk (runA3 V c t hc0 hc1).2.1)
def soutB3 (c : Dev nD) (t : Fin cfg3.N) (hc0 : ¬cond3_0 (grid3.coords t)) (hc1 : ¬cond3_1 (grid3.coords t)) (xs0 : Vec F S2048x512 .f32) : Vec F S2048x512 .f32 :=
  VS3_0.read (Elt F) (VS3_0.writes (Elt F) VS3_0.junk (runB3 V c t hc0 hc1 xs0).2.1)
def soutC3 (c : Dev nD) (t : Fin cfg3.N) (hc0 : ¬cond3_0 (grid3.coords t)) (hc1 : cond3_1 (grid3.coords t)) (xs0 : Vec F S2048x512 .f32) : Vec F S2048x512 .f32 :=
  VS3_0.read (Elt F) (VS3_0.writes (Elt F) VS3_0.junk (runC3 V c t hc0 hc1 xs0).2.1)
/-- What the last case leaves in the output's buffer: its piece read back. (In the other cases the window is idle and
    nothing consults its buffer: a placeholder.) -/
def outC3 (c : Dev nD) (t : Fin cfg3.N) (hc0 : ¬cond3_0 (grid3.coords t)) (hc1 : cond3_1 (grid3.coords t)) (xs0 : Vec F S2048x512 .f32) : Vec F S2048x512 .f32 :=
  VO3_3.read (Elt F) (VO3_3.writes (Elt F) VO3_3.junk (runC3 V c t hc0 hc1 xs0).1)
def outIdle3 : Vec F S2048x512 .f32 := VO3_3.read (Elt F) VO3_3.junk

/-! ## What output and accumulator hold after each point -/

/-- THE ACCUMULATION: the pair (output buffer, accumulator) after the body at position `n`: the case the position is in,
    run over what the position before left in the accumulator. -/
def outsAt3 (c : Dev nD) : (n : ℕ) → n < cfg3.N → Vec F S2048x512 .f32 × Vec F S2048x512 .f32
  | 0, hn => (outIdle3, soutA3 V c ⟨0, hn⟩ ((hcond3_0 ⟨0, hn⟩).mpr (Nat.zero_mod _)) (fun h => (fun h => by (try dsimp only at h); omega) ((hcond3_1 ⟨0, hn⟩).mp h)))
  | n + 1, hn =>
    if h0 : (n + 1) % 16 = 0 then
      if h1 : (n + 1) % 16 = 15 then False.elim (by omega)
      else (outIdle3, soutA3 V c ⟨n + 1, hn⟩ ((hcond3_0 ⟨n + 1, hn⟩).mpr h0) (fun h => h1 ((hcond3_1 ⟨n + 1, hn⟩).mp h)))
    else
      if h1 : (n + 1) % 16 = 15 then
        (outC3 V c ⟨n + 1, hn⟩ (fun h => h0 ((hcond3_0 ⟨n + 1, hn⟩).mp h)) ((hcond3_1 ⟨n + 1, hn⟩).mpr h1) (outsAt3 c n (Nat.lt_of_succ_lt hn)).2,
         soutC3 V c ⟨n + 1, hn⟩ (fun h => h0 ((hcond3_0 ⟨n + 1, hn⟩).mp h)) ((hcond3_1 ⟨n + 1, hn⟩).mpr h1) (outsAt3 c n (Nat.lt_of_succ_lt hn)).2)
      else
        (outIdle3, soutB3 V c ⟨n + 1, hn⟩ (fun h => h0 ((hcond3_0 ⟨n + 1, hn⟩).mp h)) (fun h => h1 ((hcond3_1 ⟨n + 1, hn⟩).mp h)) (outsAt3 c n (Nat.lt_of_succ_lt hn)).2)

theorem outsAt3_A (c : Dev nD) (t : Fin cfg3.N) (h0 : t.val % 16 = 0) (h1 : ¬t.val % 16 = 15) :
    outsAt3 V c t.val t.isLt = (outIdle3, soutA3 V c t ((hcond3_0 t).mpr h0) (fun h => h1 ((hcond3_1 t).mp h))) := by
  obtain ⟨n, hn⟩ := t
  cases n with
  | zero => exact rfl
  | succ n => exact (dif_pos h0).trans ((dif_neg h1).trans rfl)
theorem outsAt3_B (c : Dev nD) (t : Fin cfg3.N) (h0 : ¬t.val % 16 = 0) (h1 : ¬t.val % 16 = 15) :
    outsAt3 V c t.val t.isLt = (outIdle3, soutB3 V c t (fun h => h0 ((hcond3_0 t).mp h)) (fun h => h1 ((hcond3_1 t).mp h)) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)
theorem outsAt3_C (c : Dev nD) (t : Fin cfg3.N) (h0 : ¬t.val % 16 = 0) (h1 : t.val % 16 = 15) :
    outsAt3 V c t.val t.isLt = (outC3 V c t (fun h => h0 ((hcond3_0 t).mp h)) ((hcond3_1 t).mpr h1) (outsAt3 V c (t.val - 1) (Nat.lt_of_le_of_lt (Nat.sub_le _ _) t.isLt)).2,
      soutC3 V c t (fun h => h0 ((hcond3_0 t).mp h)) ((hcond3_1 t).mpr h1) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the accumulator carried from point to point -/

/-- Before the first point the untouched scoped rest and generator register; after point `n` the same with the accumulator
    at what that point left in it. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2)) ∗ RB3 c) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(iprop(owns (c : Thread nD τ) scM3_0 fullShare ((outsAt3 V c n hn).2)) ∗ RB3 c) ∗ (∃ r, prngReg c r)) := rfl
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2)) ∗ RB3 c) ∗ (∃ r, prngReg c r)) := by
  cases n with
  | zero => exact absurd rfl hz
  | succ n => rfl

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 8000000 in
/-- The body at any point: the inputs' memrefs hold their blocks; the closed forms say which case the point is in; the
    invariant hands the body the accumulator at what the point before left (at anything before the first point) and takes
    it back at this point's contents; an idle output's buffer is handed back as found; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 128 := lt_of_lt_of_eq t.isLt (show cfg3.N = 128 from N_3)
  by_cases h0 : t.val % 16 = 0
  · by_cases h1 : t.val % 16 = 15
    · exfalso; omega
    · have hc0 : cond3_0 (grid3.coords t) := (hcond3_0 t).mpr h0
      have hc1 : ¬cond3_1 (grid3.coords t) := fun h => h1 ((hcond3_1 t).mp h)
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3 t hc1) (noFlush3_3 t hc1)]
      rw [outsAt3_A V c t h0 h1]
      unfold soutA3 runA3; (try dsimp only)
      by_cases hz : t.val = 0
      · rw [PhiS3_castSucc V c t, PhiS3_zero V c _ _ hz, PhiA3_eq]
        iintro ⟨⟨⟨HS0, Hrb⟩, Hg⟩, Ho, ⟨%d0, H0⟩, ⟨%d1, H1⟩, ⟨%d2, H2⟩, ⟨%d3, H3⟩⟩
        iapply ((kernelRun3_A c (grid3.coords t) (ms3_0 t) (hs3_0 t) (ms3_1 t) (hs3_1 t) (ms3_2 t) (hs3_2 t) (ms3_3 t) (hs3_3 t) scM3_0 (Memref.isWhole_whole _) hc0 hc1 (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrb Hg]
        · isplitl [HS0 Hrb]
          · isplitl [HS0]
            · unfold owns; iexists _; isplitr
              swap; · iexact HS0
              ipureintro; exact View.read_writes_of_cover _ _ _ _ _ (scover3_A V c t hc0 hc1)
            iexact Hrb
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS0, Hrb⟩, Hg⟩, Ho, ⟨%d0, H0⟩, ⟨%d1, H1⟩, ⟨%d2, H2⟩, ⟨%d3, H3⟩⟩
        iapply ((kernelRun3_A c (grid3.coords t) (ms3_0 t) (hs3_0 t) (ms3_1 t) (hs3_1 t) (ms3_2 t) (hs3_2 t) (ms3_3 t) (hs3_3 t) scM3_0 (Memref.isWhole_whole _) hc0 hc1 (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrb Hg]
        · isplitl [HS0 Hrb]
          · isplitl [HS0]
            · unfold owns; iexists _; isplitr
              swap; · iexact HS0
              ipureintro; exact View.read_writes_of_cover _ _ _ _ _ (scover3_A V c t hc0 hc1)
            iexact Hrb
          iexact Hg
        isplitl [Ho]; · iexact Ho
        isplitl [H0]; · iexact H0
        isplitl [H1]; · iexact H1
        isplitl [H2]; · iexact H2
        iexists _; iexact H3
  · have hc0 : ¬cond3_0 (grid3.coords t) := fun h => h0 ((hcond3_0 t).mp h)
    have hz : t.val ≠ 0 := fun hz => h0 (by rw [hz])
    by_cases h1 : t.val % 16 = 15
    · have hc1 : cond3_1 (grid3.coords t) := (hcond3_1 t).mpr h1
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t hc1], after3_3]
      rw [outsAt3_C V c t h0 h1]
      unfold outC3 soutC3 runC3; (try dsimp only)
      rw [PhiS3_castSucc V c t, PhiS3_pos V c _ _ hz]
      iintro ⟨⟨⟨HS0, Hrb⟩, Hg⟩, Ho, ⟨%d0, H0⟩, ⟨%d1, H1⟩, ⟨%d2, H2⟩, ⟨%d3, H3⟩⟩
      iapply ((kernelRun3_C c (grid3.coords t) (ms3_0 t) (hs3_0 t) (ms3_1 t) (hs3_1 t) (ms3_2 t) (hs3_2 t) (ms3_3 t) (hs3_3 t) scM3_0 (Memref.isWhole_whole _) hc0 hc1 (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover3_C V c t hc0 hc1 _)
          iexact Hrb
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C V c t hc0 hc1 _)
    · have hc1 : ¬cond3_1 (grid3.coords t) := fun h => h1 ((hcond3_1 t).mp h)
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3 t hc1) (noFlush3_3 t hc1)]
      rw [outsAt3_B V c t h0 h1]
      unfold soutB3 runB3; (try dsimp only)
      rw [PhiS3_castSucc V c t, PhiS3_pos V c _ _ hz]
      iintro ⟨⟨⟨HS0, Hrb⟩, Hg⟩, Ho, ⟨%d0, H0⟩, ⟨%d1, H1⟩, ⟨%d2, H2⟩, ⟨%d3, H3⟩⟩
      iapply ((kernelRun3_B c (grid3.coords t) (ms3_0 t) (hs3_0 t) (ms3_1 t) (hs3_1 t) (ms3_2 t) (hs3_2 t) (ms3_3 t) (hs3_3 t) scM3_0 (Memref.isWhole_whole _) hc0 hc1 (iblk3 V c 0 t) (iblk3 V c 1 t) (iblk3 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover3_B V c t hc0 hc1 _)
          iexact Hrb
        iexact Hg
      isplitl [Ho]; · iexact Ho
      isplitl [H0]; · iexact H0
      isplitl [H1]; · iexact H1
      isplitl [H2]; · iexact H2
      iexists _; iexact H3

theorem body_obligation3 (c : Dev nD) : BodyObligation (dat3 (F := F) V c) (defs₀ (F := F)) Variants.none () Set.univ := fun t => by
  rw [bigSep_W3, bigSep_W3]
  exact sound_body3 V c t

/-- What the region is handed is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the scoped rest back: the accumulator's named contents are forgotten. -/
theorem hout3 (c : Dev nD) : (dat3 V c).Φ (Fin.last cfg3.N) ⊢ Pipeline.ΦA spec3 c := by
  have ht : (Fin.last cfg3.N).val ≠ 0 := by rw [Fin.val_last]; have : cfg3.N = 128 := N_3; omega
  rw [show (dat3 V c).Φ (Fin.last cfg3.N) = PhiS3 V c (Fin.last cfg3.N).val (Nat.le_of_lt_succ (Fin.last cfg3.N).isLt) from rfl,
    PhiS3_pos V c _ _ ht, PhiA3_eq]
  iintro ⟨⟨HS0, Hrb⟩, Hg⟩
  isplitl [HS0 Hrb]
  · isplitl [HS0]
    · iexists _; iexact HS0
    iexact Hrb
  iexact Hg

end Cert.Kernel.Frame

end
-- ==== Proof.Bits.Dense4.lean ====
/-
  Region 4 of the program: one dense layer, `out = x · W + b` on 2048-row blocks. The grid has 8 points; at point `t`
  the body reads the `t`-th 2048×512 block of the activations, the whole weight matrix and the whole bias row (both
  fetched once and never moved), and stores ONE value covering the whole output block. So after the body the output's
  staging buffer holds a single piece: the body's arithmetic (the skeleton's payload) of the three input blocks; the
  inputs' buffers are as they were. This module states that at any contents `V` of the core's buffers at the region's
  entry: the blocks, what the body leaves, the body's triple, the pipeline's proof data and the body obligation at every point.
-/
import proofs.«134615_j996432413323_2_alg».proof.Proof.Gen.Kernel.Launch
import proofs.«134615_j996432413323_2_alg».proof.Proof.Gen.Kernel.Skeleton
import proofs.«134615_j996432413323_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, whether fetched there or not: where it is
    not fetched its block index has not moved since the fetch. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole-buffer rectangles the body loads and stores through. -/
abbrev rx4 : Rect S2048x512 := Rect.unit (s := S2048x512) ![0, 0] S2048x512.size inb_S2048x512_S2048x512_0_0
abbrev rw4 : Rect S512x512 := Rect.unit (s := S512x512) ![0, 0] S512x512.size inb_S512x512_S512x512_0_0
abbrev rb4 : Rect S1x512 := Rect.unit (s := S1x512) ![0, 0] S1x512.size inb_S1x512_S1x512_0_0
abbrev ro4 : Rect S2048x512 := Rect.unit (s := S2048x512) ![0, 0] S2048x512.size inb_S2048x512_S2048x512_0_0

/-- The output's staging buffer after the body, from the input blocks: its one store as a piece. -/
def out4_3 (x0 : Vec F S2048x512 .f32) (x1 : Vec F S512x512 .f32) (x2 : Vec F S1x512 .f32) : Vec F S2048x512 .bf16 :=
  View.canon [⟨ro4, k4_pay1 (View.ld x0 rx4) (View.ld x1 rw4) (View.ld x2 rb4)⟩]

/-- The one store covers the buffer. -/
theorem cover4_3 (p0 : Vec F S2048x512 .bf16) (y : S2048x512.Idx) :
    ∃ pc ∈ ([⟨ro4, p0⟩] : List (View.Piece (Elt F) S2048x512 .bf16)), y ∈ pc.1.set :=
  View.cover_of_tiled [⟨ro4, p0⟩] S2048x512.size (by rfl) y

set_option maxHeartbeats 4000000 in
/-- The body on whole staging memrefs, the inputs' at contents `x0 x1 x2` and the output's at anything, runs to the
    continuation with the inputs' as they were and the output's at `out4_3` of them. -/
theorem sound_kernel4 (c : Dev nD) (E : Set ℕ) (i : grid4.Coords) (arg1 : Memref sig .tc .vmem S2048x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S2048x512 .bf16) (harg4 : arg4.IsWhole)
    (x0 : Vec F S2048x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__dense_kernel i arg1 harg1 arg2 harg2 arg3 harg3 arg4 harg4) K := by
  simp only [cc4__dense_kernel_eq_skeleton]; unfold cc4__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The proof data of pipeline 4 on core `c`: the arrays as the region finds them; after the body at point `t` each
    input's buffer at its block and the output's at `out4_3` of the input blocks; the invariant the untouched scoped rest
    and generator register; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Frame

end
-- ==== Proof.Bits.Gc5.lean ====
/-
  Region 5 of the program: one graph-convolution layer, `out = max(adj · s + b, 0)`, accumulated over 16 column blocks of
  `adj`. The grid has 8 × 16 points (row block `i`, column block `k`, `k` innermost); the body keeps a 2048×512 accumulator
  in a scratch buffer of its own, which the pipeline does not stage: at `k = 0` it stores zeros into it, at every `k` it
  adds the product of the point's 2048×1024 block of `adj` with the point's 1024×512 block of `s`, and at `k = 15` it stores
  `max(acc + b, 0)` into the output block, which is written back only there. So a point is in one of three cases — first
  (`k = 0`), middle, last (`k = 15`) — and what the scratch holds after a point depends on what the point before left.
  This module states, at any contents `V` of the core's buffers at the region's entry: the two branch conditions in closed
  form over the grid; where the output window is idle; the body's triple in each case, with the pieces each store leaves
  found by running the body; what output and scratch hold after each point, by recursion on the point; the region's
  invariant carrying the scratch from point to point; the pipeline's proof data; the body obligation; and that the
  invariant is entered from, and gives back, the untouched scoped rest.
-/
import proofs.«134615_j996432413323_2_alg».proof.Proof.Gen.Kernel.Launch
import proofs.«134615_j996432413323_2_alg».proof.Proof.Gen.Kernel.Skeleton
import proofs.«134615_j996432413323_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, and where the output window is idle -/

/-- The first branch's condition (`k = 0`), from the grid coordinates. -/
abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 16 = 0 :=
  (by decide +kernel : ∀ t : Fin grid5.N, cond5_0 (grid5.coords t) ↔ t.val % 16 = 0)
/-- The second branch's condition (`k = 15`). -/
abbrev cond5_1 (i : grid5.Coords) : Prop := k5_cond2 i = 1#1
theorem hcond5_1 : ∀ t : Fin cfg5.N, cond5_1 (grid5.coords t) ↔ t.val % 16 = 15 :=
  (by decide +kernel : ∀ t : Fin grid5.N, cond5_1 (grid5.coords t) ↔ t.val % 16 = 15)

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
/-- Where `k ≠ 15` the output window is idle and not written back; where `k = 15` it is live. -/
theorem idleAt5_3 : ∀ t : Fin cfg5.N, ¬cond5_1 (grid5.coords t) → cfg5.idle 3 (grid5.coords t) = true := by decide +kernel
theorem noFlush5_3 : ∀ t : Fin cfg5.N, ¬cond5_1 (grid5.coords t) → (cfg5.win 3).flush t = false := by decide +kernel
theorem liveAt5_3 : ∀ t : Fin cfg5.N, cond5_1 (grid5.coords t) → cfg5.idle 3 (grid5.coords t) = false := by decide +kernel

/-! ## The memrefs the body is called with -/

abbrev VO5_3 : View sig .tc .vmem S2048x512 .f32 := (Memref.whole cc5_stg3_0 : Memref sig .tc .vmem S2048x512 .f32).view
abbrev ms5_0 (t : Fin cfg5.N) : Memref sig .tc .vmem S2048x1024 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x512 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x512 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S2048x512 .f32 := win5_3.stage (cfg5.slots t 3)
abbrev hs5_3 (t : Fin cfg5.N) : (ms5_3 t).IsWhole := hstage5_3 ((cfg5.slots t 3).cast nbuf5_3)
/-- The accumulator: a whole scoped buffer of the kernel's own. -/
abbrev scM5_0 : Memref sig .tc .vmem S2048x512 .f32 := Memref.whole cc5_scratch0
abbrev VS5_0 : View sig .tc .vmem S2048x512 .f32 := scM5_0.view

/-- Every other scoped buffer of the program (the other calls' staging buffers and scratch), unopened. -/
abbrev RB5 (c : Dev nD) : sProp 𝕄 :=
  Pipeline.scopedRestBut (Ix := Unit) (Name := ℕ) (U := UR sig nD τ) (Lvl := ℕ) (Val := Elt F) spec5 c [cc5_scratch0]

/-- The untouched scoped rest and generator register, with the accumulator split out as a memref at some contents. -/
theorem PhiA5_eq (c : Dev nD) :
    (Pipeline.ΦA spec5 c : sProp 𝕄)
      = iprop(iprop(iprop((∃ d, owns (c : Thread nD τ) scM5_0 fullShare d)) ∗ RB5 c) ∗ (∃ r, prngReg c r)) := by
  unfold Pipeline.ΦA; rw [scopedRest5_split]; simp only [scM5_0, owns_whole]; try rfl

/-! ## The body in each case: the pieces its stores leave, found by running it -/

set_option maxHeartbeats 4000000 in
/-- FIRST case (`k = 0`): the output's buffer is handed back untouched; the accumulator, at anything, ends with the
    pieces of the zero store and of the accumulation written. -/
noncomputable def kernelRun5_A (c : Dev nD) (i : grid5.Coords) (arg2 : Memref sig .tc .vmem S2048x1024 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S2048x512 .f32) (harg5 : arg5.IsWhole) (arg6 : Memref sig .tc .vmem S2048x512 .f32) (harg6 : arg6.IsWhole) (hc0 : cond5_0 i) (hc1 : ¬cond5_1 i)
    (x0 : Vec F S2048x1024 .f32) (x1 : Vec F S1024x512 .bf16) (x2 : Vec F S1x512 .f32) :
    Σ' (L3 : List (View.Piece (Elt F) S2048x512 .f32)), { LS0 : List (View.Piece (Elt F) S2048x512 .f32) //
      ∀ (xi3 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__gc_reduce_kernel i arg2 harg2 arg3 harg3 arg4 harg4 arg5 harg5 arg6 harg6) K } := by
  refine ⟨[], ?_, fun xi3 E K => ?run⟩
  case run =>
    simp only [cc5__gc_reduce_kernel_eq_skeleton]; unfold cc5__gc_reduce_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- MIDDLE case: the output's buffer is handed back untouched; the accumulator, at what the point before left, ends
    with the accumulation's piece written. -/
noncomputable def kernelRun5_B (c : Dev nD) (i : grid5.Coords) (arg2 : Memref sig .tc .vmem S2048x1024 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S2048x512 .f32) (harg5 : arg5.IsWhole) (arg6 : Memref sig .tc .vmem S2048x512 .f32) (harg6 : arg6.IsWhole) (hc0 : ¬cond5_0 i) (hc1 : ¬cond5_1 i)
    (x0 : Vec F S2048x1024 .f32) (x1 : Vec F S1024x512 .bf16) (x2 : Vec F S1x512 .f32) (xs0 : Vec F S2048x512 .f32) :
    Σ' (L3 : List (View.Piece (Elt F) S2048x512 .f32)), { LS0 : List (View.Piece (Elt F) S2048x512 .f32) //
      ∀ (xi3 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__gc_reduce_kernel i arg2 harg2 arg3 harg3 arg4 harg4 arg5 harg5 arg6 harg6) K } := by
  refine ⟨[], ?_, fun xi3 E K => ?run⟩
  case run =>
    simp only [cc5__gc_reduce_kernel_eq_skeleton]; unfold cc5__gc_reduce_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- LAST case (`k = 15`): the accumulator as in the middle case; the output's buffer, at anything, ends with the piece
    of the final store written. -/
noncomputable def kernelRun5_C (c : Dev nD) (i : grid5.Coords) (arg2 : Memref sig .tc .vmem S2048x1024 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S2048x512 .f32) (harg5 : arg5.IsWhole) (arg6 : Memref sig .tc .vmem S2048x512 .f32) (harg6 : arg6.IsWhole) (hc0 : ¬cond5_0 i) (hc1 : cond5_1 i)
    (x0 : Vec F S2048x1024 .f32) (x1 : Vec F S1024x512 .bf16) (x2 : Vec F S1x512 .f32) (xs0 : Vec F S2048x512 .f32) :
    Σ' (L3 : List (View.Piece (Elt F) S2048x512 .f32)), { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc5__gc_reduce_kernel i arg2 harg2 arg3 harg3 arg4 harg4 arg5 harg5 arg6 harg6) K } := by
  refine ⟨?_, ?_, fun E K => ?run⟩
  case run =>
    simp only [cc5__gc_reduce_kernel_eq_skeleton]; unfold cc5__gc_reduce_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-! ## At the region's entry contents `V` -/

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The three cases' runs at point `t`: on the point's staging memrefs and the accumulator, at the point's input blocks. -/
def runA5 (c : Dev nD) (t : Fin cfg5.N) (hc0 : cond5_0 (grid5.coords t)) (hc1 : ¬cond5_1 (grid5.coords t)) :=
  kernelRun5_A (F := F) c (grid5.coords t) (ms5_0 t) (hs5_0 t) (ms5_1 t) (hs5_1 t) (ms5_2 t) (hs5_2 t) (ms5_3 t) (hs5_3 t) scM5_0 (Memref.isWhole_whole _) hc0 hc1 (iblk5 V c 0 t) (iblk5 V c 1 t) (iblk5 V c 2 t)
def runB5 (c : Dev nD) (t : Fin cfg5.N) (hc0 : ¬cond5_0 (grid5.coords t)) (hc1 : ¬cond5_1 (grid5.coords t)) (xs0 : Vec F S2048x512 .f32) :=
  kernelRun5_B (F := F) c (grid5.coords t) (ms5_0 t) (hs5_0 t) (ms5_1 t) (hs5_1 t) (ms5_2 t) (hs5_2 t) (ms5_3 t) (hs5_3 t) scM5_0 (Memref.isWhole_whole _) hc0 hc1 (iblk5 V c 0 t) (iblk5 V c 1 t) (iblk5 V c 2 t) xs0
def runC5 (c : Dev nD) (t : Fin cfg5.N) (hc0 : ¬cond5_0 (grid5.coords t)) (hc1 : cond5_1 (grid5.coords t)) (xs0 : Vec F S2048x512 .f32) :=
  kernelRun5_C (F := F) c (grid5.coords t) (ms5_0 t) (hs5_0 t) (ms5_1 t) (hs5_1 t) (ms5_2 t) (hs5_2 t) (ms5_3 t) (hs5_3 t) scM5_0 (Memref.isWhole_whole _) hc0 hc1 (iblk5 V c 0 t) (iblk5 V c 1 t) (iblk5 V c 2 t) xs0

/-- Each case's accumulator pieces cover the accumulator. -/
theorem scover5_A (c : Dev nD) (t : Fin cfg5.N) (hc0 : cond5_0 (grid5.coords t)) (hc1 : ¬cond5_1 (grid5.coords t)) (y : S2048x512.Idx) : ∃ pc ∈ (runA5 V c t hc0 hc1).2.1, y ∈ pc.1.set :=
  View.cover_of_tiledL (runA5 V c t hc0 hc1).2.1 S2048x512.size (by unfold runA5; sl_kernel_rfl) y
theorem scover5_B (c : Dev nD) (t : Fin cfg5.N) (hc0 : ¬cond5_0 (grid5.coords t)) (hc1 : ¬cond5_1 (grid5.coords t)) (xs0 : Vec F S2048x512 .f32) (y : S2048x512.Idx) : ∃ pc ∈ (runB5 V c t hc0 hc1 xs0).2.1, y ∈ pc.1.set :=
  View.cover_of_tiledL (runB5 V c t hc0 hc1 xs0).2.1 S2048x512.size (by unfold runB5; sl_kernel_rfl) y
theorem scover5_C (c : Dev nD) (t : Fin cfg5.N) (hc0 : ¬cond5_0 (grid5.coords t)) (hc1 : cond5_1 (grid5.coords t)) (xs0 : Vec F S2048x512 .f32) (y : S2048x512.Idx) : ∃ pc ∈ (runC5 V c t hc0 hc1 xs0).2.1, y ∈ pc.1.set :=
  View.cover_of_tiledL (runC5 V c t hc0 hc1 xs0).2.1 S2048x512.size (by unfold runC5; sl_kernel_rfl) y
/-- The last case's output piece covers the output block. -/
theorem cover5_C (c : Dev nD) (t : Fin cfg5.N) (hc0 : ¬cond5_0 (grid5.coords t)) (hc1 : cond5_1 (grid5.coords t)) (xs0 : Vec F S2048x512 .f32) (y : S2048x512.Idx) : ∃ pc ∈ (runC5 V c t hc0 hc1 xs0).1, y ∈ pc.1.set :=
  View.cover_of_tiledL (runC5 V c t hc0 hc1 xs0).1 S2048x512.size (by unfold runC5; sl_kernel_rfl) y

/-- What each case leaves in the accumulator: its pieces read back. -/
def soutA5 (c : Dev nD) (t : Fin cfg5.N) (hc0 : cond5_0 (grid5.coords t)) (hc1 : ¬cond5_1 (grid5.coords t)) : Vec F S2048x512 .f32 :=
  VS5_0.read (Elt F) (VS5_0.writes (Elt F) VS5_0.junk (runA5 V c t hc0 hc1).2.1)
def soutB5 (c : Dev nD) (t : Fin cfg5.N) (hc0 : ¬cond5_0 (grid5.coords t)) (hc1 : ¬cond5_1 (grid5.coords t)) (xs0 : Vec F S2048x512 .f32) : Vec F S2048x512 .f32 :=
  VS5_0.read (Elt F) (VS5_0.writes (Elt F) VS5_0.junk (runB5 V c t hc0 hc1 xs0).2.1)
def soutC5 (c : Dev nD) (t : Fin cfg5.N) (hc0 : ¬cond5_0 (grid5.coords t)) (hc1 : cond5_1 (grid5.coords t)) (xs0 : Vec F S2048x512 .f32) : Vec F S2048x512 .f32 :=
  VS5_0.read (Elt F) (VS5_0.writes (Elt F) VS5_0.junk (runC5 V c t hc0 hc1 xs0).2.1)
/-- What the last case leaves in the output's buffer: its piece read back. (In the other cases the window is idle and
    nothing consults its buffer: a placeholder.) -/
def outC5 (c : Dev nD) (t : Fin cfg5.N) (hc0 : ¬cond5_0 (grid5.coords t)) (hc1 : cond5_1 (grid5.coords t)) (xs0 : Vec F S2048x512 .f32) : Vec F S2048x512 .f32 :=
  VO5_3.read (Elt F) (VO5_3.writes (Elt F) VO5_3.junk (runC5 V c t hc0 hc1 xs0).1)
def outIdle5 : Vec F S2048x512 .f32 := VO5_3.read (Elt F) VO5_3.junk

/-! ## What output and accumulator hold after each point -/

/-- THE ACCUMULATION: the pair (output buffer, accumulator) after the body at position `n`: the case the position is in,
    run over what the position before left in the accumulator. -/
def outsAt5 (c : Dev nD) : (n : ℕ) → n < cfg5.N → Vec F S2048x512 .f32 × Vec F S2048x512 .f32
  | 0, hn => (outIdle5, soutA5 V c ⟨0, hn⟩ ((hcond5_0 ⟨0, hn⟩).mpr (Nat.zero_mod _)) (fun h => (fun h => by (try dsimp only at h); omega) ((hcond5_1 ⟨0, hn⟩).mp h)))
  | n + 1, hn =>
    if h0 : (n + 1) % 16 = 0 then
      if h1 : (n + 1) % 16 = 15 then False.elim (by omega)
      else (outIdle5, soutA5 V c ⟨n + 1, hn⟩ ((hcond5_0 ⟨n + 1, hn⟩).mpr h0) (fun h => h1 ((hcond5_1 ⟨n + 1, hn⟩).mp h)))
    else
      if h1 : (n + 1) % 16 = 15 then
        (outC5 V c ⟨n + 1, hn⟩ (fun h => h0 ((hcond5_0 ⟨n + 1, hn⟩).mp h)) ((hcond5_1 ⟨n + 1, hn⟩).mpr h1) (outsAt5 c n (Nat.lt_of_succ_lt hn)).2,
         soutC5 V c ⟨n + 1, hn⟩ (fun h => h0 ((hcond5_0 ⟨n + 1, hn⟩).mp h)) ((hcond5_1 ⟨n + 1, hn⟩).mpr h1) (outsAt5 c n (Nat.lt_of_succ_lt hn)).2)
      else
        (outIdle5, soutB5 V c ⟨n + 1, hn⟩ (fun h => h0 ((hcond5_0 ⟨n + 1, hn⟩).mp h)) (fun h => h1 ((hcond5_1 ⟨n + 1, hn⟩).mp h)) (outsAt5 c n (Nat.lt_of_succ_lt hn)).2)

theorem outsAt5_A (c : Dev nD) (t : Fin cfg5.N) (h0 : t.val % 16 = 0) (h1 : ¬t.val % 16 = 15) :
    outsAt5 V c t.val t.isLt = (outIdle5, soutA5 V c t ((hcond5_0 t).mpr h0) (fun h => h1 ((hcond5_1 t).mp h))) := by
  obtain ⟨n, hn⟩ := t
  cases n with
  | zero => exact rfl
  | succ n => exact (dif_pos h0).trans ((dif_neg h1).trans rfl)
theorem outsAt5_B (c : Dev nD) (t : Fin cfg5.N) (h0 : ¬t.val % 16 = 0) (h1 : ¬t.val % 16 = 15) :
    outsAt5 V c t.val t.isLt = (outIdle5, soutB5 V c t (fun h => h0 ((hcond5_0 t).mp h)) (fun h => h1 ((hcond5_1 t).mp h)) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)
theorem outsAt5_C (c : Dev nD) (t : Fin cfg5.N) (h0 : ¬t.val % 16 = 0) (h1 : t.val % 16 = 15) :
    outsAt5 V c t.val t.isLt = (outC5 V c t (fun h => h0 ((hcond5_0 t).mp h)) ((hcond5_1 t).mpr h1) (outsAt5 V c (t.val - 1) (Nat.lt_of_le_of_lt (Nat.sub_le _ _) t.isLt)).2,
      soutC5 V c t (fun h => h0 ((hcond5_0 t).mp h)) ((hcond5_1 t).mpr h1) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the accumulator carried from point to point -/

/-- Before the first point the untouched scoped rest and generator register; after point `n` the same with the accumulator
    at what that point left in it. -/
def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2)) ∗ RB5 c) ∗ (∃ r, prngReg c r))

theorem PhiS5_zero (c : Dev nD) (n : ℕ) (h : n ≤ cfg5.N) (hz : n = 0) : PhiS5 V c n h = Pipeline.ΦA spec5 c := by
  subst hz; rfl
theorem PhiS5_succ (c : Dev nD) (n : ℕ) (hn : n < cfg5.N) :
    PhiS5 V c (n + 1) hn = iprop(iprop(iprop(owns (c : Thread nD τ) scM5_0 fullShare ((outsAt5 V c n hn).2)) ∗ RB5 c) ∗ (∃ r, prngReg c r)) := rfl
theorem PhiS5_pos (c : Dev nD) (n : ℕ) (h : n ≤ cfg5.N) (hz : n ≠ 0) :
    PhiS5 V c n h = iprop(iprop(iprop(owns (c : Thread nD τ) scM5_0 fullShare ((outsAt5 V c (n - 1) (by omega)).2)) ∗ RB5 c) ∗ (∃ r, prngReg c r)) := by
  cases n with
  | zero => exact absurd rfl hz
  | succ n => rfl

/-! ## The pipeline's proof data -/

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem PhiS5_castSucc (c : Dev nD) (t : Fin cfg5.N) :
    (dat5 V c).Φ t.castSucc = PhiS5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 8000000 in
/-- The body at any point: the inputs' memrefs hold their blocks; the closed forms say which case the point is in; the
    invariant hands the body the accumulator at what the point before left (at anything before the first point) and takes
    it back at this point's contents; an idle output's buffer is handed back as found; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  have hN : t.val < 128 := lt_of_lt_of_eq t.isLt (show cfg5.N = 128 from N_5)
  by_cases h0 : t.val % 16 = 0
  · by_cases h1 : t.val % 16 = 15
    · exfalso; omega
    · have hc0 : cond5_0 (grid5.coords t) := (hcond5_0 t).mpr h0
      have hc1 : ¬cond5_1 (grid5.coords t) := fun h => h1 ((hcond5_1 t).mp h)
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [Dat.leavesExact_idle (dat5 V c) 3 t (idleAt5_3 t hc1) (noFlush5_3 t hc1)]
      rw [outsAt5_A V c t h0 h1]
      unfold soutA5 runA5; (try dsimp only)
      by_cases hz : t.val = 0
      · rw [PhiS5_castSucc V c t, PhiS5_zero V c _ _ hz, PhiA5_eq]
        iintro ⟨⟨⟨HS0, Hrb⟩, Hg⟩, Ho, ⟨%d0, H0⟩, ⟨%d1, H1⟩, ⟨%d2, H2⟩, ⟨%d3, H3⟩⟩
        iapply ((kernelRun5_A c (grid5.coords t) (ms5_0 t) (hs5_0 t) (ms5_1 t) (hs5_1 t) (ms5_2 t) (hs5_2 t) (ms5_3 t) (hs5_3 t) scM5_0 (Memref.isWhole_whole _) hc0 hc1 (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrb Hg]
        · isplitl [HS0 Hrb]
          · isplitl [HS0]
            · unfold owns; iexists _; isplitr
              swap; · iexact HS0
              ipureintro; exact View.read_writes_of_cover _ _ _ _ _ (scover5_A V c t hc0 hc1)
            iexact Hrb
          iexact Hg
        isplitl [Ho]; · iexact Ho
        isplitl [H0]; · iexact H0
        isplitl [H1]; · iexact H1
        isplitl [H2]; · iexact H2
        iexists _; iexact H3
      · rw [PhiS5_castSucc V c t, PhiS5_pos V c _ _ hz]
        iintro ⟨⟨⟨HS0, Hrb⟩, Hg⟩, Ho, ⟨%d0, H0⟩, ⟨%d1, H1⟩, ⟨%d2, H2⟩, ⟨%d3, H3⟩⟩
        iapply ((kernelRun5_A c (grid5.coords t) (ms5_0 t) (hs5_0 t) (ms5_1 t) (hs5_1 t) (ms5_2 t) (hs5_2 t) (ms5_3 t) (hs5_3 t) scM5_0 (Memref.isWhole_whole _) hc0 hc1 (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrb Hg]
        · isplitl [HS0 Hrb]
          · isplitl [HS0]
            · unfold owns; iexists _; isplitr
              swap; · iexact HS0
              ipureintro; exact View.read_writes_of_cover _ _ _ _ _ (scover5_A V c t hc0 hc1)
            iexact Hrb
          iexact Hg
        isplitl [Ho]; · iexact Ho
        isplitl [H0]; · iexact H0
        isplitl [H1]; · iexact H1
        isplitl [H2]; · iexact H2
        iexists _; iexact H3
  · have hc0 : ¬cond5_0 (grid5.coords t) := fun h => h0 ((hcond5_0 t).mp h)
    have hz : t.val ≠ 0 := fun hz => h0 (by rw [hz])
    by_cases h1 : t.val % 16 = 15
    · have hc1 : cond5_1 (grid5.coords t) := (hcond5_1 t).mpr h1
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t hc1], after5_3]
      rw [outsAt5_C V c t h0 h1]
      unfold outC5 soutC5 runC5; (try dsimp only)
      rw [PhiS5_castSucc V c t, PhiS5_pos V c _ _ hz]
      iintro ⟨⟨⟨HS0, Hrb⟩, Hg⟩, Ho, ⟨%d0, H0⟩, ⟨%d1, H1⟩, ⟨%d2, H2⟩, ⟨%d3, H3⟩⟩
      iapply ((kernelRun5_C c (grid5.coords t) (ms5_0 t) (hs5_0 t) (ms5_1 t) (hs5_1 t) (ms5_2 t) (hs5_2 t) (ms5_3 t) (hs5_3 t) scM5_0 (Memref.isWhole_whole _) hc0 hc1 (iblk5 V c 0 t) (iblk5 V c 1 t) (iblk5 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover5_C V c t hc0 hc1 _)
          iexact Hrb
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover5_C V c t hc0 hc1 _)
    · have hc1 : ¬cond5_1 (grid5.coords t) := fun h => h1 ((hcond5_1 t).mp h)
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [Dat.leavesExact_idle (dat5 V c) 3 t (idleAt5_3 t hc1) (noFlush5_3 t hc1)]
      rw [outsAt5_B V c t h0 h1]
      unfold soutB5 runB5; (try dsimp only)
      rw [PhiS5_castSucc V c t, PhiS5_pos V c _ _ hz]
      iintro ⟨⟨⟨HS0, Hrb⟩, Hg⟩, Ho, ⟨%d0, H0⟩, ⟨%d1, H1⟩, ⟨%d2, H2⟩, ⟨%d3, H3⟩⟩
      iapply ((kernelRun5_B c (grid5.coords t) (ms5_0 t) (hs5_0 t) (ms5_1 t) (hs5_1 t) (ms5_2 t) (hs5_2 t) (ms5_3 t) (hs5_3 t) scM5_0 (Memref.isWhole_whole _) hc0 hc1 (iblk5 V c 0 t) (iblk5 V c 1 t) (iblk5 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover5_B V c t hc0 hc1 _)
          iexact Hrb
        iexact Hg
      isplitl [Ho]; · iexact Ho
      isplitl [H0]; · iexact H0
      isplitl [H1]; · iexact H1
      isplitl [H2]; · iexact H2
      iexists _; iexact H3

theorem body_obligation5 (c : Dev nD) : BodyObligation (dat5 (F := F) V c) (defs₀ (F := F)) Variants.none () Set.univ := fun t => by
  rw [bigSep_W5, bigSep_W5]
  exact sound_body5 V c t

/-- What the region is handed is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After the last point the invariant gives the scoped rest back: the accumulator's named contents are forgotten. -/
theorem hout5 (c : Dev nD) : (dat5 V c).Φ (Fin.last cfg5.N) ⊢ Pipeline.ΦA spec5 c := by
  have ht : (Fin.last cfg5.N).val ≠ 0 := by rw [Fin.val_last]; have : cfg5.N = 128 := N_5; omega
  rw [show (dat5 V c).Φ (Fin.last cfg5.N) = PhiS5 V c (Fin.last cfg5.N).val (Nat.le_of_lt_succ (Fin.last cfg5.N).isLt) from rfl,
    PhiS5_pos V c _ _ ht, PhiA5_eq]
  iintro ⟨⟨HS0, Hrb⟩, Hg⟩
  isplitl [HS0 Hrb]
  · isplitl [HS0]
    · iexists _; iexact HS0
    iexact Hrb
  iexact Hg

end Cert.Kernel.Frame

end
-- ==== Proof.Bits.Dense6.lean ====
/-
  Region 6 of the program: one dense layer, `out = x · W + b` on 2048-row blocks. The grid has 8 points; at point `t`
  the body reads the `t`-th 2048×512 block of the activations, the whole weight matrix and the whole bias row (both
  fetched once and never moved), and stores ONE value covering the whole output block. So after the body the output's
  staging buffer holds a single piece: the body's arithmetic (the skeleton's payload) of the three input blocks; the
  inputs' buffers are as they were. This module states that at any contents `V` of the core's buffers at the region's
  entry: the blocks, what the body leaves, the body's triple, the pipeline's proof data and the body obligation at every point.
-/
import proofs.«134615_j996432413323_2_alg».proof.Proof.Gen.Kernel.Launch
import proofs.«134615_j996432413323_2_alg».proof.Proof.Gen.Kernel.Skeleton
import proofs.«134615_j996432413323_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, whether fetched there or not: where it is
    not fetched its block index has not moved since the fetch. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The whole-buffer rectangles the body loads and stores through. -/
abbrev rx6 : Rect S2048x512 := Rect.unit (s := S2048x512) ![0, 0] S2048x512.size inb_S2048x512_S2048x512_0_0
abbrev rw6 : Rect S512x128 := Rect.unit (s := S512x128) ![0, 0] S512x128.size inb_S512x128_S512x128_0_0
abbrev rb6 : Rect S1x128 := Rect.unit (s := S1x128) ![0, 0] S1x128.size inb_S1x128_S1x128_0_0
abbrev ro6 : Rect S2048x128 := Rect.unit (s := S2048x128) ![0, 0] S2048x128.size inb_S2048x128_S2048x128_0_0

/-- The output's staging buffer after the body, from the input blocks: its one store as a piece. -/
def out6_3 (x0 : Vec F S2048x512 .f32) (x1 : Vec F S512x128 .f32) (x2 : Vec F S1x128 .f32) : Vec F S2048x128 .f32 :=
  View.canon [⟨ro6, k6_pay1 (View.ld x0 rx6) (View.ld x1 rw6) (View.ld x2 rb6)⟩]

/-- The one store covers the buffer. -/
theorem cover6_3 (p0 : Vec F S2048x128 .f32) (y : S2048x128.Idx) :
    ∃ pc ∈ ([⟨ro6, p0⟩] : List (View.Piece (Elt F) S2048x128 .f32)), y ∈ pc.1.set :=
  View.cover_of_tiled [⟨ro6, p0⟩] S2048x128.size (by rfl) y

set_option maxHeartbeats 4000000 in
/-- The body on whole staging memrefs, the inputs' at contents `x0 x1 x2` and the output's at anything, runs to the
    continuation with the inputs' as they were and the output's at `out6_3` of them. -/
theorem sound_kernel6 (c : Dev nD) (E : Set ℕ) (i : grid6.Coords) (arg1 : Memref sig .tc .vmem S2048x512 .f32) (harg1 : arg1.IsWhole) (arg2 : Memref sig .tc .vmem S512x128 .f32) (harg2 : arg2.IsWhole)
    (arg3 : Memref sig .tc .vmem S1x128 .f32) (harg3 : arg3.IsWhole) (arg4 : Memref sig .tc .vmem S2048x128 .f32) (harg4 : arg4.IsWhole)
    (x0 : Vec F S2048x512 .f32) (x1 : Vec F S512x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__dense_kernel i arg1 harg1 arg2 harg2 arg3 harg3 arg4 harg4) K := by
  simp only [cc6__dense_kernel_eq_skeleton]; unfold cc6__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The proof data of pipeline 6 on core `c`: the arrays as the region finds them; after the body at point `t` each
    input's buffer at its block and the output's at `out6_3` of the input blocks; the invariant the untouched scoped rest
    and generator register; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so the body's triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Frame

end
-- ==== Proof.Bits.Run.lean ====
/-
  The whole run of the program: seven kernel regions among stretches of host operations. Between two items core `c` holds
  every unscoped buffer at a valuation — the launch contents, then each host stretch applied, then each region's output
  array replaced by what the region leaves — beside the generator register and the core's dues, at nothing. What a region
  leaves depends on what it is entered with, which depends on what the regions before left: the contents are therefore
  built region by region (`o2`, `o4`, …), each from the valuation the regions before determine, and only then collected
  into the one family of unknowns (`outsF`) the conditional frame is stated over; that the collected family gives every
  region the same entry valuation as the staged one is the congruence of the valuations in the unknowns. Each region is a
  segment record over its proof data: entry and exit split the region's arrays out of the unscoped buffers and put them
  back; a dense region's invariant is the untouched scoped rest; an accumulating region's invariant is entered from and
  gives back the untouched scoped rest. The run then has in its post the result array at region 6's fold and every argument
  as launched.
-/
import proofs.«134615_j996432413323_2_alg».proof.Proof.Bits.Dense0
import proofs.«134615_j996432413323_2_alg».proof.Proof.Bits.Gc1
import proofs.«134615_j996432413323_2_alg».proof.Proof.Bits.Dense2
import proofs.«134615_j996432413323_2_alg».proof.Proof.Bits.Gc3
import proofs.«134615_j996432413323_2_alg».proof.Proof.Bits.Dense4
import proofs.«134615_j996432413323_2_alg».proof.Proof.Bits.Gc5
import proofs.«134615_j996432413323_2_alg».proof.Proof.Bits.Dense6
import proofs.«134615_j996432413323_2_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The run from the regions' records, with the result array in its post -/

set_option backward.isDefEq.respectTransparency.types false in
/-- The run of @main from one segment record per region, as the conditional frame states it, with ONE MORE conjunct in the post: the
    result array `main_v24` ends at what the last valuation holds for it. The proof is the conditional frame's, the result's buffer read
    off the last valuation beside the arguments'. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 7) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 8 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE7 : ∀ c : Dev nD, E 7 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c)) :
    θ_run defs (onTc (τ := τ) (main (F := F))) ⟨m, fun _ => 0, ρ⟩ (fun r => ∀ c : Dev nD,
      r.2.mem ((c.tc : Thread nD τ).loc main_v24) = Gen.V14 m outs c main_v24
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) adm pdats ι cellOf_inj EP defs₀ 𝒱₀ L lv m ρ main
    (segs m outs 𝒱₀ L lv E ι pdats R0 R1 R2 R3 R4 R5 R6)
    (fun c Q => by
      rewrite [main_chain c, Seg.run_eq_chain,
        show (segs m outs 𝒱₀ L lv E ι pdats R0 R1 R2 R3 R4 R5 R6 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V14 m outs c))
    (hch := fun c => ⟨.rfl, hpre0 c, hpost0 c, hpre1 c, hpost1 c, hpre2 c, hpost2 c, hpre3 c, hpost3 c, hpre4 c, hpost4 c, hpre5 c, hpost5 c, hpre6 c, (hpost6 c).trans (sep_mono .rfl (hE7 c))⟩)
    (hinit := ?_) (QY := fun c s => s.mem ((c.tc : Thread nD τ).loc main_v24) = Gen.V14 m outs c main_v24 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V14 m outs c) s') $$ [Hh HSI]
    · isplitl [Hh] <;> iassumption
    icases Hr with ⟨%h, HSI⟩
    imodintro
    isplitr
    · ipureintro
      exact ⟨h (Proc.devRef .tc main_v24) (Finset.mem_filter.mpr ⟨StableHlo.devRef_mem_tcRefs main_v24, by decide⟩),
        (h (Proc.devRef .tc main_arg0) (Finset.mem_filter.mpr ⟨StableHlo.devRef_mem_tcRefs main_arg0, by decide⟩)).trans (V14_main_arg0 m outs c),
        (h (Proc.devRef .tc main_arg1) (Finset.mem_filter.mpr ⟨StableHlo.devRef_mem_tcRefs main_arg1, by decide⟩)).trans (V14_main_arg1 m outs c),
        (h (Proc.devRef .tc main_arg2) (Finset.mem_filter.mpr ⟨StableHlo.devRef_mem_tcRefs main_arg2, by decide⟩)).trans (V14_main_arg2 m outs c),
        (h (Proc.devRef .tc main_arg3) (Finset.mem_filter.mpr ⟨StableHlo.devRef_mem_tcRefs main_arg3, by decide⟩)).trans (V14_main_arg3 m outs c),
        (h (Proc.devRef .tc main_arg4) (Finset.mem_filter.mpr ⟨StableHlo.devRef_mem_tcRefs main_arg4, by decide⟩)).trans (V14_main_arg4 m outs c),
        (h (Proc.devRef .tc main_arg5) (Finset.mem_filter.mpr ⟨StableHlo.devRef_mem_tcRefs main_arg5, by decide⟩)).trans (V14_main_arg5 m outs c),
        (h (Proc.devRef .tc main_arg6) (Finset.mem_filter.mpr ⟨StableHlo.devRef_mem_tcRefs main_arg6, by decide⟩)).trans (V14_main_arg6 m outs c),
        (h (Proc.devRef .tc main_arg7) (Finset.mem_filter.mpr ⟨StableHlo.devRef_mem_tcRefs main_arg7, by decide⟩)).trans (V14_main_arg7 m outs c)⟩
    · iexact HSI

/-! ## A family of unknowns with one more entry -/

/-- `prev` with the entry at `(n0, r0)` set to `o`. -/
def stage (prev : Gen.Outs (F := F)) (n0 : ℕ) (r0 : Ref sig .tc) (o : (c : Dev nD) → Buf (Elt F) ((c : Thread nD τ).loc r0)) : Gen.Outs (F := F) :=
  fun n r c => if h : n = n0 ∧ r = r0 then h.2 ▸ o c else prev n r c
theorem stage_hit (prev : Gen.Outs (F := F)) (n0 : ℕ) (r0 : Ref sig .tc) (o : (c : Dev nD) → Buf (Elt F) ((c : Thread nD τ).loc r0)) (c : Dev nD) :
    stage prev n0 r0 o n0 r0 c = o c := by
  unfold stage; rw [dif_pos ⟨rfl, rfl⟩]
theorem stage_miss (prev : Gen.Outs (F := F)) (n0 : ℕ) (r0 : Ref sig .tc) (o : (c : Dev nD) → Buf (Elt F) ((c : Thread nD τ).loc r0)) (c : Dev nD)
    {n : ℕ} {r : Ref sig .tc} (h : n ≠ n0) : stage prev n0 r0 o n r c = prev n r c := by
  unfold stage; rw [dif_neg fun h' => h h'.1]
/-- The family before any region: the launch contents (never read). -/
abbrev junk : Gen.Outs (F := F) := fun _ r c => m ((c : Thread nD τ).loc r)

/-! ## The valuations depend on the unknowns only through the entries before them -/

theorem V2_congr {o o' : Gen.Outs (F := F)} (c : Dev nD) (h2 : o 2 main_v2 c = o' 2 main_v2 c) : Gen.V2 m o c = Gen.V2 m o' c :=
  (congrArg (fun x => Function.update (Gen.V1 m c) (Proc.devRef .tc main_v2 : DevRef τ sig) x) h2)
theorem V3_congr {o o' : Gen.Outs (F := F)} (c : Dev nD) (h2 : o 2 main_v2 c = o' 2 main_v2 c) : Gen.V3 m o c = Gen.V3 m o' c :=
  congrArg (StableHlo.after hostOps1) (V2_congr m c h2)
theorem V4_congr {o o' : Gen.Outs (F := F)} (c : Dev nD) (h2 : o 2 main_v2 c = o' 2 main_v2 c) (h4 : o 4 main_v4 c = o' 4 main_v4 c) : Gen.V4 m o c = Gen.V4 m o' c :=
  (congrArg (fun V => Function.update V (Proc.devRef .tc main_v4 : DevRef τ sig) (o 4 main_v4 c)) (V3_congr m c h2)).trans (congrArg (fun x => Function.update (Gen.V3 m o' c) (Proc.devRef .tc main_v4 : DevRef τ sig) x) h4)
theorem V5_congr {o o' : Gen.Outs (F := F)} (c : Dev nD) (h2 : o 2 main_v2 c = o' 2 main_v2 c) (h4 : o 4 main_v4 c = o' 4 main_v4 c) : Gen.V5 m o c = Gen.V5 m o' c :=
  congrArg (StableHlo.after hostOps2) (V4_congr m c h2 h4)
theorem V6_congr {o o' : Gen.Outs (F := F)} (c : Dev nD) (h2 : o 2 main_v2 c = o' 2 main_v2 c) (h4 : o 4 main_v4 c = o' 4 main_v4 c) (h6 : o 6 main_v11 c = o' 6 main_v11 c) : Gen.V6 m o c = Gen.V6 m o' c :=
  (congrArg (fun V => Function.update V (Proc.devRef .tc main_v11 : DevRef τ sig) (o 6 main_v11 c)) (V5_congr m c h2 h4)).trans (congrArg (fun x => Function.update (Gen.V5 m o' c) (Proc.devRef .tc main_v11 : DevRef τ sig) x) h6)
theorem V7_congr {o o' : Gen.Outs (F := F)} (c : Dev nD) (h2 : o 2 main_v2 c = o' 2 main_v2 c) (h4 : o 4 main_v4 c = o' 4 main_v4 c) (h6 : o 6 main_v11 c = o' 6 main_v11 c) : Gen.V7 m o c = Gen.V7 m o' c :=
  congrArg (StableHlo.after hostOps3) (V6_congr m c h2 h4 h6)
theorem V8_congr {o o' : Gen.Outs (F := F)} (c : Dev nD) (h2 : o 2 main_v2 c = o' 2 main_v2 c) (h4 : o 4 main_v4 c = o' 4 main_v4 c) (h6 : o 6 main_v11 c = o' 6 main_v11 c) (h8 : o 8 main_v13 c = o' 8 main_v13 c) : Gen.V8 m o c = Gen.V8 m o' c :=
  (congrArg (fun V => Function.update V (Proc.devRef .tc main_v13 : DevRef τ sig) (o 8 main_v13 c)) (V7_congr m c h2 h4 h6)).trans (congrArg (fun x => Function.update (Gen.V7 m o' c) (Proc.devRef .tc main_v13 : DevRef τ sig) x) h8)
theorem V9_congr {o o' : Gen.Outs (F := F)} (c : Dev nD) (h2 : o 2 main_v2 c = o' 2 main_v2 c) (h4 : o 4 main_v4 c = o' 4 main_v4 c) (h6 : o 6 main_v11 c = o' 6 main_v11 c) (h8 : o 8 main_v13 c = o' 8 main_v13 c) : Gen.V9 m o c = Gen.V9 m o' c :=
  congrArg (StableHlo.after hostOps4) (V8_congr m c h2 h4 h6 h8)
theorem V10_congr {o o' : Gen.Outs (F := F)} (c : Dev nD) (h2 : o 2 main_v2 c = o' 2 main_v2 c) (h4 : o 4 main_v4 c = o' 4 main_v4 c) (h6 : o 6 main_v11 c = o' 6 main_v11 c) (h8 : o 8 main_v13 c = o' 8 main_v13 c) (h10 : o 10 main_v20 c = o' 10 main_v20 c) : Gen.V10 m o c = Gen.V10 m o' c :=
  (congrArg (fun V => Function.update V (Proc.devRef .tc main_v20 : DevRef τ sig) (o 10 main_v20 c)) (V9_congr m c h2 h4 h6 h8)).trans (congrArg (fun x => Function.update (Gen.V9 m o' c) (Proc.devRef .tc main_v20 : DevRef τ sig) x) h10)
theorem V11_congr {o o' : Gen.Outs (F := F)} (c : Dev nD) (h2 : o 2 main_v2 c = o' 2 main_v2 c) (h4 : o 4 main_v4 c = o' 4 main_v4 c) (h6 : o 6 main_v11 c = o' 6 main_v11 c) (h8 : o 8 main_v13 c = o' 8 main_v13 c) (h10 : o 10 main_v20 c = o' 10 main_v20 c) : Gen.V11 m o c = Gen.V11 m o' c :=
  congrArg (StableHlo.after hostOps5) (V10_congr m c h2 h4 h6 h8 h10)
theorem V12_congr {o o' : Gen.Outs (F := F)} (c : Dev nD) (h2 : o 2 main_v2 c = o' 2 main_v2 c) (h4 : o 4 main_v4 c = o' 4 main_v4 c) (h6 : o 6 main_v11 c = o' 6 main_v11 c) (h8 : o 8 main_v13 c = o' 8 main_v13 c) (h10 : o 10 main_v20 c = o' 10 main_v20 c) (h12 : o 12 main_v22 c = o' 12 main_v22 c) : Gen.V12 m o c = Gen.V12 m o' c :=
  (congrArg (fun V => Function.update V (Proc.devRef .tc main_v22 : DevRef τ sig) (o 12 main_v22 c)) (V11_congr m c h2 h4 h6 h8 h10)).trans (congrArg (fun x => Function.update (Gen.V11 m o' c) (Proc.devRef .tc main_v22 : DevRef τ sig) x) h12)
theorem V13_congr {o o' : Gen.Outs (F := F)} (c : Dev nD) (h2 : o 2 main_v2 c = o' 2 main_v2 c) (h4 : o 4 main_v4 c = o' 4 main_v4 c) (h6 : o 6 main_v11 c = o' 6 main_v11 c) (h8 : o 8 main_v13 c = o' 8 main_v13 c) (h10 : o 10 main_v20 c = o' 10 main_v20 c) (h12 : o 12 main_v22 c = o' 12 main_v22 c) : Gen.V13 m o c = Gen.V13 m o' c :=
  congrArg (StableHlo.after hostOps6) (V12_congr m c h2 h4 h6 h8 h10 h12)

/-! ## What each region leaves, region by region -/

/-- Region 0 is entered from contents no region has touched. -/
abbrev Ve1 (c : Dev nD) (b : Ref sig .tc) : Buf (Elt F) ((c : Thread nD τ).loc b) := Gen.V1 m c b
/-- What region 0 leaves in its output array: the pipeline's write-backs of its proof data folded. -/
def o2 (c : Dev nD) : Buf (Elt F) ((c : Thread nD τ).loc main_v2) := (dat0 (Ve1 m) c).arrAt 3 cfg0.N
abbrev mk1 : Gen.Outs (F := F) := stage (junk m) 2 main_v2 (o2 m)
abbrev Ve3 (c : Dev nD) (b : Ref sig .tc) : Buf (Elt F) ((c : Thread nD τ).loc b) := Gen.V3 m (mk1 m) c b
def o4 (c : Dev nD) : Buf (Elt F) ((c : Thread nD τ).loc main_v4) := (dat1 (Ve3 m) c).arrAt 3 cfg1.N
abbrev mk2 : Gen.Outs (F := F) := stage (mk1 m) 4 main_v4 (o4 m)
abbrev Ve5 (c : Dev nD) (b : Ref sig .tc) : Buf (Elt F) ((c : Thread nD τ).loc b) := Gen.V5 m (mk2 m) c b
def o6 (c : Dev nD) : Buf (Elt F) ((c : Thread nD τ).loc main_v11) := (dat2 (Ve5 m) c).arrAt 3 cfg2.N
abbrev mk3 : Gen.Outs (F := F) := stage (mk2 m) 6 main_v11 (o6 m)
abbrev Ve7 (c : Dev nD) (b : Ref sig .tc) : Buf (Elt F) ((c : Thread nD τ).loc b) := Gen.V7 m (mk3 m) c b
def o8 (c : Dev nD) : Buf (Elt F) ((c : Thread nD τ).loc main_v13) := (dat3 (Ve7 m) c).arrAt 3 cfg3.N
abbrev mk4 : Gen.Outs (F := F) := stage (mk3 m) 8 main_v13 (o8 m)
abbrev Ve9 (c : Dev nD) (b : Ref sig .tc) : Buf (Elt F) ((c : Thread nD τ).loc b) := Gen.V9 m (mk4 m) c b
def o10 (c : Dev nD) : Buf (Elt F) ((c : Thread nD τ).loc main_v20) := (dat4 (Ve9 m) c).arrAt 3 cfg4.N
abbrev mk5 : Gen.Outs (F := F) := stage (mk4 m) 10 main_v20 (o10 m)
abbrev Ve11 (c : Dev nD) (b : Ref sig .tc) : Buf (Elt F) ((c : Thread nD τ).loc b) := Gen.V11 m (mk5 m) c b
def o12 (c : Dev nD) : Buf (Elt F) ((c : Thread nD τ).loc main_v22) := (dat5 (Ve11 m) c).arrAt 3 cfg5.N
abbrev mk6 : Gen.Outs (F := F) := stage (mk5 m) 12 main_v22 (o12 m)
abbrev Ve13 (c : Dev nD) (b : Ref sig .tc) : Buf (Elt F) ((c : Thread nD τ).loc b) := Gen.V13 m (mk6 m) c b
def o14 (c : Dev nD) : Buf (Elt F) ((c : Thread nD τ).loc main_v24) := (dat6 (Ve13 m) c).arrAt 3 cfg6.N
abbrev mk7 : Gen.Outs (F := F) := stage (mk6 m) 14 main_v24 (o14 m)

theorem hit1_1 (c : Dev nD) : mk1 m 2 main_v2 c = o2 m c := stage_hit _ _ _ _ c
theorem hit2_1 (c : Dev nD) : mk2 m 2 main_v2 c = o2 m c := (stage_miss _ _ _ _ c (by decide)).trans (hit1_1 m c)
theorem hit2_2 (c : Dev nD) : mk2 m 4 main_v4 c = o4 m c := stage_hit _ _ _ _ c
theorem hit3_1 (c : Dev nD) : mk3 m 2 main_v2 c = o2 m c := (stage_miss _ _ _ _ c (by decide)).trans (hit2_1 m c)
theorem hit3_2 (c : Dev nD) : mk3 m 4 main_v4 c = o4 m c := (stage_miss _ _ _ _ c (by decide)).trans (hit2_2 m c)
theorem hit3_3 (c : Dev nD) : mk3 m 6 main_v11 c = o6 m c := stage_hit _ _ _ _ c
theorem hit4_1 (c : Dev nD) : mk4 m 2 main_v2 c = o2 m c := (stage_miss _ _ _ _ c (by decide)).trans (hit3_1 m c)
theorem hit4_2 (c : Dev nD) : mk4 m 4 main_v4 c = o4 m c := (stage_miss _ _ _ _ c (by decide)).trans (hit3_2 m c)
theorem hit4_3 (c : Dev nD) : mk4 m 6 main_v11 c = o6 m c := (stage_miss _ _ _ _ c (by decide)).trans (hit3_3 m c)
theorem hit4_4 (c : Dev nD) : mk4 m 8 main_v13 c = o8 m c := stage_hit _ _ _ _ c
theorem hit5_1 (c : Dev nD) : mk5 m 2 main_v2 c = o2 m c := (stage_miss _ _ _ _ c (by decide)).trans (hit4_1 m c)
theorem hit5_2 (c : Dev nD) : mk5 m 4 main_v4 c = o4 m c := (stage_miss _ _ _ _ c (by decide)).trans (hit4_2 m c)
theorem hit5_3 (c : Dev nD) : mk5 m 6 main_v11 c = o6 m c := (stage_miss _ _ _ _ c (by decide)).trans (hit4_3 m c)
theorem hit5_4 (c : Dev nD) : mk5 m 8 main_v13 c = o8 m c := (stage_miss _ _ _ _ c (by decide)).trans (hit4_4 m c)
theorem hit5_5 (c : Dev nD) : mk5 m 10 main_v20 c = o10 m c := stage_hit _ _ _ _ c
theorem hit6_1 (c : Dev nD) : mk6 m 2 main_v2 c = o2 m c := (stage_miss _ _ _ _ c (by decide)).trans (hit5_1 m c)
theorem hit6_2 (c : Dev nD) : mk6 m 4 main_v4 c = o4 m c := (stage_miss _ _ _ _ c (by decide)).trans (hit5_2 m c)
theorem hit6_3 (c : Dev nD) : mk6 m 6 main_v11 c = o6 m c := (stage_miss _ _ _ _ c (by decide)).trans (hit5_3 m c)
theorem hit6_4 (c : Dev nD) : mk6 m 8 main_v13 c = o8 m c := (stage_miss _ _ _ _ c (by decide)).trans (hit5_4 m c)
theorem hit6_5 (c : Dev nD) : mk6 m 10 main_v20 c = o10 m c := (stage_miss _ _ _ _ c (by decide)).trans (hit5_5 m c)
theorem hit6_6 (c : Dev nD) : mk6 m 12 main_v22 c = o12 m c := stage_hit _ _ _ _ c
theorem hit7_1 (c : Dev nD) : mk7 m 2 main_v2 c = o2 m c := (stage_miss _ _ _ _ c (by decide)).trans (hit6_1 m c)
theorem hit7_2 (c : Dev nD) : mk7 m 4 main_v4 c = o4 m c := (stage_miss _ _ _ _ c (by decide)).trans (hit6_2 m c)
theorem hit7_3 (c : Dev nD) : mk7 m 6 main_v11 c = o6 m c := (stage_miss _ _ _ _ c (by decide)).trans (hit6_3 m c)
theorem hit7_4 (c : Dev nD) : mk7 m 8 main_v13 c = o8 m c := (stage_miss _ _ _ _ c (by decide)).trans (hit6_4 m c)
theorem hit7_5 (c : Dev nD) : mk7 m 10 main_v20 c = o10 m c := (stage_miss _ _ _ _ c (by decide)).trans (hit6_5 m c)
theorem hit7_6 (c : Dev nD) : mk7 m 12 main_v22 c = o12 m c := (stage_miss _ _ _ _ c (by decide)).trans (hit6_6 m c)
theorem hit7_7 (c : Dev nD) : mk7 m 14 main_v24 c = o14 m c := stage_hit _ _ _ _ c

/-! ## The collected family -/

/-- What every region leaves, all at once: the unknowns the conditional frame's valuations are read at. -/
abbrev outsF : Gen.Outs (F := F) := mk7 m
abbrev VF1 (c : Dev nD) (b : Ref sig .tc) : Buf (Elt F) ((c : Thread nD τ).loc b) := Gen.V1 m c b
abbrev VF2 (c : Dev nD) (b : Ref sig .tc) : Buf (Elt F) ((c : Thread nD τ).loc b) := Gen.V2 m (outsF m) c b
theorem ent0 : VF1 m = Ve1 m := rfl
/-- The unknown for region 0's output array IS what the region's proof data leave there. -/
theorem outF0 (c : Dev nD) : outsF m 2 main_v2 c = (dat0 (VF1 m) c).arrAt 3 cfg0.N :=
  (hit7_1 m c).trans (by rw [ent0 m]; rfl)
abbrev VF3 (c : Dev nD) (b : Ref sig .tc) : Buf (Elt F) ((c : Thread nD τ).loc b) := Gen.V3 m (outsF m) c b
abbrev VF4 (c : Dev nD) (b : Ref sig .tc) : Buf (Elt F) ((c : Thread nD τ).loc b) := Gen.V4 m (outsF m) c b
theorem ent1 : VF3 m = Ve3 m := funext fun c => funext fun b => congrFun (V3_congr m c ((hit7_1 m c).trans (hit1_1 m c).symm)) _
/-- The unknown for region 1's output array IS what the region's proof data leave there. -/
theorem outF1 (c : Dev nD) : outsF m 4 main_v4 c = (dat1 (VF3 m) c).arrAt 3 cfg1.N :=
  (hit7_2 m c).trans (by rw [ent1 m]; rfl)
abbrev VF5 (c : Dev nD) (b : Ref sig .tc) : Buf (Elt F) ((c : Thread nD τ).loc b) := Gen.V5 m (outsF m) c b
abbrev VF6 (c : Dev nD) (b : Ref sig .tc) : Buf (Elt F) ((c : Thread nD τ).loc b) := Gen.V6 m (outsF m) c b
theorem ent2 : VF5 m = Ve5 m := funext fun c => funext fun b => congrFun (V5_congr m c ((hit7_1 m c).trans (hit2_1 m c).symm) ((hit7_2 m c).trans (hit2_2 m c).symm)) _
/-- The unknown for region 2's output array IS what the region's proof data leave there. -/
theorem outF2 (c : Dev nD) : outsF m 6 main_v11 c = (dat2 (VF5 m) c).arrAt 3 cfg2.N :=
  (hit7_3 m c).trans (by rw [ent2 m]; rfl)
abbrev VF7 (c : Dev nD) (b : Ref sig .tc) : Buf (Elt F) ((c : Thread nD τ).loc b) := Gen.V7 m (outsF m) c b
abbrev VF8 (c : Dev nD) (b : Ref sig .tc) : Buf (Elt F) ((c : Thread nD τ).loc b) := Gen.V8 m (outsF m) c b
theorem ent3 : VF7 m = Ve7 m := funext fun c => funext fun b => congrFun (V7_congr m c ((hit7_1 m c).trans (hit3_1 m c).symm) ((hit7_2 m c).trans (hit3_2 m c).symm) ((hit7_3 m c).trans (hit3_3 m c).symm)) _
/-- The unknown for region 3's output array IS what the region's proof data leave there. -/
theorem outF3 (c : Dev nD) : outsF m 8 main_v13 c = (dat3 (VF7 m) c).arrAt 3 cfg3.N :=
  (hit7_4 m c).trans (by rw [ent3 m]; rfl)
abbrev VF9 (c : Dev nD) (b : Ref sig .tc) : Buf (Elt F) ((c : Thread nD τ).loc b) := Gen.V9 m (outsF m) c b
abbrev VF10 (c : Dev nD) (b : Ref sig .tc) : Buf (Elt F) ((c : Thread nD τ).loc b) := Gen.V10 m (outsF m) c b
theorem ent4 : VF9 m = Ve9 m := funext fun c => funext fun b => congrFun (V9_congr m c ((hit7_1 m c).trans (hit4_1 m c).symm) ((hit7_2 m c).trans (hit4_2 m c).symm) ((hit7_3 m c).trans (hit4_3 m c).symm) ((hit7_4 m c).trans (hit4_4 m c).symm)) _
/-- The unknown for region 4's output array IS what the region's proof data leave there. -/
theorem outF4 (c : Dev nD) : outsF m 10 main_v20 c = (dat4 (VF9 m) c).arrAt 3 cfg4.N :=
  (hit7_5 m c).trans (by rw [ent4 m]; rfl)
abbrev VF11 (c : Dev nD) (b : Ref sig .tc) : Buf (Elt F) ((c : Thread nD τ).loc b) := Gen.V11 m (outsF m) c b
abbrev VF12 (c : Dev nD) (b : Ref sig .tc) : Buf (Elt F) ((c : Thread nD τ).loc b) := Gen.V12 m (outsF m) c b
theorem ent5 : VF11 m = Ve11 m := funext fun c => funext fun b => congrFun (V11_congr m c ((hit7_1 m c).trans (hit5_1 m c).symm) ((hit7_2 m c).trans (hit5_2 m c).symm) ((hit7_3 m c).trans (hit5_3 m c).symm) ((hit7_4 m c).trans (hit5_4 m c).symm) ((hit7_5 m c).trans (hit5_5 m c).symm)) _
/-- The unknown for region 5's output array IS what the region's proof data leave there. -/
theorem outF5 (c : Dev nD) : outsF m 12 main_v22 c = (dat5 (VF11 m) c).arrAt 3 cfg5.N :=
  (hit7_6 m c).trans (by rw [ent5 m]; rfl)
abbrev VF13 (c : Dev nD) (b : Ref sig .tc) : Buf (Elt F) ((c : Thread nD τ).loc b) := Gen.V13 m (outsF m) c b
abbrev VF14 (c : Dev nD) (b : Ref sig .tc) : Buf (Elt F) ((c : Thread nD τ).loc b) := Gen.V14 m (outsF m) c b
theorem ent6 : VF13 m = Ve13 m := funext fun c => funext fun b => congrFun (V13_congr m c ((hit7_1 m c).trans (hit6_1 m c).symm) ((hit7_2 m c).trans (hit6_2 m c).symm) ((hit7_3 m c).trans (hit6_3 m c).symm) ((hit7_4 m c).trans (hit6_4 m c).symm) ((hit7_5 m c).trans (hit6_5 m c).symm) ((hit7_6 m c).trans (hit6_6 m c).symm)) _
/-- The unknown for region 6's output array IS what the region's proof data leave there. -/
theorem outF6 (c : Dev nD) : outsF m 14 main_v24 c = (dat6 (VF13 m) c).arrAt 3 cfg6.N :=
  (hit7_7 m c).trans (by rw [ent6 m]; rfl)

/-- Every pipeline's proof data, each at its region's entry contents. -/
def pdats : (p : Fin 7) → (c : Dev nD) → Dat τ (Elt F) Unit ℕ (UR sig nD τ) ℕ (cfgs p) c
  | ⟨0, _⟩ => fun c => dat0 (VF1 m) c
  | ⟨1, _⟩ => fun c => dat1 (VF3 m) c
  | ⟨2, _⟩ => fun c => dat2 (VF5 m) c
  | ⟨3, _⟩ => fun c => dat3 (VF7 m) c
  | ⟨4, _⟩ => fun c => dat4 (VF9 m) c
  | ⟨5, _⟩ => fun c => dat5 (VF11 m) c
  | ⟨6, _⟩ => fun c => dat6 (VF13 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)

/-- What the launch hands a core beside its buffers — its unscoped semaphores, dues at nothing, the launch credit, the generator
    register — makes what rides along. -/
theorem launch_rest (ρ : Dev nD → PrngReg) (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ iprop(emp)) : sProp 𝕄) ⊢ R (F := F) c := by
  iintro ⟨-, HO, -, Hp, -⟩
  isplitl [Hp]; · iexists _; iexact Hp
  iexists ∅; iexact HO

/-! ## The regions as segments -/

/-- The exit valuation at region 0's output array is the unknown. -/
theorem VFout0 (c : Dev nD) : VF2 m c main_v2 = outsF m 2 main_v2 c :=
  Function.update_self (Proc.devRef .tc main_v2 : DevRef τ sig) (outsF m 2 main_v2 c) (Gen.V1 m c)
/-- At region 0's exit each of its arrays holds what the pipeline leaves — an input array what it held at entry, the output
    array the unknown, which is the proof data's fold — and every other buffer what it held at entry. -/
theorem hF0 (c : Dev nD) : ∀ w : Fin 4, (pdats m 0 c).arrAt w cfg0.N = VF2 m c (Pipeline.arrRef spec0 w)
  | 0 => ((dat0 (VF1 m) c).arrAt_in 0 rfl _).trans ((A_eq0 (VF1 m) c 0).trans (Gen.V2_of m (outsF m) c _ (by decide)).symm)
  | 1 => ((dat0 (VF1 m) c).arrAt_in 1 rfl _).trans ((A_eq0 (VF1 m) c 1).trans (Gen.V2_of m (outsF m) c _ (by decide)).symm)
  | 2 => ((dat0 (VF1 m) c).arrAt_in 2 rfl _).trans ((A_eq0 (VF1 m) c 2).trans (Gen.V2_of m (outsF m) c _ (by decide)).symm)
  | 3 => (outF0 m c).symm.trans (VFout0 m c).symm
  | ⟨_ + 4, h⟩ => absurd h (Nat.not_lt.2 (Nat.le_add_left _ _))
theorem hrest0 (c : Dev nD) : ∀ b, b ∉ Finset.univ.image (Pipeline.arrRef spec0) → VF2 m c b = VF1 m c b :=
  fun b hb => Gen.V2_of m (outsF m) c b (fun h => hb (Finset.mem_image.mpr ⟨3, Finset.mem_univ _, (List.mem_singleton.mp h).symm⟩))

set_option backward.isDefEq.respectTransparency.types false in
/-- REGION 0 over the thread state: entered from every unscoped buffer at the contents before it, left at the contents after
    it; its arrays split out of the unscoped buffers and put back at the exit contents; the generator register into the
    region's invariant and out; nothing owed; no semaphore of the kernel's own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VF1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outsF m) c) ∗ R c)
  X c := iprop(∃ r, prngReg c r)
  Y c := iprop(∃ r, prngReg c r)
  Z c := Pipeline.unscopedRest (Ix := Unit) (Name := ℕ) (U := UR sig nD τ) (Lvl := ℕ) spec0 c (VF1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VF1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VF1 m c) (VF2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The exit valuation at region 1's output array is the unknown. -/
theorem VFout1 (c : Dev nD) : VF4 m c main_v4 = outsF m 4 main_v4 c :=
  Function.update_self (Proc.devRef .tc main_v4 : DevRef τ sig) (outsF m 4 main_v4 c) (Gen.V3 m (outsF m) c)
/-- At region 1's exit each of its arrays holds what the pipeline leaves — an input array what it held at entry, the output
    array the unknown, which is the proof data's fold — and every other buffer what it held at entry. -/
theorem hF1 (c : Dev nD) : ∀ w : Fin 4, (pdats m 1 c).arrAt w cfg1.N = VF4 m c (Pipeline.arrRef spec1 w)
  | 0 => ((dat1 (VF3 m) c).arrAt_in 0 rfl _).trans ((A_eq1 (VF3 m) c 0).trans (Gen.V4_of m (outsF m) c _ (by decide)).symm)
  | 1 => ((dat1 (VF3 m) c).arrAt_in 1 rfl _).trans ((A_eq1 (VF3 m) c 1).trans (Gen.V4_of m (outsF m) c _ (by decide)).symm)
  | 2 => ((dat1 (VF3 m) c).arrAt_in 2 rfl _).trans ((A_eq1 (VF3 m) c 2).trans (Gen.V4_of m (outsF m) c _ (by decide)).symm)
  | 3 => (outF1 m c).symm.trans (VFout1 m c).symm
  | ⟨_ + 4, h⟩ => absurd h (Nat.not_lt.2 (Nat.le_add_left _ _))
theorem hrest1 (c : Dev nD) : ∀ b, b ∉ Finset.univ.image (Pipeline.arrRef spec1) → VF4 m c b = VF3 m c b :=
  fun b hb => Gen.V4_of m (outsF m) c b (fun h => hb (Finset.mem_image.mpr ⟨3, Finset.mem_univ _, (List.mem_singleton.mp h).symm⟩))

set_option backward.isDefEq.respectTransparency.types false in
/-- REGION 1 over the thread state: entered from every unscoped buffer at the contents before it, left at the contents after
    it; its arrays split out of the unscoped buffers and put back at the exit contents; the generator register into the
    region's invariant and out; nothing owed; no semaphore of the kernel's own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VF3 m) c).loose
  hwaits := Pipeline.hwaits_of_owed_zero _ _ _ _ L lv 1 fun _ _ => rfl
  pre c := iprop(StableHlo.held (c : Thread nD τ) (Pipeline.ucRefs τ sig) (Gen.V3 m (outsF m) c) ∗ R c)
  post c := iprop(StableHlo.held (c : Thread nD τ) (Pipeline.ucRefs τ sig) (Gen.V4 m (outsF m) c) ∗ R c)
  X c := iprop(∃ r, prngReg c r)
  Y c := iprop(∃ r, prngReg c r)
  Z c := Pipeline.unscopedRest (Ix := Unit) (Name := ℕ) (U := UR sig nD τ) (Lvl := ℕ) spec1 c (VF3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VF3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (VF3 m) c)
    unfold Pipeline.ΦA
    iintro ⟨Hp, -, Hr⟩
    isplitl [Hr]; · iexact Hr
    iexact Hp
  hout c := by
    rw [Pipeline.ownSems0_none]
    refine (hout1 (VF3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VF3 m c) (VF4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The exit valuation at region 2's output array is the unknown. -/
theorem VFout2 (c : Dev nD) : VF6 m c main_v11 = outsF m 6 main_v11 c :=
  Function.update_self (Proc.devRef .tc main_v11 : DevRef τ sig) (outsF m 6 main_v11 c) (Gen.V5 m (outsF m) c)
/-- At region 2's exit each of its arrays holds what the pipeline leaves — an input array what it held at entry, the output
    array the unknown, which is the proof data's fold — and every other buffer what it held at entry. -/
theorem hF2 (c : Dev nD) : ∀ w : Fin 4, (pdats m 2 c).arrAt w cfg2.N = VF6 m c (Pipeline.arrRef spec2 w)
  | 0 => ((dat2 (VF5 m) c).arrAt_in 0 rfl _).trans ((A_eq2 (VF5 m) c 0).trans (Gen.V6_of m (outsF m) c _ (by decide)).symm)
  | 1 => ((dat2 (VF5 m) c).arrAt_in 1 rfl _).trans ((A_eq2 (VF5 m) c 1).trans (Gen.V6_of m (outsF m) c _ (by decide)).symm)
  | 2 => ((dat2 (VF5 m) c).arrAt_in 2 rfl _).trans ((A_eq2 (VF5 m) c 2).trans (Gen.V6_of m (outsF m) c _ (by decide)).symm)
  | 3 => (outF2 m c).symm.trans (VFout2 m c).symm
  | ⟨_ + 4, h⟩ => absurd h (Nat.not_lt.2 (Nat.le_add_left _ _))
theorem hrest2 (c : Dev nD) : ∀ b, b ∉ Finset.univ.image (Pipeline.arrRef spec2) → VF6 m c b = VF5 m c b :=
  fun b hb => Gen.V6_of m (outsF m) c b (fun h => hb (Finset.mem_image.mpr ⟨3, Finset.mem_univ _, (List.mem_singleton.mp h).symm⟩))

set_option backward.isDefEq.respectTransparency.types false in
/-- REGION 2 over the thread state: entered from every unscoped buffer at the contents before it, left at the contents after
    it; its arrays split out of the unscoped buffers and put back at the exit contents; the generator register into the
    region's invariant and out; nothing owed; no semaphore of the kernel's own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VF5 m) c).loose
  hwaits := Pipeline.hwaits_of_owed_zero _ _ _ _ L lv 2 fun _ _ => rfl
  pre c := iprop(StableHlo.held (c : Thread nD τ) (Pipeline.ucRefs τ sig) (Gen.V5 m (outsF m) c) ∗ R c)
  post c := iprop(StableHlo.held (c : Thread nD τ) (Pipeline.ucRefs τ sig) (Gen.V6 m (outsF m) c) ∗ R c)
  X c := iprop(∃ r, prngReg c r)
  Y c := iprop(∃ r, prngReg c r)
  Z c := Pipeline.unscopedRest (Ix := Unit) (Name := ℕ) (U := UR sig nD τ) (Lvl := ℕ) spec2 c (VF5 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (VF5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (VF5 m c) (VF6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The exit valuation at region 3's output array is the unknown. -/
theorem VFout3 (c : Dev nD) : VF8 m c main_v13 = outsF m 8 main_v13 c :=
  Function.update_self (Proc.devRef .tc main_v13 : DevRef τ sig) (outsF m 8 main_v13 c) (Gen.V7 m (outsF m) c)
/-- At region 3's exit each of its arrays holds what the pipeline leaves — an input array what it held at entry, the output
    array the unknown, which is the proof data's fold — and every other buffer what it held at entry. -/
theorem hF3 (c : Dev nD) : ∀ w : Fin 4, (pdats m 3 c).arrAt w cfg3.N = VF8 m c (Pipeline.arrRef spec3 w)
  | 0 => ((dat3 (VF7 m) c).arrAt_in 0 rfl _).trans ((A_eq3 (VF7 m) c 0).trans (Gen.V8_of m (outsF m) c _ (by decide)).symm)
  | 1 => ((dat3 (VF7 m) c).arrAt_in 1 rfl _).trans ((A_eq3 (VF7 m) c 1).trans (Gen.V8_of m (outsF m) c _ (by decide)).symm)
  | 2 => ((dat3 (VF7 m) c).arrAt_in 2 rfl _).trans ((A_eq3 (VF7 m) c 2).trans (Gen.V8_of m (outsF m) c _ (by decide)).symm)
  | 3 => (outF3 m c).symm.trans (VFout3 m c).symm
  | ⟨_ + 4, h⟩ => absurd h (Nat.not_lt.2 (Nat.le_add_left _ _))
theorem hrest3 (c : Dev nD) : ∀ b, b ∉ Finset.univ.image (Pipeline.arrRef spec3) → VF8 m c b = VF7 m c b :=
  fun b hb => Gen.V8_of m (outsF m) c b (fun h => hb (Finset.mem_image.mpr ⟨3, Finset.mem_univ _, (List.mem_singleton.mp h).symm⟩))

set_option backward.isDefEq.respectTransparency.types false in
/-- REGION 3 over the thread state: entered from every unscoped buffer at the contents before it, left at the contents after
    it; its arrays split out of the unscoped buffers and put back at the exit contents; the generator register into the
    region's invariant and out; nothing owed; no semaphore of the kernel's own. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VF7 m) c).loose
  hwaits := Pipeline.hwaits_of_owed_zero _ _ _ _ L lv 3 fun _ _ => rfl
  pre c := iprop(StableHlo.held (c : Thread nD τ) (Pipeline.ucRefs τ sig) (Gen.V7 m (outsF m) c) ∗ R c)
  post c := iprop(StableHlo.held (c : Thread nD τ) (Pipeline.ucRefs τ sig) (Gen.V8 m (outsF m) c) ∗ R c)
  X c := iprop(∃ r, prngReg c r)
  Y c := iprop(∃ r, prngReg c r)
  Z c := Pipeline.unscopedRest (Ix := Unit) (Name := ℕ) (U := UR sig nD τ) (Lvl := ℕ) spec3 c (VF7 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (VF7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin3 (VF7 m) c)
    unfold Pipeline.ΦA
    iintro ⟨Hp, -, Hr⟩
    isplitl [Hr]; · iexact Hr
    iexact Hp
  hout c := by
    rw [Pipeline.ownSems0_none]
    refine (hout3 (VF7 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (VF7 m c) (VF8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The exit valuation at region 4's output array is the unknown. -/
theorem VFout4 (c : Dev nD) : VF10 m c main_v20 = outsF m 10 main_v20 c :=
  Function.update_self (Proc.devRef .tc main_v20 : DevRef τ sig) (outsF m 10 main_v20 c) (Gen.V9 m (outsF m) c)
/-- At region 4's exit each of its arrays holds what the pipeline leaves — an input array what it held at entry, the output
    array the unknown, which is the proof data's fold — and every other buffer what it held at entry. -/
theorem hF4 (c : Dev nD) : ∀ w : Fin 4, (pdats m 4 c).arrAt w cfg4.N = VF10 m c (Pipeline.arrRef spec4 w)
  | 0 => ((dat4 (VF9 m) c).arrAt_in 0 rfl _).trans ((A_eq4 (VF9 m) c 0).trans (Gen.V10_of m (outsF m) c _ (by decide)).symm)
  | 1 => ((dat4 (VF9 m) c).arrAt_in 1 rfl _).trans ((A_eq4 (VF9 m) c 1).trans (Gen.V10_of m (outsF m) c _ (by decide)).symm)
  | 2 => ((dat4 (VF9 m) c).arrAt_in 2 rfl _).trans ((A_eq4 (VF9 m) c 2).trans (Gen.V10_of m (outsF m) c _ (by decide)).symm)
  | 3 => (outF4 m c).symm.trans (VFout4 m c).symm
  | ⟨_ + 4, h⟩ => absurd h (Nat.not_lt.2 (Nat.le_add_left _ _))
theorem hrest4 (c : Dev nD) : ∀ b, b ∉ Finset.univ.image (Pipeline.arrRef spec4) → VF10 m c b = VF9 m c b :=
  fun b hb => Gen.V10_of m (outsF m) c b (fun h => hb (Finset.mem_image.mpr ⟨3, Finset.mem_univ _, (List.mem_singleton.mp h).symm⟩))

set_option backward.isDefEq.respectTransparency.types false in
/-- REGION 4 over the thread state: entered from every unscoped buffer at the contents before it, left at the contents after
    it; its arrays split out of the unscoped buffers and put back at the exit contents; the generator register into the
    region's invariant and out; nothing owed; no semaphore of the kernel's own. -/
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (VF9 m) c).loose
  hwaits := Pipeline.hwaits_of_owed_zero _ _ _ _ L lv 4 fun _ _ => rfl
  pre c := iprop(StableHlo.held (c : Thread nD τ) (Pipeline.ucRefs τ sig) (Gen.V9 m (outsF m) c) ∗ R c)
  post c := iprop(StableHlo.held (c : Thread nD τ) (Pipeline.ucRefs τ sig) (Gen.V10 m (outsF m) c) ∗ R c)
  X c := iprop(∃ r, prngReg c r)
  Y c := iprop(∃ r, prngReg c r)
  Z c := Pipeline.unscopedRest (Ix := Unit) (Name := ℕ) (U := UR sig nD τ) (Lvl := ℕ) spec4 c (VF9 m c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (VF9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (VF9 m c) (VF10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The exit valuation at region 5's output array is the unknown. -/
theorem VFout5 (c : Dev nD) : VF12 m c main_v22 = outsF m 12 main_v22 c :=
  Function.update_self (Proc.devRef .tc main_v22 : DevRef τ sig) (outsF m 12 main_v22 c) (Gen.V11 m (outsF m) c)
/-- At region 5's exit each of its arrays holds what the pipeline leaves — an input array what it held at entry, the output
    array the unknown, which is the proof data's fold — and every other buffer what it held at entry. -/
theorem hF5 (c : Dev nD) : ∀ w : Fin 4, (pdats m 5 c).arrAt w cfg5.N = VF12 m c (Pipeline.arrRef spec5 w)
  | 0 => ((dat5 (VF11 m) c).arrAt_in 0 rfl _).trans ((A_eq5 (VF11 m) c 0).trans (Gen.V12_of m (outsF m) c _ (by decide)).symm)
  | 1 => ((dat5 (VF11 m) c).arrAt_in 1 rfl _).trans ((A_eq5 (VF11 m) c 1).trans (Gen.V12_of m (outsF m) c _ (by decide)).symm)
  | 2 => ((dat5 (VF11 m) c).arrAt_in 2 rfl _).trans ((A_eq5 (VF11 m) c 2).trans (Gen.V12_of m (outsF m) c _ (by decide)).symm)
  | 3 => (outF5 m c).symm.trans (VFout5 m c).symm
  | ⟨_ + 4, h⟩ => absurd h (Nat.not_lt.2 (Nat.le_add_left _ _))
theorem hrest5 (c : Dev nD) : ∀ b, b ∉ Finset.univ.image (Pipeline.arrRef spec5) → VF12 m c b = VF11 m c b :=
  fun b hb => Gen.V12_of m (outsF m) c b (fun h => hb (Finset.mem_image.mpr ⟨3, Finset.mem_univ _, (List.mem_singleton.mp h).symm⟩))

set_option backward.isDefEq.respectTransparency.types false in
/-- REGION 5 over the thread state: entered from every unscoped buffer at the contents before it, left at the contents after
    it; its arrays split out of the unscoped buffers and put back at the exit contents; the generator register into the
    region's invariant and out; nothing owed; no semaphore of the kernel's own. -/
def reg5 : Pipeline.RegionSeg (pcfgs (F := F)) Gen.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (VF11 m) c).loose
  hwaits := Pipeline.hwaits_of_owed_zero _ _ _ _ L lv 5 fun _ _ => rfl
  pre c := iprop(StableHlo.held (c : Thread nD τ) (Pipeline.ucRefs τ sig) (Gen.V11 m (outsF m) c) ∗ R c)
  post c := iprop(StableHlo.held (c : Thread nD τ) (Pipeline.ucRefs τ sig) (Gen.V12 m (outsF m) c) ∗ R c)
  X c := iprop(∃ r, prngReg c r)
  Y c := iprop(∃ r, prngReg c r)
  Z c := Pipeline.unscopedRest (Ix := Unit) (Name := ℕ) (U := UR sig nD τ) (Lvl := ℕ) spec5 c (VF11 m c)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (VF11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin5 (VF11 m) c)
    unfold Pipeline.ΦA
    iintro ⟨Hp, -, Hr⟩
    isplitl [Hr]; · iexact Hr
    iexact Hp
  hout c := by
    rw [Pipeline.ownSems0_none]
    refine (hout5 (VF11 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (VF11 m c) (VF12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The exit valuation at region 6's output array is the unknown. -/
theorem VFout6 (c : Dev nD) : VF14 m c main_v24 = outsF m 14 main_v24 c :=
  Function.update_self (Proc.devRef .tc main_v24 : DevRef τ sig) (outsF m 14 main_v24 c) (Gen.V13 m (outsF m) c)
/-- At region 6's exit each of its arrays holds what the pipeline leaves — an input array what it held at entry, the output
    array the unknown, which is the proof data's fold — and every other buffer what it held at entry. -/
theorem hF6 (c : Dev nD) : ∀ w : Fin 4, (pdats m 6 c).arrAt w cfg6.N = VF14 m c (Pipeline.arrRef spec6 w)
  | 0 => ((dat6 (VF13 m) c).arrAt_in 0 rfl _).trans ((A_eq6 (VF13 m) c 0).trans (Gen.V14_of m (outsF m) c _ (by decide)).symm)
  | 1 => ((dat6 (VF13 m) c).arrAt_in 1 rfl _).trans ((A_eq6 (VF13 m) c 1).trans (Gen.V14_of m (outsF m) c _ (by decide)).symm)
  | 2 => ((dat6 (VF13 m) c).arrAt_in 2 rfl _).trans ((A_eq6 (VF13 m) c 2).trans (Gen.V14_of m (outsF m) c _ (by decide)).symm)
  | 3 => (outF6 m c).symm.trans (VFout6 m c).symm
  | ⟨_ + 4, h⟩ => absurd h (Nat.not_lt.2 (Nat.le_add_left _ _))
theorem hrest6 (c : Dev nD) : ∀ b, b ∉ Finset.univ.image (Pipeline.arrRef spec6) → VF14 m c b = VF13 m c b :=
  fun b hb => Gen.V14_of m (outsF m) c b (fun h => hb (Finset.mem_image.mpr ⟨3, Finset.mem_univ _, (List.mem_singleton.mp h).symm⟩))

set_option backward.isDefEq.respectTransparency.types false in
/-- REGION 6 over the thread state: entered from every unscoped buffer at the contents before it, left at the contents after
    it; its arrays split out of the unscoped buffers and put back at the exit contents; the generator register into the
    region's invariant and out; nothing owed; no semaphore of the kernel's own. -/
def reg6 : Pipeline.RegionSeg (pcfgs (F := F)) Gen.adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (VF13 m) c).loose
  hwaits := Pipeline.hwaits_of_owed_zero _ _ _ _ L lv 6 fun _ _ => rfl
  pre c := iprop(StableHlo.held (c : Thread nD τ) (Pipeline.ucRefs τ sig) (Gen.V13 m (outsF m) c) ∗ R c)
  post c := iprop(StableHlo.held (c : Thread nD τ) (Pipeline.ucRefs τ sig) (Gen.V14 m (outsF m) c) ∗ R c)
  X c := iprop(∃ r, prngReg c r)
  Y c := iprop(∃ r, prngReg c r)
  Z c := Pipeline.unscopedRest (Ix := Unit) (Name := ℕ) (U := UR sig nD τ) (Lvl := ℕ) spec6 c (VF13 m c)
  hentry c := by
    rw [Pipeline.ownSems0_none]
    have hsplit := Pipeline.arrays_of_unscopedBufs (p := 6) (pcfgs (F := F)) Gen.adm (pdats m) launch6.win launch6.arr_whole c
      ((pdats m 6 c).share_full fun _ => rfl) (VF13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (pdats m) ((pdats m 6 c).share_full fun _ => rfl)
      (VF13 m c) (VF14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters every weakly fair execution of @main terminates, nothing faulting; the result array
    ends at what region 6's proof data leave in it and every argument as launched. -/
theorem run_main (ρ : Dev nD → PrngReg) : θ_run defs (onTc (τ := τ) (main (F := F))) ⟨m, fun _ => 0, ρ⟩ (fun r => ∀ c : Dev nD,
      r.2.mem ((c.tc : Thread nD τ).loc main_v24) = (dat6 (VF13 m) c).arrAt 3 cfg6.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  have h0 := run_cond m emb₁ () 𝒱₀ L lv (fun _ _ => rfl) ρ (outsF m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      have hmono : ((bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp))) : sProp 𝕄)
          ⊢ (bigSep Finset.univ fun c : Dev nD => R (F := F) c : sProp 𝕄) :=
        bigSep_mono fun c _ => launch_rest ρ c
      iintro ⟨H, -⟩
      ihave H' := hmono $$ H
      imodintro
      iexact H')
    (fun c => by iintro ⟨-, HO⟩; iexact HO)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)
  exact (θ_run defs _ _).mono (fun r h c => ⟨(h c).1.trans ((VFout6 m c).trans (outF6 m c)), (h c).2⟩) h0

end Cert.Kernel.Frame

end
-- ==== Proof.Ideal.Dense0.lean ====
/-
  Region 0 of the program: one dense layer, `out = x · W + b` on 2048-row blocks. The grid has 8 points; at point `t`
  the body reads the `t`-th 2048×512 block of the activations, the whole weight matrix and the whole bias row (both
  fetched once and never moved), and stores ONE value covering the whole output block. So after the body the output's
  staging buffer holds a single piece: the body's arithmetic (the skeleton's payload) of the three input blocks; the
  inputs' buffers are as they were. This module states that at any contents `V` of the core's buffers at the region's
  entry: the blocks, what the body leaves, the body's triple, the pipeline's proof data and the body obligation at every point.
-/
import proofs.«134615_j996432413323_2_alg».proof.Proof.Gen.KernelIdeal.Launch
import proofs.«134615_j996432413323_2_alg».proof.Proof.Gen.KernelIdeal.Skeleton
import proofs.«134615_j996432413323_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether fetched there or not: where it is
    not fetched its block index has not moved since the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rx0 : Rect S2048x512 := Rect.unit (s := S2048x512) ![0, 0] S2048x512.size inb_S2048x512_S2048x512_0_0
abbrev rw0 : Rect S512x512 := Rect.unit (s := S512x512) ![0, 0] S512x512.size inb_S512x512_S512x512_0_0
abbrev rb0 : Rect S1x512 := Rect.unit (s := S1x512) ![0, 0] S1x512.size inb_S1x512_S1x512_0_0
abbrev ro0 : Rect S2048x512 := Rect.unit (s := S2048x512) ![0, 0] S2048x512.size inb_S2048x512_S2048x512_0_0

/-- The output's staging buffer after the body, from the input blocks: its one store as a piece. -/
def out0_3 (x0 : Vec F S2048x512 .f32) (x1 : Vec F S512x512 .f32) (x2 : Vec F S1x512 .f32) : Vec F S2048x512 .bf16 :=
  View.canon [⟨ro0, k0_pay1 (View.ld x0 rx0) (View.ld x1 rw0) (View.ld x2 rb0)⟩]

/-- The one store covers the buffer. -/
theorem cover0_3 (p0 : Vec F S2048x512 .bf16) (y : S2048x512.Idx) :
    ∃ pc ∈ ([⟨ro0, p0⟩] : List (View.Piece (Elt F) S2048x512 .bf16)), y ∈ pc.1.set :=
  View.cover_of_tiled [⟨ro0, p0⟩] S2048x512.size (by rfl) y

set_option maxHeartbeats 4000000 in
/-- The body on whole staging memrefs, the inputs' at contents `x0 x1 x2` and the output's at anything, runs to the
    continuation with the inputs' as they were and the output's at `out0_3` of them. -/
theorem sound_kernel0 (c : Dev nD) (E : Set ℕ) (i : grid0.Coords) (arg1 : Memref sig .tc .vmem S2048x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S2048x512 .bf16) (harg4 : arg4.IsWhole)
    (x0 : Vec F S2048x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_kernel i arg1 harg1 arg2 harg2 arg3 harg3 arg4 harg4) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each
    input's buffer at its block and the output's at `out0_3` of the input blocks; the invariant the untouched scoped rest
    and generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.Ideal.Gc1.lean ====
/-
  Region 1 of the program: one graph-convolution layer, `out = max(adj · s + b, 0)`, accumulated over 16 column blocks of
  `adj`. The grid has 8 × 16 points (row block `i`, column block `k`, `k` innermost); the body keeps a 2048×512 accumulator
  in a scratch buffer of its own, which the pipeline does not stage: at `k = 0` it stores zeros into it, at every `k` it
  adds the product of the point's 2048×1024 block of `adj` with the point's 1024×512 block of `s`, and at `k = 15` it stores
  `max(acc + b, 0)` into the output block, which is written back only there. So a point is in one of three cases — first
  (`k = 0`), middle, last (`k = 15`) — and what the scratch holds after a point depends on what the point before left.
  This module states, at any contents `V` of the core's buffers at the region's entry: the two branch conditions in closed
  form over the grid; where the output window is idle; the body's triple in each case, with the pieces each store leaves
  found by running the body; what output and scratch hold after each point, by recursion on the point; the region's
  invariant carrying the scratch from point to point; the pipeline's proof data; the body obligation; and that the
  invariant is entered from, and gives back, the untouched scoped rest.
-/
import proofs.«134615_j996432413323_2_alg».proof.Proof.Gen.KernelIdeal.Launch
import proofs.«134615_j996432413323_2_alg».proof.Proof.Gen.KernelIdeal.Skeleton
import proofs.«134615_j996432413323_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, and where the output window is idle -/

/-- The first branch's condition (`k = 0`), from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- The second branch's condition (`k = 15`). -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where `k ≠ 15` the output window is idle and not written back; where `k = 15` it is live. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1_3 : View sig .tc .vmem S2048x512 .f32 := (Memref.whole cc1_stg3_0 : Memref sig .tc .vmem S2048x512 .f32).view
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x512 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S2048x512 .f32 := Memref.whole cc1_scratch0
abbrev VS1_0 : View sig .tc .vmem S2048x512 .f32 := scM1_0.view

/-- Every other scoped buffer of the program (the other calls' staging buffers and scratch), unopened. -/
abbrev RB1 (c : Dev nD) : sProp 𝕄 :=
  Pipeline.scopedRestBut (Ix := Unit) (Name := ℕ) (U := UR sig nD τ) (Lvl := ℕ) (Val := Elt F) spec1 c [cc1_scratch0]

/-- The untouched scoped rest and generator register, with the accumulator split out as a memref at some contents. -/
theorem PhiA1_eq (c : Dev nD) :
    (Pipeline.ΦA spec1 c : sProp 𝕄)
      = iprop(iprop(iprop((∃ d, owns (c : Thread nD τ) scM1_0 fullShare d)) ∗ RB1 c) ∗ (∃ r, prngReg c r)) := by
  unfold Pipeline.ΦA; rw [scopedRest1_split]; simp only [scM1_0, owns_whole]; try rfl

/-! ## The body in each case: the pieces its stores leave, found by running it -/

set_option maxHeartbeats 4000000 in
/-- FIRST case (`k = 0`): the output's buffer is handed back untouched; the accumulator, at anything, ends with the
    pieces of the zero store and of the accumulation written. -/
noncomputable def kernelRun1_A (c : Dev nD) (i : grid1.Coords) (arg2 : Memref sig .tc .vmem S2048x1024 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S2048x512 .f32) (harg5 : arg5.IsWhole) (arg6 : Memref sig .tc .vmem S2048x512 .f32) (harg6 : arg6.IsWhole) (hc0 : cond1_0 i) (hc1 : ¬cond1_1 i)
    (x0 : Vec F S2048x1024 .f32) (x1 : Vec F S1024x512 .bf16) (x2 : Vec F S1x512 .f32) :
    Σ' (L3 : List (View.Piece (Elt F) S2048x512 .f32)), { LS0 : List (View.Piece (Elt F) S2048x512 .f32) //
      ∀ (xi3 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gc_reduce_kernel i arg2 harg2 arg3 harg3 arg4 harg4 arg5 harg5 arg6 harg6) K } := by
  refine ⟨[], ?_, fun xi3 E K => ?run⟩
  case run =>
    simp only [cc1__gc_reduce_kernel_eq_skeleton]; unfold cc1__gc_reduce_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- MIDDLE case: the output's buffer is handed back untouched; the accumulator, at what the point before left, ends
    with the accumulation's piece written. -/
noncomputable def kernelRun1_B (c : Dev nD) (i : grid1.Coords) (arg2 : Memref sig .tc .vmem S2048x1024 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S2048x512 .f32) (harg5 : arg5.IsWhole) (arg6 : Memref sig .tc .vmem S2048x512 .f32) (harg6 : arg6.IsWhole) (hc0 : ¬cond1_0 i) (hc1 : ¬cond1_1 i)
    (x0 : Vec F S2048x1024 .f32) (x1 : Vec F S1024x512 .bf16) (x2 : Vec F S1x512 .f32) (xs0 : Vec F S2048x512 .f32) :
    Σ' (L3 : List (View.Piece (Elt F) S2048x512 .f32)), { LS0 : List (View.Piece (Elt F) S2048x512 .f32) //
      ∀ (xi3 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gc_reduce_kernel i arg2 harg2 arg3 harg3 arg4 harg4 arg5 harg5 arg6 harg6) K } := by
  refine ⟨[], ?_, fun xi3 E K => ?run⟩
  case run =>
    simp only [cc1__gc_reduce_kernel_eq_skeleton]; unfold cc1__gc_reduce_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- LAST case (`k = 15`): the accumulator as in the middle case; the output's buffer, at anything, ends with the piece
    of the final store written. -/
noncomputable def kernelRun1_C (c : Dev nD) (i : grid1.Coords) (arg2 : Memref sig .tc .vmem S2048x1024 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S2048x512 .f32) (harg5 : arg5.IsWhole) (arg6 : Memref sig .tc .vmem S2048x512 .f32) (harg6 : arg6.IsWhole) (hc0 : ¬cond1_0 i) (hc1 : cond1_1 i)
    (x0 : Vec F S2048x1024 .f32) (x1 : Vec F S1024x512 .bf16) (x2 : Vec F S1x512 .f32) (xs0 : Vec F S2048x512 .f32) :
    Σ' (L3 : List (View.Piece (Elt F) S2048x512 .f32)), { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gc_reduce_kernel i arg2 harg2 arg3 harg3 arg4 harg4 arg5 harg5 arg6 harg6) K } := by
  refine ⟨?_, ?_, fun E K => ?run⟩
  case run =>
    simp only [cc1__gc_reduce_kernel_eq_skeleton]; unfold cc1__gc_reduce_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-! ## At the region's entry contents `V` -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The three cases' runs at point `t`: on the point's staging memrefs and the accumulator, at the point's input blocks. -/
def runA1 (c : Dev nD) (t : Fin cfg1.N) (hc0 : cond1_0 (grid1.coords t)) (hc1 : ¬cond1_1 (grid1.coords t)) :=
  kernelRun1_A (F := F) c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t)
def runB1 (c : Dev nD) (t : Fin cfg1.N) (hc0 : ¬cond1_0 (grid1.coords t)) (hc1 : ¬cond1_1 (grid1.coords t)) (xs0 : Vec F S2048x512 .f32) :=
  kernelRun1_B (F := F) c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) xs0
def runC1 (c : Dev nD) (t : Fin cfg1.N) (hc0 : ¬cond1_0 (grid1.coords t)) (hc1 : cond1_1 (grid1.coords t)) (xs0 : Vec F S2048x512 .f32) :=
  kernelRun1_C (F := F) c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) xs0

/-- Each case's accumulator pieces cover the accumulator. -/
theorem scover1_A (c : Dev nD) (t : Fin cfg1.N) (hc0 : cond1_0 (grid1.coords t)) (hc1 : ¬cond1_1 (grid1.coords t)) (y : S2048x512.Idx) : ∃ pc ∈ (runA1 V c t hc0 hc1).2.1, y ∈ pc.1.set :=
  View.cover_of_tiledL (runA1 V c t hc0 hc1).2.1 S2048x512.size (by unfold runA1; sl_kernel_rfl) y
theorem scover1_B (c : Dev nD) (t : Fin cfg1.N) (hc0 : ¬cond1_0 (grid1.coords t)) (hc1 : ¬cond1_1 (grid1.coords t)) (xs0 : Vec F S2048x512 .f32) (y : S2048x512.Idx) : ∃ pc ∈ (runB1 V c t hc0 hc1 xs0).2.1, y ∈ pc.1.set :=
  View.cover_of_tiledL (runB1 V c t hc0 hc1 xs0).2.1 S2048x512.size (by unfold runB1; sl_kernel_rfl) y
theorem scover1_C (c : Dev nD) (t : Fin cfg1.N) (hc0 : ¬cond1_0 (grid1.coords t)) (hc1 : cond1_1 (grid1.coords t)) (xs0 : Vec F S2048x512 .f32) (y : S2048x512.Idx) : ∃ pc ∈ (runC1 V c t hc0 hc1 xs0).2.1, y ∈ pc.1.set :=
  View.cover_of_tiledL (runC1 V c t hc0 hc1 xs0).2.1 S2048x512.size (by unfold runC1; sl_kernel_rfl) y
/-- The last case's output piece covers the output block. -/
theorem cover1_C (c : Dev nD) (t : Fin cfg1.N) (hc0 : ¬cond1_0 (grid1.coords t)) (hc1 : cond1_1 (grid1.coords t)) (xs0 : Vec F S2048x512 .f32) (y : S2048x512.Idx) : ∃ pc ∈ (runC1 V c t hc0 hc1 xs0).1, y ∈ pc.1.set :=
  View.cover_of_tiledL (runC1 V c t hc0 hc1 xs0).1 S2048x512.size (by unfold runC1; sl_kernel_rfl) y

/-- What each case leaves in the accumulator: its pieces read back. -/
def soutA1 (c : Dev nD) (t : Fin cfg1.N) (hc0 : cond1_0 (grid1.coords t)) (hc1 : ¬cond1_1 (grid1.coords t)) : Vec F S2048x512 .f32 :=
  VS1_0.read (Elt F) (VS1_0.writes (Elt F) VS1_0.junk (runA1 V c t hc0 hc1).2.1)
def soutB1 (c : Dev nD) (t : Fin cfg1.N) (hc0 : ¬cond1_0 (grid1.coords t)) (hc1 : ¬cond1_1 (grid1.coords t)) (xs0 : Vec F S2048x512 .f32) : Vec F S2048x512 .f32 :=
  VS1_0.read (Elt F) (VS1_0.writes (Elt F) VS1_0.junk (runB1 V c t hc0 hc1 xs0).2.1)
def soutC1 (c : Dev nD) (t : Fin cfg1.N) (hc0 : ¬cond1_0 (grid1.coords t)) (hc1 : cond1_1 (grid1.coords t)) (xs0 : Vec F S2048x512 .f32) : Vec F S2048x512 .f32 :=
  VS1_0.read (Elt F) (VS1_0.writes (Elt F) VS1_0.junk (runC1 V c t hc0 hc1 xs0).2.1)
/-- What the last case leaves in the output's buffer: its piece read back. (In the other cases the window is idle and
    nothing consults its buffer: a placeholder.) -/
def outC1 (c : Dev nD) (t : Fin cfg1.N) (hc0 : ¬cond1_0 (grid1.coords t)) (hc1 : cond1_1 (grid1.coords t)) (xs0 : Vec F S2048x512 .f32) : Vec F S2048x512 .f32 :=
  VO1_3.read (Elt F) (VO1_3.writes (Elt F) VO1_3.junk (runC1 V c t hc0 hc1 xs0).1)
def outIdle1 : Vec F S2048x512 .f32 := VO1_3.read (Elt F) VO1_3.junk

/-! ## What output and accumulator hold after each point -/

/-- THE ACCUMULATION: the pair (output buffer, accumulator) after the body at position `n`: the case the position is in,
    run over what the position before left in the accumulator. -/
def outsAt1 (c : Dev nD) : (n : ℕ) → n < cfg1.N → Vec F S2048x512 .f32 × Vec F S2048x512 .f32
  | 0, hn => (outIdle1, soutA1 V c ⟨0, hn⟩ ((hcond1_0 ⟨0, hn⟩).mpr (Nat.zero_mod _)) (fun h => (fun h => by (try dsimp only at h); omega) ((hcond1_1 ⟨0, hn⟩).mp h)))
  | n + 1, hn =>
    if h0 : (n + 1) % 16 = 0 then
      if h1 : (n + 1) % 16 = 15 then False.elim (by omega)
      else (outIdle1, soutA1 V c ⟨n + 1, hn⟩ ((hcond1_0 ⟨n + 1, hn⟩).mpr h0) (fun h => h1 ((hcond1_1 ⟨n + 1, hn⟩).mp h)))
    else
      if h1 : (n + 1) % 16 = 15 then
        (outC1 V c ⟨n + 1, hn⟩ (fun h => h0 ((hcond1_0 ⟨n + 1, hn⟩).mp h)) ((hcond1_1 ⟨n + 1, hn⟩).mpr h1) (outsAt1 c n (Nat.lt_of_succ_lt hn)).2,
         soutC1 V c ⟨n + 1, hn⟩ (fun h => h0 ((hcond1_0 ⟨n + 1, hn⟩).mp h)) ((hcond1_1 ⟨n + 1, hn⟩).mpr h1) (outsAt1 c n (Nat.lt_of_succ_lt hn)).2)
      else
        (outIdle1, soutB1 V c ⟨n + 1, hn⟩ (fun h => h0 ((hcond1_0 ⟨n + 1, hn⟩).mp h)) (fun h => h1 ((hcond1_1 ⟨n + 1, hn⟩).mp h)) (outsAt1 c n (Nat.lt_of_succ_lt hn)).2)

theorem outsAt1_A (c : Dev nD) (t : Fin cfg1.N) (h0 : t.val % 16 = 0) (h1 : ¬t.val % 16 = 15) :
    outsAt1 V c t.val t.isLt = (outIdle1, soutA1 V c t ((hcond1_0 t).mpr h0) (fun h => h1 ((hcond1_1 t).mp h))) := by
  obtain ⟨n, hn⟩ := t
  cases n with
  | zero => exact rfl
  | succ n => exact (dif_pos h0).trans ((dif_neg h1).trans rfl)
theorem outsAt1_B (c : Dev nD) (t : Fin cfg1.N) (h0 : ¬t.val % 16 = 0) (h1 : ¬t.val % 16 = 15) :
    outsAt1 V c t.val t.isLt = (outIdle1, soutB1 V c t (fun h => h0 ((hcond1_0 t).mp h)) (fun h => h1 ((hcond1_1 t).mp h)) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)
theorem outsAt1_C (c : Dev nD) (t : Fin cfg1.N) (h0 : ¬t.val % 16 = 0) (h1 : t.val % 16 = 15) :
    outsAt1 V c t.val t.isLt = (outC1 V c t (fun h => h0 ((hcond1_0 t).mp h)) ((hcond1_1 t).mpr h1) (outsAt1 V c (t.val - 1) (Nat.lt_of_le_of_lt (Nat.sub_le _ _) t.isLt)).2,
      soutC1 V c t (fun h => h0 ((hcond1_0 t).mp h)) ((hcond1_1 t).mpr h1) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the accumulator carried from point to point -/

/-- Before the first point the untouched scoped rest and generator register; after point `n` the same with the accumulator
    at what that point left in it. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2)) ∗ RB1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare ((outsAt1 V c n hn).2)) ∗ RB1 c) ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2)) ∗ RB1 c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' memrefs hold their blocks; the closed forms say which case the point is in; the
    invariant hands the body the accumulator at what the point before left (at anything before the first point) and takes
    it back at this point's contents; an idle output's buffer is handed back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 16 = 0
  · by_cases h1 : t.val % 16 = 15
    · exfalso; omega
    · have hc0 : cond1_0 (grid1.coords t) := (hcond1_0 t).mpr h0
      have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t hc1) (noFlush1_3 t hc1)]
      rw [outsAt1_A V c t h0 h1]
      unfold soutA1 runA1; (try dsimp only)
      by_cases hz : t.val = 0
      · rw [PhiS1_castSucc V c t, PhiS1_zero V c _ _ hz, PhiA1_eq]
        iintro ⟨⟨⟨HS0, Hrb⟩, Hg⟩, Ho, ⟨%d0, H0⟩, ⟨%d1, H1⟩, ⟨%d2, H2⟩, ⟨%d3, H3⟩⟩
        iapply ((kernelRun1_A c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrb Hg]
        · isplitl [HS0 Hrb]
          · isplitl [HS0]
            · unfold owns; iexists _; isplitr
              swap; · iexact HS0
              ipureintro; exact View.read_writes_of_cover _ _ _ _ _ (scover1_A V c t hc0 hc1)
            iexact Hrb
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hrb⟩, Hg⟩, Ho, ⟨%d0, H0⟩, ⟨%d1, H1⟩, ⟨%d2, H2⟩, ⟨%d3, H3⟩⟩
        iapply ((kernelRun1_A c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrb Hg]
        · isplitl [HS0 Hrb]
          · isplitl [HS0]
            · unfold owns; iexists _; isplitr
              swap; · iexact HS0
              ipureintro; exact View.read_writes_of_cover _ _ _ _ _ (scover1_A V c t hc0 hc1)
            iexact Hrb
          iexact Hg
        isplitl [Ho]; · iexact Ho
        isplitl [H0]; · iexact H0
        isplitl [H1]; · iexact H1
        isplitl [H2]; · iexact H2
        iexists _; iexact H3
  · have hc0 : ¬cond1_0 (grid1.coords t) := fun h => h0 ((hcond1_0 t).mp h)
    have hz : t.val ≠ 0 := fun hz => h0 (by rw [hz])
    by_cases h1 : t.val % 16 = 15
    · have hc1 : cond1_1 (grid1.coords t) := (hcond1_1 t).mpr h1
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t hc1], after1_3]
      rw [outsAt1_C V c t h0 h1]
      unfold outC1 soutC1 runC1; (try dsimp only)
      rw [PhiS1_castSucc V c t, PhiS1_pos V c _ _ hz]
      iintro ⟨⟨⟨HS0, Hrb⟩, Hg⟩, Ho, ⟨%d0, H0⟩, ⟨%d1, H1⟩, ⟨%d2, H2⟩, ⟨%d3, H3⟩⟩
      iapply ((kernelRun1_C c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover1_C V c t hc0 hc1 _)
          iexact Hrb
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C V c t hc0 hc1 _)
    · have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t hc1) (noFlush1_3 t hc1)]
      rw [outsAt1_B V c t h0 h1]
      unfold soutB1 runB1; (try dsimp only)
      rw [PhiS1_castSucc V c t, PhiS1_pos V c _ _ hz]
      iintro ⟨⟨⟨HS0, Hrb⟩, Hg⟩, Ho, ⟨%d0, H0⟩, ⟨%d1, H1⟩, ⟨%d2, H2⟩, ⟨%d3, H3⟩⟩
      iapply ((kernelRun1_B c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover1_B V c t hc0 hc1 _)
          iexact Hrb
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest back: the accumulator's named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl,
    PhiS1_pos V c _ _ ht, PhiA1_eq]
  iintro ⟨⟨HS0, Hrb⟩, Hg⟩
  isplitl [HS0 Hrb]
  · isplitl [HS0]
    · iexists _; iexact HS0
    iexact Hrb
  iexact Hg

end Cert.KernelIdeal.Frame

end
-- ==== Proof.Ideal.Dense2.lean ====
/-
  Region 2 of the program: one dense layer, `out = x · W + b` on 2048-row blocks. The grid has 8 points; at point `t`
  the body reads the `t`-th 2048×512 block of the activations, the whole weight matrix and the whole bias row (both
  fetched once and never moved), and stores ONE value covering the whole output block. So after the body the output's
  staging buffer holds a single piece: the body's arithmetic (the skeleton's payload) of the three input blocks; the
  inputs' buffers are as they were. This module states that at any contents `V` of the core's buffers at the region's
  entry: the blocks, what the body leaves, the body's triple, the pipeline's proof data and the body obligation at every point.
-/
import proofs.«134615_j996432413323_2_alg».proof.Proof.Gen.KernelIdeal.Launch
import proofs.«134615_j996432413323_2_alg».proof.Proof.Gen.KernelIdeal.Skeleton
import proofs.«134615_j996432413323_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether fetched there or not: where it is
    not fetched its block index has not moved since the fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rx2 : Rect S2048x512 := Rect.unit (s := S2048x512) ![0, 0] S2048x512.size inb_S2048x512_S2048x512_0_0
abbrev rw2 : Rect S512x512 := Rect.unit (s := S512x512) ![0, 0] S512x512.size inb_S512x512_S512x512_0_0
abbrev rb2 : Rect S1x512 := Rect.unit (s := S1x512) ![0, 0] S1x512.size inb_S1x512_S1x512_0_0
abbrev ro2 : Rect S2048x512 := Rect.unit (s := S2048x512) ![0, 0] S2048x512.size inb_S2048x512_S2048x512_0_0

/-- The output's staging buffer after the body, from the input blocks: its one store as a piece. -/
def out2_3 (x0 : Vec F S2048x512 .f32) (x1 : Vec F S512x512 .f32) (x2 : Vec F S1x512 .f32) : Vec F S2048x512 .bf16 :=
  View.canon [⟨ro2, k2_pay1 (View.ld x0 rx2) (View.ld x1 rw2) (View.ld x2 rb2)⟩]

/-- The one store covers the buffer. -/
theorem cover2_3 (p0 : Vec F S2048x512 .bf16) (y : S2048x512.Idx) :
    ∃ pc ∈ ([⟨ro2, p0⟩] : List (View.Piece (Elt F) S2048x512 .bf16)), y ∈ pc.1.set :=
  View.cover_of_tiled [⟨ro2, p0⟩] S2048x512.size (by rfl) y

set_option maxHeartbeats 4000000 in
/-- The body on whole staging memrefs, the inputs' at contents `x0 x1 x2` and the output's at anything, runs to the
    continuation with the inputs' as they were and the output's at `out2_3` of them. -/
theorem sound_kernel2 (c : Dev nD) (E : Set ℕ) (i : grid2.Coords) (arg1 : Memref sig .tc .vmem S2048x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S2048x512 .bf16) (harg4 : arg4.IsWhole)
    (x0 : Vec F S2048x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__dense_kernel i arg1 harg1 arg2 harg2 arg3 harg3 arg4 harg4) K := by
  simp only [cc2__dense_kernel_eq_skeleton]; unfold cc2__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at point `t` each
    input's buffer at its block and the output's at `out2_3` of the input blocks; the invariant the untouched scoped rest
    and generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.Ideal.Gc3.lean ====
/-
  Region 3 of the program: one graph-convolution layer, `out = max(adj · s + b, 0)`, accumulated over 16 column blocks of
  `adj`. The grid has 8 × 16 points (row block `i`, column block `k`, `k` innermost); the body keeps a 2048×512 accumulator
  in a scratch buffer of its own, which the pipeline does not stage: at `k = 0` it stores zeros into it, at every `k` it
  adds the product of the point's 2048×1024 block of `adj` with the point's 1024×512 block of `s`, and at `k = 15` it stores
  `max(acc + b, 0)` into the output block, which is written back only there. So a point is in one of three cases — first
  (`k = 0`), middle, last (`k = 15`) — and what the scratch holds after a point depends on what the point before left.
  This module states, at any contents `V` of the core's buffers at the region's entry: the two branch conditions in closed
  form over the grid; where the output window is idle; the body's triple in each case, with the pieces each store leaves
  found by running the body; what output and scratch hold after each point, by recursion on the point; the region's
  invariant carrying the scratch from point to point; the pipeline's proof data; the body obligation; and that the
  invariant is entered from, and gives back, the untouched scoped rest.
-/
import proofs.«134615_j996432413323_2_alg».proof.Proof.Gen.KernelIdeal.Launch
import proofs.«134615_j996432413323_2_alg».proof.Proof.Gen.KernelIdeal.Skeleton
import proofs.«134615_j996432413323_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, and where the output window is idle -/

/-- The first branch's condition (`k = 0`), from the grid coordinates. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 16 = 0 :=
  (by decide +kernel : ∀ t : Fin grid3.N, cond3_0 (grid3.coords t) ↔ t.val % 16 = 0)
/-- The second branch's condition (`k = 15`). -/
abbrev cond3_1 (i : grid3.Coords) : Prop := k3_cond2 i = 1#1
theorem hcond3_1 : ∀ t : Fin cfg3.N, cond3_1 (grid3.coords t) ↔ t.val % 16 = 15 :=
  (by decide +kernel : ∀ t : Fin grid3.N, cond3_1 (grid3.coords t) ↔ t.val % 16 = 15)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Where `k ≠ 15` the output window is idle and not written back; where `k = 15` it is live. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel

/-! ## The memrefs the body is called with -/

abbrev VO3_3 : View sig .tc .vmem S2048x512 .f32 := (Memref.whole cc3_stg3_0 : Memref sig .tc .vmem S2048x512 .f32).view
abbrev ms3_0 (t : Fin cfg3.N) : Memref sig .tc .vmem S2048x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x512 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x512 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x512 .f32 := win3_3.stage (cfg3.slots t 3)
abbrev hs3_3 (t : Fin cfg3.N) : (ms3_3 t).IsWhole := hstage3_3 ((cfg3.slots t 3).cast nbuf3_3)
/-- The accumulator: a whole scoped buffer of the kernel's own. -/
abbrev scM3_0 : Memref sig .tc .vmem S2048x512 .f32 := Memref.whole cc3_scratch0
abbrev VS3_0 : View sig .tc .vmem S2048x512 .f32 := scM3_0.view

/-- Every other scoped buffer of the program (the other calls' staging buffers and scratch), unopened. -/
abbrev RB3 (c : Dev nD) : sProp 𝕄 :=
  Pipeline.scopedRestBut (Ix := Unit) (Name := ℕ) (U := UR sig nD τ) (Lvl := ℕ) (Val := Elt F) spec3 c [cc3_scratch0]

/-- The untouched scoped rest and generator register, with the accumulator split out as a memref at some contents. -/
theorem PhiA3_eq (c : Dev nD) :
    (Pipeline.ΦA spec3 c : sProp 𝕄)
      = iprop(iprop(iprop((∃ d, owns (c : Thread nD τ) scM3_0 fullShare d)) ∗ RB3 c) ∗ (∃ r, prngReg c r)) := by
  unfold Pipeline.ΦA; rw [scopedRest3_split]; simp only [scM3_0, owns_whole]; try rfl

/-! ## The body in each case: the pieces its stores leave, found by running it -/

set_option maxHeartbeats 4000000 in
/-- FIRST case (`k = 0`): the output's buffer is handed back untouched; the accumulator, at anything, ends with the
    pieces of the zero store and of the accumulation written. -/
noncomputable def kernelRun3_A (c : Dev nD) (i : grid3.Coords) (arg2 : Memref sig .tc .vmem S2048x1024 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S2048x512 .f32) (harg5 : arg5.IsWhole) (arg6 : Memref sig .tc .vmem S2048x512 .f32) (harg6 : arg6.IsWhole) (hc0 : cond3_0 i) (hc1 : ¬cond3_1 i)
    (x0 : Vec F S2048x1024 .f32) (x1 : Vec F S1024x512 .bf16) (x2 : Vec F S1x512 .f32) :
    Σ' (L3 : List (View.Piece (Elt F) S2048x512 .f32)), { LS0 : List (View.Piece (Elt F) S2048x512 .f32) //
      ∀ (xi3 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__gc_reduce_kernel i arg2 harg2 arg3 harg3 arg4 harg4 arg5 harg5 arg6 harg6) K } := by
  refine ⟨[], ?_, fun xi3 E K => ?run⟩
  case run =>
    simp only [cc3__gc_reduce_kernel_eq_skeleton]; unfold cc3__gc_reduce_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- MIDDLE case: the output's buffer is handed back untouched; the accumulator, at what the point before left, ends
    with the accumulation's piece written. -/
noncomputable def kernelRun3_B (c : Dev nD) (i : grid3.Coords) (arg2 : Memref sig .tc .vmem S2048x1024 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S2048x512 .f32) (harg5 : arg5.IsWhole) (arg6 : Memref sig .tc .vmem S2048x512 .f32) (harg6 : arg6.IsWhole) (hc0 : ¬cond3_0 i) (hc1 : ¬cond3_1 i)
    (x0 : Vec F S2048x1024 .f32) (x1 : Vec F S1024x512 .bf16) (x2 : Vec F S1x512 .f32) (xs0 : Vec F S2048x512 .f32) :
    Σ' (L3 : List (View.Piece (Elt F) S2048x512 .f32)), { LS0 : List (View.Piece (Elt F) S2048x512 .f32) //
      ∀ (xi3 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__gc_reduce_kernel i arg2 harg2 arg3 harg3 arg4 harg4 arg5 harg5 arg6 harg6) K } := by
  refine ⟨[], ?_, fun xi3 E K => ?run⟩
  case run =>
    simp only [cc3__gc_reduce_kernel_eq_skeleton]; unfold cc3__gc_reduce_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- LAST case (`k = 15`): the accumulator as in the middle case; the output's buffer, at anything, ends with the piece
    of the final store written. -/
noncomputable def kernelRun3_C (c : Dev nD) (i : grid3.Coords) (arg2 : Memref sig .tc .vmem S2048x1024 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S2048x512 .f32) (harg5 : arg5.IsWhole) (arg6 : Memref sig .tc .vmem S2048x512 .f32) (harg6 : arg6.IsWhole) (hc0 : ¬cond3_0 i) (hc1 : cond3_1 i)
    (x0 : Vec F S2048x1024 .f32) (x1 : Vec F S1024x512 .bf16) (x2 : Vec F S1x512 .f32) (xs0 : Vec F S2048x512 .f32) :
    Σ' (L3 : List (View.Piece (Elt F) S2048x512 .f32)), { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__gc_reduce_kernel i arg2 harg2 arg3 harg3 arg4 harg4 arg5 harg5 arg6 harg6) K } := by
  refine ⟨?_, ?_, fun E K => ?run⟩
  case run =>
    simp only [cc3__gc_reduce_kernel_eq_skeleton]; unfold cc3__gc_reduce_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-! ## At the region's entry contents `V` -/

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The three cases' runs at point `t`: on the point's staging memrefs and the accumulator, at the point's input blocks. -/
def runA3 (c : Dev nD) (t : Fin cfg3.N) (hc0 : cond3_0 (grid3.coords t)) (hc1 : ¬cond3_1 (grid3.coords t)) :=
  kernelRun3_A (F := F) c (grid3.coords t) (ms3_0 t) (hs3_0 t) (ms3_1 t) (hs3_1 t) (ms3_2 t) (hs3_2 t) (ms3_3 t) (hs3_3 t) scM3_0 (Memref.isWhole_whole _) hc0 hc1 (iblk3 V c 0 t) (iblk3 V c 1 t) (iblk3 V c 2 t)
def runB3 (c : Dev nD) (t : Fin cfg3.N) (hc0 : ¬cond3_0 (grid3.coords t)) (hc1 : ¬cond3_1 (grid3.coords t)) (xs0 : Vec F S2048x512 .f32) :=
  kernelRun3_B (F := F) c (grid3.coords t) (ms3_0 t) (hs3_0 t) (ms3_1 t) (hs3_1 t) (ms3_2 t) (hs3_2 t) (ms3_3 t) (hs3_3 t) scM3_0 (Memref.isWhole_whole _) hc0 hc1 (iblk3 V c 0 t) (iblk3 V c 1 t) (iblk3 V c 2 t) xs0
def runC3 (c : Dev nD) (t : Fin cfg3.N) (hc0 : ¬cond3_0 (grid3.coords t)) (hc1 : cond3_1 (grid3.coords t)) (xs0 : Vec F S2048x512 .f32) :=
  kernelRun3_C (F := F) c (grid3.coords t) (ms3_0 t) (hs3_0 t) (ms3_1 t) (hs3_1 t) (ms3_2 t) (hs3_2 t) (ms3_3 t) (hs3_3 t) scM3_0 (Memref.isWhole_whole _) hc0 hc1 (iblk3 V c 0 t) (iblk3 V c 1 t) (iblk3 V c 2 t) xs0

/-- Each case's accumulator pieces cover the accumulator. -/
theorem scover3_A (c : Dev nD) (t : Fin cfg3.N) (hc0 : cond3_0 (grid3.coords t)) (hc1 : ¬cond3_1 (grid3.coords t)) (y : S2048x512.Idx) : ∃ pc ∈ (runA3 V c t hc0 hc1).2.1, y ∈ pc.1.set :=
  View.cover_of_tiledL (runA3 V c t hc0 hc1).2.1 S2048x512.size (by unfold runA3; sl_kernel_rfl) y
theorem scover3_B (c : Dev nD) (t : Fin cfg3.N) (hc0 : ¬cond3_0 (grid3.coords t)) (hc1 : ¬cond3_1 (grid3.coords t)) (xs0 : Vec F S2048x512 .f32) (y : S2048x512.Idx) : ∃ pc ∈ (runB3 V c t hc0 hc1 xs0).2.1, y ∈ pc.1.set :=
  View.cover_of_tiledL (runB3 V c t hc0 hc1 xs0).2.1 S2048x512.size (by unfold runB3; sl_kernel_rfl) y
theorem scover3_C (c : Dev nD) (t : Fin cfg3.N) (hc0 : ¬cond3_0 (grid3.coords t)) (hc1 : cond3_1 (grid3.coords t)) (xs0 : Vec F S2048x512 .f32) (y : S2048x512.Idx) : ∃ pc ∈ (runC3 V c t hc0 hc1 xs0).2.1, y ∈ pc.1.set :=
  View.cover_of_tiledL (runC3 V c t hc0 hc1 xs0).2.1 S2048x512.size (by unfold runC3; sl_kernel_rfl) y
/-- The last case's output piece covers the output block. -/
theorem cover3_C (c : Dev nD) (t : Fin cfg3.N) (hc0 : ¬cond3_0 (grid3.coords t)) (hc1 : cond3_1 (grid3.coords t)) (xs0 : Vec F S2048x512 .f32) (y : S2048x512.Idx) : ∃ pc ∈ (runC3 V c t hc0 hc1 xs0).1, y ∈ pc.1.set :=
  View.cover_of_tiledL (runC3 V c t hc0 hc1 xs0).1 S2048x512.size (by unfold runC3; sl_kernel_rfl) y

/-- What each case leaves in the accumulator: its pieces read back. -/
def soutA3 (c : Dev nD) (t : Fin cfg3.N) (hc0 : cond3_0 (grid3.coords t)) (hc1 : ¬cond3_1 (grid3.coords t)) : Vec F S2048x512 .f32 :=
  VS3_0.read (Elt F) (VS3_0.writes (Elt F) VS3_0.junk (runA3 V c t hc0 hc1).2.1)
def soutB3 (c : Dev nD) (t : Fin cfg3.N) (hc0 : ¬cond3_0 (grid3.coords t)) (hc1 : ¬cond3_1 (grid3.coords t)) (xs0 : Vec F S2048x512 .f32) : Vec F S2048x512 .f32 :=
  VS3_0.read (Elt F) (VS3_0.writes (Elt F) VS3_0.junk (runB3 V c t hc0 hc1 xs0).2.1)
def soutC3 (c : Dev nD) (t : Fin cfg3.N) (hc0 : ¬cond3_0 (grid3.coords t)) (hc1 : cond3_1 (grid3.coords t)) (xs0 : Vec F S2048x512 .f32) : Vec F S2048x512 .f32 :=
  VS3_0.read (Elt F) (VS3_0.writes (Elt F) VS3_0.junk (runC3 V c t hc0 hc1 xs0).2.1)
/-- What the last case leaves in the output's buffer: its piece read back. (In the other cases the window is idle and
    nothing consults its buffer: a placeholder.) -/
def outC3 (c : Dev nD) (t : Fin cfg3.N) (hc0 : ¬cond3_0 (grid3.coords t)) (hc1 : cond3_1 (grid3.coords t)) (xs0 : Vec F S2048x512 .f32) : Vec F S2048x512 .f32 :=
  VO3_3.read (Elt F) (VO3_3.writes (Elt F) VO3_3.junk (runC3 V c t hc0 hc1 xs0).1)
def outIdle3 : Vec F S2048x512 .f32 := VO3_3.read (Elt F) VO3_3.junk

/-! ## What output and accumulator hold after each point -/

/-- THE ACCUMULATION: the pair (output buffer, accumulator) after the body at position `n`: the case the position is in,
    run over what the position before left in the accumulator. -/
def outsAt3 (c : Dev nD) : (n : ℕ) → n < cfg3.N → Vec F S2048x512 .f32 × Vec F S2048x512 .f32
  | 0, hn => (outIdle3, soutA3 V c ⟨0, hn⟩ ((hcond3_0 ⟨0, hn⟩).mpr (Nat.zero_mod _)) (fun h => (fun h => by (try dsimp only at h); omega) ((hcond3_1 ⟨0, hn⟩).mp h)))
  | n + 1, hn =>
    if h0 : (n + 1) % 16 = 0 then
      if h1 : (n + 1) % 16 = 15 then False.elim (by omega)
      else (outIdle3, soutA3 V c ⟨n + 1, hn⟩ ((hcond3_0 ⟨n + 1, hn⟩).mpr h0) (fun h => h1 ((hcond3_1 ⟨n + 1, hn⟩).mp h)))
    else
      if h1 : (n + 1) % 16 = 15 then
        (outC3 V c ⟨n + 1, hn⟩ (fun h => h0 ((hcond3_0 ⟨n + 1, hn⟩).mp h)) ((hcond3_1 ⟨n + 1, hn⟩).mpr h1) (outsAt3 c n (Nat.lt_of_succ_lt hn)).2,
         soutC3 V c ⟨n + 1, hn⟩ (fun h => h0 ((hcond3_0 ⟨n + 1, hn⟩).mp h)) ((hcond3_1 ⟨n + 1, hn⟩).mpr h1) (outsAt3 c n (Nat.lt_of_succ_lt hn)).2)
      else
        (outIdle3, soutB3 V c ⟨n + 1, hn⟩ (fun h => h0 ((hcond3_0 ⟨n + 1, hn⟩).mp h)) (fun h => h1 ((hcond3_1 ⟨n + 1, hn⟩).mp h)) (outsAt3 c n (Nat.lt_of_succ_lt hn)).2)

theorem outsAt3_A (c : Dev nD) (t : Fin cfg3.N) (h0 : t.val % 16 = 0) (h1 : ¬t.val % 16 = 15) :
    outsAt3 V c t.val t.isLt = (outIdle3, soutA3 V c t ((hcond3_0 t).mpr h0) (fun h => h1 ((hcond3_1 t).mp h))) := by
  obtain ⟨n, hn⟩ := t
  cases n with
  | zero => exact rfl
  | succ n => exact (dif_pos h0).trans ((dif_neg h1).trans rfl)
theorem outsAt3_B (c : Dev nD) (t : Fin cfg3.N) (h0 : ¬t.val % 16 = 0) (h1 : ¬t.val % 16 = 15) :
    outsAt3 V c t.val t.isLt = (outIdle3, soutB3 V c t (fun h => h0 ((hcond3_0 t).mp h)) (fun h => h1 ((hcond3_1 t).mp h)) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)
theorem outsAt3_C (c : Dev nD) (t : Fin cfg3.N) (h0 : ¬t.val % 16 = 0) (h1 : t.val % 16 = 15) :
    outsAt3 V c t.val t.isLt = (outC3 V c t (fun h => h0 ((hcond3_0 t).mp h)) ((hcond3_1 t).mpr h1) (outsAt3 V c (t.val - 1) (Nat.lt_of_le_of_lt (Nat.sub_le _ _) t.isLt)).2,
      soutC3 V c t (fun h => h0 ((hcond3_0 t).mp h)) ((hcond3_1 t).mpr h1) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the accumulator carried from point to point -/

/-- Before the first point the untouched scoped rest and generator register; after point `n` the same with the accumulator
    at what that point left in it. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2)) ∗ RB3 c) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(iprop(owns (c : Thread nD τ) scM3_0 fullShare ((outsAt3 V c n hn).2)) ∗ RB3 c) ∗ (∃ r, prngReg c r)) := rfl
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2)) ∗ RB3 c) ∗ (∃ r, prngReg c r)) := by
  cases n with
  | zero => exact absurd rfl hz
  | succ n => rfl

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 8000000 in
/-- The body at any point: the inputs' memrefs hold their blocks; the closed forms say which case the point is in; the
    invariant hands the body the accumulator at what the point before left (at anything before the first point) and takes
    it back at this point's contents; an idle output's buffer is handed back as found; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 128 := lt_of_lt_of_eq t.isLt (show cfg3.N = 128 from N_3)
  by_cases h0 : t.val % 16 = 0
  · by_cases h1 : t.val % 16 = 15
    · exfalso; omega
    · have hc0 : cond3_0 (grid3.coords t) := (hcond3_0 t).mpr h0
      have hc1 : ¬cond3_1 (grid3.coords t) := fun h => h1 ((hcond3_1 t).mp h)
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3 t hc1) (noFlush3_3 t hc1)]
      rw [outsAt3_A V c t h0 h1]
      unfold soutA3 runA3; (try dsimp only)
      by_cases hz : t.val = 0
      · rw [PhiS3_castSucc V c t, PhiS3_zero V c _ _ hz, PhiA3_eq]
        iintro ⟨⟨⟨HS0, Hrb⟩, Hg⟩, Ho, ⟨%d0, H0⟩, ⟨%d1, H1⟩, ⟨%d2, H2⟩, ⟨%d3, H3⟩⟩
        iapply ((kernelRun3_A c (grid3.coords t) (ms3_0 t) (hs3_0 t) (ms3_1 t) (hs3_1 t) (ms3_2 t) (hs3_2 t) (ms3_3 t) (hs3_3 t) scM3_0 (Memref.isWhole_whole _) hc0 hc1 (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrb Hg]
        · isplitl [HS0 Hrb]
          · isplitl [HS0]
            · unfold owns; iexists _; isplitr
              swap; · iexact HS0
              ipureintro; exact View.read_writes_of_cover _ _ _ _ _ (scover3_A V c t hc0 hc1)
            iexact Hrb
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS0, Hrb⟩, Hg⟩, Ho, ⟨%d0, H0⟩, ⟨%d1, H1⟩, ⟨%d2, H2⟩, ⟨%d3, H3⟩⟩
        iapply ((kernelRun3_A c (grid3.coords t) (ms3_0 t) (hs3_0 t) (ms3_1 t) (hs3_1 t) (ms3_2 t) (hs3_2 t) (ms3_3 t) (hs3_3 t) scM3_0 (Memref.isWhole_whole _) hc0 hc1 (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrb Hg]
        · isplitl [HS0 Hrb]
          · isplitl [HS0]
            · unfold owns; iexists _; isplitr
              swap; · iexact HS0
              ipureintro; exact View.read_writes_of_cover _ _ _ _ _ (scover3_A V c t hc0 hc1)
            iexact Hrb
          iexact Hg
        isplitl [Ho]; · iexact Ho
        isplitl [H0]; · iexact H0
        isplitl [H1]; · iexact H1
        isplitl [H2]; · iexact H2
        iexists _; iexact H3
  · have hc0 : ¬cond3_0 (grid3.coords t) := fun h => h0 ((hcond3_0 t).mp h)
    have hz : t.val ≠ 0 := fun hz => h0 (by rw [hz])
    by_cases h1 : t.val % 16 = 15
    · have hc1 : cond3_1 (grid3.coords t) := (hcond3_1 t).mpr h1
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t hc1], after3_3]
      rw [outsAt3_C V c t h0 h1]
      unfold outC3 soutC3 runC3; (try dsimp only)
      rw [PhiS3_castSucc V c t, PhiS3_pos V c _ _ hz]
      iintro ⟨⟨⟨HS0, Hrb⟩, Hg⟩, Ho, ⟨%d0, H0⟩, ⟨%d1, H1⟩, ⟨%d2, H2⟩, ⟨%d3, H3⟩⟩
      iapply ((kernelRun3_C c (grid3.coords t) (ms3_0 t) (hs3_0 t) (ms3_1 t) (hs3_1 t) (ms3_2 t) (hs3_2 t) (ms3_3 t) (hs3_3 t) scM3_0 (Memref.isWhole_whole _) hc0 hc1 (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover3_C V c t hc0 hc1 _)
          iexact Hrb
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C V c t hc0 hc1 _)
    · have hc1 : ¬cond3_1 (grid3.coords t) := fun h => h1 ((hcond3_1 t).mp h)
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3 t hc1) (noFlush3_3 t hc1)]
      rw [outsAt3_B V c t h0 h1]
      unfold soutB3 runB3; (try dsimp only)
      rw [PhiS3_castSucc V c t, PhiS3_pos V c _ _ hz]
      iintro ⟨⟨⟨HS0, Hrb⟩, Hg⟩, Ho, ⟨%d0, H0⟩, ⟨%d1, H1⟩, ⟨%d2, H2⟩, ⟨%d3, H3⟩⟩
      iapply ((kernelRun3_B c (grid3.coords t) (ms3_0 t) (hs3_0 t) (ms3_1 t) (hs3_1 t) (ms3_2 t) (hs3_2 t) (ms3_3 t) (hs3_3 t) scM3_0 (Memref.isWhole_whole _) hc0 hc1 (iblk3 V c 0 t) (iblk3 V c 1 t) (iblk3 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover3_B V c t hc0 hc1 _)
          iexact Hrb
        iexact Hg
      isplitl [Ho]; · iexact Ho
      isplitl [H0]; · iexact H0
      isplitl [H1]; · iexact H1
      isplitl [H2]; · iexact H2
      iexists _; iexact H3

theorem body_obligation3 (c : Dev nD) : BodyObligation (dat3 (F := F) V c) (defs₀ (F := F)) Variants.none () Set.univ := fun t => by
  rw [bigSep_W3, bigSep_W3]
  exact sound_body3 V c t

/-- What the region is handed is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the scoped rest back: the accumulator's named contents are forgotten. -/
theorem hout3 (c : Dev nD) : (dat3 V c).Φ (Fin.last cfg3.N) ⊢ Pipeline.ΦA spec3 c := by
  have ht : (Fin.last cfg3.N).val ≠ 0 := by rw [Fin.val_last]; have : cfg3.N = 128 := N_3; omega
  rw [show (dat3 V c).Φ (Fin.last cfg3.N) = PhiS3 V c (Fin.last cfg3.N).val (Nat.le_of_lt_succ (Fin.last cfg3.N).isLt) from rfl,
    PhiS3_pos V c _ _ ht, PhiA3_eq]
  iintro ⟨⟨HS0, Hrb⟩, Hg⟩
  isplitl [HS0 Hrb]
  · isplitl [HS0]
    · iexists _; iexact HS0
    iexact Hrb
  iexact Hg

end Cert.KernelIdeal.Frame

end
-- ==== Proof.Ideal.Dense4.lean ====
/-
  Region 4 of the program: one dense layer, `out = x · W + b` on 2048-row blocks. The grid has 8 points; at point `t`
  the body reads the `t`-th 2048×512 block of the activations, the whole weight matrix and the whole bias row (both
  fetched once and never moved), and stores ONE value covering the whole output block. So after the body the output's
  staging buffer holds a single piece: the body's arithmetic (the skeleton's payload) of the three input blocks; the
  inputs' buffers are as they were. This module states that at any contents `V` of the core's buffers at the region's
  entry: the blocks, what the body leaves, the body's triple, the pipeline's proof data and the body obligation at every point.
-/
import proofs.«134615_j996432413323_2_alg».proof.Proof.Gen.KernelIdeal.Launch
import proofs.«134615_j996432413323_2_alg».proof.Proof.Gen.KernelIdeal.Skeleton
import proofs.«134615_j996432413323_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, whether fetched there or not: where it is
    not fetched its block index has not moved since the fetch. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole-buffer rectangles the body loads and stores through. -/
abbrev rx4 : Rect S2048x512 := Rect.unit (s := S2048x512) ![0, 0] S2048x512.size inb_S2048x512_S2048x512_0_0
abbrev rw4 : Rect S512x512 := Rect.unit (s := S512x512) ![0, 0] S512x512.size inb_S512x512_S512x512_0_0
abbrev rb4 : Rect S1x512 := Rect.unit (s := S1x512) ![0, 0] S1x512.size inb_S1x512_S1x512_0_0
abbrev ro4 : Rect S2048x512 := Rect.unit (s := S2048x512) ![0, 0] S2048x512.size inb_S2048x512_S2048x512_0_0

/-- The output's staging buffer after the body, from the input blocks: its one store as a piece. -/
def out4_3 (x0 : Vec F S2048x512 .f32) (x1 : Vec F S512x512 .f32) (x2 : Vec F S1x512 .f32) : Vec F S2048x512 .bf16 :=
  View.canon [⟨ro4, k4_pay1 (View.ld x0 rx4) (View.ld x1 rw4) (View.ld x2 rb4)⟩]

/-- The one store covers the buffer. -/
theorem cover4_3 (p0 : Vec F S2048x512 .bf16) (y : S2048x512.Idx) :
    ∃ pc ∈ ([⟨ro4, p0⟩] : List (View.Piece (Elt F) S2048x512 .bf16)), y ∈ pc.1.set :=
  View.cover_of_tiled [⟨ro4, p0⟩] S2048x512.size (by rfl) y

set_option maxHeartbeats 4000000 in
/-- The body on whole staging memrefs, the inputs' at contents `x0 x1 x2` and the output's at anything, runs to the
    continuation with the inputs' as they were and the output's at `out4_3` of them. -/
theorem sound_kernel4 (c : Dev nD) (E : Set ℕ) (i : grid4.Coords) (arg1 : Memref sig .tc .vmem S2048x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S2048x512 .bf16) (harg4 : arg4.IsWhole)
    (x0 : Vec F S2048x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__dense_kernel i arg1 harg1 arg2 harg2 arg3 harg3 arg4 harg4) K := by
  simp only [cc4__dense_kernel_eq_skeleton]; unfold cc4__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The proof data of pipeline 4 on core `c`: the arrays as the region finds them; after the body at point `t` each
    input's buffer at its block and the output's at `out4_3` of the input blocks; the invariant the untouched scoped rest
    and generator register; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Frame

end
-- ==== Proof.Ideal.Gc5.lean ====
/-
  Region 5 of the program: one graph-convolution layer, `out = max(adj · s + b, 0)`, accumulated over 16 column blocks of
  `adj`. The grid has 8 × 16 points (row block `i`, column block `k`, `k` innermost); the body keeps a 2048×512 accumulator
  in a scratch buffer of its own, which the pipeline does not stage: at `k = 0` it stores zeros into it, at every `k` it
  adds the product of the point's 2048×1024 block of `adj` with the point's 1024×512 block of `s`, and at `k = 15` it stores
  `max(acc + b, 0)` into the output block, which is written back only there. So a point is in one of three cases — first
  (`k = 0`), middle, last (`k = 15`) — and what the scratch holds after a point depends on what the point before left.
  This module states, at any contents `V` of the core's buffers at the region's entry: the two branch conditions in closed
  form over the grid; where the output window is idle; the body's triple in each case, with the pieces each store leaves
  found by running the body; what output and scratch hold after each point, by recursion on the point; the region's
  invariant carrying the scratch from point to point; the pipeline's proof data; the body obligation; and that the
  invariant is entered from, and gives back, the untouched scoped rest.
-/
import proofs.«134615_j996432413323_2_alg».proof.Proof.Gen.KernelIdeal.Launch
import proofs.«134615_j996432413323_2_alg».proof.Proof.Gen.KernelIdeal.Skeleton
import proofs.«134615_j996432413323_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, and where the output window is idle -/

/-- The first branch's condition (`k = 0`), from the grid coordinates. -/
abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 16 = 0 :=
  (by decide +kernel : ∀ t : Fin grid5.N, cond5_0 (grid5.coords t) ↔ t.val % 16 = 0)
/-- The second branch's condition (`k = 15`). -/
abbrev cond5_1 (i : grid5.Coords) : Prop := k5_cond2 i = 1#1
theorem hcond5_1 : ∀ t : Fin cfg5.N, cond5_1 (grid5.coords t) ↔ t.val % 16 = 15 :=
  (by decide +kernel : ∀ t : Fin grid5.N, cond5_1 (grid5.coords t) ↔ t.val % 16 = 15)

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
/-- Where `k ≠ 15` the output window is idle and not written back; where `k = 15` it is live. -/
theorem idleAt5_3 : ∀ t : Fin cfg5.N, ¬cond5_1 (grid5.coords t) → cfg5.idle 3 (grid5.coords t) = true := by decide +kernel
theorem noFlush5_3 : ∀ t : Fin cfg5.N, ¬cond5_1 (grid5.coords t) → (cfg5.win 3).flush t = false := by decide +kernel
theorem liveAt5_3 : ∀ t : Fin cfg5.N, cond5_1 (grid5.coords t) → cfg5.idle 3 (grid5.coords t) = false := by decide +kernel

/-! ## The memrefs the body is called with -/

abbrev VO5_3 : View sig .tc .vmem S2048x512 .f32 := (Memref.whole cc5_stg3_0 : Memref sig .tc .vmem S2048x512 .f32).view
abbrev ms5_0 (t : Fin cfg5.N) : Memref sig .tc .vmem S2048x1024 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x512 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x512 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S2048x512 .f32 := win5_3.stage (cfg5.slots t 3)
abbrev hs5_3 (t : Fin cfg5.N) : (ms5_3 t).IsWhole := hstage5_3 ((cfg5.slots t 3).cast nbuf5_3)
/-- The accumulator: a whole scoped buffer of the kernel's own. -/
abbrev scM5_0 : Memref sig .tc .vmem S2048x512 .f32 := Memref.whole cc5_scratch0
abbrev VS5_0 : View sig .tc .vmem S2048x512 .f32 := scM5_0.view

/-- Every other scoped buffer of the program (the other calls' staging buffers and scratch), unopened. -/
abbrev RB5 (c : Dev nD) : sProp 𝕄 :=
  Pipeline.scopedRestBut (Ix := Unit) (Name := ℕ) (U := UR sig nD τ) (Lvl := ℕ) (Val := Elt F) spec5 c [cc5_scratch0]

/-- The untouched scoped rest and generator register, with the accumulator split out as a memref at some contents. -/
theorem PhiA5_eq (c : Dev nD) :
    (Pipeline.ΦA spec5 c : sProp 𝕄)
      = iprop(iprop(iprop((∃ d, owns (c : Thread nD τ) scM5_0 fullShare d)) ∗ RB5 c) ∗ (∃ r, prngReg c r)) := by
  unfold Pipeline.ΦA; rw [scopedRest5_split]; simp only [scM5_0, owns_whole]; try rfl

/-! ## The body in each case: the pieces its stores leave, found by running it -/

set_option maxHeartbeats 4000000 in
/-- FIRST case (`k = 0`): the output's buffer is handed back untouched; the accumulator, at anything, ends with the
    pieces of the zero store and of the accumulation written. -/
noncomputable def kernelRun5_A (c : Dev nD) (i : grid5.Coords) (arg2 : Memref sig .tc .vmem S2048x1024 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S2048x512 .f32) (harg5 : arg5.IsWhole) (arg6 : Memref sig .tc .vmem S2048x512 .f32) (harg6 : arg6.IsWhole) (hc0 : cond5_0 i) (hc1 : ¬cond5_1 i)
    (x0 : Vec F S2048x1024 .f32) (x1 : Vec F S1024x512 .bf16) (x2 : Vec F S1x512 .f32) :
    Σ' (L3 : List (View.Piece (Elt F) S2048x512 .f32)), { LS0 : List (View.Piece (Elt F) S2048x512 .f32) //
      ∀ (xi3 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__gc_reduce_kernel i arg2 harg2 arg3 harg3 arg4 harg4 arg5 harg5 arg6 harg6) K } := by
  refine ⟨[], ?_, fun xi3 E K => ?run⟩
  case run =>
    simp only [cc5__gc_reduce_kernel_eq_skeleton]; unfold cc5__gc_reduce_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- MIDDLE case: the output's buffer is handed back untouched; the accumulator, at what the point before left, ends
    with the accumulation's piece written. -/
noncomputable def kernelRun5_B (c : Dev nD) (i : grid5.Coords) (arg2 : Memref sig .tc .vmem S2048x1024 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S2048x512 .f32) (harg5 : arg5.IsWhole) (arg6 : Memref sig .tc .vmem S2048x512 .f32) (harg6 : arg6.IsWhole) (hc0 : ¬cond5_0 i) (hc1 : ¬cond5_1 i)
    (x0 : Vec F S2048x1024 .f32) (x1 : Vec F S1024x512 .bf16) (x2 : Vec F S1x512 .f32) (xs0 : Vec F S2048x512 .f32) :
    Σ' (L3 : List (View.Piece (Elt F) S2048x512 .f32)), { LS0 : List (View.Piece (Elt F) S2048x512 .f32) //
      ∀ (xi3 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__gc_reduce_kernel i arg2 harg2 arg3 harg3 arg4 harg4 arg5 harg5 arg6 harg6) K } := by
  refine ⟨[], ?_, fun xi3 E K => ?run⟩
  case run =>
    simp only [cc5__gc_reduce_kernel_eq_skeleton]; unfold cc5__gc_reduce_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- LAST case (`k = 15`): the accumulator as in the middle case; the output's buffer, at anything, ends with the piece
    of the final store written. -/
noncomputable def kernelRun5_C (c : Dev nD) (i : grid5.Coords) (arg2 : Memref sig .tc .vmem S2048x1024 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S2048x512 .f32) (harg5 : arg5.IsWhole) (arg6 : Memref sig .tc .vmem S2048x512 .f32) (harg6 : arg6.IsWhole) (hc0 : ¬cond5_0 i) (hc1 : cond5_1 i)
    (x0 : Vec F S2048x1024 .f32) (x1 : Vec F S1024x512 .bf16) (x2 : Vec F S1x512 .f32) (xs0 : Vec F S2048x512 .f32) :
    Σ' (L3 : List (View.Piece (Elt F) S2048x512 .f32)), { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc5__gc_reduce_kernel i arg2 harg2 arg3 harg3 arg4 harg4 arg5 harg5 arg6 harg6) K } := by
  refine ⟨?_, ?_, fun E K => ?run⟩
  case run =>
    simp only [cc5__gc_reduce_kernel_eq_skeleton]; unfold cc5__gc_reduce_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-! ## At the region's entry contents `V` -/

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The three cases' runs at point `t`: on the point's staging memrefs and the accumulator, at the point's input blocks. -/
def runA5 (c : Dev nD) (t : Fin cfg5.N) (hc0 : cond5_0 (grid5.coords t)) (hc1 : ¬cond5_1 (grid5.coords t)) :=
  kernelRun5_A (F := F) c (grid5.coords t) (ms5_0 t) (hs5_0 t) (ms5_1 t) (hs5_1 t) (ms5_2 t) (hs5_2 t) (ms5_3 t) (hs5_3 t) scM5_0 (Memref.isWhole_whole _) hc0 hc1 (iblk5 V c 0 t) (iblk5 V c 1 t) (iblk5 V c 2 t)
def runB5 (c : Dev nD) (t : Fin cfg5.N) (hc0 : ¬cond5_0 (grid5.coords t)) (hc1 : ¬cond5_1 (grid5.coords t)) (xs0 : Vec F S2048x512 .f32) :=
  kernelRun5_B (F := F) c (grid5.coords t) (ms5_0 t) (hs5_0 t) (ms5_1 t) (hs5_1 t) (ms5_2 t) (hs5_2 t) (ms5_3 t) (hs5_3 t) scM5_0 (Memref.isWhole_whole _) hc0 hc1 (iblk5 V c 0 t) (iblk5 V c 1 t) (iblk5 V c 2 t) xs0
def runC5 (c : Dev nD) (t : Fin cfg5.N) (hc0 : ¬cond5_0 (grid5.coords t)) (hc1 : cond5_1 (grid5.coords t)) (xs0 : Vec F S2048x512 .f32) :=
  kernelRun5_C (F := F) c (grid5.coords t) (ms5_0 t) (hs5_0 t) (ms5_1 t) (hs5_1 t) (ms5_2 t) (hs5_2 t) (ms5_3 t) (hs5_3 t) scM5_0 (Memref.isWhole_whole _) hc0 hc1 (iblk5 V c 0 t) (iblk5 V c 1 t) (iblk5 V c 2 t) xs0

/-- Each case's accumulator pieces cover the accumulator. -/
theorem scover5_A (c : Dev nD) (t : Fin cfg5.N) (hc0 : cond5_0 (grid5.coords t)) (hc1 : ¬cond5_1 (grid5.coords t)) (y : S2048x512.Idx) : ∃ pc ∈ (runA5 V c t hc0 hc1).2.1, y ∈ pc.1.set :=
  View.cover_of_tiledL (runA5 V c t hc0 hc1).2.1 S2048x512.size (by unfold runA5; sl_kernel_rfl) y
theorem scover5_B (c : Dev nD) (t : Fin cfg5.N) (hc0 : ¬cond5_0 (grid5.coords t)) (hc1 : ¬cond5_1 (grid5.coords t)) (xs0 : Vec F S2048x512 .f32) (y : S2048x512.Idx) : ∃ pc ∈ (runB5 V c t hc0 hc1 xs0).2.1, y ∈ pc.1.set :=
  View.cover_of_tiledL (runB5 V c t hc0 hc1 xs0).2.1 S2048x512.size (by unfold runB5; sl_kernel_rfl) y
theorem scover5_C (c : Dev nD) (t : Fin cfg5.N) (hc0 : ¬cond5_0 (grid5.coords t)) (hc1 : cond5_1 (grid5.coords t)) (xs0 : Vec F S2048x512 .f32) (y : S2048x512.Idx) : ∃ pc ∈ (runC5 V c t hc0 hc1 xs0).2.1, y ∈ pc.1.set :=
  View.cover_of_tiledL (runC5 V c t hc0 hc1 xs0).2.1 S2048x512.size (by unfold runC5; sl_kernel_rfl) y
/-- The last case's output piece covers the output block. -/
theorem cover5_C (c : Dev nD) (t : Fin cfg5.N) (hc0 : ¬cond5_0 (grid5.coords t)) (hc1 : cond5_1 (grid5.coords t)) (xs0 : Vec F S2048x512 .f32) (y : S2048x512.Idx) : ∃ pc ∈ (runC5 V c t hc0 hc1 xs0).1, y ∈ pc.1.set :=
  View.cover_of_tiledL (runC5 V c t hc0 hc1 xs0).1 S2048x512.size (by unfold runC5; sl_kernel_rfl) y

/-- What each case leaves in the accumulator: its pieces read back. -/
def soutA5 (c : Dev nD) (t : Fin cfg5.N) (hc0 : cond5_0 (grid5.coords t)) (hc1 : ¬cond5_1 (grid5.coords t)) : Vec F S2048x512 .f32 :=
  VS5_0.read (Elt F) (VS5_0.writes (Elt F) VS5_0.junk (runA5 V c t hc0 hc1).2.1)
def soutB5 (c : Dev nD) (t : Fin cfg5.N) (hc0 : ¬cond5_0 (grid5.coords t)) (hc1 : ¬cond5_1 (grid5.coords t)) (xs0 : Vec F S2048x512 .f32) : Vec F S2048x512 .f32 :=
  VS5_0.read (Elt F) (VS5_0.writes (Elt F) VS5_0.junk (runB5 V c t hc0 hc1 xs0).2.1)
def soutC5 (c : Dev nD) (t : Fin cfg5.N) (hc0 : ¬cond5_0 (grid5.coords t)) (hc1 : cond5_1 (grid5.coords t)) (xs0 : Vec F S2048x512 .f32) : Vec F S2048x512 .f32 :=
  VS5_0.read (Elt F) (VS5_0.writes (Elt F) VS5_0.junk (runC5 V c t hc0 hc1 xs0).2.1)
/-- What the last case leaves in the output's buffer: its piece read back. (In the other cases the window is idle and
    nothing consults its buffer: a placeholder.) -/
def outC5 (c : Dev nD) (t : Fin cfg5.N) (hc0 : ¬cond5_0 (grid5.coords t)) (hc1 : cond5_1 (grid5.coords t)) (xs0 : Vec F S2048x512 .f32) : Vec F S2048x512 .f32 :=
  VO5_3.read (Elt F) (VO5_3.writes (Elt F) VO5_3.junk (runC5 V c t hc0 hc1 xs0).1)
def outIdle5 : Vec F S2048x512 .f32 := VO5_3.read (Elt F) VO5_3.junk

/-! ## What output and accumulator hold after each point -/

/-- THE ACCUMULATION: the pair (output buffer, accumulator) after the body at position `n`: the case the position is in,
    run over what the position before left in the accumulator. -/
def outsAt5 (c : Dev nD) : (n : ℕ) → n < cfg5.N → Vec F S2048x512 .f32 × Vec F S2048x512 .f32
  | 0, hn => (outIdle5, soutA5 V c ⟨0, hn⟩ ((hcond5_0 ⟨0, hn⟩).mpr (Nat.zero_mod _)) (fun h => (fun h => by (try dsimp only at h); omega) ((hcond5_1 ⟨0, hn⟩).mp h)))
  | n + 1, hn =>
    if h0 : (n + 1) % 16 = 0 then
      if h1 : (n + 1) % 16 = 15 then False.elim (by omega)
      else (outIdle5, soutA5 V c ⟨n + 1, hn⟩ ((hcond5_0 ⟨n + 1, hn⟩).mpr h0) (fun h => h1 ((hcond5_1 ⟨n + 1, hn⟩).mp h)))
    else
      if h1 : (n + 1) % 16 = 15 then
        (outC5 V c ⟨n + 1, hn⟩ (fun h => h0 ((hcond5_0 ⟨n + 1, hn⟩).mp h)) ((hcond5_1 ⟨n + 1, hn⟩).mpr h1) (outsAt5 c n (Nat.lt_of_succ_lt hn)).2,
         soutC5 V c ⟨n + 1, hn⟩ (fun h => h0 ((hcond5_0 ⟨n + 1, hn⟩).mp h)) ((hcond5_1 ⟨n + 1, hn⟩).mpr h1) (outsAt5 c n (Nat.lt_of_succ_lt hn)).2)
      else
        (outIdle5, soutB5 V c ⟨n + 1, hn⟩ (fun h => h0 ((hcond5_0 ⟨n + 1, hn⟩).mp h)) (fun h => h1 ((hcond5_1 ⟨n + 1, hn⟩).mp h)) (outsAt5 c n (Nat.lt_of_succ_lt hn)).2)

theorem outsAt5_A (c : Dev nD) (t : Fin cfg5.N) (h0 : t.val % 16 = 0) (h1 : ¬t.val % 16 = 15) :
    outsAt5 V c t.val t.isLt = (outIdle5, soutA5 V c t ((hcond5_0 t).mpr h0) (fun h => h1 ((hcond5_1 t).mp h))) := by
  obtain ⟨n, hn⟩ := t
  cases n with
  | zero => exact rfl
  | succ n => exact (dif_pos h0).trans ((dif_neg h1).trans rfl)
theorem outsAt5_B (c : Dev nD) (t : Fin cfg5.N) (h0 : ¬t.val % 16 = 0) (h1 : ¬t.val % 16 = 15) :
    outsAt5 V c t.val t.isLt = (outIdle5, soutB5 V c t (fun h => h0 ((hcond5_0 t).mp h)) (fun h => h1 ((hcond5_1 t).mp h)) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)
theorem outsAt5_C (c : Dev nD) (t : Fin cfg5.N) (h0 : ¬t.val % 16 = 0) (h1 : t.val % 16 = 15) :
    outsAt5 V c t.val t.isLt = (outC5 V c t (fun h => h0 ((hcond5_0 t).mp h)) ((hcond5_1 t).mpr h1) (outsAt5 V c (t.val - 1) (Nat.lt_of_le_of_lt (Nat.sub_le _ _) t.isLt)).2,
      soutC5 V c t (fun h => h0 ((hcond5_0 t).mp h)) ((hcond5_1 t).mpr h1) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the accumulator carried from point to point -/

/-- Before the first point the untouched scoped rest and generator register; after point `n` the same with the accumulator
    at what that point left in it. -/
def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2)) ∗ RB5 c) ∗ (∃ r, prngReg c r))

theorem PhiS5_zero (c : Dev nD) (n : ℕ) (h : n ≤ cfg5.N) (hz : n = 0) : PhiS5 V c n h = Pipeline.ΦA spec5 c := by
  subst hz; rfl
theorem PhiS5_succ (c : Dev nD) (n : ℕ) (hn : n < cfg5.N) :
    PhiS5 V c (n + 1) hn = iprop(iprop(iprop(owns (c : Thread nD τ) scM5_0 fullShare ((outsAt5 V c n hn).2)) ∗ RB5 c) ∗ (∃ r, prngReg c r)) := rfl
theorem PhiS5_pos (c : Dev nD) (n : ℕ) (h : n ≤ cfg5.N) (hz : n ≠ 0) :
    PhiS5 V c n h = iprop(iprop(iprop(owns (c : Thread nD τ) scM5_0 fullShare ((outsAt5 V c (n - 1) (by omega)).2)) ∗ RB5 c) ∗ (∃ r, prngReg c r)) := by
  cases n with
  | zero => exact absurd rfl hz
  | succ n => rfl

/-! ## The pipeline's proof data -/

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem PhiS5_castSucc (c : Dev nD) (t : Fin cfg5.N) :
    (dat5 V c).Φ t.castSucc = PhiS5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 8000000 in
/-- The body at any point: the inputs' memrefs hold their blocks; the closed forms say which case the point is in; the
    invariant hands the body the accumulator at what the point before left (at anything before the first point) and takes
    it back at this point's contents; an idle output's buffer is handed back as found; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  have hN : t.val < 128 := lt_of_lt_of_eq t.isLt (show cfg5.N = 128 from N_5)
  by_cases h0 : t.val % 16 = 0
  · by_cases h1 : t.val % 16 = 15
    · exfalso; omega
    · have hc0 : cond5_0 (grid5.coords t) := (hcond5_0 t).mpr h0
      have hc1 : ¬cond5_1 (grid5.coords t) := fun h => h1 ((hcond5_1 t).mp h)
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [Dat.leavesExact_idle (dat5 V c) 3 t (idleAt5_3 t hc1) (noFlush5_3 t hc1)]
      rw [outsAt5_A V c t h0 h1]
      unfold soutA5 runA5; (try dsimp only)
      by_cases hz : t.val = 0
      · rw [PhiS5_castSucc V c t, PhiS5_zero V c _ _ hz, PhiA5_eq]
        iintro ⟨⟨⟨HS0, Hrb⟩, Hg⟩, Ho, ⟨%d0, H0⟩, ⟨%d1, H1⟩, ⟨%d2, H2⟩, ⟨%d3, H3⟩⟩
        iapply ((kernelRun5_A c (grid5.coords t) (ms5_0 t) (hs5_0 t) (ms5_1 t) (hs5_1 t) (ms5_2 t) (hs5_2 t) (ms5_3 t) (hs5_3 t) scM5_0 (Memref.isWhole_whole _) hc0 hc1 (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrb Hg]
        · isplitl [HS0 Hrb]
          · isplitl [HS0]
            · unfold owns; iexists _; isplitr
              swap; · iexact HS0
              ipureintro; exact View.read_writes_of_cover _ _ _ _ _ (scover5_A V c t hc0 hc1)
            iexact Hrb
          iexact Hg
        isplitl [Ho]; · iexact Ho
        isplitl [H0]; · iexact H0
        isplitl [H1]; · iexact H1
        isplitl [H2]; · iexact H2
        iexists _; iexact H3
      · rw [PhiS5_castSucc V c t, PhiS5_pos V c _ _ hz]
        iintro ⟨⟨⟨HS0, Hrb⟩, Hg⟩, Ho, ⟨%d0, H0⟩, ⟨%d1, H1⟩, ⟨%d2, H2⟩, ⟨%d3, H3⟩⟩
        iapply ((kernelRun5_A c (grid5.coords t) (ms5_0 t) (hs5_0 t) (ms5_1 t) (hs5_1 t) (ms5_2 t) (hs5_2 t) (ms5_3 t) (hs5_3 t) scM5_0 (Memref.isWhole_whole _) hc0 hc1 (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrb Hg]
        · isplitl [HS0 Hrb]
          · isplitl [HS0]
            · unfold owns; iexists _; isplitr
              swap; · iexact HS0
              ipureintro; exact View.read_writes_of_cover _ _ _ _ _ (scover5_A V c t hc0 hc1)
            iexact Hrb
          iexact Hg
        isplitl [Ho]; · iexact Ho
        isplitl [H0]; · iexact H0
        isplitl [H1]; · iexact H1
        isplitl [H2]; · iexact H2
        iexists _; iexact H3
  · have hc0 : ¬cond5_0 (grid5.coords t) := fun h => h0 ((hcond5_0 t).mp h)
    have hz : t.val ≠ 0 := fun hz => h0 (by rw [hz])
    by_cases h1 : t.val % 16 = 15
    · have hc1 : cond5_1 (grid5.coords t) := (hcond5_1 t).mpr h1
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t hc1], after5_3]
      rw [outsAt5_C V c t h0 h1]
      unfold outC5 soutC5 runC5; (try dsimp only)
      rw [PhiS5_castSucc V c t, PhiS5_pos V c _ _ hz]
      iintro ⟨⟨⟨HS0, Hrb⟩, Hg⟩, Ho, ⟨%d0, H0⟩, ⟨%d1, H1⟩, ⟨%d2, H2⟩, ⟨%d3, H3⟩⟩
      iapply ((kernelRun5_C c (grid5.coords t) (ms5_0 t) (hs5_0 t) (ms5_1 t) (hs5_1 t) (ms5_2 t) (hs5_2 t) (ms5_3 t) (hs5_3 t) scM5_0 (Memref.isWhole_whole _) hc0 hc1 (iblk5 V c 0 t) (iblk5 V c 1 t) (iblk5 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover5_C V c t hc0 hc1 _)
          iexact Hrb
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover5_C V c t hc0 hc1 _)
    · have hc1 : ¬cond5_1 (grid5.coords t) := fun h => h1 ((hcond5_1 t).mp h)
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [Dat.leavesExact_idle (dat5 V c) 3 t (idleAt5_3 t hc1) (noFlush5_3 t hc1)]
      rw [outsAt5_B V c t h0 h1]
      unfold soutB5 runB5; (try dsimp only)
      rw [PhiS5_castSucc V c t, PhiS5_pos V c _ _ hz]
      iintro ⟨⟨⟨HS0, Hrb⟩, Hg⟩, Ho, ⟨%d0, H0⟩, ⟨%d1, H1⟩, ⟨%d2, H2⟩, ⟨%d3, H3⟩⟩
      iapply ((kernelRun5_B c (grid5.coords t) (ms5_0 t) (hs5_0 t) (ms5_1 t) (hs5_1 t) (ms5_2 t) (hs5_2 t) (ms5_3 t) (hs5_3 t) scM5_0 (Memref.isWhole_whole _) hc0 hc1 (iblk5 V c 0 t) (iblk5 V c 1 t) (iblk5 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover5_B V c t hc0 hc1 _)
          iexact Hrb
        iexact Hg
      isplitl [Ho]; · iexact Ho
      isplitl [H0]; · iexact H0
      isplitl [H1]; · iexact H1
      isplitl [H2]; · iexact H2
      iexists _; iexact H3

theorem body_obligation5 (c : Dev nD) : BodyObligation (dat5 (F := F) V c) (defs₀ (F := F)) Variants.none () Set.univ := fun t => by
  rw [bigSep_W5, bigSep_W5]
  exact sound_body5 V c t

/-- What the region is handed is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After the last point the invariant gives the scoped rest back: the accumulator's named contents are forgotten. -/
theorem hout5 (c : Dev nD) : (dat5 V c).Φ (Fin.last cfg5.N) ⊢ Pipeline.ΦA spec5 c := by
  have ht : (Fin.last cfg5.N).val ≠ 0 := by rw [Fin.val_last]; have : cfg5.N = 128 := N_5; omega
  rw [show (dat5 V c).Φ (Fin.last cfg5.N) = PhiS5 V c (Fin.last cfg5.N).val (Nat.le_of_lt_succ (Fin.last cfg5.N).isLt) from rfl,
    PhiS5_pos V c _ _ ht, PhiA5_eq]
  iintro ⟨⟨HS0, Hrb⟩, Hg⟩
  isplitl [HS0 Hrb]
  · isplitl [HS0]
    · iexists _; iexact HS0
    iexact Hrb
  iexact Hg

end Cert.KernelIdeal.Frame

end
-- ==== Proof.Ideal.Dense6.lean ====
/-
  Region 6 of the program: one dense layer, `out = x · W + b` on 2048-row blocks. The grid has 8 points; at point `t`
  the body reads the `t`-th 2048×512 block of the activations, the whole weight matrix and the whole bias row (both
  fetched once and never moved), and stores ONE value covering the whole output block. So after the body the output's
  staging buffer holds a single piece: the body's arithmetic (the skeleton's payload) of the three input blocks; the
  inputs' buffers are as they were. This module states that at any contents `V` of the core's buffers at the region's
  entry: the blocks, what the body leaves, the body's triple, the pipeline's proof data and the body obligation at every point.
-/
import proofs.«134615_j996432413323_2_alg».proof.Proof.Gen.KernelIdeal.Launch
import proofs.«134615_j996432413323_2_alg».proof.Proof.Gen.KernelIdeal.Skeleton
import proofs.«134615_j996432413323_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, whether fetched there or not: where it is
    not fetched its block index has not moved since the fetch. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The whole-buffer rectangles the body loads and stores through. -/
abbrev rx6 : Rect S2048x512 := Rect.unit (s := S2048x512) ![0, 0] S2048x512.size inb_S2048x512_S2048x512_0_0
abbrev rw6 : Rect S512x128 := Rect.unit (s := S512x128) ![0, 0] S512x128.size inb_S512x128_S512x128_0_0
abbrev rb6 : Rect S1x128 := Rect.unit (s := S1x128) ![0, 0] S1x128.size inb_S1x128_S1x128_0_0
abbrev ro6 : Rect S2048x128 := Rect.unit (s := S2048x128) ![0, 0] S2048x128.size inb_S2048x128_S2048x128_0_0

/-- The output's staging buffer after the body, from the input blocks: its one store as a piece. -/
def out6_3 (x0 : Vec F S2048x512 .f32) (x1 : Vec F S512x128 .f32) (x2 : Vec F S1x128 .f32) : Vec F S2048x128 .f32 :=
  View.canon [⟨ro6, k6_pay1 (View.ld x0 rx6) (View.ld x1 rw6) (View.ld x2 rb6)⟩]

/-- The one store covers the buffer. -/
theorem cover6_3 (p0 : Vec F S2048x128 .f32) (y : S2048x128.Idx) :
    ∃ pc ∈ ([⟨ro6, p0⟩] : List (View.Piece (Elt F) S2048x128 .f32)), y ∈ pc.1.set :=
  View.cover_of_tiled [⟨ro6, p0⟩] S2048x128.size (by rfl) y

set_option maxHeartbeats 4000000 in
/-- The body on whole staging memrefs, the inputs' at contents `x0 x1 x2` and the output's at anything, runs to the
    continuation with the inputs' as they were and the output's at `out6_3` of them. -/
theorem sound_kernel6 (c : Dev nD) (E : Set ℕ) (i : grid6.Coords) (arg1 : Memref sig .tc .vmem S2048x512 .f32) (harg1 : arg1.IsWhole) (arg2 : Memref sig .tc .vmem S512x128 .f32) (harg2 : arg2.IsWhole)
    (arg3 : Memref sig .tc .vmem S1x128 .f32) (harg3 : arg3.IsWhole) (arg4 : Memref sig .tc .vmem S2048x128 .f32) (harg4 : arg4.IsWhole)
    (x0 : Vec F S2048x512 .f32) (x1 : Vec F S512x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__dense_kernel i arg1 harg1 arg2 harg2 arg3 harg3 arg4 harg4) K := by
  simp only [cc6__dense_kernel_eq_skeleton]; unfold cc6__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The proof data of pipeline 6 on core `c`: the arrays as the region finds them; after the body at point `t` each
    input's buffer at its block and the output's at `out6_3` of the input blocks; the invariant the untouched scoped rest
    and generator register; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so the body's triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Frame

end
-- ==== Proof.Ideal.Run.lean ====
/-
  The whole run of the program: seven kernel regions among stretches of host operations. Between two items core `c` holds
  every unscoped buffer at a valuation — the launch contents, then each host stretch applied, then each region's output
  array replaced by what the region leaves — beside the generator register and the core's dues, at nothing. What a region
  leaves depends on what it is entered with, which depends on what the regions before left: the contents are therefore
  built region by region (`o2`, `o4`, …), each from the valuation the regions before determine, and only then collected
  into the one family of unknowns (`outsF`) the conditional frame is stated over; that the collected family gives every
  region the same entry valuation as the staged one is the congruence of the valuations in the unknowns. Each region is a
  segment record over its proof data: entry and exit split the region's arrays out of the unscoped buffers and put them
  back; a dense region's invariant is the untouched scoped rest; an accumulating region's invariant is entered from and
  gives back the untouched scoped rest. The run then has in its post the result array at region 6's fold and every argument
  as launched.
-/
import proofs.«134615_j996432413323_2_alg».proof.Proof.Ideal.Dense0
import proofs.«134615_j996432413323_2_alg».proof.Proof.Ideal.Gc1
import proofs.«134615_j996432413323_2_alg».proof.Proof.Ideal.Dense2
import proofs.«134615_j996432413323_2_alg».proof.Proof.Ideal.Gc3
import proofs.«134615_j996432413323_2_alg».proof.Proof.Ideal.Dense4
import proofs.«134615_j996432413323_2_alg».proof.Proof.Ideal.Gc5
import proofs.«134615_j996432413323_2_alg».proof.Proof.Ideal.Dense6
import proofs.«134615_j996432413323_2_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The run from the regions' records, with the result array in its post -/

set_option backward.isDefEq.respectTransparency.types false in
/-- The run of @main from one segment record per region, as the conditional frame states it, with ONE MORE conjunct in the post: the
    result array `main_v24` ends at what the last valuation holds for it. The proof is the conditional frame's, the result's buffer read
    off the last valuation beside the arguments'. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 7) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 8 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE7 : ∀ c : Dev nD, E 7 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c)) :
    θ_run defs (onTc (τ := τ) (main (F := F))) ⟨m, fun _ => 0, ρ⟩ (fun r => ∀ c : Dev nD,
      r.2.mem ((c.tc : Thread nD τ).loc main_v24) = Gen.V14 m outs c main_v24
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) adm pdats ι cellOf_inj EP defs₀ 𝒱₀ L lv m ρ main
    (segs m outs 𝒱₀ L lv E ι pdats R0 R1 R2 R3 R4 R5 R6)
    (fun c Q => by
      rewrite [main_chain c, Seg.run_eq_chain,
        show (segs m outs 𝒱₀ L lv E ι pdats R0 R1 R2 R3 R4 R5 R6 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V14 m outs c))
    (hch := fun c => ⟨.rfl, hpre0 c, hpost0 c, hpre1 c, hpost1 c, hpre2 c, hpost2 c, hpre3 c, hpost3 c, hpre4 c, hpost4 c, hpre5 c, hpost5 c, hpre6 c, (hpost6 c).trans (sep_mono .rfl (hE7 c))⟩)
    (hinit := ?_) (QY := fun c s => s.mem ((c.tc : Thread nD τ).loc main_v24) = Gen.V14 m outs c main_v24 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V14 m outs c) s') $$ [Hh HSI]
    · isplitl [Hh] <;> iassumption
    icases Hr with ⟨%h, HSI⟩
    imodintro
    isplitr
    · ipureintro
      exact ⟨h (Proc.devRef .tc main_v24) (Finset.mem_filter.mpr ⟨StableHlo.devRef_mem_tcRefs main_v24, by decide⟩),
        (h (Proc.devRef .tc main_arg0) (Finset.mem_filter.mpr ⟨StableHlo.devRef_mem_tcRefs main_arg0, by decide⟩)).trans (V14_main_arg0 m outs c),
        (h (Proc.devRef .tc main_arg1) (Finset.mem_filter.mpr ⟨StableHlo.devRef_mem_tcRefs main_arg1, by decide⟩)).trans (V14_main_arg1 m outs c),
        (h (Proc.devRef .tc main_arg2) (Finset.mem_filter.mpr ⟨StableHlo.devRef_mem_tcRefs main_arg2, by decide⟩)).trans (V14_main_arg2 m outs c),
        (h (Proc.devRef .tc main_arg3) (Finset.mem_filter.mpr ⟨StableHlo.devRef_mem_tcRefs main_arg3, by decide⟩)).trans (V14_main_arg3 m outs c),
        (h (Proc.devRef .tc main_arg4) (Finset.mem_filter.mpr ⟨StableHlo.devRef_mem_tcRefs main_arg4, by decide⟩)).trans (V14_main_arg4 m outs c),
        (h (Proc.devRef .tc main_arg5) (Finset.mem_filter.mpr ⟨StableHlo.devRef_mem_tcRefs main_arg5, by decide⟩)).trans (V14_main_arg5 m outs c),
        (h (Proc.devRef .tc main_arg6) (Finset.mem_filter.mpr ⟨StableHlo.devRef_mem_tcRefs main_arg6, by decide⟩)).trans (V14_main_arg6 m outs c),
        (h (Proc.devRef .tc main_arg7) (Finset.mem_filter.mpr ⟨StableHlo.devRef_mem_tcRefs main_arg7, by decide⟩)).trans (V14_main_arg7 m outs c)⟩
    · iexact HSI

/-! ## A family of unknowns with one more entry -/

/-- `prev` with the entry at `(n0, r0)` set to `o`. -/
def stage (prev : Gen.Outs (F := F)) (n0 : ℕ) (r0 : Ref sig .tc) (o : (c : Dev nD) → Buf (Elt F) ((c : Thread nD τ).loc r0)) : Gen.Outs (F := F) :=
  fun n r c => if h : n = n0 ∧ r = r0 then h.2 ▸ o c else prev n r c
theorem stage_hit (prev : Gen.Outs (F := F)) (n0 : ℕ) (r0 : Ref sig .tc) (o : (c : Dev nD) → Buf (Elt F) ((c : Thread nD τ).loc r0)) (c : Dev nD) :
    stage prev n0 r0 o n0 r0 c = o c := by
  unfold stage; rw [dif_pos ⟨rfl, rfl⟩]
theorem stage_miss (prev : Gen.Outs (F := F)) (n0 : ℕ) (r0 : Ref sig .tc) (o : (c : Dev nD) → Buf (Elt F) ((c : Thread nD τ).loc r0)) (c : Dev nD)
    {n : ℕ} {r : Ref sig .tc} (h : n ≠ n0) : stage prev n0 r0 o n r c = prev n r c := by
  unfold stage; rw [dif_neg fun h' => h h'.1]
/-- The family before any region: the launch contents (never read). -/
abbrev junk : Gen.Outs (F := F) := fun _ r c => m ((c : Thread nD τ).loc r)

/-! ## The valuations depend on the unknowns only through the entries before them -/

theorem V2_congr {o o' : Gen.Outs (F := F)} (c : Dev nD) (h2 : o 2 main_v2 c = o' 2 main_v2 c) : Gen.V2 m o c = Gen.V2 m o' c :=
  (congrArg (fun x => Function.update (Gen.V1 m c) (Proc.devRef .tc main_v2 : DevRef τ sig) x) h2)
theorem V3_congr {o o' : Gen.Outs (F := F)} (c : Dev nD) (h2 : o 2 main_v2 c = o' 2 main_v2 c) : Gen.V3 m o c = Gen.V3 m o' c :=
  congrArg (StableHlo.after hostOps1) (V2_congr m c h2)
theorem V4_congr {o o' : Gen.Outs (F := F)} (c : Dev nD) (h2 : o 2 main_v2 c = o' 2 main_v2 c) (h4 : o 4 main_v4 c = o' 4 main_v4 c) : Gen.V4 m o c = Gen.V4 m o' c :=
  (congrArg (fun V => Function.update V (Proc.devRef .tc main_v4 : DevRef τ sig) (o 4 main_v4 c)) (V3_congr m c h2)).trans (congrArg (fun x => Function.update (Gen.V3 m o' c) (Proc.devRef .tc main_v4 : DevRef τ sig) x) h4)
theorem V5_congr {o o' : Gen.Outs (F := F)} (c : Dev nD) (h2 : o 2 main_v2 c = o' 2 main_v2 c) (h4 : o 4 main_v4 c = o' 4 main_v4 c) : Gen.V5 m o c = Gen.V5 m o' c :=
  congrArg (StableHlo.after hostOps2) (V4_congr m c h2 h4)
theorem V6_congr {o o' : Gen.Outs (F := F)} (c : Dev nD) (h2 : o 2 main_v2 c = o' 2 main_v2 c) (h4 : o 4 main_v4 c = o' 4 main_v4 c) (h6 : o 6 main_v11 c = o' 6 main_v11 c) : Gen.V6 m o c = Gen.V6 m o' c :=
  (congrArg (fun V => Function.update V (Proc.devRef .tc main_v11 : DevRef τ sig) (o 6 main_v11 c)) (V5_congr m c h2 h4)).trans (congrArg (fun x => Function.update (Gen.V5 m o' c) (Proc.devRef .tc main_v11 : DevRef τ sig) x) h6)
theorem V7_congr {o o' : Gen.Outs (F := F)} (c : Dev nD) (h2 : o 2 main_v2 c = o' 2 main_v2 c) (h4 : o 4 main_v4 c = o' 4 main_v4 c) (h6 : o 6 main_v11 c = o' 6 main_v11 c) : Gen.V7 m o c = Gen.V7 m o' c :=
  congrArg (StableHlo.after hostOps3) (V6_congr m c h2 h4 h6)
theorem V8_congr {o o' : Gen.Outs (F := F)} (c : Dev nD) (h2 : o 2 main_v2 c = o' 2 main_v2 c) (h4 : o 4 main_v4 c = o' 4 main_v4 c) (h6 : o 6 main_v11 c = o' 6 main_v11 c) (h8 : o 8 main_v13 c = o' 8 main_v13 c) : Gen.V8 m o c = Gen.V8 m o' c :=
  (congrArg (fun V => Function.update V (Proc.devRef .tc main_v13 : DevRef τ sig) (o 8 main_v13 c)) (V7_congr m c h2 h4 h6)).trans (congrArg (fun x => Function.update (Gen.V7 m o' c) (Proc.devRef .tc main_v13 : DevRef τ sig) x) h8)
theorem V9_congr {o o' : Gen.Outs (F := F)} (c : Dev nD) (h2 : o 2 main_v2 c = o' 2 main_v2 c) (h4 : o 4 main_v4 c = o' 4 main_v4 c) (h6 : o 6 main_v11 c = o' 6 main_v11 c) (h8 : o 8 main_v13 c = o' 8 main_v13 c) : Gen.V9 m o c = Gen.V9 m o' c :=
  congrArg (StableHlo.after hostOps4) (V8_congr m c h2 h4 h6 h8)
theorem V10_congr {o o' : Gen.Outs (F := F)} (c : Dev nD) (h2 : o 2 main_v2 c = o' 2 main_v2 c) (h4 : o 4 main_v4 c = o' 4 main_v4 c) (h6 : o 6 main_v11 c = o' 6 main_v11 c) (h8 : o 8 main_v13 c = o' 8 main_v13 c) (h10 : o 10 main_v20 c = o' 10 main_v20 c) : Gen.V10 m o c = Gen.V10 m o' c :=
  (congrArg (fun V => Function.update V (Proc.devRef .tc main_v20 : DevRef τ sig) (o 10 main_v20 c)) (V9_congr m c h2 h4 h6 h8)).trans (congrArg (fun x => Function.update (Gen.V9 m o' c) (Proc.devRef .tc main_v20 : DevRef τ sig) x) h10)
theorem V11_congr {o o' : Gen.Outs (F := F)} (c : Dev nD) (h2 : o 2 main_v2 c = o' 2 main_v2 c) (h4 : o 4 main_v4 c = o' 4 main_v4 c) (h6 : o 6 main_v11 c = o' 6 main_v11 c) (h8 : o 8 main_v13 c = o' 8 main_v13 c) (h10 : o 10 main_v20 c = o' 10 main_v20 c) : Gen.V11 m o c = Gen.V11 m o' c :=
  congrArg (StableHlo.after hostOps5) (V10_congr m c h2 h4 h6 h8 h10)
theorem V12_congr {o o' : Gen.Outs (F := F)} (c : Dev nD) (h2 : o 2 main_v2 c = o' 2 main_v2 c) (h4 : o 4 main_v4 c = o' 4 main_v4 c) (h6 : o 6 main_v11 c = o' 6 main_v11 c) (h8 : o 8 main_v13 c = o' 8 main_v13 c) (h10 : o 10 main_v20 c = o' 10 main_v20 c) (h12 : o 12 main_v22 c = o' 12 main_v22 c) : Gen.V12 m o c = Gen.V12 m o' c :=
  (congrArg (fun V => Function.update V (Proc.devRef .tc main_v22 : DevRef τ sig) (o 12 main_v22 c)) (V11_congr m c h2 h4 h6 h8 h10)).trans (congrArg (fun x => Function.update (Gen.V11 m o' c) (Proc.devRef .tc main_v22 : DevRef τ sig) x) h12)
theorem V13_congr {o o' : Gen.Outs (F := F)} (c : Dev nD) (h2 : o 2 main_v2 c = o' 2 main_v2 c) (h4 : o 4 main_v4 c = o' 4 main_v4 c) (h6 : o 6 main_v11 c = o' 6 main_v11 c) (h8 : o 8 main_v13 c = o' 8 main_v13 c) (h10 : o 10 main_v20 c = o' 10 main_v20 c) (h12 : o 12 main_v22 c = o' 12 main_v22 c) : Gen.V13 m o c = Gen.V13 m o' c :=
  congrArg (StableHlo.after hostOps6) (V12_congr m c h2 h4 h6 h8 h10 h12)

/-! ## What each region leaves, region by region -/

/-- Region 0 is entered from contents no region has touched. -/
abbrev Ve1 (c : Dev nD) (b : Ref sig .tc) : Buf (Elt F) ((c : Thread nD τ).loc b) := Gen.V1 m c b
/-- What region 0 leaves in its output array: the pipeline's write-backs of its proof data folded. -/
def o2 (c : Dev nD) : Buf (Elt F) ((c : Thread nD τ).loc main_v2) := (dat0 (Ve1 m) c).arrAt 3 cfg0.N
abbrev mk1 : Gen.Outs (F := F) := stage (junk m) 2 main_v2 (o2 m)
abbrev Ve3 (c : Dev nD) (b : Ref sig .tc) : Buf (Elt F) ((c : Thread nD τ).loc b) := Gen.V3 m (mk1 m) c b
def o4 (c : Dev nD) : Buf (Elt F) ((c : Thread nD τ).loc main_v4) := (dat1 (Ve3 m) c).arrAt 3 cfg1.N
abbrev mk2 : Gen.Outs (F := F) := stage (mk1 m) 4 main_v4 (o4 m)
abbrev Ve5 (c : Dev nD) (b : Ref sig .tc) : Buf (Elt F) ((c : Thread nD τ).loc b) := Gen.V5 m (mk2 m) c b
def o6 (c : Dev nD) : Buf (Elt F) ((c : Thread nD τ).loc main_v11) := (dat2 (Ve5 m) c).arrAt 3 cfg2.N
abbrev mk3 : Gen.Outs (F := F) := stage (mk2 m) 6 main_v11 (o6 m)
abbrev Ve7 (c : Dev nD) (b : Ref sig .tc) : Buf (Elt F) ((c : Thread nD τ).loc b) := Gen.V7 m (mk3 m) c b
def o8 (c : Dev nD) : Buf (Elt F) ((c : Thread nD τ).loc main_v13) := (dat3 (Ve7 m) c).arrAt 3 cfg3.N
abbrev mk4 : Gen.Outs (F := F) := stage (mk3 m) 8 main_v13 (o8 m)
abbrev Ve9 (c : Dev nD) (b : Ref sig .tc) : Buf (Elt F) ((c : Thread nD τ).loc b) := Gen.V9 m (mk4 m) c b
def o10 (c : Dev nD) : Buf (Elt F) ((c : Thread nD τ).loc main_v20) := (dat4 (Ve9 m) c).arrAt 3 cfg4.N
abbrev mk5 : Gen.Outs (F := F) := stage (mk4 m) 10 main_v20 (o10 m)
abbrev Ve11 (c : Dev nD) (b : Ref sig .tc) : Buf (Elt F) ((c : Thread nD τ).loc b) := Gen.V11 m (mk5 m) c b
def o12 (c : Dev nD) : Buf (Elt F) ((c : Thread nD τ).loc main_v22) := (dat5 (Ve11 m) c).arrAt 3 cfg5.N
abbrev mk6 : Gen.Outs (F := F) := stage (mk5 m) 12 main_v22 (o12 m)
abbrev Ve13 (c : Dev nD) (b : Ref sig .tc) : Buf (Elt F) ((c : Thread nD τ).loc b) := Gen.V13 m (mk6 m) c b
def o14 (c : Dev nD) : Buf (Elt F) ((c : Thread nD τ).loc main_v24) := (dat6 (Ve13 m) c).arrAt 3 cfg6.N
abbrev mk7 : Gen.Outs (F := F) := stage (mk6 m) 14 main_v24 (o14 m)

theorem hit1_1 (c : Dev nD) : mk1 m 2 main_v2 c = o2 m c := stage_hit _ _ _ _ c
theorem hit2_1 (c : Dev nD) : mk2 m 2 main_v2 c = o2 m c := (stage_miss _ _ _ _ c (by decide)).trans (hit1_1 m c)
theorem hit2_2 (c : Dev nD) : mk2 m 4 main_v4 c = o4 m c := stage_hit _ _ _ _ c
theorem hit3_1 (c : Dev nD) : mk3 m 2 main_v2 c = o2 m c := (stage_miss _ _ _ _ c (by decide)).trans (hit2_1 m c)
theorem hit3_2 (c : Dev nD) : mk3 m 4 main_v4 c = o4 m c := (stage_miss _ _ _ _ c (by decide)).trans (hit2_2 m c)
theorem hit3_3 (c : Dev nD) : mk3 m 6 main_v11 c = o6 m c := stage_hit _ _ _ _ c
theorem hit4_1 (c : Dev nD) : mk4 m 2 main_v2 c = o2 m c := (stage_miss _ _ _ _ c (by decide)).trans (hit3_1 m c)
theorem hit4_2 (c : Dev nD) : mk4 m 4 main_v4 c = o4 m c := (stage_miss _ _ _ _ c (by decide)).trans (hit3_2 m c)
theorem hit4_3 (c : Dev nD) : mk4 m 6 main_v11 c = o6 m c := (stage_miss _ _ _ _ c (by decide)).trans (hit3_3 m c)
theorem hit4_4 (c : Dev nD) : mk4 m 8 main_v13 c = o8 m c := stage_hit _ _ _ _ c
theorem hit5_1 (c : Dev nD) : mk5 m 2 main_v2 c = o2 m c := (stage_miss _ _ _ _ c (by decide)).trans (hit4_1 m c)
theorem hit5_2 (c : Dev nD) : mk5 m 4 main_v4 c = o4 m c := (stage_miss _ _ _ _ c (by decide)).trans (hit4_2 m c)
theorem hit5_3 (c : Dev nD) : mk5 m 6 main_v11 c = o6 m c := (stage_miss _ _ _ _ c (by decide)).trans (hit4_3 m c)
theorem hit5_4 (c : Dev nD) : mk5 m 8 main_v13 c = o8 m c := (stage_miss _ _ _ _ c (by decide)).trans (hit4_4 m c)
theorem hit5_5 (c : Dev nD) : mk5 m 10 main_v20 c = o10 m c := stage_hit _ _ _ _ c
theorem hit6_1 (c : Dev nD) : mk6 m 2 main_v2 c = o2 m c := (stage_miss _ _ _ _ c (by decide)).trans (hit5_1 m c)
theorem hit6_2 (c : Dev nD) : mk6 m 4 main_v4 c = o4 m c := (stage_miss _ _ _ _ c (by decide)).trans (hit5_2 m c)
theorem hit6_3 (c : Dev nD) : mk6 m 6 main_v11 c = o6 m c := (stage_miss _ _ _ _ c (by decide)).trans (hit5_3 m c)
theorem hit6_4 (c : Dev nD) : mk6 m 8 main_v13 c = o8 m c := (stage_miss _ _ _ _ c (by decide)).trans (hit5_4 m c)
theorem hit6_5 (c : Dev nD) : mk6 m 10 main_v20 c = o10 m c := (stage_miss _ _ _ _ c (by decide)).trans (hit5_5 m c)
theorem hit6_6 (c : Dev nD) : mk6 m 12 main_v22 c = o12 m c := stage_hit _ _ _ _ c
theorem hit7_1 (c : Dev nD) : mk7 m 2 main_v2 c = o2 m c := (stage_miss _ _ _ _ c (by decide)).trans (hit6_1 m c)
theorem hit7_2 (c : Dev nD) : mk7 m 4 main_v4 c = o4 m c := (stage_miss _ _ _ _ c (by decide)).trans (hit6_2 m c)
theorem hit7_3 (c : Dev nD) : mk7 m 6 main_v11 c = o6 m c := (stage_miss _ _ _ _ c (by decide)).trans (hit6_3 m c)
theorem hit7_4 (c : Dev nD) : mk7 m 8 main_v13 c = o8 m c := (stage_miss _ _ _ _ c (by decide)).trans (hit6_4 m c)
theorem hit7_5 (c : Dev nD) : mk7 m 10 main_v20 c = o10 m c := (stage_miss _ _ _ _ c (by decide)).trans (hit6_5 m c)
theorem hit7_6 (c : Dev nD) : mk7 m 12 main_v22 c = o12 m c := (stage_miss _ _ _ _ c (by decide)).trans (hit6_6 m c)
theorem hit7_7 (c : Dev nD) : mk7 m 14 main_v24 c = o14 m c := stage_hit _ _ _ _ c

/-! ## The collected family -/

/-- What every region leaves, all at once: the unknowns the conditional frame's valuations are read at. -/
abbrev outsF : Gen.Outs (F := F) := mk7 m
abbrev VF1 (c : Dev nD) (b : Ref sig .tc) : Buf (Elt F) ((c : Thread nD τ).loc b) := Gen.V1 m c b
abbrev VF2 (c : Dev nD) (b : Ref sig .tc) : Buf (Elt F) ((c : Thread nD τ).loc b) := Gen.V2 m (outsF m) c b
theorem ent0 : VF1 m = Ve1 m := rfl
/-- The unknown for region 0's output array IS what the region's proof data leave there. -/
theorem outF0 (c : Dev nD) : outsF m 2 main_v2 c = (dat0 (VF1 m) c).arrAt 3 cfg0.N :=
  (hit7_1 m c).trans (by rw [ent0 m]; rfl)
abbrev VF3 (c : Dev nD) (b : Ref sig .tc) : Buf (Elt F) ((c : Thread nD τ).loc b) := Gen.V3 m (outsF m) c b
abbrev VF4 (c : Dev nD) (b : Ref sig .tc) : Buf (Elt F) ((c : Thread nD τ).loc b) := Gen.V4 m (outsF m) c b
theorem ent1 : VF3 m = Ve3 m := funext fun c => funext fun b => congrFun (V3_congr m c ((hit7_1 m c).trans (hit1_1 m c).symm)) _
/-- The unknown for region 1's output array IS what the region's proof data leave there. -/
theorem outF1 (c : Dev nD) : outsF m 4 main_v4 c = (dat1 (VF3 m) c).arrAt 3 cfg1.N :=
  (hit7_2 m c).trans (by rw [ent1 m]; rfl)
abbrev VF5 (c : Dev nD) (b : Ref sig .tc) : Buf (Elt F) ((c : Thread nD τ).loc b) := Gen.V5 m (outsF m) c b
abbrev VF6 (c : Dev nD) (b : Ref sig .tc) : Buf (Elt F) ((c : Thread nD τ).loc b) := Gen.V6 m (outsF m) c b
theorem ent2 : VF5 m = Ve5 m := funext fun c => funext fun b => congrFun (V5_congr m c ((hit7_1 m c).trans (hit2_1 m c).symm) ((hit7_2 m c).trans (hit2_2 m c).symm)) _
/-- The unknown for region 2's output array IS what the region's proof data leave there. -/
theorem outF2 (c : Dev nD) : outsF m 6 main_v11 c = (dat2 (VF5 m) c).arrAt 3 cfg2.N :=
  (hit7_3 m c).trans (by rw [ent2 m]; rfl)
abbrev VF7 (c : Dev nD) (b : Ref sig .tc) : Buf (Elt F) ((c : Thread nD τ).loc b) := Gen.V7 m (outsF m) c b
abbrev VF8 (c : Dev nD) (b : Ref sig .tc) : Buf (Elt F) ((c : Thread nD τ).loc b) := Gen.V8 m (outsF m) c b
theorem ent3 : VF7 m = Ve7 m := funext fun c => funext fun b => congrFun (V7_congr m c ((hit7_1 m c).trans (hit3_1 m c).symm) ((hit7_2 m c).trans (hit3_2 m c).symm) ((hit7_3 m c).trans (hit3_3 m c).symm)) _
/-- The unknown for region 3's output array IS what the region's proof data leave there. -/
theorem outF3 (c : Dev nD) : outsF m 8 main_v13 c = (dat3 (VF7 m) c).arrAt 3 cfg3.N :=
  (hit7_4 m c).trans (by rw [ent3 m]; rfl)
abbrev VF9 (c : Dev nD) (b : Ref sig .tc) : Buf (Elt F) ((c : Thread nD τ).loc b) := Gen.V9 m (outsF m) c b
abbrev VF10 (c : Dev nD) (b : Ref sig .tc) : Buf (Elt F) ((c : Thread nD τ).loc b) := Gen.V10 m (outsF m) c b
theorem ent4 : VF9 m = Ve9 m := funext fun c => funext fun b => congrFun (V9_congr m c ((hit7_1 m c).trans (hit4_1 m c).symm) ((hit7_2 m c).trans (hit4_2 m c).symm) ((hit7_3 m c).trans (hit4_3 m c).symm) ((hit7_4 m c).trans (hit4_4 m c).symm)) _
/-- The unknown for region 4's output array IS what the region's proof data leave there. -/
theorem outF4 (c : Dev nD) : outsF m 10 main_v20 c = (dat4 (VF9 m) c).arrAt 3 cfg4.N :=
  (hit7_5 m c).trans (by rw [ent4 m]; rfl)
abbrev VF11 (c : Dev nD) (b : Ref sig .tc) : Buf (Elt F) ((c : Thread nD τ).loc b) := Gen.V11 m (outsF m) c b
abbrev VF12 (c : Dev nD) (b : Ref sig .tc) : Buf (Elt F) ((c : Thread nD τ).loc b) := Gen.V12 m (outsF m) c b
theorem ent5 : VF11 m = Ve11 m := funext fun c => funext fun b => congrFun (V11_congr m c ((hit7_1 m c).trans (hit5_1 m c).symm) ((hit7_2 m c).trans (hit5_2 m c).symm) ((hit7_3 m c).trans (hit5_3 m c).symm) ((hit7_4 m c).trans (hit5_4 m c).symm) ((hit7_5 m c).trans (hit5_5 m c).symm)) _
/-- The unknown for region 5's output array IS what the region's proof data leave there. -/
theorem outF5 (c : Dev nD) : outsF m 12 main_v22 c = (dat5 (VF11 m) c).arrAt 3 cfg5.N :=
  (hit7_6 m c).trans (by rw [ent5 m]; rfl)
abbrev VF13 (c : Dev nD) (b : Ref sig .tc) : Buf (Elt F) ((c : Thread nD τ).loc b) := Gen.V13 m (outsF m) c b
abbrev VF14 (c : Dev nD) (b : Ref sig .tc) : Buf (Elt F) ((c : Thread nD τ).loc b) := Gen.V14 m (outsF m) c b
theorem ent6 : VF13 m = Ve13 m := funext fun c => funext fun b => congrFun (V13_congr m c ((hit7_1 m c).trans (hit6_1 m c).symm) ((hit7_2 m c).trans (hit6_2 m c).symm) ((hit7_3 m c).trans (hit6_3 m c).symm) ((hit7_4 m c).trans (hit6_4 m c).symm) ((hit7_5 m c).trans (hit6_5 m c).symm) ((hit7_6 m c).trans (hit6_6 m c).symm)) _
/-- The unknown for region 6's output array IS what the region's proof data leave there. -/
theorem outF6 (c : Dev nD) : outsF m 14 main_v24 c = (dat6 (VF13 m) c).arrAt 3 cfg6.N :=
  (hit7_7 m c).trans (by rw [ent6 m]; rfl)

/-- Every pipeline's proof data, each at its region's entry contents. -/
def pdats : (p : Fin 7) → (c : Dev nD) → Dat τ (Elt F) Unit ℕ (UR sig nD τ) ℕ (cfgs p) c
  | ⟨0, _⟩ => fun c => dat0 (VF1 m) c
  | ⟨1, _⟩ => fun c => dat1 (VF3 m) c
  | ⟨2, _⟩ => fun c => dat2 (VF5 m) c
  | ⟨3, _⟩ => fun c => dat3 (VF7 m) c
  | ⟨4, _⟩ => fun c => dat4 (VF9 m) c
  | ⟨5, _⟩ => fun c => dat5 (VF11 m) c
  | ⟨6, _⟩ => fun c => dat6 (VF13 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)

/-- What the launch hands a core beside its buffers — its unscoped semaphores, dues at nothing, the launch credit, the generator
    register — makes what rides along. -/
theorem launch_rest (ρ : Dev nD → PrngReg) (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ iprop(emp)) : sProp 𝕄) ⊢ R (F := F) c := by
  iintro ⟨-, HO, -, Hp, -⟩
  isplitl [Hp]; · iexists _; iexact Hp
  iexists ∅; iexact HO

/-! ## The regions as segments -/

/-- The exit valuation at region 0's output array is the unknown. -/
theorem VFout0 (c : Dev nD) : VF2 m c main_v2 = outsF m 2 main_v2 c :=
  Function.update_self (Proc.devRef .tc main_v2 : DevRef τ sig) (outsF m 2 main_v2 c) (Gen.V1 m c)
/-- At region 0's exit each of its arrays holds what the pipeline leaves — an input array what it held at entry, the output
    array the unknown, which is the proof data's fold — and every other buffer what it held at entry. -/
theorem hF0 (c : Dev nD) : ∀ w : Fin 4, (pdats m 0 c).arrAt w cfg0.N = VF2 m c (Pipeline.arrRef spec0 w)
  | 0 => ((dat0 (VF1 m) c).arrAt_in 0 rfl _).trans ((A_eq0 (VF1 m) c 0).trans (Gen.V2_of m (outsF m) c _ (by decide)).symm)
  | 1 => ((dat0 (VF1 m) c).arrAt_in 1 rfl _).trans ((A_eq0 (VF1 m) c 1).trans (Gen.V2_of m (outsF m) c _ (by decide)).symm)
  | 2 => ((dat0 (VF1 m) c).arrAt_in 2 rfl _).trans ((A_eq0 (VF1 m) c 2).trans (Gen.V2_of m (outsF m) c _ (by decide)).symm)
  | 3 => (outF0 m c).symm.trans (VFout0 m c).symm
  | ⟨_ + 4, h⟩ => absurd h (Nat.not_lt.2 (Nat.le_add_left _ _))
theorem hrest0 (c : Dev nD) : ∀ b, b ∉ Finset.univ.image (Pipeline.arrRef spec0) → VF2 m c b = VF1 m c b :=
  fun b hb => Gen.V2_of m (outsF m) c b (fun h => hb (Finset.mem_image.mpr ⟨3, Finset.mem_univ _, (List.mem_singleton.mp h).symm⟩))

set_option backward.isDefEq.respectTransparency.types false in
/-- REGION 0 over the thread state: entered from every unscoped buffer at the contents before it, left at the contents after
    it; its arrays split out of the unscoped buffers and put back at the exit contents; the generator register into the
    region's invariant and out; nothing owed; no semaphore of the kernel's own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VF1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outsF m) c) ∗ R c)
  X c := iprop(∃ r, prngReg c r)
  Y c := iprop(∃ r, prngReg c r)
  Z c := Pipeline.unscopedRest (Ix := Unit) (Name := ℕ) (U := UR sig nD τ) (Lvl := ℕ) spec0 c (VF1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VF1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VF1 m c) (VF2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The exit valuation at region 1's output array is the unknown. -/
theorem VFout1 (c : Dev nD) : VF4 m c main_v4 = outsF m 4 main_v4 c :=
  Function.update_self (Proc.devRef .tc main_v4 : DevRef τ sig) (outsF m 4 main_v4 c) (Gen.V3 m (outsF m) c)
/-- At region 1's exit each of its arrays holds what the pipeline leaves — an input array what it held at entry, the output
    array the unknown, which is the proof data's fold — and every other buffer what it held at entry. -/
theorem hF1 (c : Dev nD) : ∀ w : Fin 4, (pdats m 1 c).arrAt w cfg1.N = VF4 m c (Pipeline.arrRef spec1 w)
  | 0 => ((dat1 (VF3 m) c).arrAt_in 0 rfl _).trans ((A_eq1 (VF3 m) c 0).trans (Gen.V4_of m (outsF m) c _ (by decide)).symm)
  | 1 => ((dat1 (VF3 m) c).arrAt_in 1 rfl _).trans ((A_eq1 (VF3 m) c 1).trans (Gen.V4_of m (outsF m) c _ (by decide)).symm)
  | 2 => ((dat1 (VF3 m) c).arrAt_in 2 rfl _).trans ((A_eq1 (VF3 m) c 2).trans (Gen.V4_of m (outsF m) c _ (by decide)).symm)
  | 3 => (outF1 m c).symm.trans (VFout1 m c).symm
  | ⟨_ + 4, h⟩ => absurd h (Nat.not_lt.2 (Nat.le_add_left _ _))
theorem hrest1 (c : Dev nD) : ∀ b, b ∉ Finset.univ.image (Pipeline.arrRef spec1) → VF4 m c b = VF3 m c b :=
  fun b hb => Gen.V4_of m (outsF m) c b (fun h => hb (Finset.mem_image.mpr ⟨3, Finset.mem_univ _, (List.mem_singleton.mp h).symm⟩))

set_option backward.isDefEq.respectTransparency.types false in
/-- REGION 1 over the thread state: entered from every unscoped buffer at the contents before it, left at the contents after
    it; its arrays split out of the unscoped buffers and put back at the exit contents; the generator register into the
    region's invariant and out; nothing owed; no semaphore of the kernel's own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VF3 m) c).loose
  hwaits := Pipeline.hwaits_of_owed_zero _ _ _ _ L lv 1 fun _ _ => rfl
  pre c := iprop(StableHlo.held (c : Thread nD τ) (Pipeline.ucRefs τ sig) (Gen.V3 m (outsF m) c) ∗ R c)
  post c := iprop(StableHlo.held (c : Thread nD τ) (Pipeline.ucRefs τ sig) (Gen.V4 m (outsF m) c) ∗ R c)
  X c := iprop(∃ r, prngReg c r)
  Y c := iprop(∃ r, prngReg c r)
  Z c := Pipeline.unscopedRest (Ix := Unit) (Name := ℕ) (U := UR sig nD τ) (Lvl := ℕ) spec1 c (VF3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VF3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (VF3 m) c)
    unfold Pipeline.ΦA
    iintro ⟨Hp, -, Hr⟩
    isplitl [Hr]; · iexact Hr
    iexact Hp
  hout c := by
    rw [Pipeline.ownSems0_none]
    refine (hout1 (VF3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VF3 m c) (VF4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The exit valuation at region 2's output array is the unknown. -/
theorem VFout2 (c : Dev nD) : VF6 m c main_v11 = outsF m 6 main_v11 c :=
  Function.update_self (Proc.devRef .tc main_v11 : DevRef τ sig) (outsF m 6 main_v11 c) (Gen.V5 m (outsF m) c)
/-- At region 2's exit each of its arrays holds what the pipeline leaves — an input array what it held at entry, the output
    array the unknown, which is the proof data's fold — and every other buffer what it held at entry. -/
theorem hF2 (c : Dev nD) : ∀ w : Fin 4, (pdats m 2 c).arrAt w cfg2.N = VF6 m c (Pipeline.arrRef spec2 w)
  | 0 => ((dat2 (VF5 m) c).arrAt_in 0 rfl _).trans ((A_eq2 (VF5 m) c 0).trans (Gen.V6_of m (outsF m) c _ (by decide)).symm)
  | 1 => ((dat2 (VF5 m) c).arrAt_in 1 rfl _).trans ((A_eq2 (VF5 m) c 1).trans (Gen.V6_of m (outsF m) c _ (by decide)).symm)
  | 2 => ((dat2 (VF5 m) c).arrAt_in 2 rfl _).trans ((A_eq2 (VF5 m) c 2).trans (Gen.V6_of m (outsF m) c _ (by decide)).symm)
  | 3 => (outF2 m c).symm.trans (VFout2 m c).symm
  | ⟨_ + 4, h⟩ => absurd h (Nat.not_lt.2 (Nat.le_add_left _ _))
theorem hrest2 (c : Dev nD) : ∀ b, b ∉ Finset.univ.image (Pipeline.arrRef spec2) → VF6 m c b = VF5 m c b :=
  fun b hb => Gen.V6_of m (outsF m) c b (fun h => hb (Finset.mem_image.mpr ⟨3, Finset.mem_univ _, (List.mem_singleton.mp h).symm⟩))

set_option backward.isDefEq.respectTransparency.types false in
/-- REGION 2 over the thread state: entered from every unscoped buffer at the contents before it, left at the contents after
    it; its arrays split out of the unscoped buffers and put back at the exit contents; the generator register into the
    region's invariant and out; nothing owed; no semaphore of the kernel's own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VF5 m) c).loose
  hwaits := Pipeline.hwaits_of_owed_zero _ _ _ _ L lv 2 fun _ _ => rfl
  pre c := iprop(StableHlo.held (c : Thread nD τ) (Pipeline.ucRefs τ sig) (Gen.V5 m (outsF m) c) ∗ R c)
  post c := iprop(StableHlo.held (c : Thread nD τ) (Pipeline.ucRefs τ sig) (Gen.V6 m (outsF m) c) ∗ R c)
  X c := iprop(∃ r, prngReg c r)
  Y c := iprop(∃ r, prngReg c r)
  Z c := Pipeline.unscopedRest (Ix := Unit) (Name := ℕ) (U := UR sig nD τ) (Lvl := ℕ) spec2 c (VF5 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (VF5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (VF5 m c) (VF6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The exit valuation at region 3's output array is the unknown. -/
theorem VFout3 (c : Dev nD) : VF8 m c main_v13 = outsF m 8 main_v13 c :=
  Function.update_self (Proc.devRef .tc main_v13 : DevRef τ sig) (outsF m 8 main_v13 c) (Gen.V7 m (outsF m) c)
/-- At region 3's exit each of its arrays holds what the pipeline leaves — an input array what it held at entry, the output
    array the unknown, which is the proof data's fold — and every other buffer what it held at entry. -/
theorem hF3 (c : Dev nD) : ∀ w : Fin 4, (pdats m 3 c).arrAt w cfg3.N = VF8 m c (Pipeline.arrRef spec3 w)
  | 0 => ((dat3 (VF7 m) c).arrAt_in 0 rfl _).trans ((A_eq3 (VF7 m) c 0).trans (Gen.V8_of m (outsF m) c _ (by decide)).symm)
  | 1 => ((dat3 (VF7 m) c).arrAt_in 1 rfl _).trans ((A_eq3 (VF7 m) c 1).trans (Gen.V8_of m (outsF m) c _ (by decide)).symm)
  | 2 => ((dat3 (VF7 m) c).arrAt_in 2 rfl _).trans ((A_eq3 (VF7 m) c 2).trans (Gen.V8_of m (outsF m) c _ (by decide)).symm)
  | 3 => (outF3 m c).symm.trans (VFout3 m c).symm
  | ⟨_ + 4, h⟩ => absurd h (Nat.not_lt.2 (Nat.le_add_left _ _))
theorem hrest3 (c : Dev nD) : ∀ b, b ∉ Finset.univ.image (Pipeline.arrRef spec3) → VF8 m c b = VF7 m c b :=
  fun b hb => Gen.V8_of m (outsF m) c b (fun h => hb (Finset.mem_image.mpr ⟨3, Finset.mem_univ _, (List.mem_singleton.mp h).symm⟩))

set_option backward.isDefEq.respectTransparency.types false in
/-- REGION 3 over the thread state: entered from every unscoped buffer at the contents before it, left at the contents after
    it; its arrays split out of the unscoped buffers and put back at the exit contents; the generator register into the
    region's invariant and out; nothing owed; no semaphore of the kernel's own. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VF7 m) c).loose
  hwaits := Pipeline.hwaits_of_owed_zero _ _ _ _ L lv 3 fun _ _ => rfl
  pre c := iprop(StableHlo.held (c : Thread nD τ) (Pipeline.ucRefs τ sig) (Gen.V7 m (outsF m) c) ∗ R c)
  post c := iprop(StableHlo.held (c : Thread nD τ) (Pipeline.ucRefs τ sig) (Gen.V8 m (outsF m) c) ∗ R c)
  X c := iprop(∃ r, prngReg c r)
  Y c := iprop(∃ r, prngReg c r)
  Z c := Pipeline.unscopedRest (Ix := Unit) (Name := ℕ) (U := UR sig nD τ) (Lvl := ℕ) spec3 c (VF7 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (VF7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin3 (VF7 m) c)
    unfold Pipeline.ΦA
    iintro ⟨Hp, -, Hr⟩
    isplitl [Hr]; · iexact Hr
    iexact Hp
  hout c := by
    rw [Pipeline.ownSems0_none]
    refine (hout3 (VF7 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (VF7 m c) (VF8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The exit valuation at region 4's output array is the unknown. -/
theorem VFout4 (c : Dev nD) : VF10 m c main_v20 = outsF m 10 main_v20 c :=
  Function.update_self (Proc.devRef .tc main_v20 : DevRef τ sig) (outsF m 10 main_v20 c) (Gen.V9 m (outsF m) c)
/-- At region 4's exit each of its arrays holds what the pipeline leaves — an input array what it held at entry, the output
    array the unknown, which is the proof data's fold — and every other buffer what it held at entry. -/
theorem hF4 (c : Dev nD) : ∀ w : Fin 4, (pdats m 4 c).arrAt w cfg4.N = VF10 m c (Pipeline.arrRef spec4 w)
  | 0 => ((dat4 (VF9 m) c).arrAt_in 0 rfl _).trans ((A_eq4 (VF9 m) c 0).trans (Gen.V10_of m (outsF m) c _ (by decide)).symm)
  | 1 => ((dat4 (VF9 m) c).arrAt_in 1 rfl _).trans ((A_eq4 (VF9 m) c 1).trans (Gen.V10_of m (outsF m) c _ (by decide)).symm)
  | 2 => ((dat4 (VF9 m) c).arrAt_in 2 rfl _).trans ((A_eq4 (VF9 m) c 2).trans (Gen.V10_of m (outsF m) c _ (by decide)).symm)
  | 3 => (outF4 m c).symm.trans (VFout4 m c).symm
  | ⟨_ + 4, h⟩ => absurd h (Nat.not_lt.2 (Nat.le_add_left _ _))
theorem hrest4 (c : Dev nD) : ∀ b, b ∉ Finset.univ.image (Pipeline.arrRef spec4) → VF10 m c b = VF9 m c b :=
  fun b hb => Gen.V10_of m (outsF m) c b (fun h => hb (Finset.mem_image.mpr ⟨3, Finset.mem_univ _, (List.mem_singleton.mp h).symm⟩))

set_option backward.isDefEq.respectTransparency.types false in
/-- REGION 4 over the thread state: entered from every unscoped buffer at the contents before it, left at the contents after
    it; its arrays split out of the unscoped buffers and put back at the exit contents; the generator register into the
    region's invariant and out; nothing owed; no semaphore of the kernel's own. -/
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (VF9 m) c).loose
  hwaits := Pipeline.hwaits_of_owed_zero _ _ _ _ L lv 4 fun _ _ => rfl
  pre c := iprop(StableHlo.held (c : Thread nD τ) (Pipeline.ucRefs τ sig) (Gen.V9 m (outsF m) c) ∗ R c)
  post c := iprop(StableHlo.held (c : Thread nD τ) (Pipeline.ucRefs τ sig) (Gen.V10 m (outsF m) c) ∗ R c)
  X c := iprop(∃ r, prngReg c r)
  Y c := iprop(∃ r, prngReg c r)
  Z c := Pipeline.unscopedRest (Ix := Unit) (Name := ℕ) (U := UR sig nD τ) (Lvl := ℕ) spec4 c (VF9 m c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (VF9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (VF9 m c) (VF10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The exit valuation at region 5's output array is the unknown. -/
theorem VFout5 (c : Dev nD) : VF12 m c main_v22 = outsF m 12 main_v22 c :=
  Function.update_self (Proc.devRef .tc main_v22 : DevRef τ sig) (outsF m 12 main_v22 c) (Gen.V11 m (outsF m) c)
/-- At region 5's exit each of its arrays holds what the pipeline leaves — an input array what it held at entry, the output
    array the unknown, which is the proof data's fold — and every other buffer what it held at entry. -/
theorem hF5 (c : Dev nD) : ∀ w : Fin 4, (pdats m 5 c).arrAt w cfg5.N = VF12 m c (Pipeline.arrRef spec5 w)
  | 0 => ((dat5 (VF11 m) c).arrAt_in 0 rfl _).trans ((A_eq5 (VF11 m) c 0).trans (Gen.V12_of m (outsF m) c _ (by decide)).symm)
  | 1 => ((dat5 (VF11 m) c).arrAt_in 1 rfl _).trans ((A_eq5 (VF11 m) c 1).trans (Gen.V12_of m (outsF m) c _ (by decide)).symm)
  | 2 => ((dat5 (VF11 m) c).arrAt_in 2 rfl _).trans ((A_eq5 (VF11 m) c 2).trans (Gen.V12_of m (outsF m) c _ (by decide)).symm)
  | 3 => (outF5 m c).symm.trans (VFout5 m c).symm
  | ⟨_ + 4, h⟩ => absurd h (Nat.not_lt.2 (Nat.le_add_left _ _))
theorem hrest5 (c : Dev nD) : ∀ b, b ∉ Finset.univ.image (Pipeline.arrRef spec5) → VF12 m c b = VF11 m c b :=
  fun b hb => Gen.V12_of m (outsF m) c b (fun h => hb (Finset.mem_image.mpr ⟨3, Finset.mem_univ _, (List.mem_singleton.mp h).symm⟩))

set_option backward.isDefEq.respectTransparency.types false in
/-- REGION 5 over the thread state: entered from every unscoped buffer at the contents before it, left at the contents after
    it; its arrays split out of the unscoped buffers and put back at the exit contents; the generator register into the
    region's invariant and out; nothing owed; no semaphore of the kernel's own. -/
def reg5 : Pipeline.RegionSeg (pcfgs (F := F)) Gen.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (VF11 m) c).loose
  hwaits := Pipeline.hwaits_of_owed_zero _ _ _ _ L lv 5 fun _ _ => rfl
  pre c := iprop(StableHlo.held (c : Thread nD τ) (Pipeline.ucRefs τ sig) (Gen.V11 m (outsF m) c) ∗ R c)
  post c := iprop(StableHlo.held (c : Thread nD τ) (Pipeline.ucRefs τ sig) (Gen.V12 m (outsF m) c) ∗ R c)
  X c := iprop(∃ r, prngReg c r)
  Y c := iprop(∃ r, prngReg c r)
  Z c := Pipeline.unscopedRest (Ix := Unit) (Name := ℕ) (U := UR sig nD τ) (Lvl := ℕ) spec5 c (VF11 m c)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (VF11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin5 (VF11 m) c)
    unfold Pipeline.ΦA
    iintro ⟨Hp, -, Hr⟩
    isplitl [Hr]; · iexact Hr
    iexact Hp
  hout c := by
    rw [Pipeline.ownSems0_none]
    refine (hout5 (VF11 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (VF11 m c) (VF12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The exit valuation at region 6's output array is the unknown. -/
theorem VFout6 (c : Dev nD) : VF14 m c main_v24 = outsF m 14 main_v24 c :=
  Function.update_self (Proc.devRef .tc main_v24 : DevRef τ sig) (outsF m 14 main_v24 c) (Gen.V13 m (outsF m) c)
/-- At region 6's exit each of its arrays holds what the pipeline leaves — an input array what it held at entry, the output
    array the unknown, which is the proof data's fold — and every other buffer what it held at entry. -/
theorem hF6 (c : Dev nD) : ∀ w : Fin 4, (pdats m 6 c).arrAt w cfg6.N = VF14 m c (Pipeline.arrRef spec6 w)
  | 0 => ((dat6 (VF13 m) c).arrAt_in 0 rfl _).trans ((A_eq6 (VF13 m) c 0).trans (Gen.V14_of m (outsF m) c _ (by decide)).symm)
  | 1 => ((dat6 (VF13 m) c).arrAt_in 1 rfl _).trans ((A_eq6 (VF13 m) c 1).trans (Gen.V14_of m (outsF m) c _ (by decide)).symm)
  | 2 => ((dat6 (VF13 m) c).arrAt_in 2 rfl _).trans ((A_eq6 (VF13 m) c 2).trans (Gen.V14_of m (outsF m) c _ (by decide)).symm)
  | 3 => (outF6 m c).symm.trans (VFout6 m c).symm
  | ⟨_ + 4, h⟩ => absurd h (Nat.not_lt.2 (Nat.le_add_left _ _))
theorem hrest6 (c : Dev nD) : ∀ b, b ∉ Finset.univ.image (Pipeline.arrRef spec6) → VF14 m c b = VF13 m c b :=
  fun b hb => Gen.V14_of m (outsF m) c b (fun h => hb (Finset.mem_image.mpr ⟨3, Finset.mem_univ _, (List.mem_singleton.mp h).symm⟩))

set_option backward.isDefEq.respectTransparency.types false in
/-- REGION 6 over the thread state: entered from every unscoped buffer at the contents before it, left at the contents after
    it; its arrays split out of the unscoped buffers and put back at the exit contents; the generator register into the
    region's invariant and out; nothing owed; no semaphore of the kernel's own. -/
def reg6 : Pipeline.RegionSeg (pcfgs (F := F)) Gen.adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (VF13 m) c).loose
  hwaits := Pipeline.hwaits_of_owed_zero _ _ _ _ L lv 6 fun _ _ => rfl
  pre c := iprop(StableHlo.held (c : Thread nD τ) (Pipeline.ucRefs τ sig) (Gen.V13 m (outsF m) c) ∗ R c)
  post c := iprop(StableHlo.held (c : Thread nD τ) (Pipeline.ucRefs τ sig) (Gen.V14 m (outsF m) c) ∗ R c)
  X c := iprop(∃ r, prngReg c r)
  Y c := iprop(∃ r, prngReg c r)
  Z c := Pipeline.unscopedRest (Ix := Unit) (Name := ℕ) (U := UR sig nD τ) (Lvl := ℕ) spec6 c (VF13 m c)
  hentry c := by
    rw [Pipeline.ownSems0_none]
    have hsplit := Pipeline.arrays_of_unscopedBufs (p := 6) (pcfgs (F := F)) Gen.adm (pdats m) launch6.win launch6.arr_whole c
      ((pdats m 6 c).share_full fun _ => rfl) (VF13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (pdats m) ((pdats m 6 c).share_full fun _ => rfl)
      (VF13 m c) (VF14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters every weakly fair execution of @main terminates, nothing faulting; the result array
    ends at what region 6's proof data leave in it and every argument as launched. -/
theorem run_main (ρ : Dev nD → PrngReg) : θ_run defs (onTc (τ := τ) (main (F := F))) ⟨m, fun _ => 0, ρ⟩ (fun r => ∀ c : Dev nD,
      r.2.mem ((c.tc : Thread nD τ).loc main_v24) = (dat6 (VF13 m) c).arrAt 3 cfg6.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  have h0 := run_cond m emb₁ () 𝒱₀ L lv (fun _ _ => rfl) ρ (outsF m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      have hmono : ((bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp))) : sProp 𝕄)
          ⊢ (bigSep Finset.univ fun c : Dev nD => R (F := F) c : sProp 𝕄) :=
        bigSep_mono fun c _ => launch_rest ρ c
      iintro ⟨H, -⟩
      ihave H' := hmono $$ H
      imodintro
      iexact H')
    (fun c => by iintro ⟨-, HO⟩; iexact HO)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)
  exact (θ_run defs _ _).mono (fun r h c => ⟨(h c).1.trans ((VFout6 m c).trans (outF6 m c)), (h c).2⟩) h0

end Cert.KernelIdeal.Frame

end
-- ==== Proof.Spec.lean ====
/-
  A three-layer graph-convolution network over the extended reals, as ONE function of its eight argument arrays,
  read index by index over literal shapes.

  With N = 16384 nodes, 512 features and 128 outputs:
    support h W   = h · W                                  (a [N,512] by [512,512] product)
    layer A h W b = max (A · support h W + b, 0)           (A the [N,N] adjacency; b a row added to every row)
    out           = layer(layer(layer(x, W0, b0), Wh[0], bh[0]), Wh[1], bh[1]) · Wout + bout.
  Every sum is a finite sum in the commutative monoid (EReal, +), so a sum over the 16384 neighbours may be taken
  sixteen blocks of 1024 at a time (`sum_blocks`, `sum_16x1024`): regrouping needs commutativity and associativity of
  addition only, and no entry has to be finite.
-/
import Idealize.ShloMosaic.PureOps.Ideal
import Idealize.ShloMosaic.Lib.ValueIdx
import Mathlib.Algebra.BigOperators.Fin
import Mathlib.Logic.Equiv.Fin.Basic

noncomputable section

open scoped BigOperators

namespace Cert.GCN

open Idealize.ShloMosaic Idealize.ShloMosaic.ValueIdx

/-! ## The layers -/

/-- The dense product `h · W`: entry `(r, j)` is `∑ k, h[r, k] * W[k, j]`. -/
def support (h : (⟨2, ![16384, 512]⟩ : Shape).Idx → EReal) (W : (⟨2, ![512, 512]⟩ : Shape).Idx → EReal) :
    (⟨2, ![16384, 512]⟩ : Shape).Idx → EReal :=
  fun i => ∑ k : Fin 512, h (ix2 (i 0 : Fin 16384) k) * W (ix2 k (i 1 : Fin 512))

theorem support_apply (h : (⟨2, ![16384, 512]⟩ : Shape).Idx → EReal) (W : (⟨2, ![512, 512]⟩ : Shape).Idx → EReal)
    (r : Fin 16384) (j : Fin 512) :
    support h W (ix2 r j) = ∑ k : Fin 512, h (ix2 r k) * W (ix2 k j) := rfl

/-- One graph-convolution layer: aggregate the support over every node's neighbours, add the bias row, clamp at zero.
    Entry `(r, j)` is `max ((∑ n, A[r, n] * (h · W)[n, j]) + b[j]) 0`. -/
def layer (A : (⟨2, ![16384, 16384]⟩ : Shape).Idx → EReal) (h : (⟨2, ![16384, 512]⟩ : Shape).Idx → EReal)
    (W : (⟨2, ![512, 512]⟩ : Shape).Idx → EReal) (b : (⟨1, ![512]⟩ : Shape).Idx → EReal) :
    (⟨2, ![16384, 512]⟩ : Shape).Idx → EReal :=
  fun i => max ((∑ n : Fin 16384, A (ix2 (i 0 : Fin 16384) n) * support h W (ix2 n (i 1 : Fin 512))) + b (ix1 (i 1 : Fin 512))) 0

theorem layer_apply (A : (⟨2, ![16384, 16384]⟩ : Shape).Idx → EReal) (h : (⟨2, ![16384, 512]⟩ : Shape).Idx → EReal)
    (W : (⟨2, ![512, 512]⟩ : Shape).Idx → EReal) (b : (⟨1, ![512]⟩ : Shape).Idx → EReal) (r : Fin 16384) (j : Fin 512) :
    layer A h W b (ix2 r j) = max ((∑ n : Fin 16384, A (ix2 r n) * support h W (ix2 n j)) + b (ix1 j)) 0 := rfl

/-- Hidden layer `l`'s weight matrix out of the stacked `[2, 512, 512]` array. -/
def hiddenW (Wh : (⟨3, ![2, 512, 512]⟩ : Shape).Idx → EReal) (l : Fin 2) : (⟨2, ![512, 512]⟩ : Shape).Idx → EReal :=
  fun i => Wh (ix3 l (i 0 : Fin 512) (i 1 : Fin 512))

theorem hiddenW_apply (Wh : (⟨3, ![2, 512, 512]⟩ : Shape).Idx → EReal) (l : Fin 2) (k j : Fin 512) :
    hiddenW Wh l (ix2 k j) = Wh (ix3 l k j) := rfl

/-- Hidden layer `l`'s bias row out of the stacked `[2, 512]` array. -/
def hiddenB (bh : (⟨2, ![2, 512]⟩ : Shape).Idx → EReal) (l : Fin 2) : (⟨1, ![512]⟩ : Shape).Idx → EReal :=
  fun i => bh (ix2 l (i 0 : Fin 512))

theorem hiddenB_apply (bh : (⟨2, ![2, 512]⟩ : Shape).Idx → EReal) (l : Fin 2) (j : Fin 512) :
    hiddenB bh l (ix1 j) = bh (ix2 l j) := rfl

/-- The read-out `h · Wout + bout`: entry `(r, j)` is `(∑ k, h[r, k] * Wout[k, j]) + bout[j]`. -/
def readout (h : (⟨2, ![16384, 512]⟩ : Shape).Idx → EReal) (Wout : (⟨2, ![512, 128]⟩ : Shape).Idx → EReal)
    (bout : (⟨1, ![128]⟩ : Shape).Idx → EReal) : (⟨2, ![16384, 128]⟩ : Shape).Idx → EReal :=
  fun i => (∑ k : Fin 512, h (ix2 (i 0 : Fin 16384) k) * Wout (ix2 k (i 1 : Fin 128))) + bout (ix1 (i 1 : Fin 128))

theorem readout_apply (h : (⟨2, ![16384, 512]⟩ : Shape).Idx → EReal) (Wout : (⟨2, ![512, 128]⟩ : Shape).Idx → EReal)
    (bout : (⟨1, ![128]⟩ : Shape).Idx → EReal) (r : Fin 16384) (j : Fin 128) :
    readout h Wout bout (ix2 r j) = (∑ k : Fin 512, h (ix2 r k) * Wout (ix2 k j)) + bout (ix1 j) := rfl

/-- The whole network, from the node features `x`, the adjacency `A` and the six parameter arrays. -/
def out (x : (⟨2, ![16384, 512]⟩ : Shape).Idx → EReal) (A : (⟨2, ![16384, 16384]⟩ : Shape).Idx → EReal)
    (W0 : (⟨2, ![512, 512]⟩ : Shape).Idx → EReal) (b0 : (⟨1, ![512]⟩ : Shape).Idx → EReal)
    (Wh : (⟨3, ![2, 512, 512]⟩ : Shape).Idx → EReal) (bh : (⟨2, ![2, 512]⟩ : Shape).Idx → EReal)
    (Wout : (⟨2, ![512, 128]⟩ : Shape).Idx → EReal) (bout : (⟨1, ![128]⟩ : Shape).Idx → EReal) :
    (⟨2, ![16384, 128]⟩ : Shape).Idx → EReal :=
  readout (layer A (layer A (layer A x W0 b0) (hiddenW Wh 0) (hiddenB bh 0)) (hiddenW Wh 1) (hiddenB bh 1)) Wout bout

/-! ## Regrouping a sum into blocks -/

/-- A sum over `a * b` terms is the sum over `a` consecutive blocks of the sums over each block's `b` terms: term
    `kb * b + j` is the `j`-th of block `kb`. Only commutativity and associativity of `+` are used. -/
theorem sum_blocks {M : Type*} [AddCommMonoid M] (a b : ℕ) (f : Fin (a * b) → M) :
    ∑ n, f n = ∑ kb : Fin a, ∑ j : Fin b, f ⟨kb.val * b + j.val,
      Nat.lt_of_lt_of_le (Nat.add_lt_add_left j.isLt _) (by rw [← Nat.succ_mul]; exact Nat.mul_le_mul_right b kb.isLt)⟩ := by
  rw [← Equiv.sum_comp finProdFinEquiv f, Fintype.sum_prod_type]
  refine Finset.sum_congr rfl fun kb _ => Finset.sum_congr rfl fun j _ => congrArg f (Fin.ext ?_)
  show j.val + b * kb.val = kb.val * b + j.val
  rw [Nat.mul_comm, Nat.add_comm]

/-- The 16384 neighbours taken as sixteen blocks of 1024. -/
theorem sum_16x1024 {M : Type*} [AddCommMonoid M] (f : Fin 16384 → M) :
    ∑ n, f n = ∑ kb : Fin 16, ∑ j : Fin 1024, f ⟨kb.val * 1024 + j.val, by have := kb.isLt; have := j.isLt; omega⟩ :=
  sum_blocks 16 1024 f

/-- A layer's entry with the neighbour sum taken block by block. -/
theorem layer_apply_blocks (A : (⟨2, ![16384, 16384]⟩ : Shape).Idx → EReal) (h : (⟨2, ![16384, 512]⟩ : Shape).Idx → EReal)
    (W : (⟨2, ![512, 512]⟩ : Shape).Idx → EReal) (b : (⟨1, ![512]⟩ : Shape).Idx → EReal) (r : Fin 16384) (j : Fin 512) :
    layer A h W b (ix2 r j) =
      max ((∑ kb : Fin 16, ∑ n : Fin 1024,
          A (ix2 r (⟨kb.val * 1024 + n.val, by have := kb.isLt; have := n.isLt; omega⟩ : Fin 16384))
            * support h W (ix2 (⟨kb.val * 1024 + n.val, by have := kb.isLt; have := n.isLt; omega⟩ : Fin 16384) j))
        + b (ix1 j)) 0 := by
  rw [layer_apply, sum_16x1024]

end Cert.GCN

end
-- ==== Proof.RefIsSpec.lean ====
/-
  The plain form of the network — three times "dense product, aggregate over the neighbours, add the bias row, clamp at
  zero", then the read-out — read one operation at a time, is the specification `Cert.GCN.out` of the same eight arrays.
  Each stage is read at an index `(r, j)`: a product of matrices is the sum over the contracted coordinate, a broadcast
  bias row is the row's entry at `j`, a slice of the stacked hidden parameters followed by a reshape is the stacked
  array at `(l, k, j)`, and the clamp is `max · 0`. No law of arithmetic is used: both sides are the same sums.
-/
import proofs.«134615_j996432413323_2_alg».proof.Proof.Gen.ReferenceIdeal.Read
import proofs.«134615_j996432413323_2_alg».proof.Proof.Spec

noncomputable section

open scoped BigOperators

namespace Cert.GCN.Ref

open Idealize.ShloMosaic Idealize.ShloMosaic.ValueIdx Cert.ReferenceIdeal Cert.ReferenceIdeal.Read Cert.GCN

/-! ## Layer 1 -/

theorem support1 (x0 : (⟨S16384x512, .f32⟩ : BufTy).Contents (Elt Ideal)) (x2 : (⟨S512x512, .f32⟩ : BufTy).Contents (Elt Ideal)) :
    val_main_v0 (F := Ideal) x0 x2 = support x0 x2 := by
  funext i
  obtain ⟨r, j, rfl⟩ : ∃ (r : Fin 16384) (j : Fin 512), i = ix2 r j := ⟨i 0, i 1, eq_ix2 i⟩
  rw [val_main_v0_apply, support_apply]
  refine Finset.sum_congr rfl fun k _ => ?_
  have el : lidx_main_v0 (ix2 r j) k = ix2 r k := funext fun a => by match a with | ⟨0, _⟩ => rfl | ⟨1, _⟩ => rfl
  have er : ridx_main_v0 (ix2 r j) k = ix2 k j := funext fun a => by match a with | ⟨0, _⟩ => rfl | ⟨1, _⟩ => rfl
  rw [el, er]

theorem hidden1 (x0 : (⟨S16384x512, .f32⟩ : BufTy).Contents (Elt Ideal)) (x1 : (⟨S16384x16384, .f32⟩ : BufTy).Contents (Elt Ideal)) (x2 : (⟨S512x512, .f32⟩ : BufTy).Contents (Elt Ideal)) (x3 : (⟨S512, .f32⟩ : BufTy).Contents (Elt Ideal)) :
    val_main_v5 (F := Ideal) x0 x1 x2 x3 = layer x1 x0 x2 x3 := by
  funext i
  obtain ⟨r, j, rfl⟩ : ∃ (r : Fin 16384) (j : Fin 512), i = ix2 r j := ⟨i 0, i 1, eq_ix2 i⟩
  rw [val_main_v5_apply, val_main_v4_apply, val_main_v1_apply, val_main_v3_apply, val_main_v2_apply, val_main_call0_v0_apply,
    val_main_call0_cst_apply, support1, layer_apply]
  have el : ∀ n : Fin 16384, lidx_main_v1 (ix2 r j) n = ix2 r n := fun n => funext fun a => by match a with | ⟨0, _⟩ => rfl | ⟨1, _⟩ => rfl
  have er : ∀ n : Fin 16384, ridx_main_v1 (ix2 r j) n = ix2 n j := fun n => funext fun a => by match a with | ⟨0, _⟩ => rfl | ⟨1, _⟩ => rfl
  have eb : idx_main_v2 (idx_main_v3 (ix2 r j)) = ix1 j := funext fun a => by match a with | ⟨0, _⟩ => rfl
  simp only [el, er, eb, Ideal.maximumf_def, Ideal.addf_def, Ideal.ofBits_def, Ideal.ofBits_zero_f32]

/-! ## Layer 2 -/

theorem weight2 (x4 : (⟨S2x512x512, .f32⟩ : BufTy).Contents (Elt Ideal)) : val_main_v7 (F := Ideal) x4 = hiddenW x4 0 := by
  funext i
  obtain ⟨k, j, rfl⟩ : ∃ (k : Fin 512) (j : Fin 512), i = ix2 k j := ⟨i 0, i 1, eq_ix2 i⟩
  rw [val_main_v7_apply, val_main_v6_apply, hiddenW_apply]
  refine congrArg x4 (funext fun a => Fin.ext ?_)
  have hk := k.isLt
  have hj := j.isLt
  match a with
  | ⟨0, _⟩ => rfl
  | ⟨1, _⟩ => show (k.val * 512 + j.val) / 512 % 512 = k.val; omega
  | ⟨2, _⟩ => show (k.val * 512 + j.val) % 512 = j.val; omega

theorem bias2 (x5 : (⟨S2x512, .f32⟩ : BufTy).Contents (Elt Ideal)) (r : Fin 16384) (j : Fin 512) :
    val_main_v13 (F := Ideal) x5 (ix2 r j) = hiddenB x5 0 (ix1 j) := by
  rw [val_main_v13_apply, val_main_v12_apply, val_main_v9_apply, val_main_v8_apply, hiddenB_apply]
  refine congrArg x5 (funext fun a => Fin.ext ?_)
  have hj := j.isLt
  match a with
  | ⟨0, _⟩ => rfl
  | ⟨1, _⟩ => show j.val % 512 = j.val; omega

theorem support2 (x0 : (⟨S16384x512, .f32⟩ : BufTy).Contents (Elt Ideal)) (x1 : (⟨S16384x16384, .f32⟩ : BufTy).Contents (Elt Ideal)) (x2 : (⟨S512x512, .f32⟩ : BufTy).Contents (Elt Ideal)) (x3 : (⟨S512, .f32⟩ : BufTy).Contents (Elt Ideal)) (x4 : (⟨S2x512x512, .f32⟩ : BufTy).Contents (Elt Ideal)) :
    val_main_v10 (F := Ideal) x0 x1 x2 x3 x4 = support (layer x1 x0 x2 x3) (hiddenW x4 0) := by
  funext i
  obtain ⟨r, j, rfl⟩ : ∃ (r : Fin 16384) (j : Fin 512), i = ix2 r j := ⟨i 0, i 1, eq_ix2 i⟩
  rw [val_main_v10_apply, hidden1, weight2, support_apply]
  refine Finset.sum_congr rfl fun k _ => ?_
  have el : lidx_main_v10 (ix2 r j) k = ix2 r k := funext fun a => by match a with | ⟨0, _⟩ => rfl | ⟨1, _⟩ => rfl
  have er : ridx_main_v10 (ix2 r j) k = ix2 k j := funext fun a => by match a with | ⟨0, _⟩ => rfl | ⟨1, _⟩ => rfl
  rw [el, er]

theorem hidden2 (x0 : (⟨S16384x512, .f32⟩ : BufTy).Contents (Elt Ideal)) (x1 : (⟨S16384x16384, .f32⟩ : BufTy).Contents (Elt Ideal)) (x2 : (⟨S512x512, .f32⟩ : BufTy).Contents (Elt Ideal)) (x3 : (⟨S512, .f32⟩ : BufTy).Contents (Elt Ideal)) (x4 : (⟨S2x512x512, .f32⟩ : BufTy).Contents (Elt Ideal)) (x5 : (⟨S2x512, .f32⟩ : BufTy).Contents (Elt Ideal)) :
    val_main_v15 (F := Ideal) x0 x1 x2 x3 x4 x5 = layer x1 (layer x1 x0 x2 x3) (hiddenW x4 0) (hiddenB x5 0) := by
  funext i
  obtain ⟨r, j, rfl⟩ : ∃ (r : Fin 16384) (j : Fin 512), i = ix2 r j := ⟨i 0, i 1, eq_ix2 i⟩
  rw [val_main_v15_apply, val_main_v14_apply, val_main_v11_apply, bias2, val_main_call1_v0_apply,
    val_main_call1_cst_apply, support2, layer_apply]
  have el : ∀ n : Fin 16384, lidx_main_v11 (ix2 r j) n = ix2 r n := fun n => funext fun a => by match a with | ⟨0, _⟩ => rfl | ⟨1, _⟩ => rfl
  have er : ∀ n : Fin 16384, ridx_main_v11 (ix2 r j) n = ix2 n j := fun n => funext fun a => by match a with | ⟨0, _⟩ => rfl | ⟨1, _⟩ => rfl

  simp only [el, er, Ideal.maximumf_def, Ideal.addf_def, Ideal.ofBits_def, Ideal.ofBits_zero_f32]

/-! ## Layer 3 -/

theorem weight3 (x4 : (⟨S2x512x512, .f32⟩ : BufTy).Contents (Elt Ideal)) : val_main_v17 (F := Ideal) x4 = hiddenW x4 1 := by
  funext i
  obtain ⟨k, j, rfl⟩ : ∃ (k : Fin 512) (j : Fin 512), i = ix2 k j := ⟨i 0, i 1, eq_ix2 i⟩
  rw [val_main_v17_apply, val_main_v16_apply, hiddenW_apply]
  refine congrArg x4 (funext fun a => Fin.ext ?_)
  have hk := k.isLt
  have hj := j.isLt
  match a with
  | ⟨0, _⟩ => rfl
  | ⟨1, _⟩ => show (k.val * 512 + j.val) / 512 % 512 = k.val; omega
  | ⟨2, _⟩ => show (k.val * 512 + j.val) % 512 = j.val; omega

theorem bias3 (x5 : (⟨S2x512, .f32⟩ : BufTy).Contents (Elt Ideal)) (r : Fin 16384) (j : Fin 512) :
    val_main_v23 (F := Ideal) x5 (ix2 r j) = hiddenB x5 1 (ix1 j) := by
  rw [val_main_v23_apply, val_main_v22_apply, val_main_v19_apply, val_main_v18_apply, hiddenB_apply]
  refine congrArg x5 (funext fun a => Fin.ext ?_)
  have hj := j.isLt
  match a with
  | ⟨0, _⟩ => rfl
  | ⟨1, _⟩ => show j.val % 512 = j.val; omega

theorem support3 (x0 : (⟨S16384x512, .f32⟩ : BufTy).Contents (Elt Ideal)) (x1 : (⟨S16384x16384, .f32⟩ : BufTy).Contents (Elt Ideal)) (x2 : (⟨S512x512, .f32⟩ : BufTy).Contents (Elt Ideal)) (x3 : (⟨S512, .f32⟩ : BufTy).Contents (Elt Ideal)) (x4 : (⟨S2x512x512, .f32⟩ : BufTy).Contents (Elt Ideal)) (x5 : (⟨S2x512, .f32⟩ : BufTy).Contents (Elt Ideal)) :
    val_main_v20 (F := Ideal) x0 x1 x2 x3 x4 x5 = support (layer x1 (layer x1 x0 x2 x3) (hiddenW x4 0) (hiddenB x5 0)) (hiddenW x4 1) := by
  funext i
  obtain ⟨r, j, rfl⟩ : ∃ (r : Fin 16384) (j : Fin 512), i = ix2 r j := ⟨i 0, i 1, eq_ix2 i⟩
  rw [val_main_v20_apply, hidden2, weight3, support_apply]
  refine Finset.sum_congr rfl fun k _ => ?_
  have el : lidx_main_v20 (ix2 r j) k = ix2 r k := funext fun a => by match a with | ⟨0, _⟩ => rfl | ⟨1, _⟩ => rfl
  have er : ridx_main_v20 (ix2 r j) k = ix2 k j := funext fun a => by match a with | ⟨0, _⟩ => rfl | ⟨1, _⟩ => rfl
  rw [el, er]

theorem hidden3 (x0 : (⟨S16384x512, .f32⟩ : BufTy).Contents (Elt Ideal)) (x1 : (⟨S16384x16384, .f32⟩ : BufTy).Contents (Elt Ideal)) (x2 : (⟨S512x512, .f32⟩ : BufTy).Contents (Elt Ideal)) (x3 : (⟨S512, .f32⟩ : BufTy).Contents (Elt Ideal)) (x4 : (⟨S2x512x512, .f32⟩ : BufTy).Contents (Elt Ideal)) (x5 : (⟨S2x512, .f32⟩ : BufTy).Contents (Elt Ideal)) :
    val_main_v25 (F := Ideal) x0 x1 x2 x3 x4 x5 = layer x1 (layer x1 (layer x1 x0 x2 x3) (hiddenW x4 0) (hiddenB x5 0)) (hiddenW x4 1) (hiddenB x5 1) := by
  funext i
  obtain ⟨r, j, rfl⟩ : ∃ (r : Fin 16384) (j : Fin 512), i = ix2 r j := ⟨i 0, i 1, eq_ix2 i⟩
  rw [val_main_v25_apply, val_main_v24_apply, val_main_v21_apply, bias3, val_main_call2_v0_apply,
    val_main_call2_cst_apply, support3, layer_apply]
  have el : ∀ n : Fin 16384, lidx_main_v21 (ix2 r j) n = ix2 r n := fun n => funext fun a => by match a with | ⟨0, _⟩ => rfl | ⟨1, _⟩ => rfl
  have er : ∀ n : Fin 16384, ridx_main_v21 (ix2 r j) n = ix2 n j := fun n => funext fun a => by match a with | ⟨0, _⟩ => rfl | ⟨1, _⟩ => rfl

  simp only [el, er, Ideal.maximumf_def, Ideal.addf_def, Ideal.ofBits_def, Ideal.ofBits_zero_f32]

/-! ## The read-out, and the whole network -/

/-- The reference's result, as the last stage of its operations, is the specification of its eight arguments. -/
theorem ref_eq_out (x0 : (⟨S16384x512, .f32⟩ : BufTy).Contents (Elt Ideal)) (x1 : (⟨S16384x16384, .f32⟩ : BufTy).Contents (Elt Ideal)) (x2 : (⟨S512x512, .f32⟩ : BufTy).Contents (Elt Ideal)) (x3 : (⟨S512, .f32⟩ : BufTy).Contents (Elt Ideal)) (x4 : (⟨S2x512x512, .f32⟩ : BufTy).Contents (Elt Ideal)) (x5 : (⟨S2x512, .f32⟩ : BufTy).Contents (Elt Ideal)) (x6 : (⟨S512x128, .f32⟩ : BufTy).Contents (Elt Ideal)) (x7 : (⟨S128, .f32⟩ : BufTy).Contents (Elt Ideal)) :
    val_main_v29 (F := Ideal) x0 x1 x2 x3 x4 x5 x6 x7 = out x0 x1 x2 x3 x4 x5 x6 x7 := by
  funext i
  obtain ⟨r, j, rfl⟩ : ∃ (r : Fin 16384) (j : Fin 128), i = ix2 r j := ⟨i 0, i 1, eq_ix2 i⟩
  unfold out
  rw [val_main_v29_apply, val_main_v26_apply, val_main_v28_apply, val_main_v27_apply, hidden3, readout_apply]
  have el : ∀ k : Fin 512, lidx_main_v26 (ix2 r j) k = ix2 r k := fun k => funext fun a => by match a with | ⟨0, _⟩ => rfl | ⟨1, _⟩ => rfl
  have er : ∀ k : Fin 512, ridx_main_v26 (ix2 r j) k = ix2 k j := fun k => funext fun a => by match a with | ⟨0, _⟩ => rfl | ⟨1, _⟩ => rfl
  have eb : idx_main_v27 (idx_main_v28 (ix2 r j)) = ix1 j := funext fun a => by match a with | ⟨0, _⟩ => rfl
  simp only [el, er, eb, Ideal.addf_def]

end Cert.GCN.Ref

end
-- ==== Proof.Payloads.lean ====
/-
  The arithmetic of each region of the kernel, read at one entry `(p, q)` of its block, over the extended reals.

  A dense region multiplies a block of 2048 rows by a weight matrix and adds a bias row:
      entry (p, q) = (∑ k, x[p, k] * w[k, q]) + b[0, q].
  An aggregation region runs over sixteen column blocks of the adjacency matrix; its three pieces are
      the first step's fill           entry (p, q) = 0,
      every step's accumulation       entry (p, q) = acc[p, q] + ∑ n, a[p, n] * s[n, q]   (1024 neighbours per step),
      the last step's bias and clamp  entry (p, q) = max (acc[p, q] + b[0, q]) 0.
  Changes of number format are the identity on extended reals, a reshape to the same shape is the identity, and a
  product of matrices into a zero accumulator is the plain sum over the contracted coordinate.
-/
import proofs.«134615_j996432413323_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.GCN.Payloads

open Idealize.ShloMosaic Idealize.ShloMosaic.ValueIdx Cert.KernelIdeal Cert.KernelIdeal.Gen

/-! ## The three matrix products, into a zero accumulator -/

theorem matmul_dense_lhs0 (i : S2048x512.Idx) (c : dot_S2048x512_S512x512_S2048x512_1_0_0_1_n_n.contr.Idx) : (dot_S2048x512_S512x512_S2048x512_1_0_0_1_n_n.lhsIdx i c 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem matmul_dense_lhs1 (i : S2048x512.Idx) (c : dot_S2048x512_S512x512_S2048x512_1_0_0_1_n_n.contr.Idx) : (dot_S2048x512_S512x512_S2048x512_1_0_0_1_n_n.lhsIdx i c 1).val = (c ⟨0, by decide⟩).val :=
  dot_S2048x512_S512x512_S2048x512_1_0_0_1_n_n.lhsIdx_val_of_single rfl i c
theorem matmul_dense_rhs0 (i : S2048x512.Idx) (c : dot_S2048x512_S512x512_S2048x512_1_0_0_1_n_n.contr.Idx) : (dot_S2048x512_S512x512_S2048x512_1_0_0_1_n_n.rhsIdx i c 0).val = (c ⟨0, by decide⟩).val :=
  dot_S2048x512_S512x512_S2048x512_1_0_0_1_n_n.rhsIdx_val_of_single rfl i c
theorem matmul_dense_rhs1 (i : S2048x512.Idx) (c : dot_S2048x512_S512x512_S2048x512_1_0_0_1_n_n.contr.Idx) : (dot_S2048x512_S512x512_S2048x512_1_0_0_1_n_n.rhsIdx i c 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The matrix product into a zero accumulator, read at `(p, q)`: the sum over the contracted axis of the products. -/
theorem matmul_dense (l : FVec Ideal S2048x512 .bf16) (r : FVec Ideal S512x512 .bf16) (p : Fin 2048) (q : Fin 512) :
    matmul dot_S2048x512_S512x512_S2048x512_1_0_0_1_n_n none l r (constant S2048x512 .f32 0x00000000#32) (ix2 p q)
      = ∑ k : Fin 512, l (ix2 p k) * r (ix2 k q) := by
  simp only [matmul]
  rw [Ideal.matmul_constant_zero_apply, ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 p q) ((contrEquiv1 dot_S2048x512_S512x512_S2048x512_1_0_0_1_n_n 512 rfl rfl).symm k) = ix2 p k :=
    funext fun a => Fin.ext (by
      match a with
      | ⟨0, _⟩ => exact matmul_dense_lhs0 _ _
      | ⟨1, _⟩ => exact (matmul_dense_lhs1 _ _).trans hk)
  have er : dot_S2048x512_S512x512_S2048x512_1_0_0_1_n_n.rhsIdx (ix2 p q) ((contrEquiv1 dot_S2048x512_S512x512_S2048x512_1_0_0_1_n_n 512 rfl rfl).symm k) = ix2 k q :=
    funext fun a => Fin.ext (by
      match a with
      | ⟨0, _⟩ => exact (matmul_dense_rhs0 _ _).trans hk
      | ⟨1, _⟩ => exact matmul_dense_rhs1 _ _)
  rw [el, er]

theorem matmul_agg_lhs0 (i : S2048x512.Idx) (c : dot_S2048x1024_S1024x512_S2048x512_1_0_0_1_n_n.contr.Idx) : (dot_S2048x1024_S1024x512_S2048x512_1_0_0_1_n_n.lhsIdx i c 0).val = (i 0).val := by
  unfold DotDims.lhsIdx
  rw [dif_neg (show ¬(0 : Fin S2048x1024.rank) ∈ dot_S2048x1024_S1024x512_S2048x512_1_0_0_1_n_n.lhsBatch by decide), dif_pos (show (0 : Fin S2048x1024.rank) ∈ dot_S2048x1024_S1024x512_S2048x512_1_0_0_1_n_n.lhsNonContracting by decide)]
  rfl
theorem matmul_agg_lhs1 (i : S2048x512.Idx) (c : dot_S2048x1024_S1024x512_S2048x512_1_0_0_1_n_n.contr.Idx) : (dot_S2048x1024_S1024x512_S2048x512_1_0_0_1_n_n.lhsIdx i c 1).val = (c ⟨0, by decide⟩).val :=
  dot_S2048x1024_S1024x512_S2048x512_1_0_0_1_n_n.lhsIdx_val_of_single rfl i c
theorem matmul_agg_rhs0 (i : S2048x512.Idx) (c : dot_S2048x1024_S1024x512_S2048x512_1_0_0_1_n_n.contr.Idx) : (dot_S2048x1024_S1024x512_S2048x512_1_0_0_1_n_n.rhsIdx i c 0).val = (c ⟨0, by decide⟩).val :=
  dot_S2048x1024_S1024x512_S2048x512_1_0_0_1_n_n.rhsIdx_val_of_single rfl i c
theorem matmul_agg_rhs1 (i : S2048x512.Idx) (c : dot_S2048x1024_S1024x512_S2048x512_1_0_0_1_n_n.contr.Idx) : (dot_S2048x1024_S1024x512_S2048x512_1_0_0_1_n_n.rhsIdx i c 1).val = (i 1).val := by
  unfold DotDims.rhsIdx
  rw [dif_neg (show ¬(1 : Fin S1024x512.rank) ∈ dot_S2048x1024_S1024x512_S2048x512_1_0_0_1_n_n.rhsBatch by decide), dif_pos (show (1 : Fin S1024x512.rank) ∈ dot_S2048x1024_S1024x512_S2048x512_1_0_0_1_n_n.rhsNonContracting by decide)]
  rfl

/-- The matrix product into a zero accumulator, read at `(p, q)`: the sum over the contracted axis of the products. -/
theorem matmul_agg (l : FVec Ideal S2048x1024 .bf16) (r : FVec Ideal S1024x512 .bf16) (p : Fin 2048) (q : Fin 512) :
    matmul dot_S2048x1024_S1024x512_S2048x512_1_0_0_1_n_n none l r (constant S2048x512 .f32 0x00000000#32) (ix2 p q)
      = ∑ k : Fin 1024, l (ix2 p k) * r (ix2 k q) := by
  simp only [matmul]
  rw [Ideal.matmul_constant_zero_apply, ← Equiv.sum_comp (contrEquiv1 dot_S2048x1024_S1024x512_S2048x512_1_0_0_1_n_n 1024 rfl rfl).symm]
  refine Finset.sum_congr rfl fun k _ => ?_
  have hk := contrEquiv1_symm_val dot_S2048x1024_S1024x512_S2048x512_1_0_0_1_n_n 1024 rfl rfl k
  have el : dot_S2048x1024_S1024x512_S2048x512_1_0_0_1_n_n.lhsIdx (ix2 p q) ((contrEquiv1 dot_S2048x1024_S1024x512_S2048x512_1_0_0_1_n_n 1024 rfl rfl).symm k) = ix2 p k :=
    funext fun a => Fin.ext (by
      match a with
      | ⟨0, _⟩ => exact matmul_agg_lhs0 _ _
      | ⟨1, _⟩ => exact (matmul_agg_lhs1 _ _).trans hk)
  have er : dot_S2048x1024_S1024x512_S2048x512_1_0_0_1_n_n.rhsIdx (ix2 p q) ((contrEquiv1 dot_S2048x1024_S1024x512_S2048x512_1_0_0_1_n_n 1024 rfl rfl).symm k) = ix2 k q :=
    funext fun a => Fin.ext (by
      match a with
      | ⟨0, _⟩ => exact (matmul_agg_rhs0 _ _).trans hk
      | ⟨1, _⟩ => exact matmul_agg_rhs1 _ _)
  rw [el, er]

theorem matmul_readout_lhs0 (i : S2048x128.Idx) (c : dot_S2048x512_S512x128_S2048x128_1_0_0_1_n_n.contr.Idx) : (dot_S2048x512_S512x128_S2048x128_1_0_0_1_n_n.lhsIdx i c 0).val = (i 0).val := by
  unfold DotDims.lhsIdx
  rw [dif_neg (show ¬(0 : Fin S2048x512.rank) ∈ dot_S2048x512_S512x128_S2048x128_1_0_0_1_n_n.lhsBatch by decide), dif_pos (show (0 : Fin S2048x512.rank) ∈ dot_S2048x512_S512x128_S2048x128_1_0_0_1_n_n.lhsNonContracting by decide)]
  rfl
theorem matmul_readout_lhs1 (i : S2048x128.Idx) (c : dot_S2048x512_S512x128_S2048x128_1_0_0_1_n_n.contr.Idx) : (dot_S2048x512_S512x128_S2048x128_1_0_0_1_n_n.lhsIdx i c 1).val = (c ⟨0, by decide⟩).val :=
  dot_S2048x512_S512x128_S2048x128_1_0_0_1_n_n.lhsIdx_val_of_single rfl i c
theorem matmul_readout_rhs0 (i : S2048x128.Idx) (c : dot_S2048x512_S512x128_S2048x128_1_0_0_1_n_n.contr.Idx) : (dot_S2048x512_S512x128_S2048x128_1_0_0_1_n_n.rhsIdx i c 0).val = (c ⟨0, by decide⟩).val :=
  dot_S2048x512_S512x128_S2048x128_1_0_0_1_n_n.rhsIdx_val_of_single rfl i c
theorem matmul_readout_rhs1 (i : S2048x128.Idx) (c : dot_S2048x512_S512x128_S2048x128_1_0_0_1_n_n.contr.Idx) : (dot_S2048x512_S512x128_S2048x128_1_0_0_1_n_n.rhsIdx i c 1).val = (i 1).val := by
  unfold DotDims.rhsIdx
  rw [dif_neg (show ¬(1 : Fin S512x128.rank) ∈ dot_S2048x512_S512x128_S2048x128_1_0_0_1_n_n.rhsBatch by decide), dif_pos (show (1 : Fin S512x128.rank) ∈ dot_S2048x512_S512x128_S2048x128_1_0_0_1_n_n.rhsNonContracting by decide)]
  rfl

/-- The matrix product into a zero accumulator, read at `(p, q)`: the sum over the contracted axis of the products. -/
theorem matmul_readout (l : FVec Ideal S2048x512 .bf16) (r : FVec Ideal S512x128 .bf16) (p : Fin 2048) (q : Fin 128) :
    matmul dot_S2048x512_S512x128_S2048x128_1_0_0_1_n_n none l r (constant S2048x128 .f32 0x00000000#32) (ix2 p q)
      = ∑ k : Fin 512, l (ix2 p k) * r (ix2 k q) := by
  simp only [matmul]
  rw [Ideal.matmul_constant_zero_apply, ← Equiv.sum_comp (contrEquiv1 dot_S2048x512_S512x128_S2048x128_1_0_0_1_n_n 512 rfl rfl).symm]
  refine Finset.sum_congr rfl fun k _ => ?_
  have hk := contrEquiv1_symm_val dot_S2048x512_S512x128_S2048x128_1_0_0_1_n_n 512 rfl rfl k
  have el : dot_S2048x512_S512x128_S2048x128_1_0_0_1_n_n.lhsIdx (ix2 p q) ((contrEquiv1 dot_S2048x512_S512x128_S2048x128_1_0_0_1_n_n 512 rfl rfl).symm k) = ix2 p k :=
    funext fun a => Fin.ext (by
      match a with
      | ⟨0, _⟩ => exact matmul_readout_lhs0 _ _
      | ⟨1, _⟩ => exact (matmul_readout_lhs1 _ _).trans hk)
  have er : dot_S2048x512_S512x128_S2048x128_1_0_0_1_n_n.rhsIdx (ix2 p q) ((contrEquiv1 dot_S2048x512_S512x128_S2048x128_1_0_0_1_n_n 512 rfl rfl).symm k) = ix2 k q :=
    funext fun a => Fin.ext (by
      match a with
      | ⟨0, _⟩ => exact (matmul_readout_rhs0 _ _).trans hk
      | ⟨1, _⟩ => exact matmul_readout_rhs1 _ _)
  rw [el, er]

/-! ## Layer 1 -/

/-- The dense region's block: the block of rows times the weights, plus the bias row. -/
theorem k0_pay1_apply (x : Vec Ideal S2048x512 .f32) (w : Vec Ideal S512x512 .f32) (b : Vec Ideal S1x512 .f32)
    (p : Fin 2048) (q : Fin 512) :
    k0_pay1 (F := Ideal) x w b (ix2 p q) = (∑ k : Fin 512, x (ix2 p k) * w (ix2 k q)) + b (ix2 (0 : Fin 1) q) := by
  unfold k0_pay1
  rw [truncf_apply, addf_apply, matmul_dense, broadcastTo_1b_ab_apply]
  simp only [shapeCast_self]
  rfl

/-- The first step fills the accumulator with zeros. -/
theorem k1_pay1_apply (p : Fin 2048) (q : Fin 512) : k1_pay1 (F := Ideal) (ix2 p q) = 0 := by
  unfold k1_pay1
  rw [shapeCast_self, broadcast_apply, Ideal.ofBits_def, Ideal.ofBits_zero_f32]

/-- Every step adds its 1024 neighbours' contribution to the accumulator. -/
theorem k1_pay2_apply (a : Vec Ideal S2048x1024 .f32) (s : Vec Ideal S1024x512 .bf16) (acc : Vec Ideal S2048x512 .f32)
    (p : Fin 2048) (q : Fin 512) :
    k1_pay2 (F := Ideal) a s acc (ix2 p q) = acc (ix2 p q) + ∑ n : Fin 1024, a (ix2 p n) * s (ix2 n q) := by
  unfold k1_pay2
  rw [shapeCast_self, addf_apply, matmul_agg]
  simp only [shapeCast_self]
  rfl

/-- The last step adds the bias row and clamps at zero. -/
theorem k1_pay3_apply (acc : Vec Ideal S2048x512 .f32) (b : Vec Ideal S1x512 .f32) (p : Fin 2048) (q : Fin 512) :
    k1_pay3 (F := Ideal) acc b (ix2 p q) = max (acc (ix2 p q) + b (ix2 (0 : Fin 1) q)) 0 := by
  unfold k1_pay3
  rw [maximumf_apply, addf_apply, broadcastTo_1b_ab_apply, shapeCast_self, broadcast_apply, Ideal.ofBits_def,
    Ideal.ofBits_zero_f32]

/-! ## Layer 2 -/

/-- The dense region's block: the block of rows times the weights, plus the bias row. -/
theorem k2_pay1_apply (x : Vec Ideal S2048x512 .f32) (w : Vec Ideal S512x512 .f32) (b : Vec Ideal S1x512 .f32)
    (p : Fin 2048) (q : Fin 512) :
    k2_pay1 (F := Ideal) x w b (ix2 p q) = (∑ k : Fin 512, x (ix2 p k) * w (ix2 k q)) + b (ix2 (0 : Fin 1) q) := by
  unfold k2_pay1
  rw [truncf_apply, addf_apply, matmul_dense, broadcastTo_1b_ab_apply]
  simp only [shapeCast_self]
  rfl

/-- The first step fills the accumulator with zeros. -/
theorem k3_pay1_apply (p : Fin 2048) (q : Fin 512) : k3_pay1 (F := Ideal) (ix2 p q) = 0 := by
  unfold k3_pay1
  rw [shapeCast_self, broadcast_apply, Ideal.ofBits_def, Ideal.ofBits_zero_f32]

/-- Every step adds its 1024 neighbours' contribution to the accumulator. -/
theorem k3_pay2_apply (a : Vec Ideal S2048x1024 .f32) (s : Vec Ideal S1024x512 .bf16) (acc : Vec Ideal S2048x512 .f32)
    (p : Fin 2048) (q : Fin 512) :
    k3_pay2 (F := Ideal) a s acc (ix2 p q) = acc (ix2 p q) + ∑ n : Fin 1024, a (ix2 p n) * s (ix2 n q) := by
  unfold k3_pay2
  rw [shapeCast_self, addf_apply, matmul_agg]
  simp only [shapeCast_self]
  rfl

/-- The last step adds the bias row and clamps at zero. -/
theorem k3_pay3_apply (acc : Vec Ideal S2048x512 .f32) (b : Vec Ideal S1x512 .f32) (p : Fin 2048) (q : Fin 512) :
    k3_pay3 (F := Ideal) acc b (ix2 p q) = max (acc (ix2 p q) + b (ix2 (0 : Fin 1) q)) 0 := by
  unfold k3_pay3
  rw [maximumf_apply, addf_apply, broadcastTo_1b_ab_apply, shapeCast_self, broadcast_apply, Ideal.ofBits_def,
    Ideal.ofBits_zero_f32]

/-! ## Layer 3 -/

/-- The dense region's block: the block of rows times the weights, plus the bias row. -/
theorem k4_pay1_apply (x : Vec Ideal S2048x512 .f32) (w : Vec Ideal S512x512 .f32) (b : Vec Ideal S1x512 .f32)
    (p : Fin 2048) (q : Fin 512) :
    k4_pay1 (F := Ideal) x w b (ix2 p q) = (∑ k : Fin 512, x (ix2 p k) * w (ix2 k q)) + b (ix2 (0 : Fin 1) q) := by
  unfold k4_pay1
  rw [truncf_apply, addf_apply, matmul_dense, broadcastTo_1b_ab_apply]
  simp only [shapeCast_self]
  rfl

/-- The first step fills the accumulator with zeros. -/
theorem k5_pay1_apply (p : Fin 2048) (q : Fin 512) : k5_pay1 (F := Ideal) (ix2 p q) = 0 := by
  unfold k5_pay1
  rw [shapeCast_self, broadcast_apply, Ideal.ofBits_def, Ideal.ofBits_zero_f32]

/-- Every step adds its 1024 neighbours' contribution to the accumulator. -/
theorem k5_pay2_apply (a : Vec Ideal S2048x1024 .f32) (s : Vec Ideal S1024x512 .bf16) (acc : Vec Ideal S2048x512 .f32)
    (p : Fin 2048) (q : Fin 512) :
    k5_pay2 (F := Ideal) a s acc (ix2 p q) = acc (ix2 p q) + ∑ n : Fin 1024, a (ix2 p n) * s (ix2 n q) := by
  unfold k5_pay2
  rw [shapeCast_self, addf_apply, matmul_agg]
  simp only [shapeCast_self]
  rfl

/-- The last step adds the bias row and clamps at zero. -/
theorem k5_pay3_apply (acc : Vec Ideal S2048x512 .f32) (b : Vec Ideal S1x512 .f32) (p : Fin 2048) (q : Fin 512) :
    k5_pay3 (F := Ideal) acc b (ix2 p q) = max (acc (ix2 p q) + b (ix2 (0 : Fin 1) q)) 0 := by
  unfold k5_pay3
  rw [maximumf_apply, addf_apply, broadcastTo_1b_ab_apply, shapeCast_self, broadcast_apply, Ideal.ofBits_def,
    Ideal.ofBits_zero_f32]

/-! ## The read-out -/

/-- The read-out region's block: the block of rows times the output weights, plus the output bias row. -/
theorem k6_pay1_apply (x : Vec Ideal S2048x512 .f32) (w : Vec Ideal S512x128 .f32) (b : Vec Ideal S1x128 .f32)
    (p : Fin 2048) (q : Fin 128) :
    k6_pay1 (F := Ideal) x w b (ix2 p q) = (∑ k : Fin 512, x (ix2 p k) * w (ix2 k q)) + b (ix2 (0 : Fin 1) q) := by
  unfold k6_pay1
  rw [addf_apply, matmul_readout, broadcastTo_1b_ab_apply]
  simp only [shapeCast_self]
  rfl

end Cert.GCN.Payloads

end
-- ==== Proof.DenseLin.lean ====
/-
  A dense layer as one function of its three arrays: rows times weights, plus a bias row added to every row.

  With 16384 rows, 512 input features and `m` output features (512 for a hidden layer, 128 for the read-out):
      lin x w b [r, j] = (∑ k, x[r, k] * w[k, j]) + b[0, j].
  A block of 2048 consecutive rows of the result depends on the same 2048 rows of `x` and on all of `w` and `b`:
  row `T * 2048 + p` of the result is row `p` of the product of the `T`-th row block of `x` by `w`, plus `b`.
-/
import Idealize.ShloMosaic.PureOps.Ideal
import Idealize.ShloMosaic.Lib.ValueIdx
import Mathlib.Algebra.BigOperators.Fin

noncomputable section

open scoped BigOperators

namespace Cert.GCN.Dense

open Idealize.ShloMosaic Idealize.ShloMosaic.ValueIdx

/-- Rows times weights plus the bias row, for a hidden layer: entry `(r, j)` is `(∑ k, x[r, k] * w[k, j]) + b[0, j]`. -/
def lin512 (x : (⟨2, ![16384, 512]⟩ : Shape).Idx → EReal) (w : (⟨2, ![512, 512]⟩ : Shape).Idx → EReal)
    (b : (⟨2, ![1, 512]⟩ : Shape).Idx → EReal) : (⟨2, ![16384, 512]⟩ : Shape).Idx → EReal :=
  fun i => (∑ k : Fin 512, x (ix2 (i 0 : Fin 16384) k) * w (ix2 k (i 1 : Fin 512))) + b (ix2 (0 : Fin 1) (i 1 : Fin 512))

theorem lin512_apply (x : (⟨2, ![16384, 512]⟩ : Shape).Idx → EReal) (w : (⟨2, ![512, 512]⟩ : Shape).Idx → EReal)
    (b : (⟨2, ![1, 512]⟩ : Shape).Idx → EReal) (r : Fin 16384) (j : Fin 512) :
    lin512 x w b (ix2 r j) = (∑ k : Fin 512, x (ix2 r k) * w (ix2 k j)) + b (ix2 (0 : Fin 1) j) := rfl

/-- Rows times weights plus the bias row, for the read-out: entry `(r, j)` is `(∑ k, x[r, k] * w[k, j]) + b[0, j]`. -/
def lin128 (x : (⟨2, ![16384, 512]⟩ : Shape).Idx → EReal) (w : (⟨2, ![512, 128]⟩ : Shape).Idx → EReal)
    (b : (⟨2, ![1, 128]⟩ : Shape).Idx → EReal) : (⟨2, ![16384, 128]⟩ : Shape).Idx → EReal :=
  fun i => (∑ k : Fin 512, x (ix2 (i 0 : Fin 16384) k) * w (ix2 k (i 1 : Fin 128))) + b (ix2 (0 : Fin 1) (i 1 : Fin 128))

theorem lin128_apply (x : (⟨2, ![16384, 512]⟩ : Shape).Idx → EReal) (w : (⟨2, ![512, 128]⟩ : Shape).Idx → EReal)
    (b : (⟨2, ![1, 128]⟩ : Shape).Idx → EReal) (r : Fin 16384) (j : Fin 128) :
    lin128 x w b (ix2 r j) = (∑ k : Fin 512, x (ix2 r k) * w (ix2 k j)) + b (ix2 (0 : Fin 1) j) := rfl

end Cert.GCN.Dense

end
-- ==== Proof.DenseValue0.lean ====
/-
  Region 0 of the program (dense layer 1) read as one function of its arrays: the output array after the region is
  `lin512` of the three input arrays as the region finds them.

  The grid has 8 points. Point `t` reads rows `2048 t … 2048 t + 2047` of the activations, the whole weight matrix and
  the whole bias row, and writes back rows `2048 t … 2048 t + 2047` of the output: entry `(p, q)` of what it writes is
  `(∑ k, x[2048 t + p, k] * w[k, q]) + b[0, q]`, which is entry `(2048 t + p, q)` of `lin512 x w b`. Row `r` of the output
  lies in the block of point `r / 2048`, so the eight blocks cover the array and the array ends holding `lin512 x w b`.
-/
import proofs.«134615_j996432413323_2_alg».proof.Proof.Ideal.Dense0
import proofs.«134615_j996432413323_2_alg».proof.Proof.Payloads
import proofs.«134615_j996432413323_2_alg».proof.Proof.DenseLin
import Idealize.ShloMosaic.Lib.Pipeline.Value

noncomputable section

open scoped BigOperators

namespace Cert.GCN.Dense

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The index maps over the 8 grid points: the activations' and the output's block index is `(t, 0)`, the weights' and
    the bias row's is `(0, 0)` throughout. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The body's arithmetic on a block of rows: if `x0` is the `T`-th block of 2048 rows of `X`, and `x1`, `x2` are the
    whole of `W` and `B`, entry `(p, q)` of the payload is entry `(2048 T + p, q)` of `lin512 X W B`. -/
theorem pay0_rows (X : S16384x512.Idx → EReal) (W : S512x512.Idx → EReal) (B : S1x512.Idx → EReal)
    (x0 : Vec Ideal S2048x512 .f32) (x1 : Vec Ideal S512x512 .f32) (x2 : Vec Ideal S1x512 .f32)
    (T : Nat) (hT : T < 8)
    (h0 : ∀ (p : Fin 2048) (k : Fin 512), x0 (ix2 p k) = X (ix2 (⟨T * 2048 + p.val, by omega⟩ : Fin 16384) k))
    (h1 : x1 = W) (h2 : x2 = B) (p : Fin 2048) (q : Fin 512) :
    k0_pay1 (F := Ideal) x0 x1 x2 (ix2 p q) = lin512 X W B (ix2 (⟨T * 2048 + p.val, by omega⟩ : Fin 16384) q) := by
  rw [Payloads.k0_pay1_apply, lin512_apply, h1, h2]
  simp only [h0]

/-- The activations' block at point `t` is rows `2048 t …` of the array. -/
theorem iblk0_0_apply (c : Dev nD) (t : Fin cfg0.N) (y : S2048x512.Idx) (k : S16384x512.Idx)
    (hk0 : (k 0).val = t.val * 2048 + (y 0).val) (hk1 : (k 1).val = (y 1).val) :
    (iblk0 V c 0 t : Vec Ideal S2048x512 .f32) y = (V c main_arg0 : S16384x512.Idx → EReal) k := by
  obtain ⟨e0, e1, -⟩ := idx_facts0 t
  unfold iblk0
  rw [View.read_apply]
  show (V c main_arg0 : S16384x512.Idx → EReal) (((cfg0.win 0).blk t).view.emb y) = (V c main_arg0 : S16384x512.Idx → EReal) k
  refine congrArg (V c main_arg0 : S16384x512.Idx → EReal) (funext fun a => Fin.ext ?_)
  match a with
  | ⟨0, _⟩ => show win0_0.index t (0 : Fin 2) * 2048 + 1 * (y 0).val = (k 0).val; rw [e0, hk0]; omega
  | ⟨1, _⟩ => show win0_0.index t (1 : Fin 2) * 512 + 1 * (y 1).val = (k 1).val; rw [e1, hk1]; omega

/-- The weights' block at every point is the whole matrix. -/
theorem iblk0_1_apply (c : Dev nD) (t : Fin cfg0.N) (y : S512x512.Idx) :
    (iblk0 V c 1 t : Vec Ideal S512x512 .f32) y = (V c main_arg2 : S512x512.Idx → EReal) y := by
  obtain ⟨-, -, e2, e3, -⟩ := idx_facts0 t
  unfold iblk0
  rw [View.read_apply]
  show (V c main_arg2 : S512x512.Idx → EReal) (((cfg0.win 1).blk t).view.emb y) = (V c main_arg2 : S512x512.Idx → EReal) y
  refine congrArg (V c main_arg2 : S512x512.Idx → EReal) (funext fun a => Fin.ext ?_)
  match a with
  | ⟨0, _⟩ => show win0_1.index t (0 : Fin 2) * 512 + 1 * (y 0).val = (y 0).val; rw [e2]; omega
  | ⟨1, _⟩ => show win0_1.index t (1 : Fin 2) * 512 + 1 * (y 1).val = (y 1).val; rw [e3]; omega

/-- The bias row's block at every point is the whole row. -/
theorem iblk0_2_apply (c : Dev nD) (t : Fin cfg0.N) (y : S1x512.Idx) :
    (iblk0 V c 2 t : Vec Ideal S1x512 .f32) y = (V c main_v1 : S1x512.Idx → EReal) y := by
  obtain ⟨-, -, -, -, e4, e5, -⟩ := idx_facts0 t
  unfold iblk0
  rw [View.read_apply]
  show (V c main_v1 : S1x512.Idx → EReal) (((cfg0.win 2).blk t).view.emb y) = (V c main_v1 : S1x512.Idx → EReal) y
  refine congrArg (V c main_v1 : S1x512.Idx → EReal) (funext fun a => Fin.ext ?_)
  match a with
  | ⟨0, _⟩ => show win0_2.index t (0 : Fin 2) * 1 + 1 * (y 0).val = (y 0).val; rw [e4]; omega
  | ⟨1, _⟩ => show win0_2.index t (1 : Fin 2) * 512 + 1 * (y 1).val = (y 1).val; rw [e5]; omega

/-- What point `t` writes back is block `t` of `lin512` of the three arrays as the region finds them. -/
theorem flushed0_eq (c : Dev nD) (t : Fin cfg0.N) :
    (dat0 (F := Ideal) V c).flushed 3 t
      = ((cfg0.win 3).blk t).view.read (Elt Ideal) (lin512 (V c main_arg0) (V c main_arg2) (V c main_v1)) := by
  show (cfg0.win 3).cut (grid0.coords t) ((dat0 (F := Ideal) V c).after 3 t) = _
  rw [after0_3]
  unfold out0_3
  rw [View.canon_unit_zero hz0]
  simp only [View.ld_unit_zero (S := S2048x512) hz0, View.ld_unit_zero (S := S512x512) hz0, View.ld_unit_zero (S := S1x512) hz0]
  obtain ⟨-, -, -, -, -, -, e6, e7⟩ := idx_facts0 t
  funext j
  have hN : t.val < 8 := t.isLt
  have hj0 : (j 0).val < 2048 := (j 0).isLt
  have hj1 : (j 1).val < 512 := (j 1).isLt
  have ej : (cfg0.win 3).xinj (grid0.coords t) j = ix2 (⟨(j 0).val, hj0⟩ : Fin 2048) (⟨(j 1).val, hj1⟩ : Fin 512) :=
    funext fun a => Fin.ext (by match a with | ⟨0, _⟩ => rfl | ⟨1, _⟩ => rfl)
  have ei : ((cfg0.win 3).blk t).view.emb j
      = ix2 (⟨t.val * 2048 + (j 0).val, by omega⟩ : Fin 16384) (⟨(j 1).val, hj1⟩ : Fin 512) :=
    funext fun a => Fin.ext (by
      match a with
      | ⟨0, _⟩ => show win0_3.index t (0 : Fin 2) * 2048 + 1 * (j 0).val = t.val * 2048 + (j 0).val; rw [e6]; omega
      | ⟨1, _⟩ => show win0_3.index t (1 : Fin 2) * 512 + 1 * (j 1).val = (j 1).val; rw [e7]; omega)
  show k0_pay1 (F := Ideal) (iblk0 V c 0 t) (iblk0 V c 1 t) (iblk0 V c 2 t) ((cfg0.win 3).xinj (grid0.coords t) j)
    = lin512 (V c main_arg0) (V c main_arg2) (V c main_v1) (((cfg0.win 3).blk t).view.emb j)
  rw [ej, ei]
  exact pay0_rows (V c main_arg0) (V c main_arg2) (V c main_v1) (iblk0 V c 0 t) (iblk0 V c 1 t) (iblk0 V c 2 t) t.val hN
    (fun p k => iblk0_0_apply V c t (ix2 p k) (ix2 (⟨t.val * 2048 + p.val, by omega⟩ : Fin 16384) k) rfl rfl)
    (funext fun y => iblk0_1_apply V c t y) (funext fun y => iblk0_2_apply V c t y)
    (⟨(j 0).val, hj0⟩ : Fin 2048) (⟨(j 1).val, hj1⟩ : Fin 512)

/-- An index of the output array is in point `t`'s block iff each coordinate is in the block's range on its axis. -/
theorem mem_blk0 (t : Fin cfg0.N) (i : S16384x512.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v2).slice (win0_3.rect t)).set ↔ _
  rw [View.set_slice_whole, Rect.mem_set_unit]
  exact Iff.rfl

/-- Every index of the output array is in some point's block: row `r` is in the block of point `r / 2048`. -/
theorem cover0 (i : S16384x512.Idx) :
    ∃ t : Fin cfg0.N, (cfg0.win 3).flush t = true ∧ i ∈ ((cfg0.win 3).blk t).view.set := by
  have hi0 : (i 0).val < 16384 := (i 0).isLt
  have hi1 : (i 1).val < 512 := (i 1).isLt
  obtain ⟨t, ht⟩ : ∃ t : Fin cfg0.N, t.val = (i 0).val / 2048 :=
    ⟨⟨(i 0).val / 2048, by show (i 0).val / 2048 < 8; omega⟩, rfl⟩
  obtain ⟨-, -, -, -, -, -, e6, e7⟩ := idx_facts0 t
  refine ⟨t, flush0_3 t, ?_⟩
  rw [mem_blk0]
  intro a
  match a with
  | ⟨0, _⟩ =>
    show win0_3.index t (0 : Fin 2) * 2048 ≤ (i 0).val ∧ (i 0).val < win0_3.index t (0 : Fin 2) * 2048 + 2048
    rw [e6, ht]; omega
  | ⟨1, _⟩ =>
    show win0_3.index t (1 : Fin 2) * 512 ≤ (i 1).val ∧ (i 1).val < win0_3.index t (1 : Fin 2) * 512 + 512
    rw [e7]; omega

/-- The output array after region 0: `lin512` of the activations, the weights and the bias row as the region finds them. -/
theorem dense0_final (c : Dev nD) :
    (dat0 (F := Ideal) V c).arrAt 3 cfg0.N = lin512 (V c main_arg0) (V c main_arg2) (V c main_v1) :=
  (dat0 (F := Ideal) V c).arrAt_eq_of_cover 3 (lin512 (V c main_arg0) (V c main_arg2) (V c main_v1))
    (fun t _ => flushed0_eq V c t) cover0

end Cert.GCN.Dense

end
-- ==== Proof.DenseValue2.lean ====
/-
  Region 2 of the program (dense layer 2) read as one function of its arrays: the output array after the region is
  `lin512` of the three input arrays as the region finds them.

  The grid has 8 points. Point `t` reads rows `2048 t … 2048 t + 2047` of the activations, the whole weight matrix and
  the whole bias row, and writes back rows `2048 t … 2048 t + 2047` of the output: entry `(p, q)` of what it writes is
  `(∑ k, x[2048 t + p, k] * w[k, q]) + b[0, q]`, which is entry `(2048 t + p, q)` of `lin512 x w b`. Row `r` of the output
  lies in the block of point `r / 2048`, so the eight blocks cover the array and the array ends holding `lin512 x w b`.
-/
import proofs.«134615_j996432413323_2_alg».proof.Proof.Ideal.Dense2
import proofs.«134615_j996432413323_2_alg».proof.Proof.Payloads
import proofs.«134615_j996432413323_2_alg».proof.Proof.DenseLin
import Idealize.ShloMosaic.Lib.Pipeline.Value

noncomputable section

open scoped BigOperators

namespace Cert.GCN.Dense

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The index maps over the 8 grid points: the activations' and the output's block index is `(t, 0)`, the weights' and
    the bias row's is `(0, 0)` throughout. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The body's arithmetic on a block of rows: if `x0` is the `T`-th block of 2048 rows of `X`, and `x1`, `x2` are the
    whole of `W` and `B`, entry `(p, q)` of the payload is entry `(2048 T + p, q)` of `lin512 X W B`. -/
theorem pay2_rows (X : S16384x512.Idx → EReal) (W : S512x512.Idx → EReal) (B : S1x512.Idx → EReal)
    (x0 : Vec Ideal S2048x512 .f32) (x1 : Vec Ideal S512x512 .f32) (x2 : Vec Ideal S1x512 .f32)
    (T : Nat) (hT : T < 8)
    (h0 : ∀ (p : Fin 2048) (k : Fin 512), x0 (ix2 p k) = X (ix2 (⟨T * 2048 + p.val, by omega⟩ : Fin 16384) k))
    (h1 : x1 = W) (h2 : x2 = B) (p : Fin 2048) (q : Fin 512) :
    k2_pay1 (F := Ideal) x0 x1 x2 (ix2 p q) = lin512 X W B (ix2 (⟨T * 2048 + p.val, by omega⟩ : Fin 16384) q) := by
  rw [Payloads.k2_pay1_apply, lin512_apply, h1, h2]
  simp only [h0]

/-- The activations' block at point `t` is rows `2048 t …` of the array. -/
theorem iblk2_0_apply (c : Dev nD) (t : Fin cfg2.N) (y : S2048x512.Idx) (k : S16384x512.Idx)
    (hk0 : (k 0).val = t.val * 2048 + (y 0).val) (hk1 : (k 1).val = (y 1).val) :
    (iblk2 V c 0 t : Vec Ideal S2048x512 .f32) y = (V c main_v4 : S16384x512.Idx → EReal) k := by
  obtain ⟨e0, e1, -⟩ := idx_facts2 t
  unfold iblk2
  rw [View.read_apply]
  show (V c main_v4 : S16384x512.Idx → EReal) (((cfg2.win 0).blk t).view.emb y) = (V c main_v4 : S16384x512.Idx → EReal) k
  refine congrArg (V c main_v4 : S16384x512.Idx → EReal) (funext fun a => Fin.ext ?_)
  match a with
  | ⟨0, _⟩ => show win2_0.index t (0 : Fin 2) * 2048 + 1 * (y 0).val = (k 0).val; rw [e0, hk0]; omega
  | ⟨1, _⟩ => show win2_0.index t (1 : Fin 2) * 512 + 1 * (y 1).val = (k 1).val; rw [e1, hk1]; omega

/-- The weights' block at every point is the whole matrix. -/
theorem iblk2_1_apply (c : Dev nD) (t : Fin cfg2.N) (y : S512x512.Idx) :
    (iblk2 V c 1 t : Vec Ideal S512x512 .f32) y = (V c main_v6 : S512x512.Idx → EReal) y := by
  obtain ⟨-, -, e2, e3, -⟩ := idx_facts2 t
  unfold iblk2
  rw [View.read_apply]
  show (V c main_v6 : S512x512.Idx → EReal) (((cfg2.win 1).blk t).view.emb y) = (V c main_v6 : S512x512.Idx → EReal) y
  refine congrArg (V c main_v6 : S512x512.Idx → EReal) (funext fun a => Fin.ext ?_)
  match a with
  | ⟨0, _⟩ => show win2_1.index t (0 : Fin 2) * 512 + 1 * (y 0).val = (y 0).val; rw [e2]; omega
  | ⟨1, _⟩ => show win2_1.index t (1 : Fin 2) * 512 + 1 * (y 1).val = (y 1).val; rw [e3]; omega

/-- The bias row's block at every point is the whole row. -/
theorem iblk2_2_apply (c : Dev nD) (t : Fin cfg2.N) (y : S1x512.Idx) :
    (iblk2 V c 2 t : Vec Ideal S1x512 .f32) y = (V c main_v10 : S1x512.Idx → EReal) y := by
  obtain ⟨-, -, -, -, e4, e5, -⟩ := idx_facts2 t
  unfold iblk2
  rw [View.read_apply]
  show (V c main_v10 : S1x512.Idx → EReal) (((cfg2.win 2).blk t).view.emb y) = (V c main_v10 : S1x512.Idx → EReal) y
  refine congrArg (V c main_v10 : S1x512.Idx → EReal) (funext fun a => Fin.ext ?_)
  match a with
  | ⟨0, _⟩ => show win2_2.index t (0 : Fin 2) * 1 + 1 * (y 0).val = (y 0).val; rw [e4]; omega
  | ⟨1, _⟩ => show win2_2.index t (1 : Fin 2) * 512 + 1 * (y 1).val = (y 1).val; rw [e5]; omega

/-- What point `t` writes back is block `t` of `lin512` of the three arrays as the region finds them. -/
theorem flushed2_eq (c : Dev nD) (t : Fin cfg2.N) :
    (dat2 (F := Ideal) V c).flushed 3 t
      = ((cfg2.win 3).blk t).view.read (Elt Ideal) (lin512 (V c main_v4) (V c main_v6) (V c main_v10)) := by
  show (cfg2.win 3).cut (grid2.coords t) ((dat2 (F := Ideal) V c).after 3 t) = _
  rw [after2_3]
  unfold out2_3
  rw [View.canon_unit_zero hz2]
  simp only [View.ld_unit_zero (S := S2048x512) hz2, View.ld_unit_zero (S := S512x512) hz2, View.ld_unit_zero (S := S1x512) hz2]
  obtain ⟨-, -, -, -, -, -, e6, e7⟩ := idx_facts2 t
  funext j
  have hN : t.val < 8 := t.isLt
  have hj0 : (j 0).val < 2048 := (j 0).isLt
  have hj1 : (j 1).val < 512 := (j 1).isLt
  have ej : (cfg2.win 3).xinj (grid2.coords t) j = ix2 (⟨(j 0).val, hj0⟩ : Fin 2048) (⟨(j 1).val, hj1⟩ : Fin 512) :=
    funext fun a => Fin.ext (by match a with | ⟨0, _⟩ => rfl | ⟨1, _⟩ => rfl)
  have ei : ((cfg2.win 3).blk t).view.emb j
      = ix2 (⟨t.val * 2048 + (j 0).val, by omega⟩ : Fin 16384) (⟨(j 1).val, hj1⟩ : Fin 512) :=
    funext fun a => Fin.ext (by
      match a with
      | ⟨0, _⟩ => show win2_3.index t (0 : Fin 2) * 2048 + 1 * (j 0).val = t.val * 2048 + (j 0).val; rw [e6]; omega
      | ⟨1, _⟩ => show win2_3.index t (1 : Fin 2) * 512 + 1 * (j 1).val = (j 1).val; rw [e7]; omega)
  show k2_pay1 (F := Ideal) (iblk2 V c 0 t) (iblk2 V c 1 t) (iblk2 V c 2 t) ((cfg2.win 3).xinj (grid2.coords t) j)
    = lin512 (V c main_v4) (V c main_v6) (V c main_v10) (((cfg2.win 3).blk t).view.emb j)
  rw [ej, ei]
  exact pay2_rows (V c main_v4) (V c main_v6) (V c main_v10) (iblk2 V c 0 t) (iblk2 V c 1 t) (iblk2 V c 2 t) t.val hN
    (fun p k => iblk2_0_apply V c t (ix2 p k) (ix2 (⟨t.val * 2048 + p.val, by omega⟩ : Fin 16384) k) rfl rfl)
    (funext fun y => iblk2_1_apply V c t y) (funext fun y => iblk2_2_apply V c t y)
    (⟨(j 0).val, hj0⟩ : Fin 2048) (⟨(j 1).val, hj1⟩ : Fin 512)

/-- An index of the output array is in point `t`'s block iff each coordinate is in the block's range on its axis. -/
theorem mem_blk2 (t : Fin cfg2.N) (i : S16384x512.Idx) :
    i ∈ ((cfg2.win 3).blk t).view.set ↔ ∀ a : Fin 2, win2_3.index t a * S2048x512.size a ≤ (i a).val
      ∧ (i a).val < win2_3.index t a * S2048x512.size a + S2048x512.size a := by
  show i ∈ ((View.whole main_v11).slice (win2_3.rect t)).set ↔ _
  rw [View.set_slice_whole, Rect.mem_set_unit]
  exact Iff.rfl

/-- Every index of the output array is in some point's block: row `r` is in the block of point `r / 2048`. -/
theorem cover2 (i : S16384x512.Idx) :
    ∃ t : Fin cfg2.N, (cfg2.win 3).flush t = true ∧ i ∈ ((cfg2.win 3).blk t).view.set := by
  have hi0 : (i 0).val < 16384 := (i 0).isLt
  have hi1 : (i 1).val < 512 := (i 1).isLt
  obtain ⟨t, ht⟩ : ∃ t : Fin cfg2.N, t.val = (i 0).val / 2048 :=
    ⟨⟨(i 0).val / 2048, by show (i 0).val / 2048 < 8; omega⟩, rfl⟩
  obtain ⟨-, -, -, -, -, -, e6, e7⟩ := idx_facts2 t
  refine ⟨t, flush2_3 t, ?_⟩
  rw [mem_blk2]
  intro a
  match a with
  | ⟨0, _⟩ =>
    show win2_3.index t (0 : Fin 2) * 2048 ≤ (i 0).val ∧ (i 0).val < win2_3.index t (0 : Fin 2) * 2048 + 2048
    rw [e6, ht]; omega
  | ⟨1, _⟩ =>
    show win2_3.index t (1 : Fin 2) * 512 ≤ (i 1).val ∧ (i 1).val < win2_3.index t (1 : Fin 2) * 512 + 512
    rw [e7]; omega

/-- The output array after region 2: `lin512` of the activations, the weights and the bias row as the region finds them. -/
theorem dense2_final (c : Dev nD) :
    (dat2 (F := Ideal) V c).arrAt 3 cfg2.N = lin512 (V c main_v4) (V c main_v6) (V c main_v10) :=
  (dat2 (F := Ideal) V c).arrAt_eq_of_cover 3 (lin512 (V c main_v4) (V c main_v6) (V c main_v10))
    (fun t _ => flushed2_eq V c t) cover2

end Cert.GCN.Dense

end
-- ==== Proof.DenseValue4.lean ====
/-
  Region 4 of the program (dense layer 3) read as one function of its arrays: the output array after the region is
  `lin512` of the three input arrays as the region finds them.

  The grid has 8 points. Point `t` reads rows `2048 t … 2048 t + 2047` of the activations, the whole weight matrix and
  the whole bias row, and writes back rows `2048 t … 2048 t + 2047` of the output: entry `(p, q)` of what it writes is
  `(∑ k, x[2048 t + p, k] * w[k, q]) + b[0, q]`, which is entry `(2048 t + p, q)` of `lin512 x w b`. Row `r` of the output
  lies in the block of point `r / 2048`, so the eight blocks cover the array and the array ends holding `lin512 x w b`.
-/
import proofs.«134615_j996432413323_2_alg».proof.Proof.Ideal.Dense4
import proofs.«134615_j996432413323_2_alg».proof.Proof.Payloads
import proofs.«134615_j996432413323_2_alg».proof.Proof.DenseLin
import Idealize.ShloMosaic.Lib.Pipeline.Value

noncomputable section

open scoped BigOperators

namespace Cert.GCN.Dense

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- The index maps over the 8 grid points: the activations' and the output's block index is `(t, 0)`, the weights' and
    the bias row's is `(0, 0)` throughout. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The body's arithmetic on a block of rows: if `x0` is the `T`-th block of 2048 rows of `X`, and `x1`, `x2` are the
    whole of `W` and `B`, entry `(p, q)` of the payload is entry `(2048 T + p, q)` of `lin512 X W B`. -/
theorem pay4_rows (X : S16384x512.Idx → EReal) (W : S512x512.Idx → EReal) (B : S1x512.Idx → EReal)
    (x0 : Vec Ideal S2048x512 .f32) (x1 : Vec Ideal S512x512 .f32) (x2 : Vec Ideal S1x512 .f32)
    (T : Nat) (hT : T < 8)
    (h0 : ∀ (p : Fin 2048) (k : Fin 512), x0 (ix2 p k) = X (ix2 (⟨T * 2048 + p.val, by omega⟩ : Fin 16384) k))
    (h1 : x1 = W) (h2 : x2 = B) (p : Fin 2048) (q : Fin 512) :
    k4_pay1 (F := Ideal) x0 x1 x2 (ix2 p q) = lin512 X W B (ix2 (⟨T * 2048 + p.val, by omega⟩ : Fin 16384) q) := by
  rw [Payloads.k4_pay1_apply, lin512_apply, h1, h2]
  simp only [h0]

/-- The activations' block at point `t` is rows `2048 t …` of the array. -/
theorem iblk4_0_apply (c : Dev nD) (t : Fin cfg4.N) (y : S2048x512.Idx) (k : S16384x512.Idx)
    (hk0 : (k 0).val = t.val * 2048 + (y 0).val) (hk1 : (k 1).val = (y 1).val) :
    (iblk4 V c 0 t : Vec Ideal S2048x512 .f32) y = (V c main_v13 : S16384x512.Idx → EReal) k := by
  obtain ⟨e0, e1, -⟩ := idx_facts4 t
  unfold iblk4
  rw [View.read_apply]
  show (V c main_v13 : S16384x512.Idx → EReal) (((cfg4.win 0).blk t).view.emb y) = (V c main_v13 : S16384x512.Idx → EReal) k
  refine congrArg (V c main_v13 : S16384x512.Idx → EReal) (funext fun a => Fin.ext ?_)
  match a with
  | ⟨0, _⟩ => show win4_0.index t (0 : Fin 2) * 2048 + 1 * (y 0).val = (k 0).val; rw [e0, hk0]; omega
  | ⟨1, _⟩ => show win4_0.index t (1 : Fin 2) * 512 + 1 * (y 1).val = (k 1).val; rw [e1, hk1]; omega

/-- The weights' block at every point is the whole matrix. -/
theorem iblk4_1_apply (c : Dev nD) (t : Fin cfg4.N) (y : S512x512.Idx) :
    (iblk4 V c 1 t : Vec Ideal S512x512 .f32) y = (V c main_v15 : S512x512.Idx → EReal) y := by
  obtain ⟨-, -, e2, e3, -⟩ := idx_facts4 t
  unfold iblk4
  rw [View.read_apply]
  show (V c main_v15 : S512x512.Idx → EReal) (((cfg4.win 1).blk t).view.emb y) = (V c main_v15 : S512x512.Idx → EReal) y
  refine congrArg (V c main_v15 : S512x512.Idx → EReal) (funext fun a => Fin.ext ?_)
  match a with
  | ⟨0, _⟩ => show win4_1.index t (0 : Fin 2) * 512 + 1 * (y 0).val = (y 0).val; rw [e2]; omega
  | ⟨1, _⟩ => show win4_1.index t (1 : Fin 2) * 512 + 1 * (y 1).val = (y 1).val; rw [e3]; omega

/-- The bias row's block at every point is the whole row. -/
theorem iblk4_2_apply (c : Dev nD) (t : Fin cfg4.N) (y : S1x512.Idx) :
    (iblk4 V c 2 t : Vec Ideal S1x512 .f32) y = (V c main_v19 : S1x512.Idx → EReal) y := by
  obtain ⟨-, -, -, -, e4, e5, -⟩ := idx_facts4 t
  unfold iblk4
  rw [View.read_apply]
  show (V c main_v19 : S1x512.Idx → EReal) (((cfg4.win 2).blk t).view.emb y) = (V c main_v19 : S1x512.Idx → EReal) y
  refine congrArg (V c main_v19 : S1x512.Idx → EReal) (funext fun a => Fin.ext ?_)
  match a with
  | ⟨0, _⟩ => show win4_2.index t (0 : Fin 2) * 1 + 1 * (y 0).val = (y 0).val; rw [e4]; omega
  | ⟨1, _⟩ => show win4_2.index t (1 : Fin 2) * 512 + 1 * (y 1).val = (y 1).val; rw [e5]; omega

/-- What point `t` writes back is block `t` of `lin512` of the three arrays as the region finds them. -/
theorem flushed4_eq (c : Dev nD) (t : Fin cfg4.N) :
    (dat4 (F := Ideal) V c).flushed 3 t
      = ((cfg4.win 3).blk t).view.read (Elt Ideal) (lin512 (V c main_v13) (V c main_v15) (V c main_v19)) := by
  show (cfg4.win 3).cut (grid4.coords t) ((dat4 (F := Ideal) V c).after 3 t) = _
  rw [after4_3]
  unfold out4_3
  rw [View.canon_unit_zero hz4]
  simp only [View.ld_unit_zero (S := S2048x512) hz4, View.ld_unit_zero (S := S512x512) hz4, View.ld_unit_zero (S := S1x512) hz4]
  obtain ⟨-, -, -, -, -, -, e6, e7⟩ := idx_facts4 t
  funext j
  have hN : t.val < 8 := t.isLt
  have hj0 : (j 0).val < 2048 := (j 0).isLt
  have hj1 : (j 1).val < 512 := (j 1).isLt
  have ej : (cfg4.win 3).xinj (grid4.coords t) j = ix2 (⟨(j 0).val, hj0⟩ : Fin 2048) (⟨(j 1).val, hj1⟩ : Fin 512) :=
    funext fun a => Fin.ext (by match a with | ⟨0, _⟩ => rfl | ⟨1, _⟩ => rfl)
  have ei : ((cfg4.win 3).blk t).view.emb j
      = ix2 (⟨t.val * 2048 + (j 0).val, by omega⟩ : Fin 16384) (⟨(j 1).val, hj1⟩ : Fin 512) :=
    funext fun a => Fin.ext (by
      match a with
      | ⟨0, _⟩ => show win4_3.index t (0 : Fin 2) * 2048 + 1 * (j 0).val = t.val * 2048 + (j 0).val; rw [e6]; omega
      | ⟨1, _⟩ => show win4_3.index t (1 : Fin 2) * 512 + 1 * (j 1).val = (j 1).val; rw [e7]; omega)
  show k4_pay1 (F := Ideal) (iblk4 V c 0 t) (iblk4 V c 1 t) (iblk4 V c 2 t) ((cfg4.win 3).xinj (grid4.coords t) j)
    = lin512 (V c main_v13) (V c main_v15) (V c main_v19) (((cfg4.win 3).blk t).view.emb j)
  rw [ej, ei]
  exact pay4_rows (V c main_v13) (V c main_v15) (V c main_v19) (iblk4 V c 0 t) (iblk4 V c 1 t) (iblk4 V c 2 t) t.val hN
    (fun p k => iblk4_0_apply V c t (ix2 p k) (ix2 (⟨t.val * 2048 + p.val, by omega⟩ : Fin 16384) k) rfl rfl)
    (funext fun y => iblk4_1_apply V c t y) (funext fun y => iblk4_2_apply V c t y)
    (⟨(j 0).val, hj0⟩ : Fin 2048) (⟨(j 1).val, hj1⟩ : Fin 512)

/-- An index of the output array is in point `t`'s block iff each coordinate is in the block's range on its axis. -/
theorem mem_blk4 (t : Fin cfg4.N) (i : S16384x512.Idx) :
    i ∈ ((cfg4.win 3).blk t).view.set ↔ ∀ a : Fin 2, win4_3.index t a * S2048x512.size a ≤ (i a).val
      ∧ (i a).val < win4_3.index t a * S2048x512.size a + S2048x512.size a := by
  show i ∈ ((View.whole main_v20).slice (win4_3.rect t)).set ↔ _
  rw [View.set_slice_whole, Rect.mem_set_unit]
  exact Iff.rfl

/-- Every index of the output array is in some point's block: row `r` is in the block of point `r / 2048`. -/
theorem cover4 (i : S16384x512.Idx) :
    ∃ t : Fin cfg4.N, (cfg4.win 3).flush t = true ∧ i ∈ ((cfg4.win 3).blk t).view.set := by
  have hi0 : (i 0).val < 16384 := (i 0).isLt
  have hi1 : (i 1).val < 512 := (i 1).isLt
  obtain ⟨t, ht⟩ : ∃ t : Fin cfg4.N, t.val = (i 0).val / 2048 :=
    ⟨⟨(i 0).val / 2048, by show (i 0).val / 2048 < 8; omega⟩, rfl⟩
  obtain ⟨-, -, -, -, -, -, e6, e7⟩ := idx_facts4 t
  refine ⟨t, flush4_3 t, ?_⟩
  rw [mem_blk4]
  intro a
  match a with
  | ⟨0, _⟩ =>
    show win4_3.index t (0 : Fin 2) * 2048 ≤ (i 0).val ∧ (i 0).val < win4_3.index t (0 : Fin 2) * 2048 + 2048
    rw [e6, ht]; omega
  | ⟨1, _⟩ =>
    show win4_3.index t (1 : Fin 2) * 512 ≤ (i 1).val ∧ (i 1).val < win4_3.index t (1 : Fin 2) * 512 + 512
    rw [e7]; omega

/-- The output array after region 4: `lin512` of the activations, the weights and the bias row as the region finds them. -/
theorem dense4_final (c : Dev nD) :
    (dat4 (F := Ideal) V c).arrAt 3 cfg4.N = lin512 (V c main_v13) (V c main_v15) (V c main_v19) :=
  (dat4 (F := Ideal) V c).arrAt_eq_of_cover 3 (lin512 (V c main_v13) (V c main_v15) (V c main_v19))
    (fun t _ => flushed4_eq V c t) cover4

end Cert.GCN.Dense

end
-- ==== Proof.DenseValue6.lean ====
/-
  Region 6 of the program (the read-out) read as one function of its arrays: the output array after the region is
  `lin128` of the three input arrays as the region finds them.

  The grid has 8 points. Point `t` reads rows `2048 t … 2048 t + 2047` of the activations, the whole weight matrix and
  the whole bias row, and writes back rows `2048 t … 2048 t + 2047` of the output: entry `(p, q)` of what it writes is
  `(∑ k, x[2048 t + p, k] * w[k, q]) + b[0, q]`, which is entry `(2048 t + p, q)` of `lin128 x w b`. Row `r` of the output
  lies in the block of point `r / 2048`, so the eight blocks cover the array and the array ends holding `lin128 x w b`.
-/
import proofs.«134615_j996432413323_2_alg».proof.Proof.Ideal.Dense6
import proofs.«134615_j996432413323_2_alg».proof.Proof.Payloads
import proofs.«134615_j996432413323_2_alg».proof.Proof.DenseLin
import Idealize.ShloMosaic.Lib.Pipeline.Value

noncomputable section

open scoped BigOperators

namespace Cert.GCN.Dense

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz6 : (![0, 0] : Fin 2 → Nat) = fun _ => 0 := funext fun a => by fin_cases a <;> rfl

/-- The index maps over the 8 grid points: the activations' and the output's block index is `(t, 0)`, the weights' and
    the bias row's is `(0, 0)` throughout. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The body's arithmetic on a block of rows: if `x0` is the `T`-th block of 2048 rows of `X`, and `x1`, `x2` are the
    whole of `W` and `B`, entry `(p, q)` of the payload is entry `(2048 T + p, q)` of `lin128 X W B`. -/
theorem pay6_rows (X : S16384x512.Idx → EReal) (W : S512x128.Idx → EReal) (B : S1x128.Idx → EReal)
    (x0 : Vec Ideal S2048x512 .f32) (x1 : Vec Ideal S512x128 .f32) (x2 : Vec Ideal S1x128 .f32)
    (T : Nat) (hT : T < 8)
    (h0 : ∀ (p : Fin 2048) (k : Fin 512), x0 (ix2 p k) = X (ix2 (⟨T * 2048 + p.val, by omega⟩ : Fin 16384) k))
    (h1 : x1 = W) (h2 : x2 = B) (p : Fin 2048) (q : Fin 128) :
    k6_pay1 (F := Ideal) x0 x1 x2 (ix2 p q) = lin128 X W B (ix2 (⟨T * 2048 + p.val, by omega⟩ : Fin 16384) q) := by
  rw [Payloads.k6_pay1_apply, lin128_apply, h1, h2]
  simp only [h0]

/-- The activations' block at point `t` is rows `2048 t …` of the array. -/
theorem iblk6_0_apply (c : Dev nD) (t : Fin cfg6.N) (y : S2048x512.Idx) (k : S16384x512.Idx)
    (hk0 : (k 0).val = t.val * 2048 + (y 0).val) (hk1 : (k 1).val = (y 1).val) :
    (iblk6 V c 0 t : Vec Ideal S2048x512 .f32) y = (V c main_v22 : S16384x512.Idx → EReal) k := by
  obtain ⟨e0, e1, -⟩ := idx_facts6 t
  unfold iblk6
  rw [View.read_apply]
  show (V c main_v22 : S16384x512.Idx → EReal) (((cfg6.win 0).blk t).view.emb y) = (V c main_v22 : S16384x512.Idx → EReal) k
  refine congrArg (V c main_v22 : S16384x512.Idx → EReal) (funext fun a => Fin.ext ?_)
  match a with
  | ⟨0, _⟩ => show win6_0.index t (0 : Fin 2) * 2048 + 1 * (y 0).val = (k 0).val; rw [e0, hk0]; omega
  | ⟨1, _⟩ => show win6_0.index t (1 : Fin 2) * 512 + 1 * (y 1).val = (k 1).val; rw [e1, hk1]; omega

/-- The weights' block at every point is the whole matrix. -/
theorem iblk6_1_apply (c : Dev nD) (t : Fin cfg6.N) (y : S512x128.Idx) :
    (iblk6 V c 1 t : Vec Ideal S512x128 .f32) y = (V c main_arg6 : S512x128.Idx → EReal) y := by
  obtain ⟨-, -, e2, e3, -⟩ := idx_facts6 t
  unfold iblk6
  rw [View.read_apply]
  show (V c main_arg6 : S512x128.Idx → EReal) (((cfg6.win 1).blk t).view.emb y) = (V c main_arg6 : S512x128.Idx → EReal) y
  refine congrArg (V c main_arg6 : S512x128.Idx → EReal) (funext fun a => Fin.ext ?_)
  match a with
  | ⟨0, _⟩ => show win6_1.index t (0 : Fin 2) * 512 + 1 * (y 0).val = (y 0).val; rw [e2]; omega
  | ⟨1, _⟩ => show win6_1.index t (1 : Fin 2) * 128 + 1 * (y 1).val = (y 1).val; rw [e3]; omega

/-- The bias row's block at every point is the whole row. -/
theorem iblk6_2_apply (c : Dev nD) (t : Fin cfg6.N) (y : S1x128.Idx) :
    (iblk6 V c 2 t : Vec Ideal S1x128 .f32) y = (V c main_v23 : S1x128.Idx → EReal) y := by
  obtain ⟨-, -, -, -, e4, e5, -⟩ := idx_facts6 t
  unfold iblk6
  rw [View.read_apply]
  show (V c main_v23 : S1x128.Idx → EReal) (((cfg6.win 2).blk t).view.emb y) = (V c main_v23 : S1x128.Idx → EReal) y
  refine congrArg (V c main_v23 : S1x128.Idx → EReal) (funext fun a => Fin.ext ?_)
  match a with
  | ⟨0, _⟩ => show win6_2.index t (0 : Fin 2) * 1 + 1 * (y 0).val = (y 0).val; rw [e4]; omega
  | ⟨1, _⟩ => show win6_2.index t (1 : Fin 2) * 128 + 1 * (y 1).val = (y 1).val; rw [e5]; omega

/-- What point `t` writes back is block `t` of `lin128` of the three arrays as the region finds them. -/
theorem flushed6_eq (c : Dev nD) (t : Fin cfg6.N) :
    (dat6 (F := Ideal) V c).flushed 3 t
      = ((cfg6.win 3).blk t).view.read (Elt Ideal) (lin128 (V c main_v22) (V c main_arg6) (V c main_v23)) := by
  show (cfg6.win 3).cut (grid6.coords t) ((dat6 (F := Ideal) V c).after 3 t) = _
  rw [after6_3]
  unfold out6_3
  rw [View.canon_unit_zero hz6]
  simp only [View.ld_unit_zero (S := S2048x512) hz6, View.ld_unit_zero (S := S512x128) hz6, View.ld_unit_zero (S := S1x128) hz6]
  obtain ⟨-, -, -, -, -, -, e6, e7⟩ := idx_facts6 t
  funext j
  have hN : t.val < 8 := t.isLt
  have hj0 : (j 0).val < 2048 := (j 0).isLt
  have hj1 : (j 1).val < 128 := (j 1).isLt
  have ej : (cfg6.win 3).xinj (grid6.coords t) j = ix2 (⟨(j 0).val, hj0⟩ : Fin 2048) (⟨(j 1).val, hj1⟩ : Fin 128) :=
    funext fun a => Fin.ext (by match a with | ⟨0, _⟩ => rfl | ⟨1, _⟩ => rfl)
  have ei : ((cfg6.win 3).blk t).view.emb j
      = ix2 (⟨t.val * 2048 + (j 0).val, by omega⟩ : Fin 16384) (⟨(j 1).val, hj1⟩ : Fin 128) :=
    funext fun a => Fin.ext (by
      match a with
      | ⟨0, _⟩ => show win6_3.index t (0 : Fin 2) * 2048 + 1 * (j 0).val = t.val * 2048 + (j 0).val; rw [e6]; omega
      | ⟨1, _⟩ => show win6_3.index t (1 : Fin 2) * 128 + 1 * (j 1).val = (j 1).val; rw [e7]; omega)
  show k6_pay1 (F := Ideal) (iblk6 V c 0 t) (iblk6 V c 1 t) (iblk6 V c 2 t) ((cfg6.win 3).xinj (grid6.coords t) j)
    = lin128 (V c main_v22) (V c main_arg6) (V c main_v23) (((cfg6.win 3).blk t).view.emb j)
  rw [ej, ei]
  exact pay6_rows (V c main_v22) (V c main_arg6) (V c main_v23) (iblk6 V c 0 t) (iblk6 V c 1 t) (iblk6 V c 2 t) t.val hN
    (fun p k => iblk6_0_apply V c t (ix2 p k) (ix2 (⟨t.val * 2048 + p.val, by omega⟩ : Fin 16384) k) rfl rfl)
    (funext fun y => iblk6_1_apply V c t y) (funext fun y => iblk6_2_apply V c t y)
    (⟨(j 0).val, hj0⟩ : Fin 2048) (⟨(j 1).val, hj1⟩ : Fin 128)

/-- An index of the output array is in point `t`'s block iff each coordinate is in the block's range on its axis. -/
theorem mem_blk6 (t : Fin cfg6.N) (i : S16384x128.Idx) :
    i ∈ ((cfg6.win 3).blk t).view.set ↔ ∀ a : Fin 2, win6_3.index t a * S2048x128.size a ≤ (i a).val
      ∧ (i a).val < win6_3.index t a * S2048x128.size a + S2048x128.size a := by
  show i ∈ ((View.whole main_v24).slice (win6_3.rect t)).set ↔ _
  rw [View.set_slice_whole, Rect.mem_set_unit]
  exact Iff.rfl

/-- Every index of the output array is in some point's block: row `r` is in the block of point `r / 2048`. -/
theorem cover6 (i : S16384x128.Idx) :
    ∃ t : Fin cfg6.N, (cfg6.win 3).flush t = true ∧ i ∈ ((cfg6.win 3).blk t).view.set := by
  have hi0 : (i 0).val < 16384 := (i 0).isLt
  have hi1 : (i 1).val < 128 := (i 1).isLt
  obtain ⟨t, ht⟩ : ∃ t : Fin cfg6.N, t.val = (i 0).val / 2048 :=
    ⟨⟨(i 0).val / 2048, by show (i 0).val / 2048 < 8; omega⟩, rfl⟩
  obtain ⟨-, -, -, -, -, -, e6, e7⟩ := idx_facts6 t
  refine ⟨t, flush6_3 t, ?_⟩
  rw [mem_blk6]
  intro a
  match a with
  | ⟨0, _⟩ =>
    show win6_3.index t (0 : Fin 2) * 2048 ≤ (i 0).val ∧ (i 0).val < win6_3.index t (0 : Fin 2) * 2048 + 2048
    rw [e6, ht]; omega
  | ⟨1, _⟩ =>
    show win6_3.index t (1 : Fin 2) * 128 ≤ (i 1).val ∧ (i 1).val < win6_3.index t (1 : Fin 2) * 128 + 128
    rw [e7]; omega

/-- The output array after region 6: `lin128` of the activations, the weights and the bias row as the region finds them. -/
theorem dense6_final (c : Dev nD) :
    (dat6 (F := Ideal) V c).arrAt 3 cfg6.N = lin128 (V c main_v22) (V c main_arg6) (V c main_v23) :=
  (dat6 (F := Ideal) V c).arrAt_eq_of_cover 3 (lin128 (V c main_v22) (V c main_arg6) (V c main_v23))
    (fun t _ => flushed6_eq V c t) cover6

end Cert.GCN.Dense

end
-- ==== Proof.DenseValue.lean ====
/-
  The four dense regions of the program (three hidden layers' products and the read-out), each read as one function of
  its arrays: after region `K` its output array holds rows times weights plus the bias row of the three arrays the region
  is entered with (`dense0_final`, `dense2_final`, `dense4_final`, `dense6_final`).
-/
import proofs.«134615_j996432413323_2_alg».proof.Proof.DenseValue0
import proofs.«134615_j996432413323_2_alg».proof.Proof.DenseValue2
import proofs.«134615_j996432413323_2_alg».proof.Proof.DenseValue4
import proofs.«134615_j996432413323_2_alg».proof.Proof.DenseValue6
-- ==== Proof.GcPieces1.lean ====
/-
  Aggregation region 1, for any number format: what each of the three cases of the body leaves behind, as a term
  of the point's input blocks, and where those blocks sit in their arrays.

  The first step of a row block stores zeros into the accumulator and then adds the step's product on top of them; a
  middle step adds its product onto what the step before left; the last step does the same and stores the accumulator
  plus the bias row, clamped at zero, into the output block. Every load and store of the body goes through the whole
  of its buffer, so a stored value read back is the value stored.

  Point `t` of the 8 × 16 grid is row block `t / 16`, column block `t % 16`: its adjacency block is rows
  `(t / 16) * 2048 …`, columns `(t % 16) * 1024 …`; its support block is rows `(t % 16) * 1024 …`; the bias row is the
  same at every point; its output block is rows `(t / 16) * 2048 …`.
-/
import proofs.«134615_j996432413323_2_alg».proof.Proof.Ideal.Gc1
import Idealize.ShloMosaic.Lib.Pipeline.Value
import Idealize.ShloMosaic.Lib.ValueIdx
import Idealize.ShloMosaic.Lib.Tactic

set_option maxRecDepth 16384

noncomputable section

namespace Cert.GCN.Agg

open Cert.KernelIdeal Cert.KernelIdeal.Gen Cert.KernelIdeal.Frame
open Idealize.ShloMosaic Idealize.ShloMosaic.TcCoe Idealize.SL.Sem Idealize.ShloMosaic.Tactic Idealize.ShloMosaic.ValueIdx

variable {F : FTy → Type} [FloatOps F]
variable (V : (c : Dev nD) → (b : Ref sig .tc) → Buf (Elt F) ((c : Thread nD τ).loc b))

theorem zero_off1 : (![0, 0] : Fin 2 → Nat) = fun _ => 0 := funext fun a => by fin_cases a <;> rfl

/-! ## What each case leaves -/

/-- A middle step: the accumulator plus the step's product. -/
theorem soutB1_eq (c : Dev nD) (t : Fin cfg1.N) (hc0 : ¬cond1_0 (grid1.coords t)) (hc1 : ¬cond1_1 (grid1.coords t))
    (xs0 : Vec F S2048x512 .f32) :
    soutB1 V c t hc0 hc1 xs0 = k1_pay2 (iblk1 V c 0 t) (iblk1 V c 1 t) xs0 := by
  unfold soutB1
  rw [View.read_writes_eq_canon _ _ _ (scover1_B V c t hc0 hc1 xs0)]
  unfold runB1 kernelRun1_B
  dsimp only
  rw [View.canon_unit_zero zero_off1]
  simp only [View.readAt_eq_ld, Memref.IsWhole.read_unread, View.ld_unit_zero (S := S2048x1024) zero_off1,
    View.ld_unit_zero (S := S1024x512) zero_off1, View.ld_unit_zero (S := S2048x512) zero_off1]
  exact congrArg (k1_pay2 (iblk1 V c 0 t) (iblk1 V c 1 t)) ((Memref.isWhole_whole cc1_scratch0).read_unread xs0)

/-- The first step: zeros, then the step's product added onto them. -/
theorem soutA1_eq (c : Dev nD) (t : Fin cfg1.N) (hc0 : cond1_0 (grid1.coords t)) (hc1 : ¬cond1_1 (grid1.coords t)) :
    soutA1 V c t hc0 hc1 = k1_pay2 (iblk1 V c 0 t) (iblk1 V c 1 t) k1_pay1 := by
  unfold soutA1
  rw [View.read_writes_eq_canon _ _ _ (scover1_A V c t hc0 hc1)]
  unfold runA1 kernelRun1_A
  dsimp only
  sl_unfold_words
  rw [View.canon_cons_unit_zero (S := S2048x512) zero_off1, View.readCov_unit_zero (S := S2048x512) _ zero_off1]
  simp only [View.readAt_eq_ld, Memref.IsWhole.read_unread, View.ld_unit_zero (S := S2048x1024) zero_off1,
    View.ld_unit_zero (S := S1024x512) zero_off1]

/-- The last step's accumulator: as a middle step's. -/
theorem soutC1_eq (c : Dev nD) (t : Fin cfg1.N) (hc0 : ¬cond1_0 (grid1.coords t)) (hc1 : cond1_1 (grid1.coords t))
    (xs0 : Vec F S2048x512 .f32) :
    soutC1 V c t hc0 hc1 xs0 = k1_pay2 (iblk1 V c 0 t) (iblk1 V c 1 t) xs0 := by
  unfold soutC1
  rw [View.read_writes_eq_canon _ _ _ (scover1_C V c t hc0 hc1 xs0)]
  unfold runC1 kernelRun1_C
  dsimp only
  sl_unfold_words
  rw [View.canon_unit_zero zero_off1]
  simp only [View.readAt_eq_ld, Memref.IsWhole.read_unread, View.ld_unit_zero (S := S2048x1024) zero_off1,
    View.ld_unit_zero (S := S1024x512) zero_off1, View.ld_unit_zero (S := S2048x512) zero_off1]
  exact congrArg (k1_pay2 (iblk1 V c 0 t) (iblk1 V c 1 t)) ((Memref.isWhole_whole cc1_scratch0).read_unread xs0)

/-- The last step's output block: the accumulator it has just completed, plus the bias row, clamped at zero. -/
theorem outC1_eq (c : Dev nD) (t : Fin cfg1.N) (hc0 : ¬cond1_0 (grid1.coords t)) (hc1 : cond1_1 (grid1.coords t))
    (xs0 : Vec F S2048x512 .f32) :
    outC1 V c t hc0 hc1 xs0 = k1_pay3 (k1_pay2 (iblk1 V c 0 t) (iblk1 V c 1 t) xs0) (iblk1 V c 2 t) := by
  unfold outC1
  rw [View.read_writes_eq_canon _ _ _ (cover1_C V c t hc0 hc1 xs0)]
  unfold runC1 kernelRun1_C
  dsimp only
  sl_unfold_words
  rw [View.canon_unit_zero zero_off1, View.readCov_unit_zero (S := S2048x512) _ zero_off1]
  simp only [View.readAt_eq_ld, Memref.IsWhole.read_unread, View.ld_unit_zero (S := S2048x1024) zero_off1,
    View.ld_unit_zero (S := S1024x512) zero_off1, View.ld_unit_zero (S := S2048x512) zero_off1,
    View.ld_unit_zero (S := S1x512) zero_off1]
  exact congrArg (fun z => k1_pay3 (k1_pay2 (iblk1 V c 0 t) (iblk1 V c 1 t) z) (iblk1 V c 2 t))
    ((Memref.isWhole_whole cc1_scratch0).read_unread xs0)

/-! ## Where the blocks sit -/

/-- The block indices of the four windows at point `t`, decided over the grid. -/
theorem idx_facts1 : ∀ t : Fin cfg1.N,
    win1_0.index t (0 : Fin 2) = t.val / 16 ∧ win1_0.index t (1 : Fin 2) = t.val % 16
    ∧ win1_1.index t (0 : Fin 2) = t.val % 16 ∧ win1_1.index t (1 : Fin 2) = 0
    ∧ win1_2.index t (0 : Fin 2) = 0 ∧ win1_2.index t (1 : Fin 2) = 0
    ∧ win1_3.index t (0 : Fin 2) = t.val / 16 ∧ win1_3.index t (1 : Fin 2) = 0 :=
  (by decide +kernel : ∀ t : Fin grid1.N,
    win1_0.index t (0 : Fin 2) = t.val / 16 ∧ win1_0.index t (1 : Fin 2) = t.val % 16
    ∧ win1_1.index t (0 : Fin 2) = t.val % 16 ∧ win1_1.index t (1 : Fin 2) = 0
    ∧ win1_2.index t (0 : Fin 2) = 0 ∧ win1_2.index t (1 : Fin 2) = 0
    ∧ win1_3.index t (0 : Fin 2) = t.val / 16 ∧ win1_3.index t (1 : Fin 2) = 0)

/-- The adjacency block at point `t`, entry `(p, n)`, is the adjacency at row `(t / 16) * 2048 + p`, column
    `(t % 16) * 1024 + n`. -/
theorem iblk1_0_apply (c : Dev nD) (t : Fin cfg1.N) (p : Fin 2048) (n : Fin 1024) (k : S16384x16384.Idx)
    (hk0 : (k 0).val = t.val / 16 * 2048 + p.val) (hk1 : (k 1).val = t.val % 16 * 1024 + n.val) :
    (iblk1 V c 0 t : Vec F S2048x1024 .f32) (ix2 p n)
      = (V c (Pipeline.arrRef spec1 0) : S16384x16384.Idx → Elt F .f32) k := by
  obtain ⟨e0, e1, -⟩ := idx_facts1 t
  unfold iblk1
  rw [View.read_apply]
  refine congrArg (V c (Pipeline.arrRef spec1 0) : S16384x16384.Idx → Elt F .f32) (funext fun (a : Fin 2) => Fin.ext ?_)
  match a with
  | ⟨0, _⟩ => show win1_0.index t (0 : Fin 2) * 2048 + 1 * p.val = (k 0).val; rw [e0, hk0]; omega
  | ⟨1, _⟩ => show win1_0.index t (1 : Fin 2) * 1024 + 1 * n.val = (k 1).val; rw [e1, hk1]; omega

/-- The support block at point `t`, entry `(n, q)`, is the support at row `(t % 16) * 1024 + n`, column `q`. -/
theorem iblk1_1_apply (c : Dev nD) (t : Fin cfg1.N) (n : Fin 1024) (q : Fin 512) (k : S16384x512.Idx)
    (hk0 : (k 0).val = t.val % 16 * 1024 + n.val) (hk1 : (k 1).val = q.val) :
    (iblk1 V c 1 t : Vec F S1024x512 .bf16) (ix2 n q)
      = (V c (Pipeline.arrRef spec1 1) : S16384x512.Idx → Elt F .bf16) k := by
  obtain ⟨-, -, e0, e1, -⟩ := idx_facts1 t
  unfold iblk1
  rw [View.read_apply]
  refine congrArg (V c (Pipeline.arrRef spec1 1) : S16384x512.Idx → Elt F .bf16) (funext fun (a : Fin 2) => Fin.ext ?_)
  match a with
  | ⟨0, _⟩ => show win1_1.index t (0 : Fin 2) * 1024 + 1 * n.val = (k 0).val; rw [e0, hk0]; omega
  | ⟨1, _⟩ => show win1_1.index t (1 : Fin 2) * 512 + 1 * q.val = (k 1).val; rw [e1, hk1]; omega

/-- The bias block at every point is the bias row. -/
theorem iblk1_2_apply (c : Dev nD) (t : Fin cfg1.N) (q : Fin 512) :
    (iblk1 V c 2 t : Vec F S1x512 .f32) (ix2 (0 : Fin 1) q)
      = (V c (Pipeline.arrRef spec1 2) : S1x512.Idx → Elt F .f32) (ix2 (0 : Fin 1) q) := by
  obtain ⟨-, -, -, -, e0, e1, -⟩ := idx_facts1 t
  unfold iblk1
  rw [View.read_apply]
  refine congrArg (V c (Pipeline.arrRef spec1 2) : S1x512.Idx → Elt F .f32) (funext fun (a : Fin 2) => Fin.ext ?_)
  match a with
  | ⟨0, _⟩ => show win1_2.index t (0 : Fin 2) * 1 + 1 * 0 = 0; rw [e0]
  | ⟨1, _⟩ => show win1_2.index t (1 : Fin 2) * 512 + 1 * q.val = q.val; rw [e1]; omega

end Cert.GCN.Agg

end
-- ==== Proof.AggSpec.lean ====
/-
  One aggregation layer as a function of its three arrays, and the arithmetic of accumulating it block by block.

  With `a` the [16384, 16384] adjacency, `s` a [16384, 512] support and `b` a [1, 512] bias row,
      agg a s b (r, j) = max ((∑ n, a[r, n] * s[n, j]) + b[0, j]) 0.
  The sum over the 16384 neighbours is accumulated sixteen column blocks of 1024 at a time: after the step for block `k`
  the accumulator holds the blocks `0 … k` (`upto f k`), each step adds one block (`upto_succ`), and after block 15 it
  holds them all (`upto_last`); by `sum_16x1024` that is the whole sum. Only the commutative-monoid laws of addition on
  the extended reals are used, so no entry has to be finite.
-/
import proofs.«134615_j996432413323_2_alg».proof.Proof.Spec

noncomputable section

open scoped BigOperators

namespace Cert.GCN

open Idealize.ShloMosaic Idealize.ShloMosaic.ValueIdx

/-! ## The layer -/

/-- Aggregate the support over each node's neighbours, add the bias row, clamp at zero. -/
def agg (a : (⟨2, ![16384, 16384]⟩ : Shape).Idx → EReal) (s : (⟨2, ![16384, 512]⟩ : Shape).Idx → EReal)
    (b : (⟨2, ![1, 512]⟩ : Shape).Idx → EReal) : (⟨2, ![16384, 512]⟩ : Shape).Idx → EReal :=
  fun i => max ((∑ n : Fin 16384, a (ix2 (i 0 : Fin 16384) n) * s (ix2 n (i 1 : Fin 512))) + b (ix2 (0 : Fin 1) (i 1 : Fin 512))) 0

theorem agg_apply (a : (⟨2, ![16384, 16384]⟩ : Shape).Idx → EReal) (s : (⟨2, ![16384, 512]⟩ : Shape).Idx → EReal)
    (b : (⟨2, ![1, 512]⟩ : Shape).Idx → EReal) (r : Fin 16384) (j : Fin 512) :
    agg a s b (ix2 r j) = max ((∑ n : Fin 16384, a (ix2 r n) * s (ix2 n j)) + b (ix2 (0 : Fin 1) j)) 0 := rfl

/-- With the support `h · W` and the bias row `b` laid out as a [1, 512] array, it is the specification's layer. -/
theorem agg_eq_layer (A : (⟨2, ![16384, 16384]⟩ : Shape).Idx → EReal) (h : (⟨2, ![16384, 512]⟩ : Shape).Idx → EReal)
    (W : (⟨2, ![512, 512]⟩ : Shape).Idx → EReal) (b : (⟨1, ![512]⟩ : Shape).Idx → EReal)
    (brow : (⟨2, ![1, 512]⟩ : Shape).Idx → EReal) (hb : ∀ j : Fin 512, brow (ix2 (0 : Fin 1) j) = b (ix1 j)) :
    agg A (support h W) brow = layer A h W b := by
  funext i
  obtain ⟨r, j, rfl⟩ : ∃ (r : Fin 16384) (j : Fin 512), i = ix2 r j := ⟨i 0, i 1, eq_ix2 i⟩
  rw [agg_apply, layer_apply, hb]

/-! ## Rows and columns by block -/

/-- Row `p` of row block `i` (eight blocks of 2048 rows). -/
def rowOf (i : Fin 8) (p : Fin 2048) : Fin 16384 := ⟨i.val * 2048 + p.val, by have := i.isLt; have := p.isLt; omega⟩
/-- Column `n` of column block `kb` (sixteen blocks of 1024 columns). -/
def colOf (kb : Fin 16) (n : Fin 1024) : Fin 16384 := ⟨kb.val * 1024 + n.val, by have := kb.isLt; have := n.isLt; omega⟩

theorem rowOf_val (i : Fin 8) (p : Fin 2048) : (rowOf i p).val = i.val * 2048 + p.val := rfl
theorem colOf_val (kb : Fin 16) (n : Fin 1024) : (colOf kb n).val = kb.val * 1024 + n.val := rfl

/-- One column block's contribution to entry `(r, j)`. -/
def blockTerm (a : (⟨2, ![16384, 16384]⟩ : Shape).Idx → EReal) (s : (⟨2, ![16384, 512]⟩ : Shape).Idx → EReal)
    (r : Fin 16384) (j : Fin 512) (kb : Fin 16) : EReal :=
  ∑ n : Fin 1024, a (ix2 r (colOf kb n)) * s (ix2 (colOf kb n) j)

/-- The neighbour sum is the sum of the sixteen blocks' contributions. -/
theorem sum_blockTerm (a : (⟨2, ![16384, 16384]⟩ : Shape).Idx → EReal) (s : (⟨2, ![16384, 512]⟩ : Shape).Idx → EReal)
    (r : Fin 16384) (j : Fin 512) :
    ∑ kb : Fin 16, blockTerm a s r j kb = ∑ n : Fin 16384, a (ix2 r n) * s (ix2 n j) := by
  rw [sum_16x1024 (fun n : Fin 16384 => a (ix2 r n) * s (ix2 n j))]
  rfl

/-! ## Partial sums over the first blocks -/

/-- The blocks `0 … k` of sixteen. -/
def upto {M : Type*} [AddCommMonoid M] (f : Fin 16 → M) (k : ℕ) : M := ∑ kb : Fin 16, if kb.val ≤ k then f kb else 0

theorem upto_zero {M : Type*} [AddCommMonoid M] (f : Fin 16 → M) : upto f 0 = f 0 := by
  unfold upto
  rw [Finset.sum_eq_single (0 : Fin 16)]
  · exact if_pos (Nat.le_refl 0)
  · intro kb _ hkb
    refine if_neg fun h => hkb (Fin.ext ?_)
    show kb.val = 0
    omega
  · intro h; exact absurd (Finset.mem_univ _) h

theorem upto_succ {M : Type*} [AddCommMonoid M] (f : Fin 16 → M) (k : ℕ) (hk : k + 1 < 16) :
    upto f (k + 1) = upto f k + f ⟨k + 1, hk⟩ := by
  unfold upto
  have split : ∀ kb : Fin 16, (if kb.val ≤ k + 1 then f kb else 0)
      = (if kb.val ≤ k then f kb else 0) + (if kb = ⟨k + 1, hk⟩ then f kb else 0) := by
    intro kb
    by_cases h1 : kb.val ≤ k
    · have h2 : kb ≠ ⟨k + 1, hk⟩ := fun e => by have := congrArg Fin.val e; dsimp only at this; omega
      rw [if_pos h1, if_pos (Nat.le_succ_of_le h1), if_neg h2, add_zero]
    · by_cases h3 : kb.val = k + 1
      · have h2 : kb = ⟨k + 1, hk⟩ := Fin.ext h3
        rw [if_neg h1, if_pos (by omega), if_pos h2, zero_add]
      · have h2 : kb ≠ ⟨k + 1, hk⟩ := fun e => h3 (congrArg Fin.val e)
        rw [if_neg h1, if_neg (by omega), if_neg h2, add_zero]
  rw [Finset.sum_congr rfl fun kb _ => split kb, Finset.sum_add_distrib, Finset.sum_ite_eq', if_pos (Finset.mem_univ _)]

theorem upto_last {M : Type*} [AddCommMonoid M] (f : Fin 16 → M) : upto f 15 = ∑ kb : Fin 16, f kb := by
  unfold upto
  exact Finset.sum_congr rfl fun kb _ => if_pos (by have := kb.isLt; omega)

/-- The first block alone, with the block number given as a natural number known to be zero. -/
theorem upto_of_zero {M : Type*} [AddCommMonoid M] (f : Fin 16 → M) (k : ℕ) (hk : k < 16) (h0 : k = 0) :
    f ⟨k, hk⟩ = upto f k := by
  subst h0; exact (upto_zero f).symm

/-- One accumulation step: what held the blocks `0 … k` plus block `k + 1` holds the blocks `0 … k + 1`. -/
theorem acc_step {M : Type*} [AddCommMonoid M] (f g : Fin 16 → M) (x : M) (k k' : ℕ) (hk' : k' < 16)
    (hx : x = upto g k) (hfg : g = f) (h : k' = k + 1) : x + f ⟨k', hk'⟩ = upto f k' := by
  subst hfg; subst h; rw [hx]; exact (upto_succ g k hk').symm

end Cert.GCN

end
-- ==== Proof.GcValue1.lean ====
/-
  Aggregation region 1 over the extended reals: the array it leaves is one aggregation layer of the three arrays it
  reads.

  After the step for column block `k` of row block `i` the accumulator holds, at `(p, q)`, the contributions of the
  column blocks `0 … k` to entry `(i * 2048 + p, q)` — by induction on the grid point, the first step's zeros absorbed
  by `0 + x = x`. After block 15 that is the whole sum over the 16384 neighbours, regrouped sixteen blocks of 1024 at a
  time; the last step adds the bias row, clamps at zero and writes the block back. The eight written blocks tile the
  output: row `r` is written at the last step of row block `r / 2048`.
-/
import proofs.«134615_j996432413323_2_alg».proof.Proof.GcPieces1
import proofs.«134615_j996432413323_2_alg».proof.Proof.Payloads
import proofs.«134615_j996432413323_2_alg».proof.Proof.AggSpec

set_option maxRecDepth 16384

noncomputable section

open scoped BigOperators

namespace Cert.GCN.Agg

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)
open Cert.GCN Cert.GCN.Payloads

variable (V : (c : Dev nD) → (b : Ref sig .tc) → Buf (Elt Ideal) ((c : Thread nD τ).loc b))

/-- The three arrays the region reads, as it finds them: the adjacency, the support, the bias row. -/
abbrev adj1 (c : Dev nD) : S16384x16384.Idx → EReal := V c (Pipeline.arrRef spec1 0)
abbrev sup1 (c : Dev nD) : S16384x512.Idx → EReal := V c (Pipeline.arrRef spec1 1)
abbrev bias1 (c : Dev nD) : S1x512.Idx → EReal := V c (Pipeline.arrRef spec1 2)

theorem rowBlock_lt1 {n : ℕ} (hn : n < cfg1.N) : n / 16 < 8 := by
  have hN : cfg1.N = 128 := N_1
  omega
theorem colBlock_lt1 (n : ℕ) : n % 16 < 16 := Nat.mod_lt _ (by decide)

/-! ## One step -/

/-- The step at point `n` adds column block `n % 16`'s contribution to row `(n / 16) * 2048 + p`. -/
theorem step1 (c : Dev nD) (n : ℕ) (hn : n < cfg1.N) (acc : Vec Ideal S2048x512 .f32) (p : Fin 2048) (q : Fin 512) :
    k1_pay2 (F := Ideal) (iblk1 V c 0 ⟨n, hn⟩) (iblk1 V c 1 ⟨n, hn⟩) acc (ix2 p q)
      = acc (ix2 p q) + blockTerm (adj1 V c) (sup1 V c) (rowOf ⟨n / 16, rowBlock_lt1 hn⟩ p) q ⟨n % 16, colBlock_lt1 n⟩ := by
  refine (k1_pay2_apply (iblk1 V c 0 ⟨n, hn⟩) (iblk1 V c 1 ⟨n, hn⟩) acc p q).trans ?_
  unfold blockTerm
  refine congrArg (acc (ix2 p q) + ·) (Finset.sum_congr rfl fun m _ => ?_)
  exact congrArg₂ (· * ·)
    (iblk1_0_apply V c ⟨n, hn⟩ p m (ix2 (rowOf ⟨n / 16, rowBlock_lt1 hn⟩ p) (colOf ⟨n % 16, colBlock_lt1 n⟩ m)) rfl rfl)
    (iblk1_1_apply V c ⟨n, hn⟩ m q (ix2 (colOf ⟨n % 16, colBlock_lt1 n⟩ m) q) rfl rfl)

/-! ## The accumulator after each point -/

/-- After point `n` the accumulator holds the column blocks `0 … n % 16` of row block `n / 16`. -/
theorem acc1_eq (c : Dev nD) (p : Fin 2048) (q : Fin 512) : ∀ (n : ℕ) (hn : n < cfg1.N),
    (outsAt1 (F := Ideal) V c n hn).2 (ix2 p q)
      = upto (blockTerm (adj1 V c) (sup1 V c) (rowOf ⟨n / 16, rowBlock_lt1 hn⟩ p) q) (n % 16) := by
  intro n
  induction n with
  | zero =>
    intro hn
    rw [outsAt1_A V c ⟨0, hn⟩ (Nat.zero_mod 16) (show ¬(0 % 16 = 15) by decide)]
    dsimp only
    rw [soutA1_eq]
    refine (step1 V c 0 hn (k1_pay1 (F := Ideal)) p q).trans ?_
    rw [k1_pay1_apply, zero_add]
    exact upto_of_zero _ _ _ (Nat.zero_mod 16)
  | succ n ih =>
    intro hn
    have hN : cfg1.N = 128 := N_1
    by_cases h0 : (n + 1) % 16 = 0
    · have h1 : ¬(n + 1) % 16 = 15 := by omega
      rw [outsAt1_A V c ⟨n + 1, hn⟩ h0 h1]
      dsimp only
      rw [soutA1_eq]
      refine (step1 V c (n + 1) hn (k1_pay1 (F := Ideal)) p q).trans ?_
      rw [k1_pay1_apply, zero_add]
      exact upto_of_zero _ _ _ h0
    · have hprev := ih (Nat.lt_of_succ_lt hn)
      have hi : (⟨n / 16, rowBlock_lt1 (Nat.lt_of_succ_lt hn)⟩ : Fin 8) = ⟨(n + 1) / 16, rowBlock_lt1 hn⟩ := Fin.ext (by
        show n / 16 = (n + 1) / 16
        omega)
      have hk : (n + 1) % 16 = n % 16 + 1 := by omega
      have hfg := congrArg (fun i : Fin 8 => blockTerm (adj1 V c) (sup1 V c) (rowOf i p) q) hi
      by_cases h1 : (n + 1) % 16 = 15
      · rw [outsAt1_C V c ⟨n + 1, hn⟩ h0 h1]
        dsimp only
        rw [soutC1_eq]
        refine (step1 V c (n + 1) hn _ p q).trans ?_
        exact acc_step _ _ _ _ _ _ hprev hfg hk
      · rw [outsAt1_B V c ⟨n + 1, hn⟩ h0 h1]
        dsimp only
        rw [soutB1_eq]
        refine (step1 V c (n + 1) hn _ p q).trans ?_
        exact acc_step _ _ _ _ _ _ hprev hfg hk

/-! ## The block a last step writes back -/

/-- At a last step the output block holds, at `(p, q)`, the layer's entry `((t / 16) * 2048 + p, q)`. -/
theorem out1_eq (c : Dev nD) (t : Fin cfg1.N) (h15 : t.val % 16 = 15) (p : Fin 2048) (q : Fin 512) :
    (outsAt1 (F := Ideal) V c t.val t.isLt).1 (ix2 p q)
      = agg (adj1 V c) (sup1 V c) (bias1 V c) (ix2 (rowOf ⟨t.val / 16, rowBlock_lt1 t.isLt⟩ p) q) := by
  have h0 : ¬t.val % 16 = 0 := by omega
  have hacc := acc1_eq V c p q t.val t.isLt
  rw [outsAt1_C V c t h0 h15] at hacc ⊢
  dsimp only at hacc ⊢
  rw [soutC1_eq] at hacc
  rw [outC1_eq]
  refine (k1_pay3_apply _ (iblk1 V c 2 t) p q).trans ?_
  rw [hacc, h15, upto_last, sum_blockTerm, agg_apply]
  exact congrArg (fun z => max (_ + z) 0) (iblk1_2_apply V c t q)

/-- The same at any index of the block. -/
theorem out1_idx (c : Dev nD) (t : Fin cfg1.N) (h15 : t.val % 16 = 15) (y : S2048x512.Idx) :
    (outsAt1 (F := Ideal) V c t.val t.isLt).1 y
      = agg (adj1 V c) (sup1 V c) (bias1 V c) (ix2 (rowOf ⟨t.val / 16, rowBlock_lt1 t.isLt⟩ (y 0)) (y 1)) := by
  obtain ⟨p, q, rfl⟩ : ∃ (p : Fin 2048) (q : Fin 512), y = ix2 p q := ⟨y 0, y 1, eq_ix2 y⟩
  exact out1_eq V c t h15 p q

/-- What a flushing point writes back is its block of the layer. -/
theorem flushed1_eq (c : Dev nD) (t : Fin cfg1.N) (hf : (cfg1.win 3).flush t = true) :
    (dat1 (F := Ideal) V c).flushed 3 t
      = ((cfg1.win 3).blk t).view.read (Elt Ideal) (agg (adj1 V c) (sup1 V c) (bias1 V c)) := by
  have h15 : t.val % 16 = 15 := (flush1_3 t).mp hf
  obtain ⟨-, -, -, -, -, -, e0, e1⟩ := idx_facts1 t
  show (cfg1.win 3).cut (grid1.coords t) ((dat1 V c).after 3 t) = _
  rw [after1_3]
  funext j
  rw [View.read_apply]
  refine (out1_idx V c t h15 j).trans ?_
  refine congrArg (agg (adj1 V c) (sup1 V c) (bias1 V c)) (funext fun (a : Fin 2) => Fin.ext ?_)
  match a with
  | ⟨0, _⟩ => show t.val / 16 * 2048 + (j 0).val = win1_3.index t (0 : Fin 2) * 2048 + 1 * (j 0).val; rw [e0]; omega
  | ⟨1, _⟩ => show (j 1).val = win1_3.index t (1 : Fin 2) * 512 + 1 * (j 1).val; rw [e1]; omega

/-! ## The written blocks tile the output -/

theorem cover1 (i : S16384x512.Idx) :
    ∃ t : Fin cfg1.N, (cfg1.win 3).flush t = true ∧ i ∈ ((cfg1.win 3).blk t).view.set := by
  have hi0 : (i 0).val < 16384 := (i 0).isLt
  have hi1 : (i 1).val < 512 := (i 1).isLt
  have hN : cfg1.N = 128 := N_1
  have ht : (i 0).val / 2048 * 16 + 15 < cfg1.N := by omega
  obtain ⟨-, -, -, -, -, -, e0, e1⟩ := idx_facts1 ⟨(i 0).val / 2048 * 16 + 15, ht⟩
  refine ⟨⟨(i 0).val / 2048 * 16 + 15, ht⟩, (flush1_3 _).mpr (by
    show ((i 0).val / 2048 * 16 + 15) % 16 = 15
    omega), ?_⟩
  show i ∈ ((View.whole main_v4).slice (win1_3.rect ⟨(i 0).val / 2048 * 16 + 15, ht⟩)).set
  rw [View.set_slice_whole, Rect.mem_set_unit]
  intro a
  match a with
  | ⟨0, _⟩ =>
    show win1_3.index ⟨(i 0).val / 2048 * 16 + 15, ht⟩ (0 : Fin 2) * 2048 ≤ (i 0).val
      ∧ (i 0).val < win1_3.index ⟨(i 0).val / 2048 * 16 + 15, ht⟩ (0 : Fin 2) * 2048 + 2048
    rw [e0]
    show ((i 0).val / 2048 * 16 + 15) / 16 * 2048 ≤ (i 0).val ∧ (i 0).val < ((i 0).val / 2048 * 16 + 15) / 16 * 2048 + 2048
    omega
  | ⟨1, _⟩ =>
    show win1_3.index ⟨(i 0).val / 2048 * 16 + 15, ht⟩ (1 : Fin 2) * 512 ≤ (i 1).val
      ∧ (i 1).val < win1_3.index ⟨(i 0).val / 2048 * 16 + 15, ht⟩ (1 : Fin 2) * 512 + 512
    rw [e1]
    omega

/-! ## The array the region leaves -/

/-- After the region its output array is the aggregation layer of the adjacency, the support and the bias row as the
    region found them. -/
theorem agg1_final (c : Dev nD) :
    (dat1 (F := Ideal) V c).arrAt 3 cfg1.N = agg (adj1 V c) (sup1 V c) (bias1 V c) :=
  (dat1 V c).arrAt_eq_of_cover 3 (agg (adj1 V c) (sup1 V c) (bias1 V c)) (flushed1_eq V c) cover1

end Cert.GCN.Agg

end
-- ==== Proof.GcPieces3.lean ====
/-
  Aggregation region 3, for any number format: what each of the three cases of the body leaves behind, as a term
  of the point's input blocks, and where those blocks sit in their arrays.

  The first step of a row block stores zeros into the accumulator and then adds the step's product on top of them; a
  middle step adds its product onto what the step before left; the last step does the same and stores the accumulator
  plus the bias row, clamped at zero, into the output block. Every load and store of the body goes through the whole
  of its buffer, so a stored value read back is the value stored.

  Point `t` of the 8 × 16 grid is row block `t / 16`, column block `t % 16`: its adjacency block is rows
  `(t / 16) * 2048 …`, columns `(t % 16) * 1024 …`; its support block is rows `(t % 16) * 1024 …`; the bias row is the
  same at every point; its output block is rows `(t / 16) * 2048 …`.
-/
import proofs.«134615_j996432413323_2_alg».proof.Proof.Ideal.Gc3
import Idealize.ShloMosaic.Lib.Pipeline.Value
import Idealize.ShloMosaic.Lib.ValueIdx
import Idealize.ShloMosaic.Lib.Tactic

set_option maxRecDepth 16384

noncomputable section

namespace Cert.GCN.Agg

open Cert.KernelIdeal Cert.KernelIdeal.Gen Cert.KernelIdeal.Frame
open Idealize.ShloMosaic Idealize.ShloMosaic.TcCoe Idealize.SL.Sem Idealize.ShloMosaic.Tactic Idealize.ShloMosaic.ValueIdx

variable {F : FTy → Type} [FloatOps F]
variable (V : (c : Dev nD) → (b : Ref sig .tc) → Buf (Elt F) ((c : Thread nD τ).loc b))

theorem zero_off3 : (![0, 0] : Fin 2 → Nat) = fun _ => 0 := funext fun a => by fin_cases a <;> rfl

/-! ## What each case leaves -/

/-- A middle step: the accumulator plus the step's product. -/
theorem soutB3_eq (c : Dev nD) (t : Fin cfg3.N) (hc0 : ¬cond3_0 (grid3.coords t)) (hc1 : ¬cond3_1 (grid3.coords t))
    (xs0 : Vec F S2048x512 .f32) :
    soutB3 V c t hc0 hc1 xs0 = k3_pay2 (iblk3 V c 0 t) (iblk3 V c 1 t) xs0 := by
  unfold soutB3
  rw [View.read_writes_eq_canon _ _ _ (scover3_B V c t hc0 hc1 xs0)]
  unfold runB3 kernelRun3_B
  dsimp only
  rw [View.canon_unit_zero zero_off3]
  simp only [View.readAt_eq_ld, Memref.IsWhole.read_unread, View.ld_unit_zero (S := S2048x1024) zero_off3,
    View.ld_unit_zero (S := S1024x512) zero_off3, View.ld_unit_zero (S := S2048x512) zero_off3]
  exact congrArg (k3_pay2 (iblk3 V c 0 t) (iblk3 V c 1 t)) ((Memref.isWhole_whole cc3_scratch0).read_unread xs0)

/-- The first step: zeros, then the step's product added onto them. -/
theorem soutA3_eq (c : Dev nD) (t : Fin cfg3.N) (hc0 : cond3_0 (grid3.coords t)) (hc1 : ¬cond3_1 (grid3.coords t)) :
    soutA3 V c t hc0 hc1 = k3_pay2 (iblk3 V c 0 t) (iblk3 V c 1 t) k3_pay1 := by
  unfold soutA3
  rw [View.read_writes_eq_canon _ _ _ (scover3_A V c t hc0 hc1)]
  unfold runA3 kernelRun3_A
  dsimp only
  sl_unfold_words
  rw [View.canon_cons_unit_zero (S := S2048x512) zero_off3, View.readCov_unit_zero (S := S2048x512) _ zero_off3]
  simp only [View.readAt_eq_ld, Memref.IsWhole.read_unread, View.ld_unit_zero (S := S2048x1024) zero_off3,
    View.ld_unit_zero (S := S1024x512) zero_off3]

/-- The last step's accumulator: as a middle step's. -/
theorem soutC3_eq (c : Dev nD) (t : Fin cfg3.N) (hc0 : ¬cond3_0 (grid3.coords t)) (hc1 : cond3_1 (grid3.coords t))
    (xs0 : Vec F S2048x512 .f32) :
    soutC3 V c t hc0 hc1 xs0 = k3_pay2 (iblk3 V c 0 t) (iblk3 V c 1 t) xs0 := by
  unfold soutC3
  rw [View.read_writes_eq_canon _ _ _ (scover3_C V c t hc0 hc1 xs0)]
  unfold runC3 kernelRun3_C
  dsimp only
  sl_unfold_words
  rw [View.canon_unit_zero zero_off3]
  simp only [View.readAt_eq_ld, Memref.IsWhole.read_unread, View.ld_unit_zero (S := S2048x1024) zero_off3,
    View.ld_unit_zero (S := S1024x512) zero_off3, View.ld_unit_zero (S := S2048x512) zero_off3]
  exact congrArg (k3_pay2 (iblk3 V c 0 t) (iblk3 V c 1 t)) ((Memref.isWhole_whole cc3_scratch0).read_unread xs0)

/-- The last step's output block: the accumulator it has just completed, plus the bias row, clamped at zero. -/
theorem outC3_eq (c : Dev nD) (t : Fin cfg3.N) (hc0 : ¬cond3_0 (grid3.coords t)) (hc1 : cond3_1 (grid3.coords t))
    (xs0 : Vec F S2048x512 .f32) :
    outC3 V c t hc0 hc1 xs0 = k3_pay3 (k3_pay2 (iblk3 V c 0 t) (iblk3 V c 1 t) xs0) (iblk3 V c 2 t) := by
  unfold outC3
  rw [View.read_writes_eq_canon _ _ _ (cover3_C V c t hc0 hc1 xs0)]
  unfold runC3 kernelRun3_C
  dsimp only
  sl_unfold_words
  rw [View.canon_unit_zero zero_off3, View.readCov_unit_zero (S := S2048x512) _ zero_off3]
  simp only [View.readAt_eq_ld, Memref.IsWhole.read_unread, View.ld_unit_zero (S := S2048x1024) zero_off3,
    View.ld_unit_zero (S := S1024x512) zero_off3, View.ld_unit_zero (S := S2048x512) zero_off3,
    View.ld_unit_zero (S := S1x512) zero_off3]
  exact congrArg (fun z => k3_pay3 (k3_pay2 (iblk3 V c 0 t) (iblk3 V c 1 t) z) (iblk3 V c 2 t))
    ((Memref.isWhole_whole cc3_scratch0).read_unread xs0)

/-! ## Where the blocks sit -/

/-- The block indices of the four windows at point `t`, decided over the grid. -/
theorem idx_facts3 : ∀ t : Fin cfg3.N,
    win3_0.index t (0 : Fin 2) = t.val / 16 ∧ win3_0.index t (1 : Fin 2) = t.val % 16
    ∧ win3_1.index t (0 : Fin 2) = t.val % 16 ∧ win3_1.index t (1 : Fin 2) = 0
    ∧ win3_2.index t (0 : Fin 2) = 0 ∧ win3_2.index t (1 : Fin 2) = 0
    ∧ win3_3.index t (0 : Fin 2) = t.val / 16 ∧ win3_3.index t (1 : Fin 2) = 0 :=
  (by decide +kernel : ∀ t : Fin grid3.N,
    win3_0.index t (0 : Fin 2) = t.val / 16 ∧ win3_0.index t (1 : Fin 2) = t.val % 16
    ∧ win3_1.index t (0 : Fin 2) = t.val % 16 ∧ win3_1.index t (1 : Fin 2) = 0
    ∧ win3_2.index t (0 : Fin 2) = 0 ∧ win3_2.index t (1 : Fin 2) = 0
    ∧ win3_3.index t (0 : Fin 2) = t.val / 16 ∧ win3_3.index t (1 : Fin 2) = 0)

/-- The adjacency block at point `t`, entry `(p, n)`, is the adjacency at row `(t / 16) * 2048 + p`, column
    `(t % 16) * 1024 + n`. -/
theorem iblk3_0_apply (c : Dev nD) (t : Fin cfg3.N) (p : Fin 2048) (n : Fin 1024) (k : S16384x16384.Idx)
    (hk0 : (k 0).val = t.val / 16 * 2048 + p.val) (hk1 : (k 1).val = t.val % 16 * 1024 + n.val) :
    (iblk3 V c 0 t : Vec F S2048x1024 .f32) (ix2 p n)
      = (V c (Pipeline.arrRef spec3 0) : S16384x16384.Idx → Elt F .f32) k := by
  obtain ⟨e0, e1, -⟩ := idx_facts3 t
  unfold iblk3
  rw [View.read_apply]
  refine congrArg (V c (Pipeline.arrRef spec3 0) : S16384x16384.Idx → Elt F .f32) (funext fun (a : Fin 2) => Fin.ext ?_)
  match a with
  | ⟨0, _⟩ => show win3_0.index t (0 : Fin 2) * 2048 + 1 * p.val = (k 0).val; rw [e0, hk0]; omega
  | ⟨1, _⟩ => show win3_0.index t (1 : Fin 2) * 1024 + 1 * n.val = (k 1).val; rw [e1, hk1]; omega

/-- The support block at point `t`, entry `(n, q)`, is the support at row `(t % 16) * 1024 + n`, column `q`. -/
theorem iblk3_1_apply (c : Dev nD) (t : Fin cfg3.N) (n : Fin 1024) (q : Fin 512) (k : S16384x512.Idx)
    (hk0 : (k 0).val = t.val % 16 * 1024 + n.val) (hk1 : (k 1).val = q.val) :
    (iblk3 V c 1 t : Vec F S1024x512 .bf16) (ix2 n q)
      = (V c (Pipeline.arrRef spec3 1) : S16384x512.Idx → Elt F .bf16) k := by
  obtain ⟨-, -, e0, e1, -⟩ := idx_facts3 t
  unfold iblk3
  rw [View.read_apply]
  refine congrArg (V c (Pipeline.arrRef spec3 1) : S16384x512.Idx → Elt F .bf16) (funext fun (a : Fin 2) => Fin.ext ?_)
  match a with
  | ⟨0, _⟩ => show win3_1.index t (0 : Fin 2) * 1024 + 1 * n.val = (k 0).val; rw [e0, hk0]; omega
  | ⟨1, _⟩ => show win3_1.index t (1 : Fin 2) * 512 + 1 * q.val = (k 1).val; rw [e1, hk1]; omega

/-- The bias block at every point is the bias row. -/
theorem iblk3_2_apply (c : Dev nD) (t : Fin cfg3.N) (q : Fin 512) :
    (iblk3 V c 2 t : Vec F S1x512 .f32) (ix2 (0 : Fin 1) q)
      = (V c (Pipeline.arrRef spec3 2) : S1x512.Idx → Elt F .f32) (ix2 (0 : Fin 1) q) := by
  obtain ⟨-, -, -, -, e0, e1, -⟩ := idx_facts3 t
  unfold iblk3
  rw [View.read_apply]
  refine congrArg (V c (Pipeline.arrRef spec3 2) : S1x512.Idx → Elt F .f32) (funext fun (a : Fin 2) => Fin.ext ?_)
  match a with
  | ⟨0, _⟩ => show win3_2.index t (0 : Fin 2) * 1 + 1 * 0 = 0; rw [e0]
  | ⟨1, _⟩ => show win3_2.index t (1 : Fin 2) * 512 + 1 * q.val = q.val; rw [e1]; omega

end Cert.GCN.Agg

end
-- ==== Proof.GcValue3.lean ====
/-
  Aggregation region 3 over the extended reals: the array it leaves is one aggregation layer of the three arrays it
  reads.

  After the step for column block `k` of row block `i` the accumulator holds, at `(p, q)`, the contributions of the
  column blocks `0 … k` to entry `(i * 2048 + p, q)` — by induction on the grid point, the first step's zeros absorbed
  by `0 + x = x`. After block 15 that is the whole sum over the 16384 neighbours, regrouped sixteen blocks of 1024 at a
  time; the last step adds the bias row, clamps at zero and writes the block back. The eight written blocks tile the
  output: row `r` is written at the last step of row block `r / 2048`.
-/
import proofs.«134615_j996432413323_2_alg».proof.Proof.GcPieces3
import proofs.«134615_j996432413323_2_alg».proof.Proof.Payloads
import proofs.«134615_j996432413323_2_alg».proof.Proof.AggSpec

set_option maxRecDepth 16384

noncomputable section

open scoped BigOperators

namespace Cert.GCN.Agg

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)
open Cert.GCN Cert.GCN.Payloads

variable (V : (c : Dev nD) → (b : Ref sig .tc) → Buf (Elt Ideal) ((c : Thread nD τ).loc b))

/-- The three arrays the region reads, as it finds them: the adjacency, the support, the bias row. -/
abbrev adj3 (c : Dev nD) : S16384x16384.Idx → EReal := V c (Pipeline.arrRef spec3 0)
abbrev sup3 (c : Dev nD) : S16384x512.Idx → EReal := V c (Pipeline.arrRef spec3 1)
abbrev bias3 (c : Dev nD) : S1x512.Idx → EReal := V c (Pipeline.arrRef spec3 2)

theorem rowBlock_lt3 {n : ℕ} (hn : n < cfg3.N) : n / 16 < 8 := by
  have hN : cfg3.N = 128 := N_3
  omega
theorem colBlock_lt3 (n : ℕ) : n % 16 < 16 := Nat.mod_lt _ (by decide)

/-! ## One step -/

/-- The step at point `n` adds column block `n % 16`'s contribution to row `(n / 16) * 2048 + p`. -/
theorem step3 (c : Dev nD) (n : ℕ) (hn : n < cfg3.N) (acc : Vec Ideal S2048x512 .f32) (p : Fin 2048) (q : Fin 512) :
    k3_pay2 (F := Ideal) (iblk3 V c 0 ⟨n, hn⟩) (iblk3 V c 1 ⟨n, hn⟩) acc (ix2 p q)
      = acc (ix2 p q) + blockTerm (adj3 V c) (sup3 V c) (rowOf ⟨n / 16, rowBlock_lt3 hn⟩ p) q ⟨n % 16, colBlock_lt3 n⟩ := by
  refine (k3_pay2_apply (iblk3 V c 0 ⟨n, hn⟩) (iblk3 V c 1 ⟨n, hn⟩) acc p q).trans ?_
  unfold blockTerm
  refine congrArg (acc (ix2 p q) + ·) (Finset.sum_congr rfl fun m _ => ?_)
  exact congrArg₂ (· * ·)
    (iblk3_0_apply V c ⟨n, hn⟩ p m (ix2 (rowOf ⟨n / 16, rowBlock_lt3 hn⟩ p) (colOf ⟨n % 16, colBlock_lt3 n⟩ m)) rfl rfl)
    (iblk3_1_apply V c ⟨n, hn⟩ m q (ix2 (colOf ⟨n % 16, colBlock_lt3 n⟩ m) q) rfl rfl)

/-! ## The accumulator after each point -/

/-- After point `n` the accumulator holds the column blocks `0 … n % 16` of row block `n / 16`. -/
theorem acc3_eq (c : Dev nD) (p : Fin 2048) (q : Fin 512) : ∀ (n : ℕ) (hn : n < cfg3.N),
    (outsAt3 (F := Ideal) V c n hn).2 (ix2 p q)
      = upto (blockTerm (adj3 V c) (sup3 V c) (rowOf ⟨n / 16, rowBlock_lt3 hn⟩ p) q) (n % 16) := by
  intro n
  induction n with
  | zero =>
    intro hn
    rw [outsAt3_A V c ⟨0, hn⟩ (Nat.zero_mod 16) (show ¬(0 % 16 = 15) by decide)]
    dsimp only
    rw [soutA3_eq]
    refine (step3 V c 0 hn (k3_pay1 (F := Ideal)) p q).trans ?_
    rw [k3_pay1_apply, zero_add]
    exact upto_of_zero _ _ _ (Nat.zero_mod 16)
  | succ n ih =>
    intro hn
    have hN : cfg3.N = 128 := N_3
    by_cases h0 : (n + 1) % 16 = 0
    · have h1 : ¬(n + 1) % 16 = 15 := by omega
      rw [outsAt3_A V c ⟨n + 1, hn⟩ h0 h1]
      dsimp only
      rw [soutA3_eq]
      refine (step3 V c (n + 1) hn (k3_pay1 (F := Ideal)) p q).trans ?_
      rw [k3_pay1_apply, zero_add]
      exact upto_of_zero _ _ _ h0
    · have hprev := ih (Nat.lt_of_succ_lt hn)
      have hi : (⟨n / 16, rowBlock_lt3 (Nat.lt_of_succ_lt hn)⟩ : Fin 8) = ⟨(n + 1) / 16, rowBlock_lt3 hn⟩ := Fin.ext (by
        show n / 16 = (n + 1) / 16
        omega)
      have hk : (n + 1) % 16 = n % 16 + 1 := by omega
      have hfg := congrArg (fun i : Fin 8 => blockTerm (adj3 V c) (sup3 V c) (rowOf i p) q) hi
      by_cases h1 : (n + 1) % 16 = 15
      · rw [outsAt3_C V c ⟨n + 1, hn⟩ h0 h1]
        dsimp only
        rw [soutC3_eq]
        refine (step3 V c (n + 1) hn _ p q).trans ?_
        exact acc_step _ _ _ _ _ _ hprev hfg hk
      · rw [outsAt3_B V c ⟨n + 1, hn⟩ h0 h1]
        dsimp only
        rw [soutB3_eq]
        refine (step3 V c (n + 1) hn _ p q).trans ?_
        exact acc_step _ _ _ _ _ _ hprev hfg hk

/-! ## The block a last step writes back -/

/-- At a last step the output block holds, at `(p, q)`, the layer's entry `((t / 16) * 2048 + p, q)`. -/
theorem out3_eq (c : Dev nD) (t : Fin cfg3.N) (h15 : t.val % 16 = 15) (p : Fin 2048) (q : Fin 512) :
    (outsAt3 (F := Ideal) V c t.val t.isLt).1 (ix2 p q)
      = agg (adj3 V c) (sup3 V c) (bias3 V c) (ix2 (rowOf ⟨t.val / 16, rowBlock_lt3 t.isLt⟩ p) q) := by
  have h0 : ¬t.val % 16 = 0 := by omega
  have hacc := acc3_eq V c p q t.val t.isLt
  rw [outsAt3_C V c t h0 h15] at hacc ⊢
  dsimp only at hacc ⊢
  rw [soutC3_eq] at hacc
  rw [outC3_eq]
  refine (k3_pay3_apply _ (iblk3 V c 2 t) p q).trans ?_
  rw [hacc, h15, upto_last, sum_blockTerm, agg_apply]
  exact congrArg (fun z => max (_ + z) 0) (iblk3_2_apply V c t q)

/-- The same at any index of the block. -/
theorem out3_idx (c : Dev nD) (t : Fin cfg3.N) (h15 : t.val % 16 = 15) (y : S2048x512.Idx) :
    (outsAt3 (F := Ideal) V c t.val t.isLt).1 y
      = agg (adj3 V c) (sup3 V c) (bias3 V c) (ix2 (rowOf ⟨t.val / 16, rowBlock_lt3 t.isLt⟩ (y 0)) (y 1)) := by
  obtain ⟨p, q, rfl⟩ : ∃ (p : Fin 2048) (q : Fin 512), y = ix2 p q := ⟨y 0, y 1, eq_ix2 y⟩
  exact out3_eq V c t h15 p q

/-- What a flushing point writes back is its block of the layer. -/
theorem flushed3_eq (c : Dev nD) (t : Fin cfg3.N) (hf : (cfg3.win 3).flush t = true) :
    (dat3 (F := Ideal) V c).flushed 3 t
      = ((cfg3.win 3).blk t).view.read (Elt Ideal) (agg (adj3 V c) (sup3 V c) (bias3 V c)) := by
  have h15 : t.val % 16 = 15 := (flush3_3 t).mp hf
  obtain ⟨-, -, -, -, -, -, e0, e1⟩ := idx_facts3 t
  show (cfg3.win 3).cut (grid3.coords t) ((dat3 V c).after 3 t) = _
  rw [after3_3]
  funext j
  rw [View.read_apply]
  refine (out3_idx V c t h15 j).trans ?_
  refine congrArg (agg (adj3 V c) (sup3 V c) (bias3 V c)) (funext fun (a : Fin 2) => Fin.ext ?_)
  match a with
  | ⟨0, _⟩ => show t.val / 16 * 2048 + (j 0).val = win3_3.index t (0 : Fin 2) * 2048 + 1 * (j 0).val; rw [e0]; omega
  | ⟨1, _⟩ => show (j 1).val = win3_3.index t (1 : Fin 2) * 512 + 1 * (j 1).val; rw [e1]; omega

/-! ## The written blocks tile the output -/

theorem cover3 (i : S16384x512.Idx) :
    ∃ t : Fin cfg3.N, (cfg3.win 3).flush t = true ∧ i ∈ ((cfg3.win 3).blk t).view.set := by
  have hi0 : (i 0).val < 16384 := (i 0).isLt
  have hi1 : (i 1).val < 512 := (i 1).isLt
  have hN : cfg3.N = 128 := N_3
  have ht : (i 0).val / 2048 * 16 + 15 < cfg3.N := by omega
  obtain ⟨-, -, -, -, -, -, e0, e1⟩ := idx_facts3 ⟨(i 0).val / 2048 * 16 + 15, ht⟩
  refine ⟨⟨(i 0).val / 2048 * 16 + 15, ht⟩, (flush3_3 _).mpr (by
    show ((i 0).val / 2048 * 16 + 15) % 16 = 15
    omega), ?_⟩
  show i ∈ ((View.whole main_v13).slice (win3_3.rect ⟨(i 0).val / 2048 * 16 + 15, ht⟩)).set
  rw [View.set_slice_whole, Rect.mem_set_unit]
  intro a
  match a with
  | ⟨0, _⟩ =>
    show win3_3.index ⟨(i 0).val / 2048 * 16 + 15, ht⟩ (0 : Fin 2) * 2048 ≤ (i 0).val
      ∧ (i 0).val < win3_3.index ⟨(i 0).val / 2048 * 16 + 15, ht⟩ (0 : Fin 2) * 2048 + 2048
    rw [e0]
    show ((i 0).val / 2048 * 16 + 15) / 16 * 2048 ≤ (i 0).val ∧ (i 0).val < ((i 0).val / 2048 * 16 + 15) / 16 * 2048 + 2048
    omega
  | ⟨1, _⟩ =>
    show win3_3.index ⟨(i 0).val / 2048 * 16 + 15, ht⟩ (1 : Fin 2) * 512 ≤ (i 1).val
      ∧ (i 1).val < win3_3.index ⟨(i 0).val / 2048 * 16 + 15, ht⟩ (1 : Fin 2) * 512 + 512
    rw [e1]
    omega

/-! ## The array the region leaves -/

/-- After the region its output array is the aggregation layer of the adjacency, the support and the bias row as the
    region found them. -/
theorem agg3_final (c : Dev nD) :
    (dat3 (F := Ideal) V c).arrAt 3 cfg3.N = agg (adj3 V c) (sup3 V c) (bias3 V c) :=
  (dat3 V c).arrAt_eq_of_cover 3 (agg (adj3 V c) (sup3 V c) (bias3 V c)) (flushed3_eq V c) cover3

end Cert.GCN.Agg

end
-- ==== Proof.GcPieces5.lean ====
/-
  Aggregation region 5, for any number format: what each of the three cases of the body leaves behind, as a term
  of the point's input blocks, and where those blocks sit in their arrays.

  The first step of a row block stores zeros into the accumulator and then adds the step's product on top of them; a
  middle step adds its product onto what the step before left; the last step does the same and stores the accumulator
  plus the bias row, clamped at zero, into the output block. Every load and store of the body goes through the whole
  of its buffer, so a stored value read back is the value stored.

  Point `t` of the 8 × 16 grid is row block `t / 16`, column block `t % 16`: its adjacency block is rows
  `(t / 16) * 2048 …`, columns `(t % 16) * 1024 …`; its support block is rows `(t % 16) * 1024 …`; the bias row is the
  same at every point; its output block is rows `(t / 16) * 2048 …`.
-/
import proofs.«134615_j996432413323_2_alg».proof.Proof.Ideal.Gc5
import Idealize.ShloMosaic.Lib.Pipeline.Value
import Idealize.ShloMosaic.Lib.ValueIdx
import Idealize.ShloMosaic.Lib.Tactic

set_option maxRecDepth 16384

noncomputable section

namespace Cert.GCN.Agg

open Cert.KernelIdeal Cert.KernelIdeal.Gen Cert.KernelIdeal.Frame
open Idealize.ShloMosaic Idealize.ShloMosaic.TcCoe Idealize.SL.Sem Idealize.ShloMosaic.Tactic Idealize.ShloMosaic.ValueIdx

variable {F : FTy → Type} [FloatOps F]
variable (V : (c : Dev nD) → (b : Ref sig .tc) → Buf (Elt F) ((c : Thread nD τ).loc b))

theorem zero_off5 : (![0, 0] : Fin 2 → Nat) = fun _ => 0 := funext fun a => by fin_cases a <;> rfl

/-! ## What each case leaves -/

/-- A middle step: the accumulator plus the step's product. -/
theorem soutB5_eq (c : Dev nD) (t : Fin cfg5.N) (hc0 : ¬cond5_0 (grid5.coords t)) (hc1 : ¬cond5_1 (grid5.coords t))
    (xs0 : Vec F S2048x512 .f32) :
    soutB5 V c t hc0 hc1 xs0 = k5_pay2 (iblk5 V c 0 t) (iblk5 V c 1 t) xs0 := by
  unfold soutB5
  rw [View.read_writes_eq_canon _ _ _ (scover5_B V c t hc0 hc1 xs0)]
  unfold runB5 kernelRun5_B
  dsimp only
  rw [View.canon_unit_zero zero_off5]
  simp only [View.readAt_eq_ld, Memref.IsWhole.read_unread, View.ld_unit_zero (S := S2048x1024) zero_off5,
    View.ld_unit_zero (S := S1024x512) zero_off5, View.ld_unit_zero (S := S2048x512) zero_off5]
  exact congrArg (k5_pay2 (iblk5 V c 0 t) (iblk5 V c 1 t)) ((Memref.isWhole_whole cc5_scratch0).read_unread xs0)

/-- The first step: zeros, then the step's product added onto them. -/
theorem soutA5_eq (c : Dev nD) (t : Fin cfg5.N) (hc0 : cond5_0 (grid5.coords t)) (hc1 : ¬cond5_1 (grid5.coords t)) :
    soutA5 V c t hc0 hc1 = k5_pay2 (iblk5 V c 0 t) (iblk5 V c 1 t) k5_pay1 := by
  unfold soutA5
  rw [View.read_writes_eq_canon _ _ _ (scover5_A V c t hc0 hc1)]
  unfold runA5 kernelRun5_A
  dsimp only
  sl_unfold_words
  rw [View.canon_cons_unit_zero (S := S2048x512) zero_off5, View.readCov_unit_zero (S := S2048x512) _ zero_off5]
  simp only [View.readAt_eq_ld, Memref.IsWhole.read_unread, View.ld_unit_zero (S := S2048x1024) zero_off5,
    View.ld_unit_zero (S := S1024x512) zero_off5]

/-- The last step's accumulator: as a middle step's. -/
theorem soutC5_eq (c : Dev nD) (t : Fin cfg5.N) (hc0 : ¬cond5_0 (grid5.coords t)) (hc1 : cond5_1 (grid5.coords t))
    (xs0 : Vec F S2048x512 .f32) :
    soutC5 V c t hc0 hc1 xs0 = k5_pay2 (iblk5 V c 0 t) (iblk5 V c 1 t) xs0 := by
  unfold soutC5
  rw [View.read_writes_eq_canon _ _ _ (scover5_C V c t hc0 hc1 xs0)]
  unfold runC5 kernelRun5_C
  dsimp only
  sl_unfold_words
  rw [View.canon_unit_zero zero_off5]
  simp only [View.readAt_eq_ld, Memref.IsWhole.read_unread, View.ld_unit_zero (S := S2048x1024) zero_off5,
    View.ld_unit_zero (S := S1024x512) zero_off5, View.ld_unit_zero (S := S2048x512) zero_off5]
  exact congrArg (k5_pay2 (iblk5 V c 0 t) (iblk5 V c 1 t)) ((Memref.isWhole_whole cc5_scratch0).read_unread xs0)

/-- The last step's output block: the accumulator it has just completed, plus the bias row, clamped at zero. -/
theorem outC5_eq (c : Dev nD) (t : Fin cfg5.N) (hc0 : ¬cond5_0 (grid5.coords t)) (hc1 : cond5_1 (grid5.coords t))
    (xs0 : Vec F S2048x512 .f32) :
    outC5 V c t hc0 hc1 xs0 = k5_pay3 (k5_pay2 (iblk5 V c 0 t) (iblk5 V c 1 t) xs0) (iblk5 V c 2 t) := by
  unfold outC5
  rw [View.read_writes_eq_canon _ _ _ (cover5_C V c t hc0 hc1 xs0)]
  unfold runC5 kernelRun5_C
  dsimp only
  sl_unfold_words
  rw [View.canon_unit_zero zero_off5, View.readCov_unit_zero (S := S2048x512) _ zero_off5]
  simp only [View.readAt_eq_ld, Memref.IsWhole.read_unread, View.ld_unit_zero (S := S2048x1024) zero_off5,
    View.ld_unit_zero (S := S1024x512) zero_off5, View.ld_unit_zero (S := S2048x512) zero_off5,
    View.ld_unit_zero (S := S1x512) zero_off5]
  exact congrArg (fun z => k5_pay3 (k5_pay2 (iblk5 V c 0 t) (iblk5 V c 1 t) z) (iblk5 V c 2 t))
    ((Memref.isWhole_whole cc5_scratch0).read_unread xs0)

/-! ## Where the blocks sit -/

/-- The block indices of the four windows at point `t`, decided over the grid. -/
theorem idx_facts5 : ∀ t : Fin cfg5.N,
    win5_0.index t (0 : Fin 2) = t.val / 16 ∧ win5_0.index t (1 : Fin 2) = t.val % 16
    ∧ win5_1.index t (0 : Fin 2) = t.val % 16 ∧ win5_1.index t (1 : Fin 2) = 0
    ∧ win5_2.index t (0 : Fin 2) = 0 ∧ win5_2.index t (1 : Fin 2) = 0
    ∧ win5_3.index t (0 : Fin 2) = t.val / 16 ∧ win5_3.index t (1 : Fin 2) = 0 :=
  (by decide +kernel : ∀ t : Fin grid5.N,
    win5_0.index t (0 : Fin 2) = t.val / 16 ∧ win5_0.index t (1 : Fin 2) = t.val % 16
    ∧ win5_1.index t (0 : Fin 2) = t.val % 16 ∧ win5_1.index t (1 : Fin 2) = 0
    ∧ win5_2.index t (0 : Fin 2) = 0 ∧ win5_2.index t (1 : Fin 2) = 0
    ∧ win5_3.index t (0 : Fin 2) = t.val / 16 ∧ win5_3.index t (1 : Fin 2) = 0)

/-- The adjacency block at point `t`, entry `(p, n)`, is the adjacency at row `(t / 16) * 2048 + p`, column
    `(t % 16) * 1024 + n`. -/
theorem iblk5_0_apply (c : Dev nD) (t : Fin cfg5.N) (p : Fin 2048) (n : Fin 1024) (k : S16384x16384.Idx)
    (hk0 : (k 0).val = t.val / 16 * 2048 + p.val) (hk1 : (k 1).val = t.val % 16 * 1024 + n.val) :
    (iblk5 V c 0 t : Vec F S2048x1024 .f32) (ix2 p n)
      = (V c (Pipeline.arrRef spec5 0) : S16384x16384.Idx → Elt F .f32) k := by
  obtain ⟨e0, e1, -⟩ := idx_facts5 t
  unfold iblk5
  rw [View.read_apply]
  refine congrArg (V c (Pipeline.arrRef spec5 0) : S16384x16384.Idx → Elt F .f32) (funext fun (a : Fin 2) => Fin.ext ?_)
  match a with
  | ⟨0, _⟩ => show win5_0.index t (0 : Fin 2) * 2048 + 1 * p.val = (k 0).val; rw [e0, hk0]; omega
  | ⟨1, _⟩ => show win5_0.index t (1 : Fin 2) * 1024 + 1 * n.val = (k 1).val; rw [e1, hk1]; omega

/-- The support block at point `t`, entry `(n, q)`, is the support at row `(t % 16) * 1024 + n`, column `q`. -/
theorem iblk5_1_apply (c : Dev nD) (t : Fin cfg5.N) (n : Fin 1024) (q : Fin 512) (k : S16384x512.Idx)
    (hk0 : (k 0).val = t.val % 16 * 1024 + n.val) (hk1 : (k 1).val = q.val) :
    (iblk5 V c 1 t : Vec F S1024x512 .bf16) (ix2 n q)
      = (V c (Pipeline.arrRef spec5 1) : S16384x512.Idx → Elt F .bf16) k := by
  obtain ⟨-, -, e0, e1, -⟩ := idx_facts5 t
  unfold iblk5
  rw [View.read_apply]
  refine congrArg (V c (Pipeline.arrRef spec5 1) : S16384x512.Idx → Elt F .bf16) (funext fun (a : Fin 2) => Fin.ext ?_)
  match a with
  | ⟨0, _⟩ => show win5_1.index t (0 : Fin 2) * 1024 + 1 * n.val = (k 0).val; rw [e0, hk0]; omega
  | ⟨1, _⟩ => show win5_1.index t (1 : Fin 2) * 512 + 1 * q.val = (k 1).val; rw [e1, hk1]; omega

/-- The bias block at every point is the bias row. -/
theorem iblk5_2_apply (c : Dev nD) (t : Fin cfg5.N) (q : Fin 512) :
    (iblk5 V c 2 t : Vec F S1x512 .f32) (ix2 (0 : Fin 1) q)
      = (V c (Pipeline.arrRef spec5 2) : S1x512.Idx → Elt F .f32) (ix2 (0 : Fin 1) q) := by
  obtain ⟨-, -, -, -, e0, e1, -⟩ := idx_facts5 t
  unfold iblk5
  rw [View.read_apply]
  refine congrArg (V c (Pipeline.arrRef spec5 2) : S1x512.Idx → Elt F .f32) (funext fun (a : Fin 2) => Fin.ext ?_)
  match a with
  | ⟨0, _⟩ => show win5_2.index t (0 : Fin 2) * 1 + 1 * 0 = 0; rw [e0]
  | ⟨1, _⟩ => show win5_2.index t (1 : Fin 2) * 512 + 1 * q.val = q.val; rw [e1]; omega

end Cert.GCN.Agg

end
-- ==== Proof.GcValue5.lean ====
/-
  Aggregation region 5 over the extended reals: the array it leaves is one aggregation layer of the three arrays it
  reads.

  After the step for column block `k` of row block `i` the accumulator holds, at `(p, q)`, the contributions of the
  column blocks `0 … k` to entry `(i * 2048 + p, q)` — by induction on the grid point, the first step's zeros absorbed
  by `0 + x = x`. After block 15 that is the whole sum over the 16384 neighbours, regrouped sixteen blocks of 1024 at a
  time; the last step adds the bias row, clamps at zero and writes the block back. The eight written blocks tile the
  output: row `r` is written at the last step of row block `r / 2048`.
-/
import proofs.«134615_j996432413323_2_alg».proof.Proof.GcPieces5
import proofs.«134615_j996432413323_2_alg».proof.Proof.Payloads
import proofs.«134615_j996432413323_2_alg».proof.Proof.AggSpec

set_option maxRecDepth 16384

noncomputable section

open scoped BigOperators

namespace Cert.GCN.Agg

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)
open Cert.GCN Cert.GCN.Payloads

variable (V : (c : Dev nD) → (b : Ref sig .tc) → Buf (Elt Ideal) ((c : Thread nD τ).loc b))

/-- The three arrays the region reads, as it finds them: the adjacency, the support, the bias row. -/
abbrev adj5 (c : Dev nD) : S16384x16384.Idx → EReal := V c (Pipeline.arrRef spec5 0)
abbrev sup5 (c : Dev nD) : S16384x512.Idx → EReal := V c (Pipeline.arrRef spec5 1)
abbrev bias5 (c : Dev nD) : S1x512.Idx → EReal := V c (Pipeline.arrRef spec5 2)

theorem rowBlock_lt5 {n : ℕ} (hn : n < cfg5.N) : n / 16 < 8 := by
  have hN : cfg5.N = 128 := N_5
  omega
theorem colBlock_lt5 (n : ℕ) : n % 16 < 16 := Nat.mod_lt _ (by decide)

/-! ## One step -/

/-- The step at point `n` adds column block `n % 16`'s contribution to row `(n / 16) * 2048 + p`. -/
theorem step5 (c : Dev nD) (n : ℕ) (hn : n < cfg5.N) (acc : Vec Ideal S2048x512 .f32) (p : Fin 2048) (q : Fin 512) :
    k5_pay2 (F := Ideal) (iblk5 V c 0 ⟨n, hn⟩) (iblk5 V c 1 ⟨n, hn⟩) acc (ix2 p q)
      = acc (ix2 p q) + blockTerm (adj5 V c) (sup5 V c) (rowOf ⟨n / 16, rowBlock_lt5 hn⟩ p) q ⟨n % 16, colBlock_lt5 n⟩ := by
  refine (k5_pay2_apply (iblk5 V c 0 ⟨n, hn⟩) (iblk5 V c 1 ⟨n, hn⟩) acc p q).trans ?_
  unfold blockTerm
  refine congrArg (acc (ix2 p q) + ·) (Finset.sum_congr rfl fun m _ => ?_)
  exact congrArg₂ (· * ·)
    (iblk5_0_apply V c ⟨n, hn⟩ p m (ix2 (rowOf ⟨n / 16, rowBlock_lt5 hn⟩ p) (colOf ⟨n % 16, colBlock_lt5 n⟩ m)) rfl rfl)
    (iblk5_1_apply V c ⟨n, hn⟩ m q (ix2 (colOf ⟨n % 16, colBlock_lt5 n⟩ m) q) rfl rfl)

/-! ## The accumulator after each point -/

/-- After point `n` the accumulator holds the column blocks `0 … n % 16` of row block `n / 16`. -/
theorem acc5_eq (c : Dev nD) (p : Fin 2048) (q : Fin 512) : ∀ (n : ℕ) (hn : n < cfg5.N),
    (outsAt5 (F := Ideal) V c n hn).2 (ix2 p q)
      = upto (blockTerm (adj5 V c) (sup5 V c) (rowOf ⟨n / 16, rowBlock_lt5 hn⟩ p) q) (n % 16) := by
  intro n
  induction n with
  | zero =>
    intro hn
    rw [outsAt5_A V c ⟨0, hn⟩ (Nat.zero_mod 16) (show ¬(0 % 16 = 15) by decide)]
    dsimp only
    rw [soutA5_eq]
    refine (step5 V c 0 hn (k5_pay1 (F := Ideal)) p q).trans ?_
    rw [k5_pay1_apply, zero_add]
    exact upto_of_zero _ _ _ (Nat.zero_mod 16)
  | succ n ih =>
    intro hn
    have hN : cfg5.N = 128 := N_5
    by_cases h0 : (n + 1) % 16 = 0
    · have h1 : ¬(n + 1) % 16 = 15 := by omega
      rw [outsAt5_A V c ⟨n + 1, hn⟩ h0 h1]
      dsimp only
      rw [soutA5_eq]
      refine (step5 V c (n + 1) hn (k5_pay1 (F := Ideal)) p q).trans ?_
      rw [k5_pay1_apply, zero_add]
      exact upto_of_zero _ _ _ h0
    · have hprev := ih (Nat.lt_of_succ_lt hn)
      have hi : (⟨n / 16, rowBlock_lt5 (Nat.lt_of_succ_lt hn)⟩ : Fin 8) = ⟨(n + 1) / 16, rowBlock_lt5 hn⟩ := Fin.ext (by
        show n / 16 = (n + 1) / 16
        omega)
      have hk : (n + 1) % 16 = n % 16 + 1 := by omega
      have hfg := congrArg (fun i : Fin 8 => blockTerm (adj5 V c) (sup5 V c) (rowOf i p) q) hi
      by_cases h1 : (n + 1) % 16 = 15
      · rw [outsAt5_C V c ⟨n + 1, hn⟩ h0 h1]
        dsimp only
        rw [soutC5_eq]
        refine (step5 V c (n + 1) hn _ p q).trans ?_
        exact acc_step _ _ _ _ _ _ hprev hfg hk
      · rw [outsAt5_B V c ⟨n + 1, hn⟩ h0 h1]
        dsimp only
        rw [soutB5_eq]
        refine (step5 V c (n + 1) hn _ p q).trans ?_
        exact acc_step _ _ _ _ _ _ hprev hfg hk

/-! ## The block a last step writes back -/

/-- At a last step the output block holds, at `(p, q)`, the layer's entry `((t / 16) * 2048 + p, q)`. -/
theorem out5_eq (c : Dev nD) (t : Fin cfg5.N) (h15 : t.val % 16 = 15) (p : Fin 2048) (q : Fin 512) :
    (outsAt5 (F := Ideal) V c t.val t.isLt).1 (ix2 p q)
      = agg (adj5 V c) (sup5 V c) (bias5 V c) (ix2 (rowOf ⟨t.val / 16, rowBlock_lt5 t.isLt⟩ p) q) := by
  have h0 : ¬t.val % 16 = 0 := by omega
  have hacc := acc5_eq V c p q t.val t.isLt
  rw [outsAt5_C V c t h0 h15] at hacc ⊢
  dsimp only at hacc ⊢
  rw [soutC5_eq] at hacc
  rw [outC5_eq]
  refine (k5_pay3_apply _ (iblk5 V c 2 t) p q).trans ?_
  rw [hacc, h15, upto_last, sum_blockTerm, agg_apply]
  exact congrArg (fun z => max (_ + z) 0) (iblk5_2_apply V c t q)

/-- The same at any index of the block. -/
theorem out5_idx (c : Dev nD) (t : Fin cfg5.N) (h15 : t.val % 16 = 15) (y : S2048x512.Idx) :
    (outsAt5 (F := Ideal) V c t.val t.isLt).1 y
      = agg (adj5 V c) (sup5 V c) (bias5 V c) (ix2 (rowOf ⟨t.val / 16, rowBlock_lt5 t.isLt⟩ (y 0)) (y 1)) := by
  obtain ⟨p, q, rfl⟩ : ∃ (p : Fin 2048) (q : Fin 512), y = ix2 p q := ⟨y 0, y 1, eq_ix2 y⟩
  exact out5_eq V c t h15 p q

/-- What a flushing point writes back is its block of the layer. -/
theorem flushed5_eq (c : Dev nD) (t : Fin cfg5.N) (hf : (cfg5.win 3).flush t = true) :
    (dat5 (F := Ideal) V c).flushed 3 t
      = ((cfg5.win 3).blk t).view.read (Elt Ideal) (agg (adj5 V c) (sup5 V c) (bias5 V c)) := by
  have h15 : t.val % 16 = 15 := (flush5_3 t).mp hf
  obtain ⟨-, -, -, -, -, -, e0, e1⟩ := idx_facts5 t
  show (cfg5.win 3).cut (grid5.coords t) ((dat5 V c).after 3 t) = _
  rw [after5_3]
  funext j
  rw [View.read_apply]
  refine (out5_idx V c t h15 j).trans ?_
  refine congrArg (agg (adj5 V c) (sup5 V c) (bias5 V c)) (funext fun (a : Fin 2) => Fin.ext ?_)
  match a with
  | ⟨0, _⟩ => show t.val / 16 * 2048 + (j 0).val = win5_3.index t (0 : Fin 2) * 2048 + 1 * (j 0).val; rw [e0]; omega
  | ⟨1, _⟩ => show (j 1).val = win5_3.index t (1 : Fin 2) * 512 + 1 * (j 1).val; rw [e1]; omega

/-! ## The written blocks tile the output -/

theorem cover5 (i : S16384x512.Idx) :
    ∃ t : Fin cfg5.N, (cfg5.win 3).flush t = true ∧ i ∈ ((cfg5.win 3).blk t).view.set := by
  have hi0 : (i 0).val < 16384 := (i 0).isLt
  have hi1 : (i 1).val < 512 := (i 1).isLt
  have hN : cfg5.N = 128 := N_5
  have ht : (i 0).val / 2048 * 16 + 15 < cfg5.N := by omega
  obtain ⟨-, -, -, -, -, -, e0, e1⟩ := idx_facts5 ⟨(i 0).val / 2048 * 16 + 15, ht⟩
  refine ⟨⟨(i 0).val / 2048 * 16 + 15, ht⟩, (flush5_3 _).mpr (by
    show ((i 0).val / 2048 * 16 + 15) % 16 = 15
    omega), ?_⟩
  show i ∈ ((View.whole main_v22).slice (win5_3.rect ⟨(i 0).val / 2048 * 16 + 15, ht⟩)).set
  rw [View.set_slice_whole, Rect.mem_set_unit]
  intro a
  match a with
  | ⟨0, _⟩ =>
    show win5_3.index ⟨(i 0).val / 2048 * 16 + 15, ht⟩ (0 : Fin 2) * 2048 ≤ (i 0).val
      ∧ (i 0).val < win5_3.index ⟨(i 0).val / 2048 * 16 + 15, ht⟩ (0 : Fin 2) * 2048 + 2048
    rw [e0]
    show ((i 0).val / 2048 * 16 + 15) / 16 * 2048 ≤ (i 0).val ∧ (i 0).val < ((i 0).val / 2048 * 16 + 15) / 16 * 2048 + 2048
    omega
  | ⟨1, _⟩ =>
    show win5_3.index ⟨(i 0).val / 2048 * 16 + 15, ht⟩ (1 : Fin 2) * 512 ≤ (i 1).val
      ∧ (i 1).val < win5_3.index ⟨(i 0).val / 2048 * 16 + 15, ht⟩ (1 : Fin 2) * 512 + 512
    rw [e1]
    omega

/-! ## The array the region leaves -/

/-- After the region its output array is the aggregation layer of the adjacency, the support and the bias row as the
    region found them. -/
theorem agg5_final (c : Dev nD) :
    (dat5 (F := Ideal) V c).arrAt 3 cfg5.N = agg (adj5 V c) (sup5 V c) (bias5 V c) :=
  (dat5 V c).arrAt_eq_of_cover 3 (agg (adj5 V c) (sup5 V c) (bias5 V c)) (flushed5_eq V c) cover5

end Cert.GCN.Agg

end
-- ==== Proof.HostStretch.lean ====
/-
  Each host stretch of the program, from ANY contents `W` of the buffers before it: what it leaves in the buffers the
  kernel regions (or a later stretch) read, at an index.

  The host operations only move data: a bias vector `[n]` is reshaped to a row `[1, n]`; layer `l` of the stacked hidden
  weights `[2, 512, 512]` (of the stacked hidden biases `[2, 512]`) is sliced out and reshaped to `[512, 512]` (to `[512]`,
  later to `[1, 512]`); a scalar zero is broadcast to `[512]` and reshaped to `[1, 512]`. Read at an index, each such
  buffer is therefore an entry of one of the buffers the stretch reads, or zero.
-/
import proofs.«134615_j996432413323_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.GCN.Host

open Cert.KernelIdeal Cert.KernelIdeal.Gen
open Idealize.ShloMosaic Idealize.ShloMosaic.TcCoe Idealize.ShloMosaic.ValueIdx Idealize.SL.Sem

section Stretch

variable (W : Valuation τ sig (Elt Ideal))

/-- A scalar zero broadcast to `[512]` and reshaped to `[1, 512]` is zero at every index. -/
theorem zero_row_apply (q : Fin 512) :
    shapeCast S1x512 (broadcastInDim S512 ![] bcast_S_S512 (constant (F := Ideal) S_ .f32 0x00000000#32)) shapeCasts_S512_S1x512
      (ix2 (0 : Fin 1) q) = (0 : EReal) := by
  rw [shapeCast_a_1a_apply, broadcastInDim_apply _ _ _ _ ix0 (fun a => a.elim0), constant_apply, Ideal.ofBits_zero_f32]

/-- The first stretch leaves the zero row in `main_v1`. -/
theorem hostOps0_v1_apply (q : Fin 512) :
    (StableHlo.after hostOps0 W (Proc.devRef .tc main_v1) : S1x512.Idx → EReal) (ix2 (0 : Fin 1) q) = (0 : EReal) := by
  have e : (StableHlo.after hostOps0 W (Proc.devRef .tc main_v1) : S1x512.Idx → EReal)
      = shapeCast S1x512 (broadcastInDim S512 ![] bcast_S_S512 (constant (F := Ideal) S_ .f32 0x00000000#32)) shapeCasts_S512_S1x512 := by
    after_results; rfl
  rw [e, zero_row_apply]

/-- The second stretch leaves the first layer's bias vector, as a row, in `main_v3`. -/
theorem hostOps1_v3_apply (q : Fin 512) :
    (StableHlo.after hostOps1 W (Proc.devRef .tc main_v3) : S1x512.Idx → EReal) (ix2 (0 : Fin 1) q)
      = (W (Proc.devRef .tc main_arg3) : S512.Idx → EReal) (ix1 q) := by
  have e : (StableHlo.after hostOps1 W (Proc.devRef .tc main_v3) : S1x512.Idx → EReal)
      = shapeCast S1x512 (W (Proc.devRef .tc main_arg3) : S512.Idx → EReal) shapeCasts_S512_S1x512 := by
    after_results; rfl
  rw [e, shapeCast_a_1a_apply]

/-- The third stretch leaves hidden layer 0's weights in `main_v6`, -/
theorem hostOps2_v6_apply (k j : Fin 512) :
    (StableHlo.after hostOps2 W (Proc.devRef .tc main_v6) : S512x512.Idx → EReal) (ix2 k j)
      = (W (Proc.devRef .tc main_arg4) : S2x512x512.Idx → EReal) (ix3 (0 : Fin 2) k j) := by
  have e : (StableHlo.after hostOps2 W (Proc.devRef .tc main_v6) : S512x512.Idx → EReal)
      = shapeCast S512x512 (extractStridedSlice S1x512x512 ![0, 0, 0] (W (Proc.devRef .tc main_arg4) : S2x512x512.Idx → EReal)
          slices_S2x512x512_S1x512x512_0_0_0) shapeCasts_S1x512x512_S512x512 := by
    after_results; rfl
  rw [e, shapeCast_1ab_ab_apply]
  exact extractStridedSlice_apply _ _ _ _ (ix3 (0 : Fin 2) k j) fun a => by
    match a with
    | ⟨0, _⟩ => rfl
    | ⟨1, _⟩ => exact (Nat.zero_add _).symm
    | ⟨2, _⟩ => exact (Nat.zero_add _).symm

/-- hidden layer 0's bias vector in `main_v8`, -/
theorem hostOps2_v8_apply (q : Fin 512) :
    (StableHlo.after hostOps2 W (Proc.devRef .tc main_v8) : S512.Idx → EReal) (ix1 q)
      = (W (Proc.devRef .tc main_arg5) : S2x512.Idx → EReal) (ix2 (0 : Fin 2) q) := by
  have e : (StableHlo.after hostOps2 W (Proc.devRef .tc main_v8) : S512.Idx → EReal)
      = shapeCast S512 (extractStridedSlice S1x512 ![0, 0] (W (Proc.devRef .tc main_arg5) : S2x512.Idx → EReal)
          slices_S2x512_S1x512_0_0) shapeCasts_S1x512_S512 := by
    after_results; rfl
  rw [e, shapeCast_1a_a_apply]
  exact extractStridedSlice_apply _ _ _ _ (ix2 (0 : Fin 2) q) fun a => by
    match a with
    | ⟨0, _⟩ => rfl
    | ⟨1, _⟩ => exact (Nat.zero_add _).symm

/-- and the zero row in `main_v10`. -/
theorem hostOps2_v10_apply (q : Fin 512) :
    (StableHlo.after hostOps2 W (Proc.devRef .tc main_v10) : S1x512.Idx → EReal) (ix2 (0 : Fin 1) q) = (0 : EReal) := by
  have e : (StableHlo.after hostOps2 W (Proc.devRef .tc main_v10) : S1x512.Idx → EReal)
      = shapeCast S1x512 (broadcastInDim S512 ![] bcast_S_S512 (constant (F := Ideal) S_ .f32 0x00000000#32)) shapeCasts_S512_S1x512 := by
    after_results; rfl
  rw [e, zero_row_apply]

/-- The fourth stretch leaves `main_v8`, as a row, in `main_v12`. -/
theorem hostOps3_v12_apply (q : Fin 512) :
    (StableHlo.after hostOps3 W (Proc.devRef .tc main_v12) : S1x512.Idx → EReal) (ix2 (0 : Fin 1) q)
      = (W (Proc.devRef .tc main_v8) : S512.Idx → EReal) (ix1 q) := by
  have e : (StableHlo.after hostOps3 W (Proc.devRef .tc main_v12) : S1x512.Idx → EReal)
      = shapeCast S1x512 (W (Proc.devRef .tc main_v8) : S512.Idx → EReal) shapeCasts_S512_S1x512 := by
    after_results; rfl
  rw [e, shapeCast_a_1a_apply]

/-- The fifth stretch leaves hidden layer 1's weights in `main_v15`, -/
theorem hostOps4_v15_apply (k j : Fin 512) :
    (StableHlo.after hostOps4 W (Proc.devRef .tc main_v15) : S512x512.Idx → EReal) (ix2 k j)
      = (W (Proc.devRef .tc main_arg4) : S2x512x512.Idx → EReal) (ix3 (1 : Fin 2) k j) := by
  have e : (StableHlo.after hostOps4 W (Proc.devRef .tc main_v15) : S512x512.Idx → EReal)
      = shapeCast S512x512 (extractStridedSlice S1x512x512 ![1, 0, 0] (W (Proc.devRef .tc main_arg4) : S2x512x512.Idx → EReal)
          slices_S2x512x512_S1x512x512_1_0_0) shapeCasts_S1x512x512_S512x512 := by
    after_results; rfl
  rw [e, shapeCast_1ab_ab_apply]
  exact extractStridedSlice_apply _ _ _ _ (ix3 (1 : Fin 2) k j) fun a => by
    match a with
    | ⟨0, _⟩ => rfl
    | ⟨1, _⟩ => exact (Nat.zero_add _).symm
    | ⟨2, _⟩ => exact (Nat.zero_add _).symm

/-- hidden layer 1's bias vector in `main_v17`, -/
theorem hostOps4_v17_apply (q : Fin 512) :
    (StableHlo.after hostOps4 W (Proc.devRef .tc main_v17) : S512.Idx → EReal) (ix1 q)
      = (W (Proc.devRef .tc main_arg5) : S2x512.Idx → EReal) (ix2 (1 : Fin 2) q) := by
  have e : (StableHlo.after hostOps4 W (Proc.devRef .tc main_v17) : S512.Idx → EReal)
      = shapeCast S512 (extractStridedSlice S1x512 ![1, 0] (W (Proc.devRef .tc main_arg5) : S2x512.Idx → EReal)
          slices_S2x512_S1x512_1_0) shapeCasts_S1x512_S512 := by
    after_results; rfl
  rw [e, shapeCast_1a_a_apply]
  exact extractStridedSlice_apply _ _ _ _ (ix2 (1 : Fin 2) q) fun a => by
    match a with
    | ⟨0, _⟩ => rfl
    | ⟨1, _⟩ => exact (Nat.zero_add _).symm

/-- and the zero row in `main_v19`. -/
theorem hostOps4_v19_apply (q : Fin 512) :
    (StableHlo.after hostOps4 W (Proc.devRef .tc main_v19) : S1x512.Idx → EReal) (ix2 (0 : Fin 1) q) = (0 : EReal) := by
  have e : (StableHlo.after hostOps4 W (Proc.devRef .tc main_v19) : S1x512.Idx → EReal)
      = shapeCast S1x512 (broadcastInDim S512 ![] bcast_S_S512 (constant (F := Ideal) S_ .f32 0x00000000#32)) shapeCasts_S512_S1x512 := by
    after_results; rfl
  rw [e, zero_row_apply]

/-- The sixth stretch leaves `main_v17`, as a row, in `main_v21`. -/
theorem hostOps5_v21_apply (q : Fin 512) :
    (StableHlo.after hostOps5 W (Proc.devRef .tc main_v21) : S1x512.Idx → EReal) (ix2 (0 : Fin 1) q)
      = (W (Proc.devRef .tc main_v17) : S512.Idx → EReal) (ix1 q) := by
  have e : (StableHlo.after hostOps5 W (Proc.devRef .tc main_v21) : S1x512.Idx → EReal)
      = shapeCast S1x512 (W (Proc.devRef .tc main_v17) : S512.Idx → EReal) shapeCasts_S512_S1x512 := by
    after_results; rfl
  rw [e, shapeCast_a_1a_apply]

/-- The last stretch leaves the read-out's bias vector, as a row, in `main_v23`. -/
theorem hostOps6_v23_apply (q : Fin 128) :
    (StableHlo.after hostOps6 W (Proc.devRef .tc main_v23) : S1x128.Idx → EReal) (ix2 (0 : Fin 1) q)
      = (W (Proc.devRef .tc main_arg7) : S128.Idx → EReal) (ix1 q) := by
  have e : (StableHlo.after hostOps6 W (Proc.devRef .tc main_v23) : S1x128.Idx → EReal)
      = shapeCast S1x128 (W (Proc.devRef .tc main_arg7) : S128.Idx → EReal) shapeCasts_S128_S1x128 := by
    after_results; rfl
  rw [e, shapeCast_a_1a_apply]

end Stretch

end Cert.GCN.Host

end
-- ==== Proof.HostReads.lean ====
/-
  The buffers the kernel regions read, as the valuations between the program's items hold them: the arguments no item
  has written (the launch contents), and the buffers the host stretches write — zero rows, bias rows and hidden
  weights — each read at an index as an entry of an argument array, or zero.

  A buffer no item writes keeps its contents through every item before the reading region; a buffer a host stretch
  writes is that stretch's data movement of the arguments, which themselves are as launched when the stretch reads them.
-/
import proofs.«134615_j996432413323_2_alg».proof.Proof.Gen.KernelIdeal.Regions
import proofs.«134615_j996432413323_2_alg».proof.Proof.HostStretch

noncomputable section

namespace Cert.GCN.Host

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (outs : Gen.Outs (F := Ideal))

/-! ## Arguments no item before the reading region writes -/

/-- The node features as region 0 finds them: the launch contents. -/
theorem V1_main_arg0 (c : Dev nD) : Gen.V1 m c main_arg0 = m ((c : Thread nD τ).loc main_arg0) :=
  (Gen.V1_of m c main_arg0 (by decide)).trans rfl

/-- The first layer's weights as region 0 finds them: the launch contents. -/
theorem V1_main_arg2 (c : Dev nD) : Gen.V1 m c main_arg2 = m ((c : Thread nD τ).loc main_arg2) :=
  (Gen.V1_of m c main_arg2 (by decide)).trans rfl

/-- The adjacency matrix as region 1 finds it: the launch contents. -/
theorem V3_main_arg1 (c : Dev nD) : Gen.V3 m outs c main_arg1 = m ((c : Thread nD τ).loc main_arg1) :=
  (Gen.V3_of m outs c main_arg1 (by decide)).trans <| (Gen.V2_of m outs c main_arg1 (by decide)).trans <| (Gen.V1_of m c main_arg1 (by decide)).trans rfl

/-- The adjacency matrix as region 3 finds it: the launch contents. -/
theorem V7_main_arg1 (c : Dev nD) : Gen.V7 m outs c main_arg1 = m ((c : Thread nD τ).loc main_arg1) :=
  (Gen.V7_of m outs c main_arg1 (by decide)).trans <| (Gen.V6_of m outs c main_arg1 (by decide)).trans <| (Gen.V5_of m outs c main_arg1 (by decide)).trans <| (Gen.V4_of m outs c main_arg1 (by decide)).trans <| (Gen.V3_of m outs c main_arg1 (by decide)).trans <| (Gen.V2_of m outs c main_arg1 (by decide)).trans <| (Gen.V1_of m c main_arg1 (by decide)).trans rfl

/-- The adjacency matrix as region 5 finds it: the launch contents. -/
theorem V11_main_arg1 (c : Dev nD) : Gen.V11 m outs c main_arg1 = m ((c : Thread nD τ).loc main_arg1) :=
  (Gen.V11_of m outs c main_arg1 (by decide)).trans <| (Gen.V10_of m outs c main_arg1 (by decide)).trans <| (Gen.V9_of m outs c main_arg1 (by decide)).trans <| (Gen.V8_of m outs c main_arg1 (by decide)).trans <| (Gen.V7_of m outs c main_arg1 (by decide)).trans <| (Gen.V6_of m outs c main_arg1 (by decide)).trans <| (Gen.V5_of m outs c main_arg1 (by decide)).trans <| (Gen.V4_of m outs c main_arg1 (by decide)).trans <| (Gen.V3_of m outs c main_arg1 (by decide)).trans <| (Gen.V2_of m outs c main_arg1 (by decide)).trans <| (Gen.V1_of m c main_arg1 (by decide)).trans rfl

/-- The read-out's weights as region 6 finds them: the launch contents. -/
theorem V13_main_arg6 (c : Dev nD) : Gen.V13 m outs c main_arg6 = m ((c : Thread nD τ).loc main_arg6) :=
  (Gen.V13_of m outs c main_arg6 (by decide)).trans <| (Gen.V12_of m outs c main_arg6 (by decide)).trans <| (Gen.V11_of m outs c main_arg6 (by decide)).trans <| (Gen.V10_of m outs c main_arg6 (by decide)).trans <| (Gen.V9_of m outs c main_arg6 (by decide)).trans <| (Gen.V8_of m outs c main_arg6 (by decide)).trans <| (Gen.V7_of m outs c main_arg6 (by decide)).trans <| (Gen.V6_of m outs c main_arg6 (by decide)).trans <| (Gen.V5_of m outs c main_arg6 (by decide)).trans <| (Gen.V4_of m outs c main_arg6 (by decide)).trans <| (Gen.V3_of m outs c main_arg6 (by decide)).trans <| (Gen.V2_of m outs c main_arg6 (by decide)).trans <| (Gen.V1_of m c main_arg6 (by decide)).trans rfl

/-! ## The arguments the host stretches read, where they read them -/

/-- The first layer's bias vector when the second stretch reads it. -/
theorem V2_main_arg3 (c : Dev nD) : Gen.V2 m outs c main_arg3 = m ((c : Thread nD τ).loc main_arg3) :=
  (Gen.V2_of m outs c main_arg3 (by decide)).trans <| (Gen.V1_of m c main_arg3 (by decide)).trans rfl

/-- The stacked hidden weights when the third stretch reads them. -/
theorem V4_main_arg4 (c : Dev nD) : Gen.V4 m outs c main_arg4 = m ((c : Thread nD τ).loc main_arg4) :=
  (Gen.V4_of m outs c main_arg4 (by decide)).trans <| (Gen.V3_of m outs c main_arg4 (by decide)).trans <| (Gen.V2_of m outs c main_arg4 (by decide)).trans <| (Gen.V1_of m c main_arg4 (by decide)).trans rfl

/-- The stacked hidden biases when the third stretch reads them. -/
theorem V4_main_arg5 (c : Dev nD) : Gen.V4 m outs c main_arg5 = m ((c : Thread nD τ).loc main_arg5) :=
  (Gen.V4_of m outs c main_arg5 (by decide)).trans <| (Gen.V3_of m outs c main_arg5 (by decide)).trans <| (Gen.V2_of m outs c main_arg5 (by decide)).trans <| (Gen.V1_of m c main_arg5 (by decide)).trans rfl

/-- The stacked hidden weights when the fifth stretch reads them. -/
theorem V8_main_arg4 (c : Dev nD) : Gen.V8 m outs c main_arg4 = m ((c : Thread nD τ).loc main_arg4) :=
  (Gen.V8_of m outs c main_arg4 (by decide)).trans <| (Gen.V7_of m outs c main_arg4 (by decide)).trans <| (Gen.V6_of m outs c main_arg4 (by decide)).trans <| (Gen.V5_of m outs c main_arg4 (by decide)).trans <| (Gen.V4_of m outs c main_arg4 (by decide)).trans <| (Gen.V3_of m outs c main_arg4 (by decide)).trans <| (Gen.V2_of m outs c main_arg4 (by decide)).trans <| (Gen.V1_of m c main_arg4 (by decide)).trans rfl

/-- The stacked hidden biases when the fifth stretch reads them. -/
theorem V8_main_arg5 (c : Dev nD) : Gen.V8 m outs c main_arg5 = m ((c : Thread nD τ).loc main_arg5) :=
  (Gen.V8_of m outs c main_arg5 (by decide)).trans <| (Gen.V7_of m outs c main_arg5 (by decide)).trans <| (Gen.V6_of m outs c main_arg5 (by decide)).trans <| (Gen.V5_of m outs c main_arg5 (by decide)).trans <| (Gen.V4_of m outs c main_arg5 (by decide)).trans <| (Gen.V3_of m outs c main_arg5 (by decide)).trans <| (Gen.V2_of m outs c main_arg5 (by decide)).trans <| (Gen.V1_of m c main_arg5 (by decide)).trans rfl

/-- The read-out's bias vector when the last stretch reads it. -/
theorem V12_main_arg7 (c : Dev nD) : Gen.V12 m outs c main_arg7 = m ((c : Thread nD τ).loc main_arg7) :=
  (Gen.V12_of m outs c main_arg7 (by decide)).trans <| (Gen.V11_of m outs c main_arg7 (by decide)).trans <| (Gen.V10_of m outs c main_arg7 (by decide)).trans <| (Gen.V9_of m outs c main_arg7 (by decide)).trans <| (Gen.V8_of m outs c main_arg7 (by decide)).trans <| (Gen.V7_of m outs c main_arg7 (by decide)).trans <| (Gen.V6_of m outs c main_arg7 (by decide)).trans <| (Gen.V5_of m outs c main_arg7 (by decide)).trans <| (Gen.V4_of m outs c main_arg7 (by decide)).trans <| (Gen.V3_of m outs c main_arg7 (by decide)).trans <| (Gen.V2_of m outs c main_arg7 (by decide)).trans <| (Gen.V1_of m c main_arg7 (by decide)).trans rfl

/-! ## The zero rows the dense regions add -/

/-- Region 0's bias row is zero. -/
theorem V1_main_v1_zero (c : Dev nD) (q : Fin 512) :
    (Gen.V1 m c main_v1 : S1x512.Idx → EReal) (ix2 (0 : Fin 1) q) = (0 : EReal) :=
  hostOps0_v1_apply (Gen.V0 m c) q

/-- Region 2's bias row is zero. -/
theorem V5_main_v10_zero (c : Dev nD) (q : Fin 512) :
    (Gen.V5 m outs c main_v10 : S1x512.Idx → EReal) (ix2 (0 : Fin 1) q) = (0 : EReal) :=
  hostOps2_v10_apply (Gen.V4 m outs c) q

/-- Region 4's bias row is zero. -/
theorem V9_main_v19_zero (c : Dev nD) (q : Fin 512) :
    (Gen.V9 m outs c main_v19 : S1x512.Idx → EReal) (ix2 (0 : Fin 1) q) = (0 : EReal) :=
  hostOps4_v19_apply (Gen.V8 m outs c) q

/-! ## The bias rows the aggregation regions and the read-out add -/

/-- Region 1's bias row is the first layer's bias vector. -/
theorem V3_main_v3_apply (c : Dev nD) (q : Fin 512) :
    (Gen.V3 m outs c main_v3 : S1x512.Idx → EReal) (ix2 (0 : Fin 1) q)
      = (m ((c : Thread nD τ).loc main_arg3) : S512.Idx → EReal) (ix1 q) :=
  (hostOps1_v3_apply (Gen.V2 m outs c) q).trans (congrFun (V2_main_arg3 m outs c) (ix1 q))

/-- Region 3's bias row is row 0 of the stacked hidden biases: sliced and flattened by the third stretch, kept by
    region 2, made a row by the fourth stretch. -/
theorem V7_main_v12_apply (c : Dev nD) (q : Fin 512) :
    (Gen.V7 m outs c main_v12 : S1x512.Idx → EReal) (ix2 (0 : Fin 1) q)
      = (m ((c : Thread nD τ).loc main_arg5) : S2x512.Idx → EReal) (ix2 (0 : Fin 2) q) :=
  (hostOps3_v12_apply (Gen.V6 m outs c) q).trans <|
    (congrFun (Gen.V6_of m outs c main_v8 (by decide)) (ix1 q)).trans <|
    (hostOps2_v8_apply (Gen.V4 m outs c) q).trans (congrFun (V4_main_arg5 m outs c) (ix2 (0 : Fin 2) q))

/-- Region 5's bias row is row 1 of the stacked hidden biases: sliced and flattened by the fifth stretch, kept by
    region 4, made a row by the sixth stretch. -/
theorem V11_main_v21_apply (c : Dev nD) (q : Fin 512) :
    (Gen.V11 m outs c main_v21 : S1x512.Idx → EReal) (ix2 (0 : Fin 1) q)
      = (m ((c : Thread nD τ).loc main_arg5) : S2x512.Idx → EReal) (ix2 (1 : Fin 2) q) :=
  (hostOps5_v21_apply (Gen.V10 m outs c) q).trans <|
    (congrFun (Gen.V10_of m outs c main_v17 (by decide)) (ix1 q)).trans <|
    (hostOps4_v17_apply (Gen.V8 m outs c) q).trans (congrFun (V8_main_arg5 m outs c) (ix2 (1 : Fin 2) q))

/-- Region 6's bias row is the read-out's bias vector. -/
theorem V13_main_v23_apply (c : Dev nD) (q : Fin 128) :
    (Gen.V13 m outs c main_v23 : S1x128.Idx → EReal) (ix2 (0 : Fin 1) q)
      = (m ((c : Thread nD τ).loc main_arg7) : S128.Idx → EReal) (ix1 q) :=
  (hostOps6_v23_apply (Gen.V12 m outs c) q).trans (congrFun (V12_main_arg7 m outs c) (ix1 q))

/-! ## The hidden layers' weights -/

/-- Region 2's weights are layer 0 of the stacked hidden weights. -/
theorem V5_main_v6_apply (c : Dev nD) (k j : Fin 512) :
    (Gen.V5 m outs c main_v6 : S512x512.Idx → EReal) (ix2 k j)
      = (m ((c : Thread nD τ).loc main_arg4) : S2x512x512.Idx → EReal) (ix3 (0 : Fin 2) k j) :=
  (hostOps2_v6_apply (Gen.V4 m outs c) k j).trans (congrFun (V4_main_arg4 m outs c) (ix3 (0 : Fin 2) k j))

/-- Region 4's weights are layer 1 of the stacked hidden weights. -/
theorem V9_main_v15_apply (c : Dev nD) (k j : Fin 512) :
    (Gen.V9 m outs c main_v15 : S512x512.Idx → EReal) (ix2 k j)
      = (m ((c : Thread nD τ).loc main_arg4) : S2x512x512.Idx → EReal) (ix3 (1 : Fin 2) k j) :=
  (hostOps4_v15_apply (Gen.V8 m outs c) k j).trans (congrFun (V8_main_arg4 m outs c) (ix3 (1 : Fin 2) k j))

end Cert.GCN.Host

end
-- ==== Proof.ComposeLaws.lean ====
/-
  The small laws that join the regions' values to the specification's layers.

  A dense product plus a bias row that is zero everywhere is the plain product (`x + 0 = x`); the read-out's product
  plus a bias row that reads a bias vector is the specification's read-out; an aggregation of a support that is a
  plain product, with a bias row that reads a bias vector, is the specification's layer; a [512, 512] array that reads
  layer `l` of the stacked hidden weights is that layer.
-/
import proofs.«134615_j996432413323_2_alg».proof.Proof.DenseLin
import proofs.«134615_j996432413323_2_alg».proof.Proof.AggSpec

noncomputable section

open scoped BigOperators

namespace Cert.GCN.Compose

open Idealize.ShloMosaic Idealize.ShloMosaic.ValueIdx Cert.GCN Cert.GCN.Dense

/-- A dense layer whose bias row is zero is the plain product. -/
theorem lin512_zero (x : (⟨2, ![16384, 512]⟩ : Shape).Idx → EReal) (w : (⟨2, ![512, 512]⟩ : Shape).Idx → EReal)
    (z : (⟨2, ![1, 512]⟩ : Shape).Idx → EReal) (hz : ∀ q : Fin 512, z (ix2 (0 : Fin 1) q) = 0) :
    lin512 x w z = support x w := by
  funext i
  obtain ⟨r, j, rfl⟩ : ∃ (r : Fin 16384) (j : Fin 512), i = ix2 r j := ⟨i 0, i 1, eq_ix2 i⟩
  rw [lin512_apply, support_apply, hz, add_zero]

/-- The same, with the rows and the weights known up to equality. -/
theorem lin512_zero_of {x x' : (⟨2, ![16384, 512]⟩ : Shape).Idx → EReal} {w w' : (⟨2, ![512, 512]⟩ : Shape).Idx → EReal}
    {z : (⟨2, ![1, 512]⟩ : Shape).Idx → EReal} (hx : x = x') (hw : w = w') (hz : ∀ q : Fin 512, z (ix2 (0 : Fin 1) q) = 0) :
    lin512 x w z = support x' w' := by
  subst hx; subst hw; exact lin512_zero x w z hz

/-- The read-out with its bias vector laid out as a row. -/
theorem lin128_readout_of {h h' : (⟨2, ![16384, 512]⟩ : Shape).Idx → EReal} {w w' : (⟨2, ![512, 128]⟩ : Shape).Idx → EReal}
    {brow : (⟨2, ![1, 128]⟩ : Shape).Idx → EReal} {b : (⟨1, ![128]⟩ : Shape).Idx → EReal}
    (hh : h = h') (hw : w = w') (hb : ∀ j : Fin 128, brow (ix2 (0 : Fin 1) j) = b (ix1 j)) :
    lin128 h w brow = readout h' w' b := by
  subst hh; subst hw
  funext i
  obtain ⟨r, j, rfl⟩ : ∃ (r : Fin 16384) (j : Fin 128), i = ix2 r j := ⟨i 0, i 1, eq_ix2 i⟩
  rw [lin128_apply, readout_apply, hb]

/-- An aggregation of a plain product, with its bias vector laid out as a row, is the specification's layer. -/
theorem agg_layer_of {a A : (⟨2, ![16384, 16384]⟩ : Shape).Idx → EReal} {s h : (⟨2, ![16384, 512]⟩ : Shape).Idx → EReal}
    {W : (⟨2, ![512, 512]⟩ : Shape).Idx → EReal} {brow : (⟨2, ![1, 512]⟩ : Shape).Idx → EReal}
    {b : (⟨1, ![512]⟩ : Shape).Idx → EReal}
    (ha : a = A) (hs : s = support h W) (hb : ∀ j : Fin 512, brow (ix2 (0 : Fin 1) j) = b (ix1 j)) :
    agg a s brow = layer A h W b := by
  subst ha; subst hs; exact agg_eq_layer a h W b brow hb

/-- A [512, 512] array that reads layer `l` of the stacked hidden weights is that layer. -/
theorem eq_hiddenW (w : (⟨2, ![512, 512]⟩ : Shape).Idx → EReal) (Wh : (⟨3, ![2, 512, 512]⟩ : Shape).Idx → EReal) (l : Fin 2)
    (hw : ∀ k j : Fin 512, w (ix2 k j) = Wh (ix3 l k j)) : w = hiddenW Wh l := by
  funext i
  obtain ⟨k, j, rfl⟩ : ∃ (k : Fin 512) (j : Fin 512), i = ix2 k j := ⟨i 0, i 1, eq_ix2 i⟩
  rw [hiddenW_apply]; exact hw k j

end Cert.GCN.Compose

end
-- ==== Proof.Compose.lean ====
/-
  The whole kernel: its result array is the specification's network of the eight arguments as launched.

  The seven regions run in turn, each entered with what the regions and host stretches before it left. Region 0 leaves
  the product of the node features by the first weights (its bias row is zero). Region 1 aggregates that product over
  the neighbours, adds the first bias and clamps at zero: the first layer. Regions 2 and 3 do the same to the first
  layer with hidden layer 0's weights and bias, regions 4 and 5 to the second layer with hidden layer 1's, and region
  6 is the read-out of the third layer. What a region leaves is carried unchanged to the region that reads it, the host
  stretches between them only slicing and reshaping parameters; the adjacency and the read-out's weights are read as
  launched.
-/
import proofs.«134615_j996432413323_2_alg».proof.Proof.Ideal.Run
import proofs.«134615_j996432413323_2_alg».proof.Proof.DenseValue
import proofs.«134615_j996432413323_2_alg».proof.Proof.GcValue1
import proofs.«134615_j996432413323_2_alg».proof.Proof.GcValue3
import proofs.«134615_j996432413323_2_alg».proof.Proof.GcValue5
import proofs.«134615_j996432413323_2_alg».proof.Proof.HostReads
import proofs.«134615_j996432413323_2_alg».proof.Proof.ComposeLaws

set_option maxRecDepth 16384

noncomputable section

namespace Cert.GCN.Compose

open Cert.KernelIdeal Cert.KernelIdeal.Gen Cert.KernelIdeal.Frame
open Idealize.ShloMosaic Idealize.ShloMosaic.TcCoe Idealize.ShloMosaic.ValueIdx Idealize.SL.Sem
open Cert.GCN Cert.GCN.Dense Cert.GCN.Agg Cert.GCN.Host

variable (m : (ℓ : Loc nD τ sig) → Buf (Elt Ideal) ℓ) (c : Dev nD)

/-! ## The arguments as launched, and the three layers of them -/

abbrev argX : S16384x512.Idx → EReal := m ((c : Thread nD τ).loc main_arg0)
abbrev argA : S16384x16384.Idx → EReal := m ((c : Thread nD τ).loc main_arg1)
abbrev argW0 : S512x512.Idx → EReal := m ((c : Thread nD τ).loc main_arg2)
abbrev argB0 : S512.Idx → EReal := m ((c : Thread nD τ).loc main_arg3)
abbrev argWh : S2x512x512.Idx → EReal := m ((c : Thread nD τ).loc main_arg4)
abbrev argBh : S2x512.Idx → EReal := m ((c : Thread nD τ).loc main_arg5)
abbrev argWout : S512x128.Idx → EReal := m ((c : Thread nD τ).loc main_arg6)
abbrev argBout : S128.Idx → EReal := m ((c : Thread nD τ).loc main_arg7)

abbrev layer1 : S16384x512.Idx → EReal := layer (argA m c) (argX m c) (argW0 m c) (argB0 m c)
abbrev layer2 : S16384x512.Idx → EReal := layer (argA m c) (layer1 m c) (hiddenW (argWh m c) 0) (hiddenB (argBh m c) 0)
abbrev layer3 : S16384x512.Idx → EReal := layer (argA m c) (layer2 m c) (hiddenW (argWh m c) 1) (hiddenB (argBh m c) 1)

/-! ## Layer 1 -/

/-- Region 0's output array, as region 1 finds it, is what region 0 left. -/
theorem carried0 : VF3 m c main_v2 = (dat0 (VF1 m) c).arrAt 3 cfg0.N :=
  (Gen.V3_of m (outsF m) c main_v2 (by decide)).trans ((VFout0 m c).trans (outF0 m c))

/-- It is the product of the node features by the first weights. -/
theorem step0 : (VF3 m c main_v2 : S16384x512.Idx → EReal) = support (argX m c) (argW0 m c) :=
  (carried0 m c).trans ((dense0_final (VF1 m) c).trans
    (lin512_zero_of (V1_main_arg0 m c) (V1_main_arg2 m c) (V1_main_v1_zero m c)))

theorem carried1 : VF5 m c main_v4 = (dat1 (VF3 m) c).arrAt 3 cfg1.N :=
  (Gen.V5_of m (outsF m) c main_v4 (by decide)).trans ((VFout1 m c).trans (outF1 m c))

/-- Region 1's output array, as region 2 finds it, is the first layer. -/
theorem step1 : (VF5 m c main_v4 : S16384x512.Idx → EReal) = layer1 m c := by
  have h : (dat1 (VF3 m) c).arrAt 3 cfg1.N = agg (VF3 m c main_arg1) (VF3 m c main_v2) (VF3 m c main_v3) :=
    agg1_final (VF3 m) c
  exact (carried1 m c).trans (h.trans
    (agg_layer_of (V3_main_arg1 m (outsF m) c) (step0 m c) (V3_main_v3_apply m (outsF m) c)))

/-! ## Layer 2 -/

theorem carried2 : VF7 m c main_v11 = (dat2 (VF5 m) c).arrAt 3 cfg2.N :=
  (Gen.V7_of m (outsF m) c main_v11 (by decide)).trans ((VFout2 m c).trans (outF2 m c))

/-- Region 2 leaves the product of the first layer by hidden layer 0's weights. -/
theorem step2 : (VF7 m c main_v11 : S16384x512.Idx → EReal) = support (layer1 m c) (hiddenW (argWh m c) 0) :=
  (carried2 m c).trans ((dense2_final (VF5 m) c).trans
    (lin512_zero_of (step1 m c) (eq_hiddenW _ (argWh m c) 0 (V5_main_v6_apply m (outsF m) c))
      (V5_main_v10_zero m (outsF m) c)))

theorem carried3 : VF9 m c main_v13 = (dat3 (VF7 m) c).arrAt 3 cfg3.N :=
  (Gen.V9_of m (outsF m) c main_v13 (by decide)).trans ((VFout3 m c).trans (outF3 m c))

/-- Region 3's output array, as region 4 finds it, is the second layer. -/
theorem step3 : (VF9 m c main_v13 : S16384x512.Idx → EReal) = layer2 m c := by
  have h : (dat3 (VF7 m) c).arrAt 3 cfg3.N = agg (VF7 m c main_arg1) (VF7 m c main_v11) (VF7 m c main_v12) :=
    agg3_final (VF7 m) c
  exact (carried3 m c).trans (h.trans
    (agg_layer_of (V7_main_arg1 m (outsF m) c) (step2 m c)
      (fun j => (V7_main_v12_apply m (outsF m) c j).trans (hiddenB_apply (argBh m c) 0 j).symm)))

/-! ## Layer 3 -/

theorem carried4 : VF11 m c main_v20 = (dat4 (VF9 m) c).arrAt 3 cfg4.N :=
  (Gen.V11_of m (outsF m) c main_v20 (by decide)).trans ((VFout4 m c).trans (outF4 m c))

/-- Region 4 leaves the product of the second layer by hidden layer 1's weights. -/
theorem step4 : (VF11 m c main_v20 : S16384x512.Idx → EReal) = support (layer2 m c) (hiddenW (argWh m c) 1) :=
  (carried4 m c).trans ((dense4_final (VF9 m) c).trans
    (lin512_zero_of (step3 m c) (eq_hiddenW _ (argWh m c) 1 (V9_main_v15_apply m (outsF m) c))
      (V9_main_v19_zero m (outsF m) c)))

theorem carried5 : VF13 m c main_v22 = (dat5 (VF11 m) c).arrAt 3 cfg5.N :=
  (Gen.V13_of m (outsF m) c main_v22 (by decide)).trans ((VFout5 m c).trans (outF5 m c))

/-- Region 5's output array, as region 6 finds it, is the third layer. -/
theorem step5 : (VF13 m c main_v22 : S16384x512.Idx → EReal) = layer3 m c := by
  have h : (dat5 (VF11 m) c).arrAt 3 cfg5.N = agg (VF11 m c main_arg1) (VF11 m c main_v20) (VF11 m c main_v21) :=
    agg5_final (VF11 m) c
  exact (carried5 m c).trans (h.trans
    (agg_layer_of (V11_main_arg1 m (outsF m) c) (step4 m c)
      (fun j => (V11_main_v21_apply m (outsF m) c j).trans (hiddenB_apply (argBh m c) 1 j).symm)))

/-! ## The read-out: the kernel's result -/

/-- The result array after the last region is the specification's network of the eight arguments as launched. -/
theorem kernel_out :
    (dat6 (F := Ideal) (VF13 m) c).arrAt 3 cfg6.N
      = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) :=
  (dense6_final (VF13 m) c).trans
    (lin128_readout_of (step5 m c) (V13_main_arg6 m (outsF m) c) (V13_main_v23_apply m (outsF m) c))

end Cert.GCN.Compose

end
-- ==== Proof.lean ====
/-
  A three-layer graph-convolution network over 16384 nodes: with `adj` the 16384×16384 adjacency, a layer is
  `h ↦ max(adj · (h · W) + b, 0)`, applied with (W0, b0), (Wh[0], bh[0]), (Wh[1], bh[1]) to the 16384×512 input `x`, and the
  result is `h · Wout + bout` (16384×128). The reference computes exactly that. The kernel computes each layer in two
  regions: a dense region `s = h · W + 0` on 2048-row blocks, and a region that accumulates `adj · s` over 16 blocks of
  1024 columns in a scratch accumulator (zeroed at the first block) and stores `max(acc + b, 0)` at the last; a final dense
  region applies `Wout, bout`. On the extended reals a change of float format is the identity, `+ 0` is the identity, and a
  sum over 16384 indices is the sum over 16 blocks of the sums over 1024 (addition is a commutative monoid, so no
  finiteness is used and the precondition is never opened): the two programs compute the same function `Cert.GCN.out` of
  the eight arguments, index by index.
  The frames: each region is a segment of the run of @main with its own proof data — a dense region's body is one
  load-compute-store; the accumulating region's invariant carries the accumulator from grid point to grid point in its
  three cases (first, middle, last block) — and the run ends with every argument as launched and the result array at the
  last region's fold (Proof/Bits/Run.lean for the program as printed, Proof/Ideal/Run.lean for its idealization; the
  reference's frame is its run with the result dropped). `preserves` is trivial: the ideal pass rewrote nothing.
  The value: each region's fold is one function of its input arrays (Proof/DenseValue.lean, Proof/GcValue1/3/5.lean), the
  host stretches between regions only reshape biases, slice the stacked weights and make zero rows (Proof/HostReads.lean),
  so the result array is `Cert.GCN.out` of the arguments (Proof/Compose.lean); the reference's term is the same function
  (Proof/RefIsSpec.lean).
-/
import proofs.«134615_j996432413323_2_alg».proof.Defs
import proofs.«134615_j996432413323_2_alg».proof.Proof.Gen.Kernel
import proofs.«134615_j996432413323_2_alg».proof.Proof.Gen.Kernel.Skeleton
import proofs.«134615_j996432413323_2_alg».proof.Proof.Gen.Kernel.Launch
import proofs.«134615_j996432413323_2_alg».proof.Proof.Gen.Kernel.Regions
import proofs.«134615_j996432413323_2_alg».proof.Proof.Gen.Kernel.Points
import proofs.«134615_j996432413323_2_alg».proof.Proof.Gen.KernelIdeal
import proofs.«134615_j996432413323_2_alg».proof.Proof.Gen.KernelIdeal.Skeleton
import proofs.«134615_j996432413323_2_alg».proof.Proof.Gen.KernelIdeal.Launch
import proofs.«134615_j996432413323_2_alg».proof.Proof.Gen.KernelIdeal.Regions
import proofs.«134615_j996432413323_2_alg».proof.Proof.Gen.KernelIdeal.Points
import proofs.«134615_j996432413323_2_alg».proof.Proof.Gen.ReferenceIdeal
import proofs.«134615_j996432413323_2_alg».proof.Proof.Gen.ReferenceIdeal.Run
import proofs.«134615_j996432413323_2_alg».proof.Proof.Gen.ReferenceIdeal.Read
import proofs.«134615_j996432413323_2_alg».proof.Proof.Gen.Pre_finite_inputs
import proofs.«134615_j996432413323_2_alg».proof.Proof.Bits.Run
import proofs.«134615_j996432413323_2_alg».proof.Proof.Ideal.Run
import proofs.«134615_j996432413323_2_alg».proof.Proof.RefIsSpec
import proofs.«134615_j996432413323_2_alg».proof.Proof.Compose
import Idealize.ShloMosaic.Adequacy
import Idealize.ShloMosaic.Init

noncomputable section

namespace Cert.Proof

open Idealize.ShloMosaic Idealize.SL.Sem

/-- The program as printed runs, faults nowhere and leaves its arguments as launched: its run with the result dropped. -/
theorem frame_k : Cert.frame_Kernel := fun m ρ _ =>
  (θ_run Cert.Kernel.defs _ _).mono (fun _ h c => (h c).2) (Cert.Kernel.Frame.run_main (F := Bits) m ρ)

/-- The same for the idealized program. -/
theorem frame_ki : Cert.frame_KernelIdeal := fun m ρ _ =>
  (θ_run Cert.KernelIdeal.defs _ _).mono (fun _ h c => (h c).2) (Cert.KernelIdeal.Frame.run_main (F := Ideal) m ρ)

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the result `Cert.GCN.out` of the arguments:
    the kernel's by the composition of its seven regions' folds, the reference's by reading its term one operation at a time. -/
theorem algebraic : Cert.algebraic_KernelIdeal_ReferenceIdeal := by
  intro m ρ m' ρ' _ hagree
  refine ⟨fun c => Cert.GCN.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun _ h c => ⟨(h c).1.trans (Cert.GCN.Compose.kernel_out m c), (h c).2⟩)
      (Cert.KernelIdeal.Frame.run_main (F := Ideal) m ρ)
  · refine (θ_run Cert.ReferenceIdeal.defs _ _).mono (fun _ h c => ⟨?_, (h c).2⟩) (Cert.ReferenceIdeal.Value.run (F := Ideal) m' ρ')
    rw [(h c).1, Cert.ReferenceIdeal.Read.val_main_v29_eq, Cert.GCN.Ref.ref_eq_out,
      (hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
